-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x42C80000#32 ((536870912 / 5368709 : ℝ) : EReal)
  ∧ IdealRules.named_const.Statement Cert.KernelIdeal.κ "mask_over_temperature" .f32 0xC9742400#32 ((-5368709120000 / 5368709 : ℝ) : EReal)
  ∧ IdealRules.named_const.Statement Cert.KernelIdeal.κ "inv_temperature" .f32 0x42C80000#32 ((536870912 / 5368709 : ℝ) : EReal)
  ∧ IdealRules.named_const.Statement Cert.KernelIdeal.κ "mask_over_temperature" .f32 0xC9742400#32 ((-5368709120000 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16x128 : Shape := ⟨3, ![512, 16, 128]⟩
abbrev S_ : Shape := ⟨0, ![]⟩

class Facts : Prop where
  bcast_S_S512x16x128 : S_.BroadcastsInDim S512x16x128 (![] : Fin 0 → Fin S512x16x128.rank)
  reducesTo_S512x16x128_S_d0_1_2 : S512x16x128.ReducesTo [0, 1, 2] S_
  h_S_ : 0 < S_.numel

variable [Facts]

def fn {F : FTy → Type} [FloatOps F] (main_arg0 : FVec F S512x16x128 .f32) (main_arg1 : FVec F S512x16x128 .f32) : IVec S_ 1 :=
  let main_v0 : FVec F S512x16x128 .f32 := Host.absf main_arg0
  let main_cst : FVec F S_ .f32 := constant S_ .f32 0x7F800000#32
  let main_v1 : FVec F S512x16x128 .f32 := broadcastInDim S512x16x128 ![] bcast_S_S512x16x128 main_cst
  let main_v2 : IVec S512x16x128 1 := cmpf .olt main_v0 main_v1
  let main_c : IVec S_ 1 := constantI S_ 1 1#1
  let main_v3 : IVec S_ 1 := (fun x v => Host.reduce IntOp.andi x v reducesTo_S512x16x128_S_d0_1_2 h_S_) main_v2 main_c
  let main_v4 : FVec F S512x16x128 .f32 := Host.absf main_arg1
  let main_cst_0 : FVec F S_ .f32 := constant S_ .f32 0x7F800000#32
  let main_v5 : FVec F S512x16x128 .f32 := broadcastInDim S512x16x128 ![] bcast_S_S512x16x128 main_cst_0
  let main_v6 : IVec S512x16x128 1 := cmpf .olt main_v4 main_v5
  let main_c_1 : IVec S_ 1 := constantI S_ 1 1#1
  let main_v7 : IVec S_ 1 := (fun x v => Host.reduce IntOp.andi x v reducesTo_S512x16x128_S_d0_1_2 h_S_) main_v6 main_c_1
  let main_v8 : IVec S_ 1 := andi main_v3 main_v7
  main_v8
-- ==== Kernel.lean ====
abbrev S512x16x128 : Shape := ⟨3, ![512, 16, 128]⟩
abbrev S8192x128 : Shape := ⟨2, ![8192, 128]⟩
abbrev S8192x1 : Shape := ⟨2, ![8192, 1]⟩
abbrev S1024x128 : Shape := ⟨2, ![1024, 128]⟩
abbrev S512x128 : Shape := ⟨2, ![512, 128]⟩
abbrev S1024x1 : Shape := ⟨2, ![1024, 1]⟩
abbrev S128x512 : Shape := ⟨2, ![128, 512]⟩
abbrev S1024x512 : Shape := ⟨2, ![1024, 512]⟩
abbrev S1024 : Shape := ⟨1, ![1024]⟩
abbrev S8192 : Shape := ⟨1, ![8192]⟩
abbrev S_ : Shape := ⟨0, ![]⟩

abbrev nBuf : Space → Nat
  | .hbm => 26
  | .vmem => 18
  | .smem => 0
  | _ => 0

abbrev bufTy : (tb : Table) → Fin (tcTables nBuf tb) → BufTy
  | .hbm, ⟨0, _⟩ => ⟨S512x16x128, .f32⟩
  | .hbm, ⟨1, _⟩ => ⟨S512x16x128, .f32⟩
  | .hbm, ⟨2, _⟩ => ⟨S8192x128, .f32⟩
  | .hbm, ⟨3, _⟩ => ⟨S8192x128, .f32⟩
  | .hbm, ⟨4, _⟩ => ⟨S8192x1, .f32⟩
  | .hbm, ⟨5, _⟩ => ⟨S8192, .f32⟩
  | .hbm, ⟨6, _⟩ => ⟨S8192x1, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .i1⟩
  | .hbm, ⟨23, _⟩ => ⟨S_, .i1⟩
  | .hbm, ⟨24, _⟩ => ⟨S_, .f32⟩
  | .hbm, ⟨25, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x128, .f32⟩
  | .local _ .vmem, ⟨10, _⟩ => ⟨S1024x128, .f32⟩
  | .local _ .vmem, ⟨11, _⟩ => ⟨S512x128, .f32⟩
  | .local _ .vmem, ⟨12, _⟩ => ⟨S512x128, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S512x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_cst : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def k0_cond4 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def k1_cond4 (i : grid1.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_9 : BitVec 32 := 0#32
  let v25 : BitVec 1 := Scalar.cmpi .ne v24 c0_i32_9
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S512x16x128_S8192x128 : S512x16x128.ShapeCasts S8192x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  iota_S1024x512_d0_w32 : S1024x512.Iotas .tc 32 [0]
  iota_S1024x512_d1_w32 : S1024x512.Iotas .tc 32 [1]
  natLt_1_32 : 1 < 32
  reduces_S1024x512_S1024 : S1024x512.Reduces [1] S1024
  shapeCasts_S1024_S1024x1 : S1024.ShapeCasts S1024x1
  broadcasts_S1024x1_S1024x512 : S1024x1.Broadcasts S1024x512
  shapeCasts_S8192x1_S8192 : S8192x1.ShapeCasts S8192
  reducesTo_S8192_S_d0 : S8192.ReducesTo [0] S_
  h_S_ : 0 < S_.numel
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .f32 = 32 ∨ (Rect.block (s := S8192x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

abbrev win1_0 : Pipeline.Window sig grid1 :=
  Pipeline.Window.ofSpec (Memref.whole main_v1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond4 i == 1#1) | ⟨_ + 3, h⟩ => absurd h (Nat.not_lt.2 (Nat.le_add_left _ _))

class Facts : Prop extends Facts₀ where

variable [Facts]
-- ==== ReferenceIdeal.lean ====
abbrev S512x16x128 : Shape := ⟨3, ![512, 16, 128]⟩
abbrev S8192x128 : Shape := ⟨2, ![8192, 128]⟩
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x2 : Shape := ⟨2, ![8192, 2]⟩

abbrev nBuf : Space → Nat
  | .hbm => 129
  | .vmem => 0
  | .smem => 0
  | _ => 0

abbrev hbmTy0_0 (i : Nat) : BufTy := match i % 128 with
  | 0 => ⟨S512x16x128, .f32⟩
  | 1 => ⟨S512x16x128, .f32⟩
  | 2 => ⟨S8192x128, .f32⟩
  | 3 => ⟨S8192x128, .f32⟩
  | 4 => ⟨S8192x8192, .f32⟩
  | 5 => ⟨S8192, .i32⟩
  | 6 => ⟨S_, .i32⟩
  | 7 => ⟨S_, .i32⟩
  | 8 => ⟨S8192, .i32⟩
  | 9 => ⟨S8192, .i32⟩
  | 10 => ⟨S8192, .i32⟩
  | 11 => ⟨S_, .i32⟩
  | 12 => ⟨S8192, .i32⟩
  | 13 => ⟨S8192, .i1⟩
  | 14 => ⟨S8192, .i32⟩
  | 15 => ⟨S8192, .i32⟩
  | 16 => ⟨S_, .i32⟩
  | 17 => ⟨S8192, .i32⟩
  | 18 => ⟨S8192, .i1⟩
  | 19 => ⟨S8192, .i1⟩
  | 20 => ⟨S_, .i32⟩
  | 21 => ⟨S8192, .i32⟩
  | 22 => ⟨S8192, .i32⟩
  | 23 => ⟨S8192, .i32⟩
  | 24 => ⟨S8192x1, .i32⟩
  | 25 => ⟨S1x8192, .i32⟩
  | 26 => ⟨S8192x8192, .i32⟩
  | 27 => ⟨S8192x8192, .i32⟩
  | 28 => ⟨S8192x8192, .i1⟩
  | 29 => ⟨S8192x1, .i32⟩
  | 30 => ⟨S1x8192, .i32⟩
  | 31 => ⟨S8192x8192, .i32⟩
  | 32 => ⟨S8192x8192, .i32⟩
  | 33 => ⟨S8192x8192, .i1⟩
  | 34 => ⟨S8192x8192, .i1⟩
  | 35 => ⟨S8192x8192, .i1⟩
  | 36 => ⟨S_, .f32⟩
  | 37 => ⟨S8192x8192, .f32⟩
  | 38 => ⟨S8192x8192, .f32⟩
  | 39 => ⟨S_, .f32⟩
  | 40 => ⟨S8192x8192, .f32⟩
  | 41 => ⟨S8192x8192, .f32⟩
  | 42 => ⟨S_, .f32⟩
  | 43 => ⟨S8192, .f32⟩
  | 44 => ⟨S_, .f32⟩
  | 45 => ⟨S8192, .f32⟩
  | 46 => ⟨S8192, .f32⟩
  | 47 => ⟨S8192x1, .f32⟩
  | 48 => ⟨S8192x8192, .f32⟩
  | 49 => ⟨S8192x8192, .f32⟩
  | 50 => ⟨S8192x8192, .f32⟩
  | 51 => ⟨S_, .f32⟩
  | 52 => ⟨S8192, .f32⟩
  | 53 => ⟨S8192x1, .f32⟩
  | 54 => ⟨S8192x1, .f32⟩
  | 55 => ⟨S8192x8192, .f32⟩
  | 56 => ⟨S8192x8192, .f32⟩
  | 57 => ⟨S8192x8192, .f32⟩
  | 58 => ⟨S_, .f32⟩
  | 59 => ⟨S8192, .f32⟩
  | 60 => ⟨S_, .f32⟩
  | 61 => ⟨S8192, .f32⟩
  | 62 => ⟨S8192, .f32⟩
  | 63 => ⟨S8192x1, .f32⟩
  | 64 => ⟨S8192x8192, .f32⟩
  | 65 => ⟨S8192x8192, .f32⟩
  | 66 => ⟨S8192x8192, .f32⟩
  | 67 => ⟨S_, .f32⟩
  | 68 => ⟨S8192, .f32⟩
  | 69 => ⟨S8192x1, .f32⟩
  | 70 => ⟨S8192x1, .f32⟩
  | 71 => ⟨S8192x8192, .f32⟩
  | 72 => ⟨S8192x8192, .f32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S8192x1, .i32⟩
  | 88 => ⟨S8192x1, .i32⟩
  | 89 => ⟨S8192x2, .i32⟩
  | 90 => ⟨S8192, .f32⟩
  | 91 => ⟨S_, .f32⟩
  | 92 => ⟨S_, .f32⟩
  | 93 => ⟨S_, .f32⟩
  | 94 => ⟨S_, .f32⟩
  | 95 => ⟨S_, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x1, .i32⟩
  | 112 => ⟨S8192x2, .i32⟩
  | 113 => ⟨S8192, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .i1⟩
  | 123 => ⟨S_, .f32⟩
  | 124 => ⟨S_, .f32⟩
  | 125 => ⟨S_, .i1⟩
  | 126 => ⟨S_, .i1⟩
  | 127 => ⟨S_, .f32⟩
  | _ => ⟨S512x16x128, .f32⟩

abbrev hbmTy0_1 (i : Nat) : BufTy := match i % 128 with
  | 0 => ⟨S_, .f32⟩
  | _ => ⟨S512x16x128, .f32⟩

abbrev hbmTy (i : Nat) : BufTy := match i / 128 with
  | 0 => hbmTy0_0 i
  | 1 => hbmTy0_1 i
  | _ => ⟨S512x16x128, .f32⟩

abbrev bufTy : (tb : Table) → Fin (tcTables nBuf tb) → BufTy
  | .hbm, ⟨i, _⟩ => hbmTy i
  | _, _ => ⟨S512x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_call1_v0 : Ref sig .tc := ⟨.hbm, 37, rfl⟩
abbrev main_v17 : Ref sig .tc := ⟨.hbm, 38, rfl⟩
abbrev main_cst_0 : Ref sig .tc := ⟨.hbm, 39, rfl⟩
abbrev main_v18 : Ref sig .tc := ⟨.hbm, 40, rfl⟩
abbrev main_v19 : Ref sig .tc := ⟨.hbm, 41, rfl⟩
abbrev main_call2_cst : Ref sig .tc := ⟨.hbm, 42, rfl⟩
abbrev main_call2_v0 : Ref sig .tc := ⟨.hbm, 43, rfl⟩
abbrev main_call2_cst_0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_cst_1 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_v20 : Ref sig .tc := ⟨.hbm, 56, rfl⟩
abbrev main_v21 : Ref sig .tc := ⟨.hbm, 57, rfl⟩
abbrev main_call3_cst : Ref sig .tc := ⟨.hbm, 58, rfl⟩
abbrev main_call3_v0 : Ref sig .tc := ⟨.hbm, 59, rfl⟩
abbrev main_call3_cst_0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_v6 : Ref sig .tc := ⟨.hbm, 66, rfl⟩
abbrev main_call3_cst_1 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_v22 : Ref sig .tc := ⟨.hbm, 72, rfl⟩
abbrev main_c_1 : Ref sig .tc := ⟨.hbm, 73, rfl⟩
abbrev main_v23 : Ref sig .tc := ⟨.hbm, 74, rfl⟩
abbrev main_v24 : Ref sig .tc := ⟨.hbm, 75, rfl⟩
abbrev main_c_2 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_c_3 : Ref sig .tc := ⟨.hbm, 80, rfl⟩
abbrev main_v28 : Ref sig .tc := ⟨.hbm, 81, rfl⟩
abbrev main_v29 : Ref sig .tc := ⟨.hbm, 82, rfl⟩
abbrev main_c_4 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_5 : Ref sig .tc := ⟨.hbm, 91, rfl⟩
abbrev main_v37 : Ref sig .tc := ⟨.hbm, 92, rfl⟩
abbrev main_cst_6 : Ref sig .tc := ⟨.hbm, 93, rfl⟩
abbrev main_v38 : Ref sig .tc := ⟨.hbm, 94, rfl⟩
abbrev main_v39 : Ref sig .tc := ⟨.hbm, 95, rfl⟩
abbrev main_c_7 : Ref sig .tc := ⟨.hbm, 96, rfl⟩
abbrev main_v40 : Ref sig .tc := ⟨.hbm, 97, rfl⟩
abbrev main_v41 : Ref sig .tc := ⟨.hbm, 98, rfl⟩
abbrev main_c_8 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_c_9 : Ref sig .tc := ⟨.hbm, 103, rfl⟩
abbrev main_v45 : Ref sig .tc := ⟨.hbm, 104, rfl⟩
abbrev main_v46 : Ref sig .tc := ⟨.hbm, 105, rfl⟩
abbrev main_c_10 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_11 : Ref sig .tc := ⟨.hbm, 114, rfl⟩
abbrev main_v54 : Ref sig .tc := ⟨.hbm, 115, rfl⟩
abbrev main_cst_12 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_cst_13 : Ref sig .tc := ⟨.hbm, 120, rfl⟩
abbrev main_v58 : Ref sig .tc := ⟨.hbm, 121, rfl⟩
abbrev main_v59 : Ref sig .tc := ⟨.hbm, 122, rfl⟩
abbrev main_call4_v0 : Ref sig .tc := ⟨.hbm, 123, rfl⟩
abbrev main_call4_cst : Ref sig .tc := ⟨.hbm, 124, rfl⟩
abbrev main_v60 : Ref sig .tc := ⟨.hbm, 125, rfl⟩
abbrev main_v61 : Ref sig .tc := ⟨.hbm, 126, rfl⟩
abbrev main_cst_14 : Ref sig .tc := ⟨.hbm, 127, rfl⟩
abbrev main_v62 : Ref sig .tc := ⟨.hbm, 128, rfl⟩

abbrev nD : Nat := 1
abbrev τ : Topo := Topo.v7x

variable {F : FTy → Type} [FloatOps F]

class Facts₀ : Prop where
  shapeCasts_S512x16x128_S8192x128 : S512x16x128.ShapeCasts S8192x128
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  transposes_S8192x8192_S8192x8192_1_0 : S8192x8192.Transposes [1, 0] S8192x8192
  concatenates_S8192x1_S8192x1_S8192x2_d1 : Shape.Concatenates [S8192x1, S8192x1] S8192x2 1
  reducesTo_S8192_S_d0 : S8192.ReducesTo [0] S_
  dot_S8192x128_S8192x128_S8192x8192_1_1_0_0_n_n_wf : DotDims.WF S8192x128 S8192x128 S8192x8192 [1] [1] [0] [0] [] []
  gather_S8192x8192_S8192x2_S8192_n_01_n_n_01_1_11_wf : GatherDims.WF S8192x8192 S8192x2 S8192 [] [0, 1] [] [0, 1] [] 1 ![1, 1]

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.K.Conds.lean ====
/-
  The branch conditions of the statistics kernel, as functions of the grid point (row tile i, column tile j),
  and their closed forms over the 8 x 16 grid: "first column tile" (j = 0), "the tile meets the block diagonal"
  (512 j < 1024 i + 1024 and 1024 i < 512 j + 512, that is j / 2 = i), its negation, and "last column tile" (j = 15).
-/
import proofs.«162174_j13649406066960_2_alg».proof.Proof.Gen.Kernel.Launch
import proofs.«162174_j13649406066960_2_alg».proof.Proof.Gen.Kernel.Skeleton
import proofs.«162174_j13649406066960_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 0 -/

/-- First row of the tile: 1024 i. -/
abbrev row0_0 (i : grid0.Coords) : BitVec 32 := Scalar.muli (BitVec.ofNat 32 (i 0).val) 1024#32
/-- First column of the tile: 512 j. -/
abbrev col0_0 (i : grid0.Coords) : BitVec 32 := Scalar.muli (BitVec.ofNat 32 (i 1).val) 512#32
/-- The tile's row range and column range overlap. -/
abbrev meets0 (i : grid0.Coords) : BitVec 1 :=
  Scalar.andi (Scalar.cmpi .slt (col0_0 i) (Scalar.addi (row0_0 i) 1024#32)) (Scalar.cmpi .slt (row0_0 i) (Scalar.addi (col0_0 i) 512#32))

/-- j = 0: the running statistics are reset. -/
abbrev cond0_1 (i : grid0.Coords) : Prop :=
  Scalar.cmpi .ne (Scalar.extui (Scalar.cmpi .eq (BitVec.ofNat 32 (i 1).val) 0#32) : BitVec 32) 0#32 = 1#1
/-- The tile meets the block diagonal: the masked update. -/
abbrev cond0_2 (i : grid0.Coords) : Prop :=
  Scalar.cmpi .ne (Scalar.extui (meets0 i) : BitVec 32) 0#32 = 1#1
/-- The tile does not meet the block diagonal: the plain update. -/
abbrev cond0_3 (i : grid0.Coords) : Prop :=
  Scalar.cmpi .ne (Scalar.extui (Scalar.xori (meets0 i) 1#1) : BitVec 32) 0#32 = 1#1
/-- j = 15: the row statistics are written out. -/
abbrev cond0_4 (i : grid0.Coords) : Prop := k0_cond4 i = 1#1

theorem hcond0_1 : ∀ t : Fin cfg0.N, cond0_1 (grid0.coords t) ↔ t.val % 16 = 0 :=
  (by decide +kernel : ∀ t : Fin grid0.N, cond0_1 (grid0.coords t) ↔ t.val % 16 = 0)
theorem hcond0_2 : ∀ t : Fin cfg0.N, cond0_2 (grid0.coords t) ↔ (t.val % 16) / 2 = t.val / 16 :=
  (by decide +kernel : ∀ t : Fin grid0.N, cond0_2 (grid0.coords t) ↔ (t.val % 16) / 2 = t.val / 16)
theorem hcond0_3 : ∀ t : Fin cfg0.N, cond0_3 (grid0.coords t) ↔ ¬ (t.val % 16) / 2 = t.val / 16 :=
  (by decide +kernel : ∀ t : Fin grid0.N, cond0_3 (grid0.coords t) ↔ ¬ (t.val % 16) / 2 = t.val / 16)
theorem hcond0_4 : ∀ t : Fin cfg0.N, cond0_4 (grid0.coords t) ↔ t.val % 16 = 15 :=
  (by decide +kernel : ∀ t : Fin grid0.N, cond0_4 (grid0.coords t) ↔ t.val % 16 = 15)

/-! ## Region 1 -/

/-- First row of the tile: 1024 i. -/
abbrev row1_0 (i : grid1.Coords) : BitVec 32 := Scalar.muli (BitVec.ofNat 32 (i 0).val) 1024#32
/-- First column of the tile: 512 j. -/
abbrev col1_0 (i : grid1.Coords) : BitVec 32 := Scalar.muli (BitVec.ofNat 32 (i 1).val) 512#32
/-- The tile's row range and column range overlap. -/
abbrev meets1 (i : grid1.Coords) : BitVec 1 :=
  Scalar.andi (Scalar.cmpi .slt (col1_0 i) (Scalar.addi (row1_0 i) 1024#32)) (Scalar.cmpi .slt (row1_0 i) (Scalar.addi (col1_0 i) 512#32))

/-- j = 0: the running statistics are reset. -/
abbrev cond1_1 (i : grid1.Coords) : Prop :=
  Scalar.cmpi .ne (Scalar.extui (Scalar.cmpi .eq (BitVec.ofNat 32 (i 1).val) 0#32) : BitVec 32) 0#32 = 1#1
/-- The tile meets the block diagonal: the masked update. -/
abbrev cond1_2 (i : grid1.Coords) : Prop :=
  Scalar.cmpi .ne (Scalar.extui (meets1 i) : BitVec 32) 0#32 = 1#1
/-- The tile does not meet the block diagonal: the plain update. -/
abbrev cond1_3 (i : grid1.Coords) : Prop :=
  Scalar.cmpi .ne (Scalar.extui (Scalar.xori (meets1 i) 1#1) : BitVec 32) 0#32 = 1#1
/-- j = 15: the row statistics are written out. -/
abbrev cond1_4 (i : grid1.Coords) : Prop := k1_cond4 i = 1#1

theorem hcond1_1 : ∀ t : Fin cfg1.N, cond1_1 (grid1.coords t) ↔ t.val % 16 = 0 :=
  (by decide +kernel : ∀ t : Fin grid1.N, cond1_1 (grid1.coords t) ↔ t.val % 16 = 0)
theorem hcond1_2 : ∀ t : Fin cfg1.N, cond1_2 (grid1.coords t) ↔ (t.val % 16) / 2 = t.val / 16 :=
  (by decide +kernel : ∀ t : Fin grid1.N, cond1_2 (grid1.coords t) ↔ (t.val % 16) / 2 = t.val / 16)
theorem hcond1_3 : ∀ t : Fin cfg1.N, cond1_3 (grid1.coords t) ↔ ¬ (t.val % 16) / 2 = t.val / 16 :=
  (by decide +kernel : ∀ t : Fin grid1.N, cond1_3 (grid1.coords t) ↔ ¬ (t.val % 16) / 2 = t.val / 16)
theorem hcond1_4 : ∀ t : Fin cfg1.N, cond1_4 (grid1.coords t) ↔ t.val % 16 = 15 :=
  (by decide +kernel : ∀ t : Fin grid1.N, cond1_4 (grid1.coords t) ↔ t.val % 16 = 15)

end Cert.Kernel.Hand

end
-- ==== Proof.K.Step.lean ====
/-
  The statistics kernel's update of its running row statistics at one grid point, as pure functions of the
  two input blocks and of the statistics the point finds: the running maximum, the running sum of exponentials
  and the running diagonal logit of each of the tile's 1024 rows; and what the point leaves in the output block.
  At the first column tile the statistics are reset first (to -inf, 0, 0); a tile that meets the block diagonal
  takes the masked update, any other tile the plain one; the last column tile writes max + log(sum) - diag out.
-/
import proofs.«162174_j13649406066960_2_alg».proof.Proof.K.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 0 -/

theorem cond0_3_iff (i : grid0.Coords) : cond0_3 i ↔ ¬cond0_2 i := by
  show (Scalar.cmpi .ne (Scalar.extui (Scalar.xori (meets0 i) 1#1) : BitVec 32) 0#32 = 1#1)
    ↔ ¬ (Scalar.cmpi .ne (Scalar.extui (meets0 i) : BitVec 32) 0#32 = 1#1)
  generalize meets0 i = b
  rcases BitVec.eq_zero_or_eq_one b with h | h <;> subst h <;> decide

/-- The running maximum as the update finds it. -/
def inM0 (i : grid0.Coords) (xs0 : Vec F S1024x1 .f32) : Vec F S1024x1 .f32 := if cond0_1 i then k0_pay1 else xs0
/-- The running sum as the update finds it. -/
def inL0 (i : grid0.Coords) (xs1 : Vec F S1024x1 .f32) : Vec F S1024x1 .f32 := if cond0_1 i then k0_pay2 else xs1
/-- The running diagonal logit as the update finds it. -/
def inD0 (i : grid0.Coords) (xs2 : Vec F S1024x1 .f32) : Vec F S1024x1 .f32 := if cond0_1 i then k0_pay3 else xs2

/-- The new running maximum. -/
def newM0 (i : grid0.Coords) (x0 : Vec F S1024x128 .f32) (x1 : Vec F S512x128 .f32) (xs0 : Vec F S1024x1 .f32) : Vec F S1024x1 .f32 :=
  if cond0_2 i then
    k0_pay21 (k0_pay4 x0 x1) (k0_pay11 (row0_0 i)) (k0_pay12 (col0_0 i)) (k0_pay13 (row0_0 i)) (k0_pay14 (col0_0 i)) (k0_pay15 (col0_0 i)) (k0_pay16 (col0_0 i)) (inM0 i xs0)
  else k0_pay8 x0 x1 (inM0 i xs0)
/-- The new running sum of exponentials. -/
def newL0 (i : grid0.Coords) (x0 : Vec F S1024x128 .f32) (x1 : Vec F S512x128 .f32) (xs0 xs1 : Vec F S1024x1 .f32) : Vec F S1024x1 .f32 :=
  if cond0_2 i then
    k0_pay20 (k0_pay4 x0 x1) (k0_pay11 (row0_0 i)) (k0_pay12 (col0_0 i)) (k0_pay13 (row0_0 i)) (k0_pay14 (col0_0 i)) (k0_pay15 (col0_0 i)) (k0_pay16 (col0_0 i)) (inM0 i xs0) (inL0 i xs1)
  else k0_pay7 x0 x1 (inM0 i xs0) (inL0 i xs1)
/-- The new running diagonal logit. -/
def newD0 (i : grid0.Coords) (x0 : Vec F S1024x128 .f32) (x1 : Vec F S512x128 .f32) (xs2 : Vec F S1024x1 .f32) : Vec F S1024x1 .f32 :=
  if cond0_2 i then k0_pay5 (k0_pay22 (k0_pay4 x0 x1) (k0_pay11 (row0_0 i)) (k0_pay12 (col0_0 i)) (inD0 i xs2))
  else k0_pay9 (inD0 i xs2)
/-- What the point leaves in the output block: at the last column tile the row statistics' value, otherwise what it found. -/
def outV0 (i : grid0.Coords) (x0 : Vec F S1024x128 .f32) (x1 : Vec F S512x128 .f32) (xi2 xs0 xs1 xs2 : Vec F S1024x1 .f32) : Vec F S1024x1 .f32 :=
  if cond0_4 i then k0_pay10 (newM0 i x0 x1 xs0) (newL0 i x0 x1 xs0 xs1) (newD0 i x0 x1 xs2) else xi2

/-! ## Region 1 -/

theorem cond1_3_iff (i : grid1.Coords) : cond1_3 i ↔ ¬cond1_2 i := by
  show (Scalar.cmpi .ne (Scalar.extui (Scalar.xori (meets1 i) 1#1) : BitVec 32) 0#32 = 1#1)
    ↔ ¬ (Scalar.cmpi .ne (Scalar.extui (meets1 i) : BitVec 32) 0#32 = 1#1)
  generalize meets1 i = b
  rcases BitVec.eq_zero_or_eq_one b with h | h <;> subst h <;> decide

/-- The running maximum as the update finds it. -/
def inM1 (i : grid1.Coords) (xs0 : Vec F S1024x1 .f32) : Vec F S1024x1 .f32 := if cond1_1 i then k1_pay1 else xs0
/-- The running sum as the update finds it. -/
def inL1 (i : grid1.Coords) (xs1 : Vec F S1024x1 .f32) : Vec F S1024x1 .f32 := if cond1_1 i then k1_pay2 else xs1
/-- The running diagonal logit as the update finds it. -/
def inD1 (i : grid1.Coords) (xs2 : Vec F S1024x1 .f32) : Vec F S1024x1 .f32 := if cond1_1 i then k1_pay3 else xs2

/-- The new running maximum. -/
def newM1 (i : grid1.Coords) (x0 : Vec F S1024x128 .f32) (x1 : Vec F S512x128 .f32) (xs0 : Vec F S1024x1 .f32) : Vec F S1024x1 .f32 :=
  if cond1_2 i then
    k1_pay21 (k1_pay4 x0 x1) (k1_pay11 (row1_0 i)) (k1_pay12 (col1_0 i)) (k1_pay13 (row1_0 i)) (k1_pay14 (col1_0 i)) (k1_pay15 (col1_0 i)) (k1_pay16 (col1_0 i)) (inM1 i xs0)
  else k1_pay8 x0 x1 (inM1 i xs0)
/-- The new running sum of exponentials. -/
def newL1 (i : grid1.Coords) (x0 : Vec F S1024x128 .f32) (x1 : Vec F S512x128 .f32) (xs0 xs1 : Vec F S1024x1 .f32) : Vec F S1024x1 .f32 :=
  if cond1_2 i then
    k1_pay20 (k1_pay4 x0 x1) (k1_pay11 (row1_0 i)) (k1_pay12 (col1_0 i)) (k1_pay13 (row1_0 i)) (k1_pay14 (col1_0 i)) (k1_pay15 (col1_0 i)) (k1_pay16 (col1_0 i)) (inM1 i xs0) (inL1 i xs1)
  else k1_pay7 x0 x1 (inM1 i xs0) (inL1 i xs1)
/-- The new running diagonal logit. -/
def newD1 (i : grid1.Coords) (x0 : Vec F S1024x128 .f32) (x1 : Vec F S512x128 .f32) (xs2 : Vec F S1024x1 .f32) : Vec F S1024x1 .f32 :=
  if cond1_2 i then k1_pay5 (k1_pay22 (k1_pay4 x0 x1) (k1_pay11 (row1_0 i)) (k1_pay12 (col1_0 i)) (inD1 i xs2))
  else k1_pay9 (inD1 i xs2)
/-- What the point leaves in the output block: at the last column tile the row statistics' value, otherwise what it found. -/
def outV1 (i : grid1.Coords) (x0 : Vec F S1024x128 .f32) (x1 : Vec F S512x128 .f32) (xi2 xs0 xs1 xs2 : Vec F S1024x1 .f32) : Vec F S1024x1 .f32 :=
  if cond1_4 i then k1_pay10 (newM1 i x0 x1 xs0) (newL1 i x0 x1 xs0 xs1) (newD1 i x0 x1 xs2) else xi2

end Cert.Kernel.Hand

end
-- ==== Proof.LibWholeStore.lean ====
/-
  A store through the whole buffer, made last, decides what the buffer reads as: whatever was stored before it,
  the buffer holds the stored vector. (The unit-stride rectangle at zero offsets of the buffer's own sizes is the
  whole index space, and an index under the last write reads that write's payload.)
-/
import Idealize.ShloMosaic.Lib.Writes
import Idealize.ShloMosaic.Lib.Pipeline.Value

noncomputable section

namespace Cert.Lib

open Idealize.ShloMosaic

variable {sig : RefSig} {κ : Kind} {sp : Space} {S : Shape} {e : EltTy} {Val : EltTy → Type}

/-- After a list of stores whose LAST one (the head) goes through the whole buffer, the buffer reads as that store's payload. -/
theorem read_writes_cons_whole (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through the whole buffer after such a list of stores reads the last store's payload. -/
theorem readCov_cons_whole [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- The zero offsets of a rank-2 access, however they are spelt. -/
theorem off2 : (![0, 0] : Fin 2 → Nat) = fun _ => 0 := by
  funext a; fin_cases a <;> rfl

end Cert.Lib

end
-- ==== Proof.K.Body0_0.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.K.Step
import proofs.«162174_j13649406066960_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem triple0_TTT (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond0_1 i) (hc2 : cond0_2 i) (hc4 : cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : ¬cond0_3 i := fun h => (cond0_3_iff i).mp h hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV0 newM0 newL0 newD0 inM0 inL0 inD0
    simp only [if_pos hc1, if_pos hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_pos hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_pos hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_pos hc1, if_pos hc2]
  try rfl

set_option maxHeartbeats 1000000 in
theorem triple0_TTF (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond0_1 i) (hc2 : cond0_2 i) (hc4 : ¬cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : ¬cond0_3 i := fun h => (cond0_3_iff i).mp h hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV0
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_pos hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_pos hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_pos hc1, if_pos hc2]
  try rfl

end Cert.Kernel.Hand

end
-- ==== Proof.K.Body0_1.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.K.Step
import proofs.«162174_j13649406066960_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem triple0_TFT (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond0_1 i) (hc2 : ¬cond0_2 i) (hc4 : cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : cond0_3 i := (cond0_3_iff i).mpr hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV0 newM0 newL0 newD0 inM0 inL0 inD0
    simp only [if_pos hc1, if_neg hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_pos hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_pos hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_pos hc1, if_neg hc2]
  try rfl

set_option maxHeartbeats 1000000 in
theorem triple0_TFF (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond0_1 i) (hc2 : ¬cond0_2 i) (hc4 : ¬cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : cond0_3 i := (cond0_3_iff i).mpr hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV0
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_pos hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_pos hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_pos hc1, if_neg hc2]
  try rfl

end Cert.Kernel.Hand

end
-- ==== Proof.K.Body0_2.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.K.Step
import proofs.«162174_j13649406066960_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem triple0_FTT (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond0_1 i) (hc2 : cond0_2 i) (hc4 : cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : ¬cond0_3 i := fun h => (cond0_3_iff i).mp h hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV0 newM0 newL0 newD0 inM0 inL0 inD0
    simp only [if_neg hc1, if_pos hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_neg hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_neg hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_neg hc1, if_pos hc2]
  try rfl

set_option maxHeartbeats 1000000 in
theorem triple0_FTF (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond0_1 i) (hc2 : cond0_2 i) (hc4 : ¬cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : ¬cond0_3 i := fun h => (cond0_3_iff i).mp h hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV0
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_neg hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_neg hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_neg hc1, if_pos hc2]
  try rfl

end Cert.Kernel.Hand

end
-- ==== Proof.K.Body0_3.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.K.Step
import proofs.«162174_j13649406066960_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem triple0_FFT (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond0_1 i) (hc2 : ¬cond0_2 i) (hc4 : cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : cond0_3 i := (cond0_3_iff i).mpr hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV0 newM0 newL0 newD0 inM0 inL0 inD0
    simp only [if_neg hc1, if_neg hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_neg hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_neg hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_neg hc1, if_neg hc2]
  try rfl

set_option maxHeartbeats 1000000 in
theorem triple0_FFF (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond0_1 i) (hc2 : ¬cond0_2 i) (hc4 : ¬cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : cond0_3 i := (cond0_3_iff i).mpr hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV0
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_neg hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_neg hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_neg hc1, if_neg hc2]
  try rfl

end Cert.Kernel.Hand

end
-- ==== Proof.K.Body0.lean ====
/-
  The statistics kernel's body at any grid point: by cases on its conditions.
-/
import proofs.«162174_j13649406066960_2_alg».proof.Proof.K.Body0_0
import proofs.«162174_j13649406066960_2_alg».proof.Proof.K.Body0_1
import proofs.«162174_j13649406066960_2_alg».proof.Proof.K.Body0_2
import proofs.«162174_j13649406066960_2_alg».proof.Proof.K.Body0_3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem triple0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  by_cases hc1 : cond0_1 i <;> by_cases hc2 : cond0_2 i <;> by_cases hc4 : cond0_4 i
  · exact triple0_TTT c i arg2 harg2 arg3 harg3 arg4 harg4 arg5 harg5 arg6 harg6 arg7 harg7 hc1 hc2 hc4 x0 x1 xi2 xs0 xs1 xs2 E K
  · exact triple0_TTF c i arg2 harg2 arg3 harg3 arg4 harg4 arg5 harg5 arg6 harg6 arg7 harg7 hc1 hc2 hc4 x0 x1 xi2 xs0 xs1 xs2 E K
  · exact triple0_TFT c i arg2 harg2 arg3 harg3 arg4 harg4 arg5 harg5 arg6 harg6 arg7 harg7 hc1 hc2 hc4 x0 x1 xi2 xs0 xs1 xs2 E K
  · exact triple0_TFF c i arg2 harg2 arg3 harg3 arg4 harg4 arg5 harg5 arg6 harg6 arg7 harg7 hc1 hc2 hc4 x0 x1 xi2 xs0 xs1 xs2 E K
  · exact triple0_FTT c i arg2 harg2 arg3 harg3 arg4 harg4 arg5 harg5 arg6 harg6 arg7 harg7 hc1 hc2 hc4 x0 x1 xi2 xs0 xs1 xs2 E K
  · exact triple0_FTF c i arg2 harg2 arg3 harg3 arg4 harg4 arg5 harg5 arg6 harg6 arg7 harg7 hc1 hc2 hc4 x0 x1 xi2 xs0 xs1 xs2 E K
  · exact triple0_FFT c i arg2 harg2 arg3 harg3 arg4 harg4 arg5 harg5 arg6 harg6 arg7 harg7 hc1 hc2 hc4 x0 x1 xi2 xs0 xs1 xs2 E K
  · exact triple0_FFF c i arg2 harg2 arg3 harg3 arg4 harg4 arg5 harg5 arg6 harg6 arg7 harg7 hc1 hc2 hc4 x0 x1 xi2 xs0 xs1 xs2 E K

end Cert.Kernel.Hand

end
-- ==== Proof.K.Body1_0.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.K.Step
import proofs.«162174_j13649406066960_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem triple1_TTT (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond1_1 i) (hc2 : cond1_2 i) (hc4 : cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : ¬cond1_3 i := fun h => (cond1_3_iff i).mp h hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV1 newM1 newL1 newD1 inM1 inL1 inD1
    simp only [if_pos hc1, if_pos hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_pos hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_pos hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_pos hc1, if_pos hc2]
  try rfl

set_option maxHeartbeats 1000000 in
theorem triple1_TTF (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond1_1 i) (hc2 : cond1_2 i) (hc4 : ¬cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : ¬cond1_3 i := fun h => (cond1_3_iff i).mp h hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV1
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_pos hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_pos hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_pos hc1, if_pos hc2]
  try rfl

end Cert.Kernel.Hand

end
-- ==== Proof.K.Body1_1.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.K.Step
import proofs.«162174_j13649406066960_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem triple1_TFT (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond1_1 i) (hc2 : ¬cond1_2 i) (hc4 : cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : cond1_3 i := (cond1_3_iff i).mpr hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV1 newM1 newL1 newD1 inM1 inL1 inD1
    simp only [if_pos hc1, if_neg hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_pos hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_pos hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_pos hc1, if_neg hc2]
  try rfl

set_option maxHeartbeats 1000000 in
theorem triple1_TFF (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond1_1 i) (hc2 : ¬cond1_2 i) (hc4 : ¬cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : cond1_3 i := (cond1_3_iff i).mpr hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV1
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_pos hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_pos hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_pos hc1, if_neg hc2]
  try rfl

end Cert.Kernel.Hand

end
-- ==== Proof.K.Body1_2.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.K.Step
import proofs.«162174_j13649406066960_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem triple1_FTT (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond1_1 i) (hc2 : cond1_2 i) (hc4 : cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : ¬cond1_3 i := fun h => (cond1_3_iff i).mp h hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV1 newM1 newL1 newD1 inM1 inL1 inD1
    simp only [if_neg hc1, if_pos hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_neg hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_neg hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_neg hc1, if_pos hc2]
  try rfl

set_option maxHeartbeats 1000000 in
theorem triple1_FTF (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond1_1 i) (hc2 : cond1_2 i) (hc4 : ¬cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : ¬cond1_3 i := fun h => (cond1_3_iff i).mp h hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV1
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_neg hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_neg hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_neg hc1, if_pos hc2]
  try rfl

end Cert.Kernel.Hand

end
-- ==== Proof.K.Body1_3.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.K.Step
import proofs.«162174_j13649406066960_2_alg».proof.Proof.LibWholeStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem triple1_FFT (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond1_1 i) (hc2 : ¬cond1_2 i) (hc4 : cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : cond1_3 i := (cond1_3_iff i).mpr hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV1 newM1 newL1 newD1 inM1 inL1 inD1
    simp only [if_neg hc1, if_neg hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_neg hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_neg hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_neg hc1, if_neg hc2]
  try rfl

set_option maxHeartbeats 1000000 in
theorem triple1_FFF (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond1_1 i) (hc2 : ¬cond1_2 i) (hc4 : ¬cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : cond1_3 i := (cond1_3_iff i).mpr hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV1
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_neg hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_neg hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_neg hc1, if_neg hc2]
  try rfl

end Cert.Kernel.Hand

end
-- ==== Proof.K.Body1.lean ====
/-
  The statistics kernel's body at any grid point: by cases on its conditions.
-/
import proofs.«162174_j13649406066960_2_alg».proof.Proof.K.Body1_0
import proofs.«162174_j13649406066960_2_alg».proof.Proof.K.Body1_1
import proofs.«162174_j13649406066960_2_alg».proof.Proof.K.Body1_2
import proofs.«162174_j13649406066960_2_alg».proof.Proof.K.Body1_3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem triple1 (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  by_cases hc1 : cond1_1 i <;> by_cases hc2 : cond1_2 i <;> by_cases hc4 : cond1_4 i
  · exact triple1_TTT c i arg2 harg2 arg3 harg3 arg4 harg4 arg5 harg5 arg6 harg6 arg7 harg7 hc1 hc2 hc4 x0 x1 xi2 xs0 xs1 xs2 E K
  · exact triple1_TTF c i arg2 harg2 arg3 harg3 arg4 harg4 arg5 harg5 arg6 harg6 arg7 harg7 hc1 hc2 hc4 x0 x1 xi2 xs0 xs1 xs2 E K
  · exact triple1_TFT c i arg2 harg2 arg3 harg3 arg4 harg4 arg5 harg5 arg6 harg6 arg7 harg7 hc1 hc2 hc4 x0 x1 xi2 xs0 xs1 xs2 E K
  · exact triple1_TFF c i arg2 harg2 arg3 harg3 arg4 harg4 arg5 harg5 arg6 harg6 arg7 harg7 hc1 hc2 hc4 x0 x1 xi2 xs0 xs1 xs2 E K
  · exact triple1_FTT c i arg2 harg2 arg3 harg3 arg4 harg4 arg5 harg5 arg6 harg6 arg7 harg7 hc1 hc2 hc4 x0 x1 xi2 xs0 xs1 xs2 E K
  · exact triple1_FTF c i arg2 harg2 arg3 harg3 arg4 harg4 arg5 harg5 arg6 harg6 arg7 harg7 hc1 hc2 hc4 x0 x1 xi2 xs0 xs1 xs2 E K
  · exact triple1_FFT c i arg2 harg2 arg3 harg3 arg4 harg4 arg5 harg5 arg6 harg6 arg7 harg7 hc1 hc2 hc4 x0 x1 xi2 xs0 xs1 xs2 E K
  · exact triple1_FFF c i arg2 harg2 arg3 harg3 arg4 harg4 arg5 harg5 arg6 harg6 arg7 harg7 hc1 hc2 hc4 x0 x1 xi2 xs0 xs1 xs2 E K

end Cert.Kernel.Hand

end
-- ==== Proof.K.Region.lean ====
/-
  The two statistics calls as pipelines: the proof data of each (what every staging buffer holds after the body at
  every grid point, the row statistics carried in the scratch operands from one column tile to the next), the body's
  obligation at a generic point and the invariant's two ends.
-/
import proofs.«162174_j13649406066960_2_alg».proof.Proof.K.Body0
import proofs.«162174_j13649406066960_2_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0 of 0main, at the contents `V` its entry finds -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The column tile's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_4 (grid0.coords t) → cfg0.idle 2 (grid0.coords t) = true := by decide +kernel
theorem noFlush0_2 : ∀ t : Fin cfg0.N, ¬cond0_4 (grid0.coords t) → (cfg0.win 2).flush t = false := by decide +kernel
theorem liveAt0_2 : ∀ t : Fin cfg0.N, cond0_4 (grid0.coords t) → cfg0.idle 2 (grid0.coords t) = false := by decide +kernel

/-! ## The scratch operands and the invariant -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The three scratch operands (running maximum, running sum, running diagonal logit). -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

/-- The region's entry invariant with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  unfold Pipeline.ΦA; rw [scopedRest0_eq]; simp only [scM0_0, scM0_1, scM0_2, owns_whole]; try rfl

/-! ## The row statistics after each point -/

/-- One point's update of the row statistics (max, sum, diag), from the point's two input blocks. -/
def stepS0 (c : Dev nD) (t : Fin cfg0.N) (s : Vec F S1024x1 .f32 × Vec F S1024x1 .f32 × Vec F S1024x1 .f32) :
    Vec F S1024x1 .f32 × Vec F S1024x1 .f32 × Vec F S1024x1 .f32 :=
  (newM0 (grid0.coords t) (iblk0 V c 0 t) (iblk0 V c 1 t) s.1,
   newL0 (grid0.coords t) (iblk0 V c 0 t) (iblk0 V c 1 t) s.1 s.2.1,
   newD0 (grid0.coords t) (iblk0 V c 0 t) (iblk0 V c 1 t) s.2.2)

/-- Contents nothing reads: what the scratch operands hold before the first point resets them. -/
def junkS0 : Vec F S1024x1 .f32 × Vec F S1024x1 .f32 × Vec F S1024x1 .f32 :=
  (k0_pay2, k0_pay2, k0_pay2)

/-- The row statistics after the body at position `n`: the update at `n` of what position `n - 1` left. -/
def statsAt0 (c : Dev nD) : (n : ℕ) → n < cfg0.N → Vec F S1024x1 .f32 × Vec F S1024x1 .f32 × Vec F S1024x1 .f32
  | 0, hn => stepS0 V c ⟨0, hn⟩ junkS0
  | n + 1, hn => stepS0 V c ⟨n + 1, hn⟩ (statsAt0 c n (Nat.lt_of_succ_lt hn))

theorem statsAt0_pos (c : Dev nD) (t : Fin cfg0.N) (hz : t.val ≠ 0) :
    statsAt0 V c t.val t.isLt = stepS0 V c t (statsAt0 V c (t.val - 1) (Nat.lt_of_le_of_lt (Nat.sub_le _ _) t.isLt)) := by
  obtain ⟨n, hn⟩ := t
  cases n with
  | zero => exact absurd rfl hz
  | succ n => rfl

/-- At a first column tile the update does not depend on what it finds. -/
theorem stepS0_reset (c : Dev nD) (t : Fin cfg0.N) (h : cond0_1 (grid0.coords t)) (s s' : Vec F S1024x1 .f32 × Vec F S1024x1 .f32 × Vec F S1024x1 .f32) :
    stepS0 V c t s = stepS0 V c t s' := by
  unfold stepS0 newM0 newL0 newD0 inM0 inL0 inD0
  simp only [if_pos h]

theorem statsAt0_zero (c : Dev nD) (t : Fin cfg0.N) (hz : t.val = 0) (s : Vec F S1024x1 .f32 × Vec F S1024x1 .f32 × Vec F S1024x1 .f32) :
    statsAt0 V c t.val t.isLt = stepS0 V c t s := by
  obtain ⟨n, hn⟩ := t
  cases n with
  | zero => exact stepS0_reset V c ⟨0, hn⟩ ((hcond0_1 ⟨0, hn⟩).mpr (Nat.zero_mod _)) _ _
  | succ n => exact absurd hz (Nat.succ_ne_zero n)

/-- The region invariant before position `n`: before the first point the scratch operands at anything; afterwards at the
    row statistics the point before left; the other scoped buffers and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (statsAt0 V c n hn).1 ∗ owns (c : Thread nD τ) scM0_1 fullShare (statsAt0 V c n hn).2.1 ∗ owns (c : Thread nD τ) scM0_2 fullShare (statsAt0 V c n hn).2.2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (statsAt0 V c n hn).1 ∗ owns (c : Thread nD τ) scM0_1 fullShare (statsAt0 V c n hn).2.1 ∗ owns (c : Thread nD τ) scM0_2 fullShare (statsAt0 V c n hn).2.2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (statsAt0 V c (n - 1) (by omega)).1 ∗ owns (c : Thread nD τ) scM0_1 fullShare (statsAt0 V c (n - 1) (by omega)).2.1 ∗ owns (c : Thread nD τ) scM0_2 fullShare (statsAt0 V c (n - 1) (by omega)).2.2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  cases n with
  | zero => exact absurd rfl hz
  | succ n => rfl

/-! ## The pipeline's proof data -/

/-- What the last column tile writes out of the row statistics. -/
def outOf0 (s : Vec F S1024x1 .f32 × Vec F S1024x1 .f32 × Vec F S1024x1 .f32) : Vec F S1024x1 .f32 := k0_pay10 s.1 s.2.1 s.2.2

/-- The proof data of pipeline 0 on core `c`: the arrays as the region finds them; after the body at point `t` each
    input's buffer at its block, the output's at the value of the row statistics there (consulted only at the last
    column tiles, where the window is live and written back); the invariant carries the row statistics. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outOf0 (statsAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outOf0 (statsAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- The body's run with the values it leaves named by the caller. -/
theorem triple0_as (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (x0 : Vec F S1024x128 .f32) (x1 : Vec F S512x128 .f32) (xi2 xs0 xs1 xs2 : Vec F S1024x1 .f32) (E : Set ℕ) (K : PUnit → sProp 𝕄)
    (O M L D : Vec F S1024x1 .f32) (hO : outV0 i x0 x1 xi2 xs0 xs1 xs2 = O) (hM : newM0 i x0 x1 xs0 = M) (hL : newL0 i x0 x1 xs0 xs1 = L) (hD : newD0 i x0 x1 xs2 = D) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare O ∗ owns (c : Thread nD τ) arg5 fullShare M
            ∗ owns (c : Thread nD τ) arg6 fullShare L ∗ owns (c : Thread nD τ) arg7 fullShare D) -∗ K ⟨⟩))
      ⊢ wp frame (wpE (defs₀ (F := F)) Variants.none c none) E (cc0__stats_kernel i arg2 harg2 arg3 harg3 arg4 harg4 arg5 harg5 arg6 harg6 arg7 harg7) K := by
  subst hO hM hL hD
  exact triple0 c i arg2 harg2 arg3 harg3 arg4 harg4 arg5 harg5 arg6 harg6 arg7 harg7 x0 x1 xi2 xs0 xs1 xs2 E K

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem outV0_live (i : grid0.Coords) (h : cond0_4 i) (x0 : Vec F S1024x128 .f32) (x1 : Vec F S512x128 .f32) (xi2 xs0 xs1 xs2 : Vec F S1024x1 .f32) :
    outV0 i x0 x1 xi2 xs0 xs1 xs2 = outOf0 (newM0 i x0 x1 xs0, newL0 i x0 x1 xs0 xs1, newD0 i x0 x1 xs2) := by
  unfold outV0 outOf0; rw [if_pos h]
theorem outV0_idle (i : grid0.Coords) (h : ¬cond0_4 i) (x0 : Vec F S1024x128 .f32) (x1 : Vec F S512x128 .f32) (xi2 xs0 xs1 xs2 : Vec F S1024x1 .f32) :
    outV0 i x0 x1 xi2 xs0 xs1 xs2 = xi2 := by
  unfold outV0; rw [if_neg h]

set_option maxHeartbeats 2000000 in
/-- The body at any point: the inputs' buffers hold their blocks; the invariant hands the scratch operands over at the
    row statistics the point before left (at anything at the very first point, which resets them) and takes them back
    at this point's; the output's buffer is stored only at a last column tile and handed back untouched elsewhere. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h4 : cond0_4 (grid0.coords t)
  · rw [show (dat0 V c).leavesExact 2 t = owns (c : Thread nD τ) (ms0_2 t) fullShare ((dat0 V c).after 2 t) from by
      unfold Dat.leavesExact; rw [liveAt0_2 t h4], after0_2]
    have hz : t.val ≠ 0 := by have := (hcond0_4 t).mp h4; omega
    rw [PhiS0_castSucc V c t, PhiS0_pos V c _ _ hz]
    have hst := statsAt0_pos V c t hz
    iintro ⟨⟨⟨HS0, HS1, HS2, HR0, HR1, HR2, HR3, HR4, HR5, HR6, HR7, HR8⟩, Hg⟩, Ho, ⟨%d0, H0⟩, ⟨%d1, H1⟩, ⟨%d2, H2⟩⟩
    iapply (triple0_as c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
        (iblk0 V c 0 t) (iblk0 V c 1 t) ((dat0 V c).before 2 t d2) (statsAt0 V c (t.val - 1) (Nat.lt_of_le_of_lt (Nat.sub_le _ _) t.isLt)).1 (statsAt0 V c (t.val - 1) (Nat.lt_of_le_of_lt (Nat.sub_le _ _) t.isLt)).2.1 (statsAt0 V c (t.val - 1) (Nat.lt_of_le_of_lt (Nat.sub_le _ _) t.isLt)).2.2 Set.univ _ (outOf0 (statsAt0 V c t.val t.isLt)) (statsAt0 V c t.val t.isLt).1 (statsAt0 V c t.val t.isLt).2.1 (statsAt0 V c t.val t.isLt).2.2 ((outV0_live _ h4 _ _ _ _ _ _).trans (by rw [hst]; rfl)) (by rw [hst]; rfl) (by rw [hst]; rfl) (by rw [hst]; rfl))
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 HR0 HR1 HR2 HR3 HR4 HR5 HR6 HR7 HR8 Hg]
    · isplitl [HS0 HS1 HS2 HR0 HR1 HR2 HR3 HR4 HR5 HR6 HR7 HR8]
      · isplitl [HS0]; · iexact HS0
        isplitl [HS1]; · iexact HS1
        isplitl [HS2]; · iexact HS2
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        iexact HR8
      iexact Hg
    isplitl [Ho]; · iexact Ho
    isplitl [H0]; · iexact H0
    isplitl [H1]; · iexact H1
    iexact H2
  · rw [Dat.leavesExact_idle (dat0 V c) 2 t (idleAt0_2 t h4) (noFlush0_2 t h4)]
    by_cases hz : t.val = 0
    · rw [PhiS0_castSucc V c t, PhiS0_zero V c _ _ hz, PhiA0_eq]
      iintro ⟨⟨⟨⟨%e0, HS0⟩, ⟨%e1, HS1⟩, ⟨%e2, HS2⟩, HR0, HR1, HR2, HR3, HR4, HR5, HR6, HR7, HR8⟩, Hg⟩, Ho, ⟨%d0, H0⟩, ⟨%d1, H1⟩, ⟨%d2, H2⟩⟩
      have hst := statsAt0_zero V c t hz (e0, e1, e2)
      iapply (triple0_as c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
          (iblk0 V c 0 t) (iblk0 V c 1 t) ((dat0 V c).before 2 t d2) e0 e1 e2 Set.univ _ ((dat0 V c).before 2 t d2) (statsAt0 V c t.val t.isLt).1 (statsAt0 V c t.val t.isLt).2.1 (statsAt0 V c t.val t.isLt).2.2 (outV0_idle _ h4 _ _ _ _ _ _) (by rw [hst]; rfl) (by rw [hst]; rfl) (by rw [hst]; rfl))
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR0 HR1 HR2 HR3 HR4 HR5 HR6 HR7 HR8 Hg]
      · isplitl [HS0 HS1 HS2 HR0 HR1 HR2 HR3 HR4 HR5 HR6 HR7 HR8]
        · isplitl [HS0]; · iexact HS0
          isplitl [HS1]; · iexact HS1
          isplitl [HS2]; · iexact HS2
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          iexact HR8
        iexact Hg
      isplitl [Ho]; · iexact Ho
      isplitl [H0]; · iexact H0
      isplitl [H1]; · iexact H1
      iexists _; iexact H2
    · rw [PhiS0_castSucc V c t, PhiS0_pos V c _ _ hz]
      have hst := statsAt0_pos V c t hz
      iintro ⟨⟨⟨HS0, HS1, HS2, HR0, HR1, HR2, HR3, HR4, HR5, HR6, HR7, HR8⟩, Hg⟩, Ho, ⟨%d0, H0⟩, ⟨%d1, H1⟩, ⟨%d2, H2⟩⟩
      iapply (triple0_as c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
          (iblk0 V c 0 t) (iblk0 V c 1 t) ((dat0 V c).before 2 t d2) (statsAt0 V c (t.val - 1) (Nat.lt_of_le_of_lt (Nat.sub_le _ _) t.isLt)).1 (statsAt0 V c (t.val - 1) (Nat.lt_of_le_of_lt (Nat.sub_le _ _) t.isLt)).2.1 (statsAt0 V c (t.val - 1) (Nat.lt_of_le_of_lt (Nat.sub_le _ _) t.isLt)).2.2 Set.univ _ ((dat0 V c).before 2 t d2) (statsAt0 V c t.val t.isLt).1 (statsAt0 V c t.val t.isLt).2.1 (statsAt0 V c t.val t.isLt).2.2 (outV0_idle _ h4 _ _ _ _ _ _) (by rw [hst]; rfl) (by rw [hst]; rfl) (by rw [hst]; rfl))
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR0 HR1 HR2 HR3 HR4 HR5 HR6 HR7 HR8 Hg]
      · isplitl [HS0 HS1 HS2 HR0 HR1 HR2 HR3 HR4 HR5 HR6 HR7 HR8]
        · isplitl [HS0]; · iexact HS0
          isplitl [HS1]; · iexact HS1
          isplitl [HS2]; · iexact HS2
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          iexact HR8
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back at some contents: the row statistics are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HS1, HS2, HR0, HR1, HR2, HR3, HR4, HR5, HR6, HR7, HR8⟩, Hg⟩
  isplitl [HS0 HS1 HS2 HR0 HR1 HR2 HR3 HR4 HR5 HR6 HR7 HR8]
  · isplitl [HS0]; · iexists _; iexact HS0
    isplitl [HS1]; · iexists _; iexact HS1
    isplitl [HS2]; · iexists _; iexact HS2
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HR8
  iexact Hg

end Region0

/-! # Region 1 of 1main, at the contents `V` its entry finds -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The column tile's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_4 (grid1.coords t) → cfg1.idle 2 (grid1.coords t) = true := by decide +kernel
theorem noFlush1_2 : ∀ t : Fin cfg1.N, ¬cond1_4 (grid1.coords t) → (cfg1.win 2).flush t = false := by decide +kernel
theorem liveAt1_2 : ∀ t : Fin cfg1.N, cond1_4 (grid1.coords t) → cfg1.idle 2 (grid1.coords t) = false := by decide +kernel

/-! ## The scratch operands and the invariant -/

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The three scratch operands (running maximum, running sum, running diagonal logit). -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

/-- The region's entry invariant with the three scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-! ## The row statistics after each point -/

/-- One point's update of the row statistics (max, sum, diag), from the point's two input blocks. -/
def stepS1 (c : Dev nD) (t : Fin cfg1.N) (s : Vec F S1024x1 .f32 × Vec F S1024x1 .f32 × Vec F S1024x1 .f32) :
    Vec F S1024x1 .f32 × Vec F S1024x1 .f32 × Vec F S1024x1 .f32 :=
  (newM1 (grid1.coords t) (iblk1 V c 0 t) (iblk1 V c 1 t) s.1,
   newL1 (grid1.coords t) (iblk1 V c 0 t) (iblk1 V c 1 t) s.1 s.2.1,
   newD1 (grid1.coords t) (iblk1 V c 0 t) (iblk1 V c 1 t) s.2.2)

/-- Contents nothing reads: what the scratch operands hold before the first point resets them. -/
def junkS1 : Vec F S1024x1 .f32 × Vec F S1024x1 .f32 × Vec F S1024x1 .f32 :=
  (k1_pay2, k1_pay2, k1_pay2)

/-- The row statistics after the body at position `n`: the update at `n` of what position `n - 1` left. -/
def statsAt1 (c : Dev nD) : (n : ℕ) → n < cfg1.N → Vec F S1024x1 .f32 × Vec F S1024x1 .f32 × Vec F S1024x1 .f32
  | 0, hn => stepS1 V c ⟨0, hn⟩ junkS1
  | n + 1, hn => stepS1 V c ⟨n + 1, hn⟩ (statsAt1 c n (Nat.lt_of_succ_lt hn))

theorem statsAt1_pos (c : Dev nD) (t : Fin cfg1.N) (hz : t.val ≠ 0) :
    statsAt1 V c t.val t.isLt = stepS1 V c t (statsAt1 V c (t.val - 1) (Nat.lt_of_le_of_lt (Nat.sub_le _ _) t.isLt)) := by
  obtain ⟨n, hn⟩ := t
  cases n with
  | zero => exact absurd rfl hz
  | succ n => rfl

/-- At a first column tile the update does not depend on what it finds. -/
theorem stepS1_reset (c : Dev nD) (t : Fin cfg1.N) (h : cond1_1 (grid1.coords t)) (s s' : Vec F S1024x1 .f32 × Vec F S1024x1 .f32 × Vec F S1024x1 .f32) :
    stepS1 V c t s = stepS1 V c t s' := by
  unfold stepS1 newM1 newL1 newD1 inM1 inL1 inD1
  simp only [if_pos h]

theorem statsAt1_zero (c : Dev nD) (t : Fin cfg1.N) (hz : t.val = 0) (s : Vec F S1024x1 .f32 × Vec F S1024x1 .f32 × Vec F S1024x1 .f32) :
    statsAt1 V c t.val t.isLt = stepS1 V c t s := by
  obtain ⟨n, hn⟩ := t
  cases n with
  | zero => exact stepS1_reset V c ⟨0, hn⟩ ((hcond1_1 ⟨0, hn⟩).mpr (Nat.zero_mod _)) _ _
  | succ n => exact absurd hz (Nat.succ_ne_zero n)

/-- The region invariant before position `n`: before the first point the scratch operands at anything; afterwards at the
    row statistics the point before left; the other scoped buffers and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scM1_0 fullShare (statsAt1 V c n hn).1 ∗ owns (c : Thread nD τ) scM1_1 fullShare (statsAt1 V c n hn).2.1 ∗ owns (c : Thread nD τ) scM1_2 fullShare (statsAt1 V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scM1_0 fullShare (statsAt1 V c n hn).1 ∗ owns (c : Thread nD τ) scM1_1 fullShare (statsAt1 V c n hn).2.1 ∗ owns (c : Thread nD τ) scM1_2 fullShare (statsAt1 V c n hn).2.2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scM1_0 fullShare (statsAt1 V c (n - 1) (by omega)).1 ∗ owns (c : Thread nD τ) scM1_1 fullShare (statsAt1 V c (n - 1) (by omega)).2.1 ∗ owns (c : Thread nD τ) scM1_2 fullShare (statsAt1 V c (n - 1) (by omega)).2.2) ∗ (∃ r, prngReg c r)) := by
  cases n with
  | zero => exact absurd rfl hz
  | succ n => rfl

/-! ## The pipeline's proof data -/

/-- What the last column tile writes out of the row statistics. -/
def outOf1 (s : Vec F S1024x1 .f32 × Vec F S1024x1 .f32 × Vec F S1024x1 .f32) : Vec F S1024x1 .f32 := k1_pay10 s.1 s.2.1 s.2.2

/-- The proof data of pipeline 1 on core `c`: the arrays as the region finds them; after the body at point `t` each
    input's buffer at its block, the output's at the value of the row statistics there (consulted only at the last
    column tiles, where the window is live and written back); the invariant carries the row statistics. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outOf1 (statsAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outOf1 (statsAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- The body's run with the values it leaves named by the caller. -/
theorem triple1_as (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (x0 : Vec F S1024x128 .f32) (x1 : Vec F S512x128 .f32) (xi2 xs0 xs1 xs2 : Vec F S1024x1 .f32) (E : Set ℕ) (K : PUnit → sProp 𝕄)
    (O M L D : Vec F S1024x1 .f32) (hO : outV1 i x0 x1 xi2 xs0 xs1 xs2 = O) (hM : newM1 i x0 x1 xs0 = M) (hL : newL1 i x0 x1 xs0 xs1 = L) (hD : newD1 i x0 x1 xs2 = D) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare O ∗ owns (c : Thread nD τ) arg5 fullShare M
            ∗ owns (c : Thread nD τ) arg6 fullShare L ∗ owns (c : Thread nD τ) arg7 fullShare D) -∗ K ⟨⟩))
      ⊢ wp frame (wpE (defs₀ (F := F)) Variants.none c none) E (cc1__stats_kernel i arg2 harg2 arg3 harg3 arg4 harg4 arg5 harg5 arg6 harg6 arg7 harg7) K := by
  subst hO hM hL hD
  exact triple1 c i arg2 harg2 arg3 harg3 arg4 harg4 arg5 harg5 arg6 harg6 arg7 harg7 x0 x1 xi2 xs0 xs1 xs2 E K

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem outV1_live (i : grid1.Coords) (h : cond1_4 i) (x0 : Vec F S1024x128 .f32) (x1 : Vec F S512x128 .f32) (xi2 xs0 xs1 xs2 : Vec F S1024x1 .f32) :
    outV1 i x0 x1 xi2 xs0 xs1 xs2 = outOf1 (newM1 i x0 x1 xs0, newL1 i x0 x1 xs0 xs1, newD1 i x0 x1 xs2) := by
  unfold outV1 outOf1; rw [if_pos h]
theorem outV1_idle (i : grid1.Coords) (h : ¬cond1_4 i) (x0 : Vec F S1024x128 .f32) (x1 : Vec F S512x128 .f32) (xi2 xs0 xs1 xs2 : Vec F S1024x1 .f32) :
    outV1 i x0 x1 xi2 xs0 xs1 xs2 = xi2 := by
  unfold outV1; rw [if_neg h]

set_option maxHeartbeats 2000000 in
/-- The body at any point: the inputs' buffers hold their blocks; the invariant hands the scratch operands over at the
    row statistics the point before left (at anything at the very first point, which resets them) and takes them back
    at this point's; the output's buffer is stored only at a last column tile and handed back untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  by_cases h4 : cond1_4 (grid1.coords t)
  · rw [show (dat1 V c).leavesExact 2 t = owns (c : Thread nD τ) (ms1_2 t) fullShare ((dat1 V c).after 2 t) from by
      unfold Dat.leavesExact; rw [liveAt1_2 t h4], after1_2]
    have hz : t.val ≠ 0 := by have := (hcond1_4 t).mp h4; omega
    rw [PhiS1_castSucc V c t, PhiS1_pos V c _ _ hz]
    have hst := statsAt1_pos V c t hz
    iintro ⟨⟨⟨HR0, HR1, HR2, HR3, HR4, HR5, HR6, HR7, HR8, HS0, HS1, HS2⟩, Hg⟩, Ho, ⟨%d0, H0⟩, ⟨%d1, H1⟩, ⟨%d2, H2⟩⟩
    iapply (triple1_as c (grid1.coords t) (ms1_0 t) (hs1_0 t) (ms1_1 t) (hs1_1 t) (ms1_2 t) (hs1_2 t) scM1_0 (Memref.isWhole_whole _) scM1_1 (Memref.isWhole_whole _) scM1_2 (Memref.isWhole_whole _)
        (iblk1 V c 0 t) (iblk1 V c 1 t) ((dat1 V c).before 2 t d2) (statsAt1 V c (t.val - 1) (Nat.lt_of_le_of_lt (Nat.sub_le _ _) t.isLt)).1 (statsAt1 V c (t.val - 1) (Nat.lt_of_le_of_lt (Nat.sub_le _ _) t.isLt)).2.1 (statsAt1 V c (t.val - 1) (Nat.lt_of_le_of_lt (Nat.sub_le _ _) t.isLt)).2.2 Set.univ _ (outOf1 (statsAt1 V c t.val t.isLt)) (statsAt1 V c t.val t.isLt).1 (statsAt1 V c t.val t.isLt).2.1 (statsAt1 V c t.val t.isLt).2.2 ((outV1_live _ h4 _ _ _ _ _ _).trans (by rw [hst]; rfl)) (by rw [hst]; rfl) (by rw [hst]; rfl) (by rw [hst]; rfl))
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 HR0 HR1 HR2 HR3 HR4 HR5 HR6 HR7 HR8 Hg]
    · isplitl [HS0 HS1 HS2 HR0 HR1 HR2 HR3 HR4 HR5 HR6 HR7 HR8]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HS0]; · iexact HS0
        isplitl [HS1]; · iexact HS1
        iexact HS2
      iexact Hg
    isplitl [Ho]; · iexact Ho
    isplitl [H0]; · iexact H0
    isplitl [H1]; · iexact H1
    iexact H2
  · rw [Dat.leavesExact_idle (dat1 V c) 2 t (idleAt1_2 t h4) (noFlush1_2 t h4)]
    by_cases hz : t.val = 0
    · rw [PhiS1_castSucc V c t, PhiS1_zero V c _ _ hz, PhiA1_eq]
      iintro ⟨⟨⟨HR0, HR1, HR2, HR3, HR4, HR5, HR6, HR7, HR8, ⟨%e0, HS0⟩, ⟨%e1, HS1⟩, ⟨%e2, HS2⟩⟩, Hg⟩, Ho, ⟨%d0, H0⟩, ⟨%d1, H1⟩, ⟨%d2, H2⟩⟩
      have hst := statsAt1_zero V c t hz (e0, e1, e2)
      iapply (triple1_as c (grid1.coords t) (ms1_0 t) (hs1_0 t) (ms1_1 t) (hs1_1 t) (ms1_2 t) (hs1_2 t) scM1_0 (Memref.isWhole_whole _) scM1_1 (Memref.isWhole_whole _) scM1_2 (Memref.isWhole_whole _)
          (iblk1 V c 0 t) (iblk1 V c 1 t) ((dat1 V c).before 2 t d2) e0 e1 e2 Set.univ _ ((dat1 V c).before 2 t d2) (statsAt1 V c t.val t.isLt).1 (statsAt1 V c t.val t.isLt).2.1 (statsAt1 V c t.val t.isLt).2.2 (outV1_idle _ h4 _ _ _ _ _ _) (by rw [hst]; rfl) (by rw [hst]; rfl) (by rw [hst]; rfl))
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR0 HR1 HR2 HR3 HR4 HR5 HR6 HR7 HR8 Hg]
      · isplitl [HS0 HS1 HS2 HR0 HR1 HR2 HR3 HR4 HR5 HR6 HR7 HR8]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HS0]; · iexact HS0
          isplitl [HS1]; · iexact HS1
          iexact HS2
        iexact Hg
      isplitl [Ho]; · iexact Ho
      isplitl [H0]; · iexact H0
      isplitl [H1]; · iexact H1
      iexists _; iexact H2
    · rw [PhiS1_castSucc V c t, PhiS1_pos V c _ _ hz]
      have hst := statsAt1_pos V c t hz
      iintro ⟨⟨⟨HR0, HR1, HR2, HR3, HR4, HR5, HR6, HR7, HR8, HS0, HS1, HS2⟩, Hg⟩, Ho, ⟨%d0, H0⟩, ⟨%d1, H1⟩, ⟨%d2, H2⟩⟩
      iapply (triple1_as c (grid1.coords t) (ms1_0 t) (hs1_0 t) (ms1_1 t) (hs1_1 t) (ms1_2 t) (hs1_2 t) scM1_0 (Memref.isWhole_whole _) scM1_1 (Memref.isWhole_whole _) scM1_2 (Memref.isWhole_whole _)
          (iblk1 V c 0 t) (iblk1 V c 1 t) ((dat1 V c).before 2 t d2) (statsAt1 V c (t.val - 1) (Nat.lt_of_le_of_lt (Nat.sub_le _ _) t.isLt)).1 (statsAt1 V c (t.val - 1) (Nat.lt_of_le_of_lt (Nat.sub_le _ _) t.isLt)).2.1 (statsAt1 V c (t.val - 1) (Nat.lt_of_le_of_lt (Nat.sub_le _ _) t.isLt)).2.2 Set.univ _ ((dat1 V c).before 2 t d2) (statsAt1 V c t.val t.isLt).1 (statsAt1 V c t.val t.isLt).2.1 (statsAt1 V c t.val t.isLt).2.2 (outV1_idle _ h4 _ _ _ _ _ _) (by rw [hst]; rfl) (by rw [hst]; rfl) (by rw [hst]; rfl))
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR0 HR1 HR2 HR3 HR4 HR5 HR6 HR7 HR8 Hg]
      · isplitl [HS0 HS1 HS2 HR0 HR1 HR2 HR3 HR4 HR5 HR6 HR7 HR8]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HS0]; · iexact HS0
          isplitl [HS1]; · iexact HS1
          iexact HS2
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back at some contents: the row statistics are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HR0, HR1, HR2, HR3, HR4, HR5, HR6, HR7, HR8, HS0, HS1, HS2⟩, Hg⟩
  isplitl [HS0 HS1 HS2 HR0 HR1 HR2 HR3 HR4 HR5 HR6 HR7 HR8]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HS0]; · iexists _; iexact HS0
    isplitl [HS1]; · iexists _; iexact HS1
    iexists _; iexact HS2
  iexact Hg

end Region1

end Cert.Kernel.Hand

end
-- ==== Proof.K.Run.lean ====
/-
  The contents of every unscoped buffer at each boundary between @main's segments (host operations, the first
  statistics call, a reshape, the second call, the host operations that average the two row means and guard the
  result), and the two calls as segments over those contents.
-/
import proofs.«162174_j13649406066960_2_alg».proof.Proof.K.Region

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run: @main's segments from the launch to the return -/

variable (m : (ℓ : Loc nD τ sig) → Buf (Elt F) ℓ) (ρ : Dev nD → PrngReg)

/-- Core `c`'s buffers at launch. -/
abbrev W0 : Dev nD → Valuation τ sig (Elt F) := fun c b => m (c, b)
/-- After the two reshapes (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape of the first call's result (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host operations that follow the second call: the means, their average and the guard. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor

/-- The last thread state without the `owes`. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W1`, left at `W2`. Its arrays are split out of the
    unscoped buffers and put back at the exit contents; the generator register goes into the region's invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 : (pdats m 0 c).Φ (Fin.last _) ⊢ (Pipeline.ΦA spec0 c : sProp 𝕄) := hout0 (V1 m) c
    unfold Pipeline.ΦA at h1
    iintro H
    ihave H' := h1 $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of the
    unscoped buffers and put back at the exit contents; the generator register goes into the region's invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m 1 c).Φ (Fin.last _) ⊢ (Pipeline.ΦA spec1 c : sProp 𝕄) := hout1 (V3 m) c
    unfold Pipeline.ΦA at h1
    iintro H
    ihave H' := h1 $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Main.lean ====
/-
  The whole program's run: every weakly fair execution of @main terminates, nothing faulting, and ends with each
  unscoped buffer at the last segment boundary's contents.
-/
import proofs.«162174_j13649406066960_2_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and in every
    final state each unscoped buffer holds what the fold of @main's segments over the launch memory computes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c) ⊢ (iprop(Tₙ m c ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

end Cert.Kernel.Hand

end
-- ==== Proof.K.Frame.lean ====
/-
  The frame: every weakly fair execution of @main terminates, nothing faulting, and the two argument arrays end as
  launched — no host operation writes them and the two calls read them only through reshaped copies.
-/
import proofs.«162174_j13649406066960_2_alg».proof.Proof.K.Main
import proofs.«162174_j13649406066960_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No host operation and no region writes `main_arg0`: the fold at its buffer walks back to the launch memory. -/
theorem W8_main_arg0 (c : Dev nD) : W8 m c (Proc.devRef .tc main_arg0) = m ((c : Thread nD τ).loc main_arg0) :=
  (StableHlo.after_of_writes_sub hostOps2_3 _ hostOps2_3_writes (r := main_arg0) (by decide)).trans <|
  (StableHlo.after_of_writes_sub hostOps2_2 _ hostOps2_2_writes (r := main_arg0) (by decide)).trans <|
  (StableHlo.after_of_writes_sub hostOps2_1 _ hostOps2_1_writes (r := main_arg0) (by decide)).trans <|
  (StableHlo.after_of_writes_sub hostOps2 _ hostOps2_writes (r := main_arg0) (by decide)).trans <|
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl

/-- No host operation and no region writes `main_arg1`: the fold at its buffer walks back to the launch memory. -/
theorem W8_main_arg1 (c : Dev nD) : W8 m c (Proc.devRef .tc main_arg1) = m ((c : Thread nD τ).loc main_arg1) :=
  (StableHlo.after_of_writes_sub hostOps2_3 _ hostOps2_3_writes (r := main_arg1) (by decide)).trans <|
  (StableHlo.after_of_writes_sub hostOps2_2 _ hostOps2_2_writes (r := main_arg1) (by decide)).trans <|
  (StableHlo.after_of_writes_sub hostOps2_1 _ hostOps2_1_writes (r := main_arg1) (by decide)).trans <|
  (StableHlo.after_of_writes_sub hostOps2 _ hostOps2_writes (r := main_arg1) (by decide)).trans <|
  (W4_of_ne m c main_arg1 (by decide)).trans <|
  (StableHlo.after_of_writes_sub hostOps1 _ hostOps1_writes (r := main_arg1) (by decide)).trans <|
  (W2_of_ne m c main_arg1 (by decide)).trans <|
  (StableHlo.after_of_writes_sub hostOps0 _ hostOps0_writes (r := main_arg1) (by decide)).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W8_main_arg0 m c),
     (h c _ (mem_uc main_arg1 (by decide))).trans (W8_main_arg1 m c)⟩) (run_all m ρ)

end Cert.Kernel.Hand

end
-- ==== Proof.KI.Conds.lean ====
/-
  The branch conditions of the statistics kernel, as functions of the grid point (row tile i, column tile j),
  and their closed forms over the 8 x 16 grid: "first column tile" (j = 0), "the tile meets the block diagonal"
  (512 j < 1024 i + 1024 and 1024 i < 512 j + 512, that is j / 2 = i), its negation, and "last column tile" (j = 15).
-/
import proofs.«162174_j13649406066960_2_alg».proof.Proof.Gen.KernelIdeal.Launch
import proofs.«162174_j13649406066960_2_alg».proof.Proof.Gen.KernelIdeal.Skeleton
import proofs.«162174_j13649406066960_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Region 0 -/

/-- First row of the tile: 1024 i. -/
abbrev row0_0 (i : grid0.Coords) : BitVec 32 := Scalar.muli (BitVec.ofNat 32 (i 0).val) 1024#32
/-- First column of the tile: 512 j. -/
abbrev col0_0 (i : grid0.Coords) : BitVec 32 := Scalar.muli (BitVec.ofNat 32 (i 1).val) 512#32
/-- The tile's row range and column range overlap. -/
abbrev meets0 (i : grid0.Coords) : BitVec 1 :=
  Scalar.andi (Scalar.cmpi .slt (col0_0 i) (Scalar.addi (row0_0 i) 1024#32)) (Scalar.cmpi .slt (row0_0 i) (Scalar.addi (col0_0 i) 512#32))

/-- j = 0: the running statistics are reset. -/
abbrev cond0_1 (i : grid0.Coords) : Prop :=
  Scalar.cmpi .ne (Scalar.extui (Scalar.cmpi .eq (BitVec.ofNat 32 (i 1).val) 0#32) : BitVec 32) 0#32 = 1#1
/-- The tile meets the block diagonal: the masked update. -/
abbrev cond0_2 (i : grid0.Coords) : Prop :=
  Scalar.cmpi .ne (Scalar.extui (meets0 i) : BitVec 32) 0#32 = 1#1
/-- The tile does not meet the block diagonal: the plain update. -/
abbrev cond0_3 (i : grid0.Coords) : Prop :=
  Scalar.cmpi .ne (Scalar.extui (Scalar.xori (meets0 i) 1#1) : BitVec 32) 0#32 = 1#1
/-- j = 15: the row statistics are written out. -/
abbrev cond0_4 (i : grid0.Coords) : Prop := k0_cond4 i = 1#1

theorem hcond0_1 : ∀ t : Fin cfg0.N, cond0_1 (grid0.coords t) ↔ t.val % 16 = 0 :=
  (by decide +kernel : ∀ t : Fin grid0.N, cond0_1 (grid0.coords t) ↔ t.val % 16 = 0)
theorem hcond0_2 : ∀ t : Fin cfg0.N, cond0_2 (grid0.coords t) ↔ (t.val % 16) / 2 = t.val / 16 :=
  (by decide +kernel : ∀ t : Fin grid0.N, cond0_2 (grid0.coords t) ↔ (t.val % 16) / 2 = t.val / 16)
theorem hcond0_3 : ∀ t : Fin cfg0.N, cond0_3 (grid0.coords t) ↔ ¬ (t.val % 16) / 2 = t.val / 16 :=
  (by decide +kernel : ∀ t : Fin grid0.N, cond0_3 (grid0.coords t) ↔ ¬ (t.val % 16) / 2 = t.val / 16)
theorem hcond0_4 : ∀ t : Fin cfg0.N, cond0_4 (grid0.coords t) ↔ t.val % 16 = 15 :=
  (by decide +kernel : ∀ t : Fin grid0.N, cond0_4 (grid0.coords t) ↔ t.val % 16 = 15)

/-! ## Region 1 -/

/-- First row of the tile: 1024 i. -/
abbrev row1_0 (i : grid1.Coords) : BitVec 32 := Scalar.muli (BitVec.ofNat 32 (i 0).val) 1024#32
/-- First column of the tile: 512 j. -/
abbrev col1_0 (i : grid1.Coords) : BitVec 32 := Scalar.muli (BitVec.ofNat 32 (i 1).val) 512#32
/-- The tile's row range and column range overlap. -/
abbrev meets1 (i : grid1.Coords) : BitVec 1 :=
  Scalar.andi (Scalar.cmpi .slt (col1_0 i) (Scalar.addi (row1_0 i) 1024#32)) (Scalar.cmpi .slt (row1_0 i) (Scalar.addi (col1_0 i) 512#32))

/-- j = 0: the running statistics are reset. -/
abbrev cond1_1 (i : grid1.Coords) : Prop :=
  Scalar.cmpi .ne (Scalar.extui (Scalar.cmpi .eq (BitVec.ofNat 32 (i 1).val) 0#32) : BitVec 32) 0#32 = 1#1
/-- The tile meets the block diagonal: the masked update. -/
abbrev cond1_2 (i : grid1.Coords) : Prop :=
  Scalar.cmpi .ne (Scalar.extui (meets1 i) : BitVec 32) 0#32 = 1#1
/-- The tile does not meet the block diagonal: the plain update. -/
abbrev cond1_3 (i : grid1.Coords) : Prop :=
  Scalar.cmpi .ne (Scalar.extui (Scalar.xori (meets1 i) 1#1) : BitVec 32) 0#32 = 1#1
/-- j = 15: the row statistics are written out. -/
abbrev cond1_4 (i : grid1.Coords) : Prop := k1_cond4 i = 1#1

theorem hcond1_1 : ∀ t : Fin cfg1.N, cond1_1 (grid1.coords t) ↔ t.val % 16 = 0 :=
  (by decide +kernel : ∀ t : Fin grid1.N, cond1_1 (grid1.coords t) ↔ t.val % 16 = 0)
theorem hcond1_2 : ∀ t : Fin cfg1.N, cond1_2 (grid1.coords t) ↔ (t.val % 16) / 2 = t.val / 16 :=
  (by decide +kernel : ∀ t : Fin grid1.N, cond1_2 (grid1.coords t) ↔ (t.val % 16) / 2 = t.val / 16)
theorem hcond1_3 : ∀ t : Fin cfg1.N, cond1_3 (grid1.coords t) ↔ ¬ (t.val % 16) / 2 = t.val / 16 :=
  (by decide +kernel : ∀ t : Fin grid1.N, cond1_3 (grid1.coords t) ↔ ¬ (t.val % 16) / 2 = t.val / 16)
theorem hcond1_4 : ∀ t : Fin cfg1.N, cond1_4 (grid1.coords t) ↔ t.val % 16 = 15 :=
  (by decide +kernel : ∀ t : Fin grid1.N, cond1_4 (grid1.coords t) ↔ t.val % 16 = 15)

end Cert.KernelIdeal.Hand

end
-- ==== Proof.KI.Step.lean ====
/-
  The statistics kernel's update of its running row statistics at one grid point, as pure functions of the
  two input blocks and of the statistics the point finds: the running maximum, the running sum of exponentials
  and the running diagonal logit of each of the tile's 1024 rows; and what the point leaves in the output block.
  At the first column tile the statistics are reset first (to -inf, 0, 0); a tile that meets the block diagonal
  takes the masked update, any other tile the plain one; the last column tile writes max + log(sum) - diag out.
-/
import proofs.«162174_j13649406066960_2_alg».proof.Proof.KI.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Region 0 -/

theorem cond0_3_iff (i : grid0.Coords) : cond0_3 i ↔ ¬cond0_2 i := by
  show (Scalar.cmpi .ne (Scalar.extui (Scalar.xori (meets0 i) 1#1) : BitVec 32) 0#32 = 1#1)
    ↔ ¬ (Scalar.cmpi .ne (Scalar.extui (meets0 i) : BitVec 32) 0#32 = 1#1)
  generalize meets0 i = b
  rcases BitVec.eq_zero_or_eq_one b with h | h <;> subst h <;> decide

/-- The running maximum as the update finds it. -/
def inM0 (i : grid0.Coords) (xs0 : Vec F S1024x1 .f32) : Vec F S1024x1 .f32 := if cond0_1 i then k0_pay1 else xs0
/-- The running sum as the update finds it. -/
def inL0 (i : grid0.Coords) (xs1 : Vec F S1024x1 .f32) : Vec F S1024x1 .f32 := if cond0_1 i then k0_pay2 else xs1
/-- The running diagonal logit as the update finds it. -/
def inD0 (i : grid0.Coords) (xs2 : Vec F S1024x1 .f32) : Vec F S1024x1 .f32 := if cond0_1 i then k0_pay3 else xs2

/-- The new running maximum. -/
def newM0 (i : grid0.Coords) (x0 : Vec F S1024x128 .f32) (x1 : Vec F S512x128 .f32) (xs0 : Vec F S1024x1 .f32) : Vec F S1024x1 .f32 :=
  if cond0_2 i then
    k0_pay21 (k0_pay4 x0 x1) (k0_pay11 (row0_0 i)) (k0_pay12 (col0_0 i)) (k0_pay13 (row0_0 i)) (k0_pay14 (col0_0 i)) (k0_pay15 (col0_0 i)) (k0_pay16 (col0_0 i)) (inM0 i xs0)
  else k0_pay8 x0 x1 (inM0 i xs0)
/-- The new running sum of exponentials. -/
def newL0 (i : grid0.Coords) (x0 : Vec F S1024x128 .f32) (x1 : Vec F S512x128 .f32) (xs0 xs1 : Vec F S1024x1 .f32) : Vec F S1024x1 .f32 :=
  if cond0_2 i then
    k0_pay20 (k0_pay4 x0 x1) (k0_pay11 (row0_0 i)) (k0_pay12 (col0_0 i)) (k0_pay13 (row0_0 i)) (k0_pay14 (col0_0 i)) (k0_pay15 (col0_0 i)) (k0_pay16 (col0_0 i)) (inM0 i xs0) (inL0 i xs1)
  else k0_pay7 x0 x1 (inM0 i xs0) (inL0 i xs1)
/-- The new running diagonal logit. -/
def newD0 (i : grid0.Coords) (x0 : Vec F S1024x128 .f32) (x1 : Vec F S512x128 .f32) (xs2 : Vec F S1024x1 .f32) : Vec F S1024x1 .f32 :=
  if cond0_2 i then k0_pay5 (k0_pay22 (k0_pay4 x0 x1) (k0_pay11 (row0_0 i)) (k0_pay12 (col0_0 i)) (inD0 i xs2))
  else k0_pay9 (inD0 i xs2)
/-- What the point leaves in the output block: at the last column tile the row statistics' value, otherwise what it found. -/
def outV0 (i : grid0.Coords) (x0 : Vec F S1024x128 .f32) (x1 : Vec F S512x128 .f32) (xi2 xs0 xs1 xs2 : Vec F S1024x1 .f32) : Vec F S1024x1 .f32 :=
  if cond0_4 i then k0_pay10 (newM0 i x0 x1 xs0) (newL0 i x0 x1 xs0 xs1) (newD0 i x0 x1 xs2) else xi2

/-! ## Region 1 -/

theorem cond1_3_iff (i : grid1.Coords) : cond1_3 i ↔ ¬cond1_2 i := by
  show (Scalar.cmpi .ne (Scalar.extui (Scalar.xori (meets1 i) 1#1) : BitVec 32) 0#32 = 1#1)
    ↔ ¬ (Scalar.cmpi .ne (Scalar.extui (meets1 i) : BitVec 32) 0#32 = 1#1)
  generalize meets1 i = b
  rcases BitVec.eq_zero_or_eq_one b with h | h <;> subst h <;> decide

/-- The running maximum as the update finds it. -/
def inM1 (i : grid1.Coords) (xs0 : Vec F S1024x1 .f32) : Vec F S1024x1 .f32 := if cond1_1 i then k1_pay1 else xs0
/-- The running sum as the update finds it. -/
def inL1 (i : grid1.Coords) (xs1 : Vec F S1024x1 .f32) : Vec F S1024x1 .f32 := if cond1_1 i then k1_pay2 else xs1
/-- The running diagonal logit as the update finds it. -/
def inD1 (i : grid1.Coords) (xs2 : Vec F S1024x1 .f32) : Vec F S1024x1 .f32 := if cond1_1 i then k1_pay3 else xs2

/-- The new running maximum. -/
def newM1 (i : grid1.Coords) (x0 : Vec F S1024x128 .f32) (x1 : Vec F S512x128 .f32) (xs0 : Vec F S1024x1 .f32) : Vec F S1024x1 .f32 :=
  if cond1_2 i then
    k1_pay21 (k1_pay4 x0 x1) (k1_pay11 (row1_0 i)) (k1_pay12 (col1_0 i)) (k1_pay13 (row1_0 i)) (k1_pay14 (col1_0 i)) (k1_pay15 (col1_0 i)) (k1_pay16 (col1_0 i)) (inM1 i xs0)
  else k1_pay8 x0 x1 (inM1 i xs0)
/-- The new running sum of exponentials. -/
def newL1 (i : grid1.Coords) (x0 : Vec F S1024x128 .f32) (x1 : Vec F S512x128 .f32) (xs0 xs1 : Vec F S1024x1 .f32) : Vec F S1024x1 .f32 :=
  if cond1_2 i then
    k1_pay20 (k1_pay4 x0 x1) (k1_pay11 (row1_0 i)) (k1_pay12 (col1_0 i)) (k1_pay13 (row1_0 i)) (k1_pay14 (col1_0 i)) (k1_pay15 (col1_0 i)) (k1_pay16 (col1_0 i)) (inM1 i xs0) (inL1 i xs1)
  else k1_pay7 x0 x1 (inM1 i xs0) (inL1 i xs1)
/-- The new running diagonal logit. -/
def newD1 (i : grid1.Coords) (x0 : Vec F S1024x128 .f32) (x1 : Vec F S512x128 .f32) (xs2 : Vec F S1024x1 .f32) : Vec F S1024x1 .f32 :=
  if cond1_2 i then k1_pay5 (k1_pay22 (k1_pay4 x0 x1) (k1_pay11 (row1_0 i)) (k1_pay12 (col1_0 i)) (inD1 i xs2))
  else k1_pay9 (inD1 i xs2)
/-- What the point leaves in the output block: at the last column tile the row statistics' value, otherwise what it found. -/
def outV1 (i : grid1.Coords) (x0 : Vec F S1024x128 .f32) (x1 : Vec F S512x128 .f32) (xi2 xs0 xs1 xs2 : Vec F S1024x1 .f32) : Vec F S1024x1 .f32 :=
  if cond1_4 i then k1_pay10 (newM1 i x0 x1 xs0) (newL1 i x0 x1 xs0 xs1) (newD1 i x0 x1 xs2) else xi2

end Cert.KernelIdeal.Hand

end
-- ==== Proof.KI.Body0_0.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.KI.Step
import proofs.«162174_j13649406066960_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
theorem triple0_TTT (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond0_1 i) (hc2 : cond0_2 i) (hc4 : cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : ¬cond0_3 i := fun h => (cond0_3_iff i).mp h hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV0 newM0 newL0 newD0 inM0 inL0 inD0
    simp only [if_pos hc1, if_pos hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_pos hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_pos hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_pos hc1, if_pos hc2]
  try rfl

set_option maxHeartbeats 1000000 in
theorem triple0_TTF (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond0_1 i) (hc2 : cond0_2 i) (hc4 : ¬cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : ¬cond0_3 i := fun h => (cond0_3_iff i).mp h hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV0
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_pos hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_pos hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_pos hc1, if_pos hc2]
  try rfl

end Cert.KernelIdeal.Hand

end
-- ==== Proof.KI.Body0_1.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.KI.Step
import proofs.«162174_j13649406066960_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
theorem triple0_TFT (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond0_1 i) (hc2 : ¬cond0_2 i) (hc4 : cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : cond0_3 i := (cond0_3_iff i).mpr hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV0 newM0 newL0 newD0 inM0 inL0 inD0
    simp only [if_pos hc1, if_neg hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_pos hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_pos hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_pos hc1, if_neg hc2]
  try rfl

set_option maxHeartbeats 1000000 in
theorem triple0_TFF (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond0_1 i) (hc2 : ¬cond0_2 i) (hc4 : ¬cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : cond0_3 i := (cond0_3_iff i).mpr hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV0
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_pos hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_pos hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_pos hc1, if_neg hc2]
  try rfl

end Cert.KernelIdeal.Hand

end
-- ==== Proof.KI.Body0_2.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.KI.Step
import proofs.«162174_j13649406066960_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
theorem triple0_FTT (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond0_1 i) (hc2 : cond0_2 i) (hc4 : cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : ¬cond0_3 i := fun h => (cond0_3_iff i).mp h hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV0 newM0 newL0 newD0 inM0 inL0 inD0
    simp only [if_neg hc1, if_pos hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_neg hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_neg hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_neg hc1, if_pos hc2]
  try rfl

set_option maxHeartbeats 1000000 in
theorem triple0_FTF (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond0_1 i) (hc2 : cond0_2 i) (hc4 : ¬cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : ¬cond0_3 i := fun h => (cond0_3_iff i).mp h hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV0
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_neg hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_neg hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_neg hc1, if_pos hc2]
  try rfl

end Cert.KernelIdeal.Hand

end
-- ==== Proof.KI.Body0_3.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.KI.Step
import proofs.«162174_j13649406066960_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
theorem triple0_FFT (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond0_1 i) (hc2 : ¬cond0_2 i) (hc4 : cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : cond0_3 i := (cond0_3_iff i).mpr hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV0 newM0 newL0 newD0 inM0 inL0 inD0
    simp only [if_neg hc1, if_neg hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_neg hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_neg hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_neg hc1, if_neg hc2]
  try rfl

set_option maxHeartbeats 1000000 in
theorem triple0_FFF (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond0_1 i) (hc2 : ¬cond0_2 i) (hc4 : ¬cond0_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  have hc3 : cond0_3 i := (cond0_3_iff i).mpr hc2
  simp only [cc0__stats_kernel_eq_skeleton]; unfold cc0__stats_kernel_skel
  simp only [k0_part1_eq_skeleton, k0_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV0
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM0 inM0
    simp only [if_neg hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL0 inM0 inL0
    simp only [if_neg hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD0 inD0
  simp only [if_neg hc1, if_neg hc2]
  try rfl

end Cert.KernelIdeal.Hand

end
-- ==== Proof.KI.Body0.lean ====
/-
  The statistics kernel's body at any grid point: by cases on its conditions.
-/
import proofs.«162174_j13649406066960_2_alg».proof.Proof.KI.Body0_0
import proofs.«162174_j13649406066960_2_alg».proof.Proof.KI.Body0_1
import proofs.«162174_j13649406066960_2_alg».proof.Proof.KI.Body0_2
import proofs.«162174_j13649406066960_2_alg».proof.Proof.KI.Body0_3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem triple0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV0 i x0 x1 xi2 xs0 xs1 xs2)
            ∗ owns (c : Thread nD τ) arg5 fullShare (newM0 i x0 x1 xs0)
            ∗ owns (c : Thread nD τ) arg6 fullShare (newL0 i x0 x1 xs0 xs1)
            ∗ owns (c : Thread nD τ) arg7 fullShare (newD0 i x0 x1 xs2)) -∗ K ⟨⟩))
      ⊢ wp frame (wpE (defs₀ (F := F)) Variants.none c none) E (cc0__stats_kernel i arg2 harg2 arg3 harg3 arg4 harg4 arg5 harg5 arg6 harg6 arg7 harg7) K := by
  by_cases hc1 : cond0_1 i <;> by_cases hc2 : cond0_2 i <;> by_cases hc4 : cond0_4 i
  · exact triple0_TTT c i arg2 harg2 arg3 harg3 arg4 harg4 arg5 harg5 arg6 harg6 arg7 harg7 hc1 hc2 hc4 x0 x1 xi2 xs0 xs1 xs2 E K
  · exact triple0_TTF c i arg2 harg2 arg3 harg3 arg4 harg4 arg5 harg5 arg6 harg6 arg7 harg7 hc1 hc2 hc4 x0 x1 xi2 xs0 xs1 xs2 E K
  · exact triple0_TFT c i arg2 harg2 arg3 harg3 arg4 harg4 arg5 harg5 arg6 harg6 arg7 harg7 hc1 hc2 hc4 x0 x1 xi2 xs0 xs1 xs2 E K
  · exact triple0_TFF c i arg2 harg2 arg3 harg3 arg4 harg4 arg5 harg5 arg6 harg6 arg7 harg7 hc1 hc2 hc4 x0 x1 xi2 xs0 xs1 xs2 E K
  · exact triple0_FTT c i arg2 harg2 arg3 harg3 arg4 harg4 arg5 harg5 arg6 harg6 arg7 harg7 hc1 hc2 hc4 x0 x1 xi2 xs0 xs1 xs2 E K
  · exact triple0_FTF c i arg2 harg2 arg3 harg3 arg4 harg4 arg5 harg5 arg6 harg6 arg7 harg7 hc1 hc2 hc4 x0 x1 xi2 xs0 xs1 xs2 E K
  · exact triple0_FFT c i arg2 harg2 arg3 harg3 arg4 harg4 arg5 harg5 arg6 harg6 arg7 harg7 hc1 hc2 hc4 x0 x1 xi2 xs0 xs1 xs2 E K
  · exact triple0_FFF c i arg2 harg2 arg3 harg3 arg4 harg4 arg5 harg5 arg6 harg6 arg7 harg7 hc1 hc2 hc4 x0 x1 xi2 xs0 xs1 xs2 E K

end Cert.KernelIdeal.Hand

end
-- ==== Proof.KI.Body1_0.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.KI.Step
import proofs.«162174_j13649406066960_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
theorem triple1_TTT (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond1_1 i) (hc2 : cond1_2 i) (hc4 : cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : ¬cond1_3 i := fun h => (cond1_3_iff i).mp h hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV1 newM1 newL1 newD1 inM1 inL1 inD1
    simp only [if_pos hc1, if_pos hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_pos hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_pos hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_pos hc1, if_pos hc2]
  try rfl

set_option maxHeartbeats 1000000 in
theorem triple1_TTF (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond1_1 i) (hc2 : cond1_2 i) (hc4 : ¬cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : ¬cond1_3 i := fun h => (cond1_3_iff i).mp h hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV1
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_pos hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_pos hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_pos hc1, if_pos hc2]
  try rfl

end Cert.KernelIdeal.Hand

end
-- ==== Proof.KI.Body1_1.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.KI.Step
import proofs.«162174_j13649406066960_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
theorem triple1_TFT (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond1_1 i) (hc2 : ¬cond1_2 i) (hc4 : cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : cond1_3 i := (cond1_3_iff i).mpr hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV1 newM1 newL1 newD1 inM1 inL1 inD1
    simp only [if_pos hc1, if_neg hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_pos hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_pos hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_pos hc1, if_neg hc2]
  try rfl

set_option maxHeartbeats 1000000 in
theorem triple1_TFF (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : cond1_1 i) (hc2 : ¬cond1_2 i) (hc4 : ¬cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : cond1_3 i := (cond1_3_iff i).mpr hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV1
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_pos hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_pos hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_pos hc1, if_neg hc2]
  try rfl

end Cert.KernelIdeal.Hand

end
-- ==== Proof.KI.Body1_2.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.KI.Step
import proofs.«162174_j13649406066960_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
theorem triple1_FTT (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond1_1 i) (hc2 : cond1_2 i) (hc4 : cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : ¬cond1_3 i := fun h => (cond1_3_iff i).mp h hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV1 newM1 newL1 newD1 inM1 inL1 inD1
    simp only [if_neg hc1, if_pos hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_neg hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_neg hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_neg hc1, if_pos hc2]
  try rfl

set_option maxHeartbeats 1000000 in
theorem triple1_FTF (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond1_1 i) (hc2 : cond1_2 i) (hc4 : ¬cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : ¬cond1_3 i := fun h => (cond1_3_iff i).mp h hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV1
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_neg hc1, if_pos hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_neg hc1, if_pos hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_neg hc1, if_pos hc2]
  try rfl

end Cert.KernelIdeal.Hand

end
-- ==== Proof.KI.Body1_3.lean ====
/-
  The statistics kernel's body, run on whole staging buffers and scratch operands holding given vectors, leaves
  in each of them the update's value (two of the eight assignments of its three independent conditions: first
  column tile or not, tile on the block diagonal or not, last column tile or not).
-/
import proofs.«162174_j13649406066960_2_alg».proof.Proof.KI.Step
import proofs.«162174_j13649406066960_2_alg».proof.Proof.LibWholeStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
theorem triple1_FFT (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond1_1 i) (hc2 : ¬cond1_2 i) (hc4 : cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : cond1_3 i := (cond1_3_iff i).mpr hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold outV1 newM1 newL1 newD1 inM1 inL1 inD1
    simp only [if_neg hc1, if_neg hc2, if_pos hc4]
    try rfl
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_neg hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_neg hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_neg hc1, if_neg hc2]
  try rfl

set_option maxHeartbeats 1000000 in
theorem triple1_FFF (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (hc1 : ¬cond1_1 i) (hc2 : ¬cond1_2 i) (hc4 : ¬cond1_4 i)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  have hc3 : cond1_3 i := (cond1_3_iff i).mpr hc2
  simp only [cc1__stats_kernel_eq_skeleton]; unfold cc1__stats_kernel_skel
  simp only [k1_part1_eq_skeleton, k1_part2_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    refine (harg4.read_unread _).trans ?_
    unfold outV1
    simp only [if_neg hc4]
  isplitl [HS0]
  · iexists _; isplitr
    swap; · iexact HS0
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newM1 inM1
    simp only [if_neg hc1, if_neg hc2]
    try rfl
  isplitl [HS1]
  · iexists _; isplitr
    swap; · iexact HS1
    ipureintro
    refine (Cert.Lib.read_writes_cons_whole _ _ Cert.Lib.off2 _ _ _).trans ?_
    sl_unfold_run_names
    simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
    unfold newL1 inM1 inL1
    simp only [if_neg hc1, if_neg hc2]
    try rfl
  iexists _; isplitr
  swap; · iexact HS2
  ipureintro
  refine (Cert.Lib.read_writes_cons_whole _ _ Cert.Lib.off2 _ _ _).trans ?_
  sl_unfold_run_names
  simp only [View.readAt_eq_ld, Memref.IsWhole.read_unread, View.ld_unit_zero (S := S1024x128) Cert.Lib.off2, View.ld_unit_zero (S := S512x128) Cert.Lib.off2, View.ld_unit_zero (S := S1024x1) Cert.Lib.off2, Cert.Lib.readCov_cons_whole (S := S1024x1) _ Cert.Lib.off2]
  unfold newD1 inD1
  simp only [if_neg hc1, if_neg hc2]
  try rfl

end Cert.KernelIdeal.Hand

end
-- ==== Proof.KI.Body1.lean ====
/-
  The statistics kernel's body at any grid point: by cases on its conditions.
-/
import proofs.«162174_j13649406066960_2_alg».proof.Proof.KI.Body1_0
import proofs.«162174_j13649406066960_2_alg».proof.Proof.KI.Body1_1
import proofs.«162174_j13649406066960_2_alg».proof.Proof.KI.Body1_2
import proofs.«162174_j13649406066960_2_alg».proof.Proof.KI.Body1_3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem triple1 (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (x0 : Vec F S1024x128 .f32) (x1 : Vec F S512x128 .f32) (xi2 xs0 xs1 xs2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outV1 i x0 x1 xi2 xs0 xs1 xs2)
            ∗ owns (c : Thread nD τ) arg5 fullShare (newM1 i x0 x1 xs0)
            ∗ owns (c : Thread nD τ) arg6 fullShare (newL1 i x0 x1 xs0 xs1)
            ∗ owns (c : Thread nD τ) arg7 fullShare (newD1 i x0 x1 xs2)) -∗ K ⟨⟩))
      ⊢ wp frame (wpE (defs₀ (F := F)) Variants.none c none) E (cc1__stats_kernel i arg2 harg2 arg3 harg3 arg4 harg4 arg5 harg5 arg6 harg6 arg7 harg7) K := by
  by_cases hc1 : cond1_1 i <;> by_cases hc2 : cond1_2 i <;> by_cases hc4 : cond1_4 i
  · exact triple1_TTT c i arg2 harg2 arg3 harg3 arg4 harg4 arg5 harg5 arg6 harg6 arg7 harg7 hc1 hc2 hc4 x0 x1 xi2 xs0 xs1 xs2 E K
  · exact triple1_TTF c i arg2 harg2 arg3 harg3 arg4 harg4 arg5 harg5 arg6 harg6 arg7 harg7 hc1 hc2 hc4 x0 x1 xi2 xs0 xs1 xs2 E K
  · exact triple1_TFT c i arg2 harg2 arg3 harg3 arg4 harg4 arg5 harg5 arg6 harg6 arg7 harg7 hc1 hc2 hc4 x0 x1 xi2 xs0 xs1 xs2 E K
  · exact triple1_TFF c i arg2 harg2 arg3 harg3 arg4 harg4 arg5 harg5 arg6 harg6 arg7 harg7 hc1 hc2 hc4 x0 x1 xi2 xs0 xs1 xs2 E K
  · exact triple1_FTT c i arg2 harg2 arg3 harg3 arg4 harg4 arg5 harg5 arg6 harg6 arg7 harg7 hc1 hc2 hc4 x0 x1 xi2 xs0 xs1 xs2 E K
  · exact triple1_FTF c i arg2 harg2 arg3 harg3 arg4 harg4 arg5 harg5 arg6 harg6 arg7 harg7 hc1 hc2 hc4 x0 x1 xi2 xs0 xs1 xs2 E K
  · exact triple1_FFT c i arg2 harg2 arg3 harg3 arg4 harg4 arg5 harg5 arg6 harg6 arg7 harg7 hc1 hc2 hc4 x0 x1 xi2 xs0 xs1 xs2 E K
  · exact triple1_FFF c i arg2 harg2 arg3 harg3 arg4 harg4 arg5 harg5 arg6 harg6 arg7 harg7 hc1 hc2 hc4 x0 x1 xi2 xs0 xs1 xs2 E K

end Cert.KernelIdeal.Hand

end
-- ==== Proof.KI.Region.lean ====
/-
  The two statistics calls as pipelines: the proof data of each (what every staging buffer holds after the body at
  every grid point, the row statistics carried in the scratch operands from one column tile to the next), the body's
  obligation at a generic point and the invariant's two ends.
-/
import proofs.«162174_j13649406066960_2_alg».proof.Proof.KI.Body0
import proofs.«162174_j13649406066960_2_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # Region 0 of 0main, at the contents `V` its entry finds -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The column tile's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_4 (grid0.coords t) → cfg0.idle 2 (grid0.coords t) = true := by decide +kernel
theorem noFlush0_2 : ∀ t : Fin cfg0.N, ¬cond0_4 (grid0.coords t) → (cfg0.win 2).flush t = false := by decide +kernel
theorem liveAt0_2 : ∀ t : Fin cfg0.N, cond0_4 (grid0.coords t) → cfg0.idle 2 (grid0.coords t) = false := by decide +kernel

/-! ## The scratch operands and the invariant -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The three scratch operands (running maximum, running sum, running diagonal logit). -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

/-- The region's entry invariant with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  unfold Pipeline.ΦA; rw [scopedRest0_eq]; simp only [scM0_0, scM0_1, scM0_2, owns_whole]; try rfl

/-! ## The row statistics after each point -/

/-- One point's update of the row statistics (max, sum, diag), from the point's two input blocks. -/
def stepS0 (c : Dev nD) (t : Fin cfg0.N) (s : Vec F S1024x1 .f32 × Vec F S1024x1 .f32 × Vec F S1024x1 .f32) :
    Vec F S1024x1 .f32 × Vec F S1024x1 .f32 × Vec F S1024x1 .f32 :=
  (newM0 (grid0.coords t) (iblk0 V c 0 t) (iblk0 V c 1 t) s.1,
   newL0 (grid0.coords t) (iblk0 V c 0 t) (iblk0 V c 1 t) s.1 s.2.1,
   newD0 (grid0.coords t) (iblk0 V c 0 t) (iblk0 V c 1 t) s.2.2)

/-- Contents nothing reads: what the scratch operands hold before the first point resets them. -/
def junkS0 : Vec F S1024x1 .f32 × Vec F S1024x1 .f32 × Vec F S1024x1 .f32 :=
  (k0_pay2, k0_pay2, k0_pay2)

/-- The row statistics after the body at position `n`: the update at `n` of what position `n - 1` left. -/
def statsAt0 (c : Dev nD) : (n : ℕ) → n < cfg0.N → Vec F S1024x1 .f32 × Vec F S1024x1 .f32 × Vec F S1024x1 .f32
  | 0, hn => stepS0 V c ⟨0, hn⟩ junkS0
  | n + 1, hn => stepS0 V c ⟨n + 1, hn⟩ (statsAt0 c n (Nat.lt_of_succ_lt hn))

theorem statsAt0_pos (c : Dev nD) (t : Fin cfg0.N) (hz : t.val ≠ 0) :
    statsAt0 V c t.val t.isLt = stepS0 V c t (statsAt0 V c (t.val - 1) (Nat.lt_of_le_of_lt (Nat.sub_le _ _) t.isLt)) := by
  obtain ⟨n, hn⟩ := t
  cases n with
  | zero => exact absurd rfl hz
  | succ n => rfl

/-- At a first column tile the update does not depend on what it finds. -/
theorem stepS0_reset (c : Dev nD) (t : Fin cfg0.N) (h : cond0_1 (grid0.coords t)) (s s' : Vec F S1024x1 .f32 × Vec F S1024x1 .f32 × Vec F S1024x1 .f32) :
    stepS0 V c t s = stepS0 V c t s' := by
  unfold stepS0 newM0 newL0 newD0 inM0 inL0 inD0
  simp only [if_pos h]

theorem statsAt0_zero (c : Dev nD) (t : Fin cfg0.N) (hz : t.val = 0) (s : Vec F S1024x1 .f32 × Vec F S1024x1 .f32 × Vec F S1024x1 .f32) :
    statsAt0 V c t.val t.isLt = stepS0 V c t s := by
  obtain ⟨n, hn⟩ := t
  cases n with
  | zero => exact stepS0_reset V c ⟨0, hn⟩ ((hcond0_1 ⟨0, hn⟩).mpr (Nat.zero_mod _)) _ _
  | succ n => exact absurd hz (Nat.succ_ne_zero n)

/-- The region invariant before position `n`: before the first point the scratch operands at anything; afterwards at the
    row statistics the point before left; the other scoped buffers and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (statsAt0 V c n hn).1 ∗ owns (c : Thread nD τ) scM0_1 fullShare (statsAt0 V c n hn).2.1 ∗ owns (c : Thread nD τ) scM0_2 fullShare (statsAt0 V c n hn).2.2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (statsAt0 V c n hn).1 ∗ owns (c : Thread nD τ) scM0_1 fullShare (statsAt0 V c n hn).2.1 ∗ owns (c : Thread nD τ) scM0_2 fullShare (statsAt0 V c n hn).2.2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (statsAt0 V c (n - 1) (by omega)).1 ∗ owns (c : Thread nD τ) scM0_1 fullShare (statsAt0 V c (n - 1) (by omega)).2.1 ∗ owns (c : Thread nD τ) scM0_2 fullShare (statsAt0 V c (n - 1) (by omega)).2.2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  cases n with
  | zero => exact absurd rfl hz
  | succ n => rfl

/-! ## The pipeline's proof data -/

/-- What the last column tile writes out of the row statistics. -/
def outOf0 (s : Vec F S1024x1 .f32 × Vec F S1024x1 .f32 × Vec F S1024x1 .f32) : Vec F S1024x1 .f32 := k0_pay10 s.1 s.2.1 s.2.2

/-- The proof data of pipeline 0 on core `c`: the arrays as the region finds them; after the body at point `t` each
    input's buffer at its block, the output's at the value of the row statistics there (consulted only at the last
    column tiles, where the window is live and written back); the invariant carries the row statistics. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outOf0 (statsAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outOf0 (statsAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- The body's run with the values it leaves named by the caller. -/
theorem triple0_as (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (x0 : Vec F S1024x128 .f32) (x1 : Vec F S512x128 .f32) (xi2 xs0 xs1 xs2 : Vec F S1024x1 .f32) (E : Set ℕ) (K : PUnit → sProp 𝕄)
    (O M L D : Vec F S1024x1 .f32) (hO : outV0 i x0 x1 xi2 xs0 xs1 xs2 = O) (hM : newM0 i x0 x1 xs0 = M) (hL : newL0 i x0 x1 xs0 xs1 = L) (hD : newD0 i x0 x1 xs2 = D) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare O ∗ owns (c : Thread nD τ) arg5 fullShare M
            ∗ owns (c : Thread nD τ) arg6 fullShare L ∗ owns (c : Thread nD τ) arg7 fullShare D) -∗ K ⟨⟩))
      ⊢ wp frame (wpE (defs₀ (F := F)) Variants.none c none) E (cc0__stats_kernel i arg2 harg2 arg3 harg3 arg4 harg4 arg5 harg5 arg6 harg6 arg7 harg7) K := by
  subst hO hM hL hD
  exact triple0 c i arg2 harg2 arg3 harg3 arg4 harg4 arg5 harg5 arg6 harg6 arg7 harg7 x0 x1 xi2 xs0 xs1 xs2 E K

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem outV0_live (i : grid0.Coords) (h : cond0_4 i) (x0 : Vec F S1024x128 .f32) (x1 : Vec F S512x128 .f32) (xi2 xs0 xs1 xs2 : Vec F S1024x1 .f32) :
    outV0 i x0 x1 xi2 xs0 xs1 xs2 = outOf0 (newM0 i x0 x1 xs0, newL0 i x0 x1 xs0 xs1, newD0 i x0 x1 xs2) := by
  unfold outV0 outOf0; rw [if_pos h]
theorem outV0_idle (i : grid0.Coords) (h : ¬cond0_4 i) (x0 : Vec F S1024x128 .f32) (x1 : Vec F S512x128 .f32) (xi2 xs0 xs1 xs2 : Vec F S1024x1 .f32) :
    outV0 i x0 x1 xi2 xs0 xs1 xs2 = xi2 := by
  unfold outV0; rw [if_neg h]

set_option maxHeartbeats 2000000 in
/-- The body at any point: the inputs' buffers hold their blocks; the invariant hands the scratch operands over at the
    row statistics the point before left (at anything at the very first point, which resets them) and takes them back
    at this point's; the output's buffer is stored only at a last column tile and handed back untouched elsewhere. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h4 : cond0_4 (grid0.coords t)
  · rw [show (dat0 V c).leavesExact 2 t = owns (c : Thread nD τ) (ms0_2 t) fullShare ((dat0 V c).after 2 t) from by
      unfold Dat.leavesExact; rw [liveAt0_2 t h4], after0_2]
    have hz : t.val ≠ 0 := by have := (hcond0_4 t).mp h4; omega
    rw [PhiS0_castSucc V c t, PhiS0_pos V c _ _ hz]
    have hst := statsAt0_pos V c t hz
    iintro ⟨⟨⟨HS0, HS1, HS2, HR0, HR1, HR2, HR3, HR4, HR5, HR6, HR7, HR8⟩, Hg⟩, Ho, ⟨%d0, H0⟩, ⟨%d1, H1⟩, ⟨%d2, H2⟩⟩
    iapply (triple0_as c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
        (iblk0 V c 0 t) (iblk0 V c 1 t) ((dat0 V c).before 2 t d2) (statsAt0 V c (t.val - 1) (Nat.lt_of_le_of_lt (Nat.sub_le _ _) t.isLt)).1 (statsAt0 V c (t.val - 1) (Nat.lt_of_le_of_lt (Nat.sub_le _ _) t.isLt)).2.1 (statsAt0 V c (t.val - 1) (Nat.lt_of_le_of_lt (Nat.sub_le _ _) t.isLt)).2.2 Set.univ _ (outOf0 (statsAt0 V c t.val t.isLt)) (statsAt0 V c t.val t.isLt).1 (statsAt0 V c t.val t.isLt).2.1 (statsAt0 V c t.val t.isLt).2.2 ((outV0_live _ h4 _ _ _ _ _ _).trans (by rw [hst]; rfl)) (by rw [hst]; rfl) (by rw [hst]; rfl) (by rw [hst]; rfl))
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 HR0 HR1 HR2 HR3 HR4 HR5 HR6 HR7 HR8 Hg]
    · isplitl [HS0 HS1 HS2 HR0 HR1 HR2 HR3 HR4 HR5 HR6 HR7 HR8]
      · isplitl [HS0]; · iexact HS0
        isplitl [HS1]; · iexact HS1
        isplitl [HS2]; · iexact HS2
        isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        iexact HR8
      iexact Hg
    isplitl [Ho]; · iexact Ho
    isplitl [H0]; · iexact H0
    isplitl [H1]; · iexact H1
    iexact H2
  · rw [Dat.leavesExact_idle (dat0 V c) 2 t (idleAt0_2 t h4) (noFlush0_2 t h4)]
    by_cases hz : t.val = 0
    · rw [PhiS0_castSucc V c t, PhiS0_zero V c _ _ hz, PhiA0_eq]
      iintro ⟨⟨⟨⟨%e0, HS0⟩, ⟨%e1, HS1⟩, ⟨%e2, HS2⟩, HR0, HR1, HR2, HR3, HR4, HR5, HR6, HR7, HR8⟩, Hg⟩, Ho, ⟨%d0, H0⟩, ⟨%d1, H1⟩, ⟨%d2, H2⟩⟩
      have hst := statsAt0_zero V c t hz (e0, e1, e2)
      iapply (triple0_as c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
          (iblk0 V c 0 t) (iblk0 V c 1 t) ((dat0 V c).before 2 t d2) e0 e1 e2 Set.univ _ ((dat0 V c).before 2 t d2) (statsAt0 V c t.val t.isLt).1 (statsAt0 V c t.val t.isLt).2.1 (statsAt0 V c t.val t.isLt).2.2 (outV0_idle _ h4 _ _ _ _ _ _) (by rw [hst]; rfl) (by rw [hst]; rfl) (by rw [hst]; rfl))
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR0 HR1 HR2 HR3 HR4 HR5 HR6 HR7 HR8 Hg]
      · isplitl [HS0 HS1 HS2 HR0 HR1 HR2 HR3 HR4 HR5 HR6 HR7 HR8]
        · isplitl [HS0]; · iexact HS0
          isplitl [HS1]; · iexact HS1
          isplitl [HS2]; · iexact HS2
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          iexact HR8
        iexact Hg
      isplitl [Ho]; · iexact Ho
      isplitl [H0]; · iexact H0
      isplitl [H1]; · iexact H1
      iexists _; iexact H2
    · rw [PhiS0_castSucc V c t, PhiS0_pos V c _ _ hz]
      have hst := statsAt0_pos V c t hz
      iintro ⟨⟨⟨HS0, HS1, HS2, HR0, HR1, HR2, HR3, HR4, HR5, HR6, HR7, HR8⟩, Hg⟩, Ho, ⟨%d0, H0⟩, ⟨%d1, H1⟩, ⟨%d2, H2⟩⟩
      iapply (triple0_as c (grid0.coords t) (ms0_0 t) (hs0_0 t) (ms0_1 t) (hs0_1 t) (ms0_2 t) (hs0_2 t) scM0_0 (Memref.isWhole_whole _) scM0_1 (Memref.isWhole_whole _) scM0_2 (Memref.isWhole_whole _)
          (iblk0 V c 0 t) (iblk0 V c 1 t) ((dat0 V c).before 2 t d2) (statsAt0 V c (t.val - 1) (Nat.lt_of_le_of_lt (Nat.sub_le _ _) t.isLt)).1 (statsAt0 V c (t.val - 1) (Nat.lt_of_le_of_lt (Nat.sub_le _ _) t.isLt)).2.1 (statsAt0 V c (t.val - 1) (Nat.lt_of_le_of_lt (Nat.sub_le _ _) t.isLt)).2.2 Set.univ _ ((dat0 V c).before 2 t d2) (statsAt0 V c t.val t.isLt).1 (statsAt0 V c t.val t.isLt).2.1 (statsAt0 V c t.val t.isLt).2.2 (outV0_idle _ h4 _ _ _ _ _ _) (by rw [hst]; rfl) (by rw [hst]; rfl) (by rw [hst]; rfl))
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR0 HR1 HR2 HR3 HR4 HR5 HR6 HR7 HR8 Hg]
      · isplitl [HS0 HS1 HS2 HR0 HR1 HR2 HR3 HR4 HR5 HR6 HR7 HR8]
        · isplitl [HS0]; · iexact HS0
          isplitl [HS1]; · iexact HS1
          isplitl [HS2]; · iexact HS2
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          iexact HR8
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back at some contents: the row statistics are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HS1, HS2, HR0, HR1, HR2, HR3, HR4, HR5, HR6, HR7, HR8⟩, Hg⟩
  isplitl [HS0 HS1 HS2 HR0 HR1 HR2 HR3 HR4 HR5 HR6 HR7 HR8]
  · isplitl [HS0]; · iexists _; iexact HS0
    isplitl [HS1]; · iexists _; iexact HS1
    isplitl [HS2]; · iexists _; iexact HS2
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HR8
  iexact Hg

end Region0

/-! # Region 1 of 1main, at the contents `V` its entry finds -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The column tile's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_4 (grid1.coords t) → cfg1.idle 2 (grid1.coords t) = true := by decide +kernel
theorem noFlush1_2 : ∀ t : Fin cfg1.N, ¬cond1_4 (grid1.coords t) → (cfg1.win 2).flush t = false := by decide +kernel
theorem liveAt1_2 : ∀ t : Fin cfg1.N, cond1_4 (grid1.coords t) → cfg1.idle 2 (grid1.coords t) = false := by decide +kernel

/-! ## The scratch operands and the invariant -/

abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The three scratch operands (running maximum, running sum, running diagonal logit). -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

/-- The region's entry invariant with the three scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-! ## The row statistics after each point -/

/-- One point's update of the row statistics (max, sum, diag), from the point's two input blocks. -/
def stepS1 (c : Dev nD) (t : Fin cfg1.N) (s : Vec F S1024x1 .f32 × Vec F S1024x1 .f32 × Vec F S1024x1 .f32) :
    Vec F S1024x1 .f32 × Vec F S1024x1 .f32 × Vec F S1024x1 .f32 :=
  (newM1 (grid1.coords t) (iblk1 V c 0 t) (iblk1 V c 1 t) s.1,
   newL1 (grid1.coords t) (iblk1 V c 0 t) (iblk1 V c 1 t) s.1 s.2.1,
   newD1 (grid1.coords t) (iblk1 V c 0 t) (iblk1 V c 1 t) s.2.2)

/-- Contents nothing reads: what the scratch operands hold before the first point resets them. -/
def junkS1 : Vec F S1024x1 .f32 × Vec F S1024x1 .f32 × Vec F S1024x1 .f32 :=
  (k1_pay2, k1_pay2, k1_pay2)

/-- The row statistics after the body at position `n`: the update at `n` of what position `n - 1` left. -/
def statsAt1 (c : Dev nD) : (n : ℕ) → n < cfg1.N → Vec F S1024x1 .f32 × Vec F S1024x1 .f32 × Vec F S1024x1 .f32
  | 0, hn => stepS1 V c ⟨0, hn⟩ junkS1
  | n + 1, hn => stepS1 V c ⟨n + 1, hn⟩ (statsAt1 c n (Nat.lt_of_succ_lt hn))

theorem statsAt1_pos (c : Dev nD) (t : Fin cfg1.N) (hz : t.val ≠ 0) :
    statsAt1 V c t.val t.isLt = stepS1 V c t (statsAt1 V c (t.val - 1) (Nat.lt_of_le_of_lt (Nat.sub_le _ _) t.isLt)) := by
  obtain ⟨n, hn⟩ := t
  cases n with
  | zero => exact absurd rfl hz
  | succ n => rfl

/-- At a first column tile the update does not depend on what it finds. -/
theorem stepS1_reset (c : Dev nD) (t : Fin cfg1.N) (h : cond1_1 (grid1.coords t)) (s s' : Vec F S1024x1 .f32 × Vec F S1024x1 .f32 × Vec F S1024x1 .f32) :
    stepS1 V c t s = stepS1 V c t s' := by
  unfold stepS1 newM1 newL1 newD1 inM1 inL1 inD1
  simp only [if_pos h]

theorem statsAt1_zero (c : Dev nD) (t : Fin cfg1.N) (hz : t.val = 0) (s : Vec F S1024x1 .f32 × Vec F S1024x1 .f32 × Vec F S1024x1 .f32) :
    statsAt1 V c t.val t.isLt = stepS1 V c t s := by
  obtain ⟨n, hn⟩ := t
  cases n with
  | zero => exact stepS1_reset V c ⟨0, hn⟩ ((hcond1_1 ⟨0, hn⟩).mpr (Nat.zero_mod _)) _ _
  | succ n => exact absurd hz (Nat.succ_ne_zero n)

/-- The region invariant before position `n`: before the first point the scratch operands at anything; afterwards at the
    row statistics the point before left; the other scoped buffers and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scM1_0 fullShare (statsAt1 V c n hn).1 ∗ owns (c : Thread nD τ) scM1_1 fullShare (statsAt1 V c n hn).2.1 ∗ owns (c : Thread nD τ) scM1_2 fullShare (statsAt1 V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scM1_0 fullShare (statsAt1 V c n hn).1 ∗ owns (c : Thread nD τ) scM1_1 fullShare (statsAt1 V c n hn).2.1 ∗ owns (c : Thread nD τ) scM1_2 fullShare (statsAt1 V c n hn).2.2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ owns (c : Thread nD τ) scM1_0 fullShare (statsAt1 V c (n - 1) (by omega)).1 ∗ owns (c : Thread nD τ) scM1_1 fullShare (statsAt1 V c (n - 1) (by omega)).2.1 ∗ owns (c : Thread nD τ) scM1_2 fullShare (statsAt1 V c (n - 1) (by omega)).2.2) ∗ (∃ r, prngReg c r)) := by
  cases n with
  | zero => exact absurd rfl hz
  | succ n => rfl

/-! ## The pipeline's proof data -/

/-- What the last column tile writes out of the row statistics. -/
def outOf1 (s : Vec F S1024x1 .f32 × Vec F S1024x1 .f32 × Vec F S1024x1 .f32) : Vec F S1024x1 .f32 := k1_pay10 s.1 s.2.1 s.2.2

/-- The proof data of pipeline 1 on core `c`: the arrays as the region finds them; after the body at point `t` each
    input's buffer at its block, the output's at the value of the row statistics there (consulted only at the last
    column tiles, where the window is live and written back); the invariant carries the row statistics. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outOf1 (statsAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outOf1 (statsAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- The body's run with the values it leaves named by the caller. -/
theorem triple1_as (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole)
    (x0 : Vec F S1024x128 .f32) (x1 : Vec F S512x128 .f32) (xi2 xs0 xs1 xs2 : Vec F S1024x1 .f32) (E : Set ℕ) (K : PUnit → sProp 𝕄)
    (O M L D : Vec F S1024x1 .f32) (hO : outV1 i x0 x1 xi2 xs0 xs1 xs2 = O) (hM : newM1 i x0 x1 xs0 = M) (hL : newL1 i x0 x1 xs0 xs1 = L) (hD : newD1 i x0 x1 xs2 = D) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare O ∗ owns (c : Thread nD τ) arg5 fullShare M
            ∗ owns (c : Thread nD τ) arg6 fullShare L ∗ owns (c : Thread nD τ) arg7 fullShare D) -∗ K ⟨⟩))
      ⊢ wp frame (wpE (defs₀ (F := F)) Variants.none c none) E (cc1__stats_kernel i arg2 harg2 arg3 harg3 arg4 harg4 arg5 harg5 arg6 harg6 arg7 harg7) K := by
  subst hO hM hL hD
  exact triple1 c i arg2 harg2 arg3 harg3 arg4 harg4 arg5 harg5 arg6 harg6 arg7 harg7 x0 x1 xi2 xs0 xs1 xs2 E K

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem outV1_live (i : grid1.Coords) (h : cond1_4 i) (x0 : Vec F S1024x128 .f32) (x1 : Vec F S512x128 .f32) (xi2 xs0 xs1 xs2 : Vec F S1024x1 .f32) :
    outV1 i x0 x1 xi2 xs0 xs1 xs2 = outOf1 (newM1 i x0 x1 xs0, newL1 i x0 x1 xs0 xs1, newD1 i x0 x1 xs2) := by
  unfold outV1 outOf1; rw [if_pos h]
theorem outV1_idle (i : grid1.Coords) (h : ¬cond1_4 i) (x0 : Vec F S1024x128 .f32) (x1 : Vec F S512x128 .f32) (xi2 xs0 xs1 xs2 : Vec F S1024x1 .f32) :
    outV1 i x0 x1 xi2 xs0 xs1 xs2 = xi2 := by
  unfold outV1; rw [if_neg h]

set_option maxHeartbeats 2000000 in
/-- The body at any point: the inputs' buffers hold their blocks; the invariant hands the scratch operands over at the
    row statistics the point before left (at anything at the very first point, which resets them) and takes them back
    at this point's; the output's buffer is stored only at a last column tile and handed back untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  by_cases h4 : cond1_4 (grid1.coords t)
  · rw [show (dat1 V c).leavesExact 2 t = owns (c : Thread nD τ) (ms1_2 t) fullShare ((dat1 V c).after 2 t) from by
      unfold Dat.leavesExact; rw [liveAt1_2 t h4], after1_2]
    have hz : t.val ≠ 0 := by have := (hcond1_4 t).mp h4; omega
    rw [PhiS1_castSucc V c t, PhiS1_pos V c _ _ hz]
    have hst := statsAt1_pos V c t hz
    iintro ⟨⟨⟨HR0, HR1, HR2, HR3, HR4, HR5, HR6, HR7, HR8, HS0, HS1, HS2⟩, Hg⟩, Ho, ⟨%d0, H0⟩, ⟨%d1, H1⟩, ⟨%d2, H2⟩⟩
    iapply (triple1_as c (grid1.coords t) (ms1_0 t) (hs1_0 t) (ms1_1 t) (hs1_1 t) (ms1_2 t) (hs1_2 t) scM1_0 (Memref.isWhole_whole _) scM1_1 (Memref.isWhole_whole _) scM1_2 (Memref.isWhole_whole _)
        (iblk1 V c 0 t) (iblk1 V c 1 t) ((dat1 V c).before 2 t d2) (statsAt1 V c (t.val - 1) (Nat.lt_of_le_of_lt (Nat.sub_le _ _) t.isLt)).1 (statsAt1 V c (t.val - 1) (Nat.lt_of_le_of_lt (Nat.sub_le _ _) t.isLt)).2.1 (statsAt1 V c (t.val - 1) (Nat.lt_of_le_of_lt (Nat.sub_le _ _) t.isLt)).2.2 Set.univ _ (outOf1 (statsAt1 V c t.val t.isLt)) (statsAt1 V c t.val t.isLt).1 (statsAt1 V c t.val t.isLt).2.1 (statsAt1 V c t.val t.isLt).2.2 ((outV1_live _ h4 _ _ _ _ _ _).trans (by rw [hst]; rfl)) (by rw [hst]; rfl) (by rw [hst]; rfl) (by rw [hst]; rfl))
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 HR0 HR1 HR2 HR3 HR4 HR5 HR6 HR7 HR8 Hg]
    · isplitl [HS0 HS1 HS2 HR0 HR1 HR2 HR3 HR4 HR5 HR6 HR7 HR8]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HS0]; · iexact HS0
        isplitl [HS1]; · iexact HS1
        iexact HS2
      iexact Hg
    isplitl [Ho]; · iexact Ho
    isplitl [H0]; · iexact H0
    isplitl [H1]; · iexact H1
    iexact H2
  · rw [Dat.leavesExact_idle (dat1 V c) 2 t (idleAt1_2 t h4) (noFlush1_2 t h4)]
    by_cases hz : t.val = 0
    · rw [PhiS1_castSucc V c t, PhiS1_zero V c _ _ hz, PhiA1_eq]
      iintro ⟨⟨⟨HR0, HR1, HR2, HR3, HR4, HR5, HR6, HR7, HR8, ⟨%e0, HS0⟩, ⟨%e1, HS1⟩, ⟨%e2, HS2⟩⟩, Hg⟩, Ho, ⟨%d0, H0⟩, ⟨%d1, H1⟩, ⟨%d2, H2⟩⟩
      have hst := statsAt1_zero V c t hz (e0, e1, e2)
      iapply (triple1_as c (grid1.coords t) (ms1_0 t) (hs1_0 t) (ms1_1 t) (hs1_1 t) (ms1_2 t) (hs1_2 t) scM1_0 (Memref.isWhole_whole _) scM1_1 (Memref.isWhole_whole _) scM1_2 (Memref.isWhole_whole _)
          (iblk1 V c 0 t) (iblk1 V c 1 t) ((dat1 V c).before 2 t d2) e0 e1 e2 Set.univ _ ((dat1 V c).before 2 t d2) (statsAt1 V c t.val t.isLt).1 (statsAt1 V c t.val t.isLt).2.1 (statsAt1 V c t.val t.isLt).2.2 (outV1_idle _ h4 _ _ _ _ _ _) (by rw [hst]; rfl) (by rw [hst]; rfl) (by rw [hst]; rfl))
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR0 HR1 HR2 HR3 HR4 HR5 HR6 HR7 HR8 Hg]
      · isplitl [HS0 HS1 HS2 HR0 HR1 HR2 HR3 HR4 HR5 HR6 HR7 HR8]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HS0]; · iexact HS0
          isplitl [HS1]; · iexact HS1
          iexact HS2
        iexact Hg
      isplitl [Ho]; · iexact Ho
      isplitl [H0]; · iexact H0
      isplitl [H1]; · iexact H1
      iexists _; iexact H2
    · rw [PhiS1_castSucc V c t, PhiS1_pos V c _ _ hz]
      have hst := statsAt1_pos V c t hz
      iintro ⟨⟨⟨HR0, HR1, HR2, HR3, HR4, HR5, HR6, HR7, HR8, HS0, HS1, HS2⟩, Hg⟩, Ho, ⟨%d0, H0⟩, ⟨%d1, H1⟩, ⟨%d2, H2⟩⟩
      iapply (triple1_as c (grid1.coords t) (ms1_0 t) (hs1_0 t) (ms1_1 t) (hs1_1 t) (ms1_2 t) (hs1_2 t) scM1_0 (Memref.isWhole_whole _) scM1_1 (Memref.isWhole_whole _) scM1_2 (Memref.isWhole_whole _)
          (iblk1 V c 0 t) (iblk1 V c 1 t) ((dat1 V c).before 2 t d2) (statsAt1 V c (t.val - 1) (Nat.lt_of_le_of_lt (Nat.sub_le _ _) t.isLt)).1 (statsAt1 V c (t.val - 1) (Nat.lt_of_le_of_lt (Nat.sub_le _ _) t.isLt)).2.1 (statsAt1 V c (t.val - 1) (Nat.lt_of_le_of_lt (Nat.sub_le _ _) t.isLt)).2.2 Set.univ _ ((dat1 V c).before 2 t d2) (statsAt1 V c t.val t.isLt).1 (statsAt1 V c t.val t.isLt).2.1 (statsAt1 V c t.val t.isLt).2.2 (outV1_idle _ h4 _ _ _ _ _ _) (by rw [hst]; rfl) (by rw [hst]; rfl) (by rw [hst]; rfl))
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 HR0 HR1 HR2 HR3 HR4 HR5 HR6 HR7 HR8 Hg]
      · isplitl [HS0 HS1 HS2 HR0 HR1 HR2 HR3 HR4 HR5 HR6 HR7 HR8]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HS0]; · iexact HS0
          isplitl [HS1]; · iexact HS1
          iexact HS2
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back at some contents: the row statistics are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HR0, HR1, HR2, HR3, HR4, HR5, HR6, HR7, HR8, HS0, HS1, HS2⟩, Hg⟩
  isplitl [HS0 HS1 HS2 HR0 HR1 HR2 HR3 HR4 HR5 HR6 HR7 HR8]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HS0]; · iexists _; iexact HS0
    isplitl [HS1]; · iexists _; iexact HS1
    iexists _; iexact HS2
  iexact Hg

end Region1

end Cert.KernelIdeal.Hand

end
-- ==== Proof.KI.Run.lean ====
/-
  The contents of every unscoped buffer at each boundary between @main's segments (host operations, the first
  statistics call, a reshape, the second call, the host operations that average the two row means and guard the
  result), and the two calls as segments over those contents.
-/
import proofs.«162174_j13649406066960_2_alg».proof.Proof.KI.Region

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The run: @main's segments from the launch to the return -/

variable (m : (ℓ : Loc nD τ sig) → Buf (Elt F) ℓ) (ρ : Dev nD → PrngReg)

/-- Core `c`'s buffers at launch. -/
abbrev W0 : Dev nD → Valuation τ sig (Elt F) := fun c b => m (c, b)
/-- After the two reshapes (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape of the first call's result (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host operations that follow the second call: the means, their average and the guard. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor

/-- The last thread state without the `owes`. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W1`, left at `W2`. Its arrays are split out of the
    unscoped buffers and put back at the exit contents; the generator register goes into the region's invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 : (pdats m 0 c).Φ (Fin.last _) ⊢ (Pipeline.ΦA spec0 c : sProp 𝕄) := hout0 (V1 m) c
    unfold Pipeline.ΦA at h1
    iintro H
    ihave H' := h1 $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of the
    unscoped buffers and put back at the exit contents; the generator register goes into the region's invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m 1 c).Φ (Fin.last _) ⊢ (Pipeline.ΦA spec1 c : sProp 𝕄) := hout1 (V3 m) c
    unfold Pipeline.ΦA at h1
    iintro H
    ihave H' := h1 $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Main.lean ====
/-
  The whole program's run: every weakly fair execution of @main terminates, nothing faulting, and ends with each
  unscoped buffer at the last segment boundary's contents.
-/
import proofs.«162174_j13649406066960_2_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and in every
    final state each unscoped buffer holds what the fold of @main's segments over the launch memory computes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c) ⊢ (iprop(Tₙ m c ∗ ∃ W, owes (c : Thread nD τ) (0 : CellTallies nD τ sig Unit) W) : sProp 𝕄)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

end Cert.KernelIdeal.Hand

end
-- ==== Proof.KI.Frame.lean ====
/-
  The frame: every weakly fair execution of @main terminates, nothing faulting, and the two argument arrays end as
  launched — no host operation writes them and the two calls read them only through reshaped copies.
-/
import proofs.«162174_j13649406066960_2_alg».proof.Proof.KI.Main
import proofs.«162174_j13649406066960_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No host operation and no region writes `main_arg0`: the fold at its buffer walks back to the launch memory. -/
theorem W8_main_arg0 (c : Dev nD) : W8 m c (Proc.devRef .tc main_arg0) = m ((c : Thread nD τ).loc main_arg0) :=
  (StableHlo.after_of_writes_sub hostOps2_3 _ hostOps2_3_writes (r := main_arg0) (by decide)).trans <|
  (StableHlo.after_of_writes_sub hostOps2_2 _ hostOps2_2_writes (r := main_arg0) (by decide)).trans <|
  (StableHlo.after_of_writes_sub hostOps2_1 _ hostOps2_1_writes (r := main_arg0) (by decide)).trans <|
  (StableHlo.after_of_writes_sub hostOps2 _ hostOps2_writes (r := main_arg0) (by decide)).trans <|
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl

/-- No host operation and no region writes `main_arg1`: the fold at its buffer walks back to the launch memory. -/
theorem W8_main_arg1 (c : Dev nD) : W8 m c (Proc.devRef .tc main_arg1) = m ((c : Thread nD τ).loc main_arg1) :=
  (StableHlo.after_of_writes_sub hostOps2_3 _ hostOps2_3_writes (r := main_arg1) (by decide)).trans <|
  (StableHlo.after_of_writes_sub hostOps2_2 _ hostOps2_2_writes (r := main_arg1) (by decide)).trans <|
  (StableHlo.after_of_writes_sub hostOps2_1 _ hostOps2_1_writes (r := main_arg1) (by decide)).trans <|
  (StableHlo.after_of_writes_sub hostOps2 _ hostOps2_writes (r := main_arg1) (by decide)).trans <|
  (W4_of_ne m c main_arg1 (by decide)).trans <|
  (StableHlo.after_of_writes_sub hostOps1 _ hostOps1_writes (r := main_arg1) (by decide)).trans <|
  (W2_of_ne m c main_arg1 (by decide)).trans <|
  (StableHlo.after_of_writes_sub hostOps0 _ hostOps0_writes (r := main_arg1) (by decide)).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W8_main_arg0 m c),
     (h c _ (mem_uc main_arg1 (by decide))).trans (W8_main_arg1 m c)⟩) (run_all m ρ)

end Cert.KernelIdeal.Hand

end
-- ==== Proof.Ref.Run.lean ====
/-
  The reference program's @main as one straight line of host operations — each call of a module-local function
  replaced by the callee's operations over that call's buffers — and its run: every weakly fair execution
  terminates with the result buffer at the operations' composed term of the two argument arrays, the arguments
  unchanged.
-/
import proofs.«162174_j13649406066960_2_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first sixty statements of @main, the calls unfolded: the two reshapes, the product, the index vector, its
    floor division by sixteen (seventeen operations), the mask, the masked and scaled logits, the log-softmax of the
    logits (fifteen operations) and of their transpose (fifteen), the gather of the first diagonal and its mean. -/
abbrev ops0 : List (HloOp τ sig (Elt F)) :=
  [ reshape main_arg0 main_v0 rfl shapeCasts_S512x16x128_S8192x128,
    reshape main_arg1 main_v1 rfl shapeCasts_S512x16x128_S8192x128,
    binary main_v0 main_v1 main_v2 ((fun l r => Host.dotGeneral dot_S8192x128_S8192x128_S8192x8192_1_1_0_0_n_n none l r) : (⟨S8192x128, .f32⟩ : BufTy).Contents (Elt F) → (⟨S8192x128, .f32⟩ : BufTy).Contents (Elt F) → (⟨S8192x8192, .f32⟩ : BufTy).Contents (Elt F)),
    nullary main_v3 (iotaInDim S8192 32 0),
    nullary main_c (constantI S_ 32 16#32),
    unary main_c main_call0_v0 ((id) : (⟨S_, .i32⟩ : BufTy).Contents (Elt F) → (⟨S_, .i32⟩ : BufTy).Contents (Elt F)),
    unary main_call0_v0 main_call0_v1 ((broadcastInDim S8192 ![] bcast_S_S8192) : (⟨S_, .i32⟩ : BufTy).Contents (Elt F) → (⟨S8192, .i32⟩ : BufTy).Contents (Elt F)),
    binary main_v3 main_call0_v1 main_call0_v2 ((Host.divsi) : (⟨S8192, .i32⟩ : BufTy).Contents (Elt F) → (⟨S8192, .i32⟩ : BufTy).Contents (Elt F) → (⟨S8192, .i32⟩ : BufTy).Contents (Elt F)),
    unary main_v3 main_call0_v3 ((signi) : (⟨S8192, .i32⟩ : BufTy).Contents (Elt F) → (⟨S8192, .i32⟩ : BufTy).Contents (Elt F)),
    unary main_call0_v0 main_call0_v4 ((signi) : (⟨S_, .i32⟩ : BufTy).Contents (Elt F) → (⟨S_, .i32⟩ : BufTy).Contents (Elt F)),
    unary main_call0_v4 main_call0_v5 ((broadcastInDim S8192 ![] bcast_S_S8192) : (⟨S_, .i32⟩ : BufTy).Contents (Elt F) → (⟨S8192, .i32⟩ : BufTy).Contents (Elt F)),
    binary main_call0_v3 main_call0_v5 main_call0_v6 ((cmpi .ne) : (⟨S8192, .i32⟩ : BufTy).Contents (Elt F) → (⟨S8192, .i32⟩ : BufTy).Contents (Elt F) → (⟨S8192, .i1⟩ : BufTy).Contents (Elt F)),
    unary main_call0_v0 main_call0_v7 ((broadcastInDim S8192 ![] bcast_S_S8192) : (⟨S_, .i32⟩ : BufTy).Contents (Elt F) → (⟨S8192, .i32⟩ : BufTy).Contents (Elt F)),
    binary main_v3 main_call0_v7 main_call0_v8 ((Host.remsi) : (⟨S8192, .i32⟩ : BufTy).Contents (Elt F) → (⟨S8192, .i32⟩ : BufTy).Contents (Elt F) → (⟨S8192, .i32⟩ : BufTy).Contents (Elt F)),
    nullary main_call0_c (constantI S_ 32 0#32),
    unary main_call0_c main_call0_v9 ((broadcastInDim S8192 ![] bcast_S_S8192) : (⟨S_, .i32⟩ : BufTy).Contents (Elt F) → (⟨S8192, .i32⟩ : BufTy).Contents (Elt F)),
    binary main_call0_v8 main_call0_v9 main_call0_v10 ((cmpi .ne) : (⟨S8192, .i32⟩ : BufTy).Contents (Elt F) → (⟨S8192, .i32⟩ : BufTy).Contents (Elt F) → (⟨S8192, .i1⟩ : BufTy).Contents (Elt F)),
    binary main_call0_v6 main_call0_v10 main_call0_v11 ((andi) : (⟨S8192, .i1⟩ : BufTy).Contents (Elt F) → (⟨S8192, .i1⟩ : BufTy).Contents (Elt F) → (⟨S8192, .i1⟩ : BufTy).Contents (Elt F)),
    nullary main_call0_c_0 (constantI S_ 32 1#32),
    unary main_call0_c_0 main_call0_v12 ((broadcastInDim S8192 ![] bcast_S_S8192) : (⟨S_, .i32⟩ : BufTy).Contents (Elt F) → (⟨S8192, .i32⟩ : BufTy).Contents (Elt F)),
    binary main_call0_v2 main_call0_v12 main_call0_v13 ((subi) : (⟨S8192, .i32⟩ : BufTy).Contents (Elt F) → (⟨S8192, .i32⟩ : BufTy).Contents (Elt F) → (⟨S8192, .i32⟩ : BufTy).Contents (Elt F)),
    ternary main_call0_v11 main_call0_v13 main_call0_v2 main_v4 ((select) : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    unary main_v4 main_v6 (broadcastInDim S1x8192 ![1] bcast_S8192_S1x8192_1 : (⟨S8192, .i32⟩ : BufTy).Contents (Elt F) → (⟨S1x8192, .i32⟩ : BufTy).Contents (Elt F)),
    unary main_v5 main_v7 (broadcastInDim S8192x8192 ![0, 1] bcast_S8192x1_S8192x8192_0_1 : (⟨S8192x1, .i32⟩ : BufTy).Contents (Elt F) → (⟨S8192x8192, .i32⟩ : BufTy).Contents (Elt F)),
    unary main_v6 main_v8 (broadcastInDim S8192x8192 ![0, 1] bcast_S1x8192_S8192x8192_0_1 : (⟨S1x8192, .i32⟩ : BufTy).Contents (Elt F) → (⟨S8192x8192, .i32⟩ : BufTy).Contents (Elt F)),
    binary main_v7 main_v8 main_v9 (cmpi .eq : (⟨S8192x8192, .i32⟩ : BufTy).Contents (Elt F) → (⟨S8192x8192, .i32⟩ : BufTy).Contents (Elt F) → (⟨S8192x8192, .i1⟩ : BufTy).Contents (Elt F)),
    unary main_v3 main_v10 (broadcastInDim S8192x1 ![0] bcast_S8192_S8192x1_0 : (⟨S8192, .i32⟩ : BufTy).Contents (Elt F) → (⟨S8192x1, .i32⟩ : BufTy).Contents (Elt F)),
    unary main_v3 main_v11 (broadcastInDim S1x8192 ![1] bcast_S8192_S1x8192_1 : (⟨S8192, .i32⟩ : BufTy).Contents (Elt F) → (⟨S1x8192, .i32⟩ : BufTy).Contents (Elt F)),
    unary main_v10 main_v12 (broadcastInDim S8192x8192 ![0, 1] bcast_S8192x1_S8192x8192_0_1 : (⟨S8192x1, .i32⟩ : BufTy).Contents (Elt F) → (⟨S8192x8192, .i32⟩ : BufTy).Contents (Elt F)),
    unary main_v11 main_v13 (broadcastInDim S8192x8192 ![0, 1] bcast_S1x8192_S8192x8192_0_1 : (⟨S1x8192, .i32⟩ : BufTy).Contents (Elt F) → (⟨S8192x8192, .i32⟩ : BufTy).Contents (Elt F)),
    binary main_v12 main_v13 main_v14 (cmpi .eq : (⟨S8192x8192, .i32⟩ : BufTy).Contents (Elt F) → (⟨S8192x8192, .i32⟩ : BufTy).Contents (Elt F) → (⟨S8192x8192, .i1⟩ : BufTy).Contents (Elt F)),
    unary main_v14 main_v15 (noti : (⟨S8192x8192, .i1⟩ : BufTy).Contents (Elt F) → (⟨S8192x8192, .i1⟩ : BufTy).Contents (Elt F)),
    binary main_v9 main_v15 main_v16 (andi : (⟨S8192x8192, .i1⟩ : BufTy).Contents (Elt F) → (⟨S8192x8192, .i1⟩ : BufTy).Contents (Elt F) → (⟨S8192x8192, .i1⟩ : BufTy).Contents (Elt F)),
    nullary main_cst (constant S_ .f32 0xC61C4000#32),
    unary main_cst main_call1_v0 ((broadcastInDim S8192x8192 ![] bcast_S_S8192x8192) : (⟨S_, .f32⟩ : BufTy).Contents (Elt F) → (⟨S8192x8192, .f32⟩ : BufTy).Contents (Elt F)),
    ternary main_v16 main_call1_v0 main_v2 main_v17 ((select) : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x3C23D70A#32),
    unary main_cst_0 main_v18 (broadcastInDim S8192x8192 ![] bcast_S_S8192x8192 : (⟨S_, .f32⟩ : BufTy).Contents (Elt F) → (⟨S8192x8192, .f32⟩ : BufTy).Contents (Elt F)),
    binary main_v17 main_v18 main_v19 (Host.divf : (⟨S8192x8192, .f32⟩ : BufTy).Contents (Elt F) → (⟨S8192x8192, .f32⟩ : BufTy).Contents (Elt F) → (⟨S8192x8192, .f32⟩ : BufTy).Contents (Elt F)),
    nullary main_call2_cst (constant S_ .f32 0xFF800000#32),
    binary main_v19 main_call2_cst main_call2_v0 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_call2_cst_0 (constant S_ .f32 0xFF800000#32),
    unary main_call2_cst_0 main_call2_v1 ((broadcastInDim S8192 ![] bcast_S_S8192) : (⟨S_, .f32⟩ : BufTy).Contents (Elt F) → (⟨S8192, .f32⟩ : BufTy).Contents (Elt F)),
    binary main_call2_v1 main_call2_v0 main_call2_v2 ((maximumf) : (⟨S8192, .f32⟩ : BufTy).Contents (Elt F) → (⟨S8192, .f32⟩ : BufTy).Contents (Elt F) → (⟨S8192, .f32⟩ : BufTy).Contents (Elt F)),
    unary main_call2_v2 main_call2_v3 ((broadcastInDim S8192x1 ![0] bcast_S8192_S8192x1_0) : (⟨S8192, .f32⟩ : BufTy).Contents (Elt F) → (⟨S8192x1, .f32⟩ : BufTy).Contents (Elt F)),
    unary main_call2_v3 main_call2_v4 ((broadcastInDim S8192x8192 ![0, 1] bcast_S8192x1_S8192x8192_0_1) : (⟨S8192x1, .f32⟩ : BufTy).Contents (Elt F) → (⟨S8192x8192, .f32⟩ : BufTy).Contents (Elt F)),
    binary main_v19 main_call2_v4 main_call2_v5 ((subf) : (⟨S8192x8192, .f32⟩ : BufTy).Contents (Elt F) → (⟨S8192x8192, .f32⟩ : BufTy).Contents (Elt F) → (⟨S8192x8192, .f32⟩ : BufTy).Contents (Elt F)),
    unary main_call2_v5 main_call2_v6 ((Host.exp) : (⟨S8192x8192, .f32⟩ : BufTy).Contents (Elt F) → (⟨S8192x8192, .f32⟩ : BufTy).Contents (Elt F)),
    nullary main_call2_cst_1 (constant S_ .f32 0x00000000#32),
    binary main_call2_v6 main_call2_cst_1 main_call2_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_call2_v7 main_call2_v8 ((broadcastInDim S8192x1 ![0] bcast_S8192_S8192x1_0) : (⟨S8192, .f32⟩ : BufTy).Contents (Elt F) → (⟨S8192x1, .f32⟩ : BufTy).Contents (Elt F)),
    unary main_call2_v8 main_call2_v9 ((Host.log) : (⟨S8192x1, .f32⟩ : BufTy).Contents (Elt F) → (⟨S8192x1, .f32⟩ : BufTy).Contents (Elt F)),
    unary main_call2_v9 main_call2_v10 ((broadcastInDim S8192x8192 ![0, 1] bcast_S8192x1_S8192x8192_0_1) : (⟨S8192x1, .f32⟩ : BufTy).Contents (Elt F) → (⟨S8192x8192, .f32⟩ : BufTy).Contents (Elt F)),
    binary main_call2_v5 main_call2_v10 main_v20 ((subf) : (⟨S8192x8192, .f32⟩ : BufTy).Contents (Elt F) → (⟨S8192x8192, .f32⟩ : BufTy).Contents (Elt F) → (⟨S8192x8192, .f32⟩ : BufTy).Contents (Elt F)),
    unary main_v19 main_v21 ((transpose S8192x8192 [1, 0] · transposes_S8192x8192_S8192x8192_1_0) : (⟨S8192x8192, .f32⟩ : BufTy).Contents (Elt F) → (⟨S8192x8192, .f32⟩ : BufTy).Contents (Elt F)),
    nullary main_call3_cst (constant S_ .f32 0xFF800000#32),
    binary main_v21 main_call3_cst main_call3_v0 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_call3_cst_0 (constant S_ .f32 0xFF800000#32),
    unary main_call3_cst_0 main_call3_v1 ((broadcastInDim S8192 ![] bcast_S_S8192) : (⟨S_, .f32⟩ : BufTy).Contents (Elt F) → (⟨S8192, .f32⟩ : BufTy).Contents (Elt F)),
    binary main_call3_v1 main_call3_v0 main_call3_v2 ((maximumf) : (⟨S8192, .f32⟩ : BufTy).Contents (Elt F) → (⟨S8192, .f32⟩ : BufTy).Contents (Elt F) → (⟨S8192, .f32⟩ : BufTy).Contents (Elt F)),
    unary main_call3_v2 main_call3_v3 ((broadcastInDim S8192x1 ![0] bcast_S8192_S8192x1_0) : (⟨S8192, .f32⟩ : BufTy).Contents (Elt F) → (⟨S8192x1, .f32⟩ : BufTy).Contents (Elt F)),
    unary main_call3_v3 main_call3_v4 ((broadcastInDim S8192x8192 ![0, 1] bcast_S8192x1_S8192x8192_0_1) : (⟨S8192x1, .f32⟩ : BufTy).Contents (Elt F) → (⟨S8192x8192, .f32⟩ : BufTy).Contents (Elt F)),
    binary main_v21 main_call3_v4 main_call3_v5 ((subf) : (⟨S8192x8192, .f32⟩ : BufTy).Contents (Elt F) → (⟨S8192x8192, .f32⟩ : BufTy).Contents (Elt F) → (⟨S8192x8192, .f32⟩ : BufTy).Contents (Elt F)),
    unary main_call3_v5 main_call3_v6 ((Host.exp) : (⟨S8192x8192, .f32⟩ : BufTy).Contents (Elt F) → (⟨S8192x8192, .f32⟩ : BufTy).Contents (Elt F)),
    nullary main_call3_cst_1 (constant S_ .f32 0x00000000#32),
    binary main_call3_v6 main_call3_cst_1 main_call3_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_call3_v7 main_call3_v8 ((broadcastInDim S8192x1 ![0] bcast_S8192_S8192x1_0) : (⟨S8192, .f32⟩ : BufTy).Contents (Elt F) → (⟨S8192x1, .f32⟩ : BufTy).Contents (Elt F)),
    unary main_call3_v8 main_call3_v9 ((Host.log) : (⟨S8192x1, .f32⟩ : BufTy).Contents (Elt F) → (⟨S8192x1, .f32⟩ : BufTy).Contents (Elt F)),
    unary main_call3_v9 main_call3_v10 ((broadcastInDim S8192x8192 ![0, 1] bcast_S8192x1_S8192x8192_0_1) : (⟨S8192x1, .f32⟩ : BufTy).Contents (Elt F) → (⟨S8192x8192, .f32⟩ : BufTy).Contents (Elt F)),
    binary main_call3_v5 main_call3_v10 main_v22 ((subf) : (⟨S8192x8192, .f32⟩ : BufTy).Contents (Elt F) → (⟨S8192x8192, .f32⟩ : BufTy).Contents (Elt F) → (⟨S8192x8192, .f32⟩ : BufTy).Contents (Elt F)),
    nullary main_c_1 (constantI S_ 32 0#32),
    unary main_c_1 main_v23 (broadcastInDim S8192 ![] bcast_S_S8192 : (⟨S_, .i32⟩ : BufTy).Contents (Elt F) → (⟨S8192, .i32⟩ : BufTy).Contents (Elt F)),
    binary main_v3 main_v23 main_v24 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v25 (broadcastInDim S8192 ![] bcast_S_S8192 : (⟨S_, .i32⟩ : BufTy).Contents (Elt F) → (⟨S8192, .i32⟩ : BufTy).Contents (Elt F)),
    binary main_v3 main_v25 main_v26 (addi : (⟨S8192, .i32⟩ : BufTy).Contents (Elt F) → (⟨S8192, .i32⟩ : BufTy).Contents (Elt F) → (⟨S8192, .i32⟩ : BufTy).Contents (Elt F)),
    ternary main_v24 main_v26 main_v3 main_v27 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_3 (constantI S_ 32 0#32),
    unary main_c_3 main_v28 (broadcastInDim S8192 ![] bcast_S_S8192 : (⟨S_, .i32⟩ : BufTy).Contents (Elt F) → (⟨S8192, .i32⟩ : BufTy).Contents (Elt F)),
    binary main_v3 main_v28 main_v29 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v30 (broadcastInDim S8192 ![] bcast_S_S8192 : (⟨S_, .i32⟩ : BufTy).Contents (Elt F) → (⟨S8192, .i32⟩ : BufTy).Contents (Elt F)),
    binary main_v3 main_v30 main_v31 (addi : (⟨S8192, .i32⟩ : BufTy).Contents (Elt F) → (⟨S8192, .i32⟩ : BufTy).Contents (Elt F) → (⟨S8192, .i32⟩ : BufTy).Contents (Elt F)),
    ternary main_v29 main_v31 main_v3 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v27 main_v33 (broadcastInDim S8192x1 ![0] bcast_S8192_S8192x1_0 : (⟨S8192, .i32⟩ : BufTy).Contents (Elt F) → (⟨S8192x1, .i32⟩ : BufTy).Contents (Elt F)),
    unary main_v32 main_v34 (broadcastInDim S8192x1 ![0] bcast_S8192_S8192x1_0 : (⟨S8192, .i32⟩ : BufTy).Contents (Elt F) → (⟨S8192x1, .i32⟩ : BufTy).Contents (Elt F)),
    binary main_v33 main_v34 main_v35 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v20 main_v35 main_v36 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_5 (constant S_ .f32 0x00000000#32),
    binary main_v36 main_cst_5 main_v37 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_6 (constant S_ .f32 0x46000000#32),
    binary main_v37 main_cst_6 main_v38 (Host.divf : (⟨S_, .f32⟩ : BufTy).Contents (Elt F) → (⟨S_, .f32⟩ : BufTy).Contents (Elt F) → (⟨S_, .f32⟩ : BufTy).Contents (Elt F)),
    unary main_v38 main_v39 (Host.negf : (⟨S_, .f32⟩ : BufTy).Contents (Elt F) → (⟨S_, .f32⟩ : BufTy).Contents (Elt F)),
    nullary main_c_7 (constantI S_ 32 0#32),
    unary main_c_7 main_v40 (broadcastInDim S8192 ![] bcast_S_S8192 : (⟨S_, .i32⟩ : BufTy).Contents (Elt F) → (⟨S8192, .i32⟩ : BufTy).Contents (Elt F)),
    binary main_v3 main_v40 main_v41 (cmpi .slt : (⟨S8192, .i32⟩ : BufTy).Contents (Elt F) → (⟨S8192, .i32⟩ : BufTy).Contents (Elt F) → (⟨S8192, .i1⟩ : BufTy).Contents (Elt F)),
    nullary main_c_8 (constantI S_ 32 8192#32),
    unary main_c_8 main_v42 (broadcastInDim S8192 ![] bcast_S_S8192 : (⟨S_, .i32⟩ : BufTy).Contents (Elt F) → (⟨S8192, .i32⟩ : BufTy).Contents (Elt F)),
    binary main_v3 main_v42 main_v43 (addi : (⟨S8192, .i32⟩ : BufTy).Contents (Elt F) → (⟨S8192, .i32⟩ : BufTy).Contents (Elt F) → (⟨S8192, .i32⟩ : BufTy).Contents (Elt F)),
    ternary main_v41 main_v43 main_v3 main_v44 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_9 (constantI S_ 32 0#32),
    unary main_c_9 main_v45 (broadcastInDim S8192 ![] bcast_S_S8192 : (⟨S_, .i32⟩ : BufTy).Contents (Elt F) → (⟨S8192, .i32⟩ : BufTy).Contents (Elt F)),
    binary main_v3 main_v45 main_v46 (cmpi .slt : (⟨S8192, .i32⟩ : BufTy).Contents (Elt F) → (⟨S8192, .i32⟩ : BufTy).Contents (Elt F) → (⟨S8192, .i1⟩ : BufTy).Contents (Elt F)),
    nullary main_c_10 (constantI S_ 32 8192#32) ]

/-- The last twenty-one statements, the calls unfolded: the second diagonal and its mean, the half sum, the guard. -/
abbrev ops1 : List (HloOp τ sig (Elt F)) :=
  [ unary main_c_10 main_v47 (broadcastInDim S8192 ![] bcast_S_S8192 : (⟨S_, .i32⟩ : BufTy).Contents (Elt F) → (⟨S8192, .i32⟩ : BufTy).Contents (Elt F)),
    binary main_v3 main_v47 main_v48 (addi : (⟨S8192, .i32⟩ : BufTy).Contents (Elt F) → (⟨S8192, .i32⟩ : BufTy).Contents (Elt F) → (⟨S8192, .i32⟩ : BufTy).Contents (Elt F)),
    ternary main_v46 main_v48 main_v3 main_v49 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v44 main_v50 (broadcastInDim S8192x1 ![0] bcast_S8192_S8192x1_0 : (⟨S8192, .i32⟩ : BufTy).Contents (Elt F) → (⟨S8192x1, .i32⟩ : BufTy).Contents (Elt F)),
    unary main_v49 main_v51 (broadcastInDim S8192x1 ![0] bcast_S8192_S8192x1_0 : (⟨S8192, .i32⟩ : BufTy).Contents (Elt F) → (⟨S8192x1, .i32⟩ : BufTy).Contents (Elt F)),
    binary main_v50 main_v51 main_v52 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v22 main_v52 main_v53 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_11 (constant S_ .f32 0x00000000#32),
    binary main_v53 main_cst_11 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_12 (constant S_ .f32 0x46000000#32),
    binary main_v54 main_cst_12 main_v55 (Host.divf : (⟨S_, .f32⟩ : BufTy).Contents (Elt F) → (⟨S_, .f32⟩ : BufTy).Contents (Elt F) → (⟨S_, .f32⟩ : BufTy).Contents (Elt F)),
    unary main_v55 main_v56 (Host.negf : (⟨S_, .f32⟩ : BufTy).Contents (Elt F) → (⟨S_, .f32⟩ : BufTy).Contents (Elt F)),
    binary main_v39 main_v56 main_v57 (addf : (⟨S_, .f32⟩ : BufTy).Contents (Elt F) → (⟨S_, .f32⟩ : BufTy).Contents (Elt F) → (⟨S_, .f32⟩ : BufTy).Contents (Elt F)),
    nullary main_cst_13 (constant S_ .f32 0x40000000#32),
    binary main_v57 main_cst_13 main_v58 (Host.divf : (⟨S_, .f32⟩ : BufTy).Contents (Elt F) → (⟨S_, .f32⟩ : BufTy).Contents (Elt F) → (⟨S_, .f32⟩ : BufTy).Contents (Elt F)),
    binary main_v58 main_v58 main_v59 (cmpf .une : (⟨S_, .f32⟩ : BufTy).Contents (Elt F) → (⟨S_, .f32⟩ : BufTy).Contents (Elt F) → (⟨S_, .i1⟩ : BufTy).Contents (Elt F)),
    unary main_v58 main_call4_v0 ((Host.absf) : (⟨S_, .f32⟩ : BufTy).Contents (Elt F) → (⟨S_, .f32⟩ : BufTy).Contents (Elt F)),
    nullary main_call4_cst (constant S_ .f32 0x7F800000#32),
    binary main_call4_v0 main_call4_cst main_v60 ((cmpf .oeq) : (⟨S_, .f32⟩ : BufTy).Contents (Elt F) → (⟨S_, .f32⟩ : BufTy).Contents (Elt F) → (⟨S_, .i1⟩ : BufTy).Contents (Elt F)),
    binary main_v59 main_v60 main_v61 (ori : (⟨S_, .i1⟩ : BufTy).Contents (Elt F) → (⟨S_, .i1⟩ : BufTy).Contents (Elt F) → (⟨S_, .i1⟩ : BufTy).Contents (Elt F)),
    nullary main_cst_14 (constant S_ .f32 0x00000000#32),
    ternary main_v61 main_cst_14 main_v58 main_v62 ((select) : (⟨S_, .i1⟩ : BufTy).Contents (Elt F) → (⟨S_, .f32⟩ : BufTy).Contents (Elt F) → (⟨S_, .f32⟩ : BufTy).Contents (Elt F) → (⟨S_, .f32⟩ : BufTy).Contents (Elt F)) ]

/-- @main's operations, in order. -/
abbrev ops : List (HloOp τ sig (Elt F)) := ops0 ++ ops1

universe u v in
/-- Two binds are equal when their parts are. -/
theorem bind_congr2 {m : Type u → Type v} [Bind m] {α β : Type u} {a a' : m α} {f f' : α → m β} (h1 : a = a') (h2 : ∀ x, f x = f' x) :
    a >>= f = a' >>= f' := by
  subst h1; exact congrArg _ (funext h2)

-- the reductions, the gather and the product are kept folded while two operations are compared: their bodies walk the
-- operand's elements, and the comparison never needs to look inside them
attribute [local irreducible] Host.reduce Host.reduceAdd Host.gather in
set_option maxRecDepth 8192 in
set_option maxHeartbeats 4000000 in
/-- The first window is its straight line: the functions unfolded at their calls, sequencing reassociated, then
    operation by operation (a callee's operation over typed references is the plain one at literal references). -/
theorem part0_eq (c : Dev nD) : main_part0 (F := F) c = seq ops0 := by
  simp only [main_part0, fn_floor_divide.body, fn_where.body, fn_where_0.body, fn_log_softmax.body, seq, bind_assoc, pure_bind]
  iterate 104 (refine bind_congr2 rfl (fun _ => ?_))
  rfl

attribute [local irreducible] Host.reduce Host.reduceAdd Host.gather in
set_option maxRecDepth 8192 in
set_option maxHeartbeats 4000000 in
/-- The second window likewise. -/
theorem part1_eq (c : Dev nD) : main_part1 (F := F) c = seq ops1 := by
  simp only [main_part1, fn_isinf.body, fn_where_1.body, seq, bind_assoc, pure_bind]
  iterate 22 (refine bind_congr2 rfl (fun _ => ?_))
  rfl

/-- @main is the straight line. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨reshape_bufs_sub .., reshape_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., binary_bufs_sub .., nullary_bufs_sub .., unary_bufs_sub .., ternary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩

set_option maxRecDepth 8192 in
theorem ops1_sub : (ops1 : List (HloOp τ sig (Elt F))).Forall fun op => op.bufs ⊆ tcRefs τ sig :=
  ⟨unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub .., binary_bufs_sub .., nullary_bufs_sub .., binary_bufs_sub .., binary_bufs_sub .., unary_bufs_sub .., nullary_bufs_sub .., binary_bufs_sub .., binary_bufs_sub .., nullary_bufs_sub .., ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-! ## The operations' composed term, by stages -/

/-- The index vector 0 … 8191. -/
def tIota : IVec S8192 32 := iotaInDim S8192 32 0

/-- The index vector floor-divided by sixteen, as the operations compute it: the truncated quotient, one less where the
    signs differ and the remainder is not zero. -/
def tBlk : IVec S8192 32 :=
  ((select)) (((andi)) (((cmpi .ne)) (((signi)) (tIota)) (((broadcastInDim S8192 ![] bcast_S_S8192)) (((signi)) (((id)) (constantI S_ 32 16#32))))) (((cmpi .ne)) (((Host.remsi)) (tIota) (((broadcastInDim S8192 ![] bcast_S_S8192)) (((id)) (constantI S_ 32 16#32)))) (((broadcastInDim S8192 ![] bcast_S_S8192)) (constantI S_ 32 0#32)))) (((subi)) (((Host.divsi)) (tIota) (((broadcastInDim S8192 ![] bcast_S_S8192)) (((id)) (constantI S_ 32 16#32)))) (((broadcastInDim S8192 ![] bcast_S_S8192)) (constantI S_ 32 1#32))) (((Host.divsi)) (tIota) (((broadcastInDim S8192 ![] bcast_S_S8192)) (((id)) (constantI S_ 32 16#32))))

/-- The mask: equal blocks and not equal indices. -/
def tMask : IVec S8192x8192 1 :=
  (andi) ((cmpi .eq) ((broadcastInDim S8192x8192 ![0, 1] bcast_S8192x1_S8192x8192_0_1) ((broadcastInDim S8192x1 ![0] bcast_S8192_S8192x1_0) (tBlk))) ((broadcastInDim S8192x8192 ![0, 1] bcast_S1x8192_S8192x8192_0_1) ((broadcastInDim S1x8192 ![1] bcast_S8192_S1x8192_1) (tBlk)))) ((noti) ((cmpi .eq) ((broadcastInDim S8192x8192 ![0, 1] bcast_S8192x1_S8192x8192_0_1) ((broadcastInDim S8192x1 ![0] bcast_S8192_S8192x1_0) (tIota))) ((broadcastInDim S8192x8192 ![0, 1] bcast_S1x8192_S8192x8192_0_1) ((broadcastInDim S1x8192 ![1] bcast_S8192_S1x8192_1) (tIota)))))

/-- The logits: the product of the two reshaped arguments, the mask value where masked, over the temperature. -/
def tLogits (x y : FVec F S512x16x128 .f32) : FVec F S8192x8192 .f32 :=
  (Host.divf) (((select)) (tMask) (((broadcastInDim S8192x8192 ![] bcast_S_S8192x8192)) (constant (F := F) S_ .f32 0xC61C4000#32)) (((fun l r => Host.dotGeneral dot_S8192x128_S8192x128_S8192x8192_1_1_0_0_n_n none l r)) (shapeCast S8192x128 (x) shapeCasts_S512x16x128_S8192x128) (shapeCast S8192x128 (y) shapeCasts_S512x16x128_S8192x128))) ((broadcastInDim S8192x8192 ![] bcast_S_S8192x8192) (constant (F := F) S_ .f32 0x3C23D70A#32))

/-- The logits transposed. -/
def tLogitsT (x y : FVec F S512x16x128 .f32) : FVec F S8192x8192 .f32 :=
  ((transpose S8192x8192 [1, 0] · transposes_S8192x8192_S8192x8192_1_0)) (tLogits x y)

/-- A matrix less its row maxima (taken from -∞, then against -∞). -/
def tShift (z : FVec F S8192x8192 .f32) : FVec F S8192x8192 .f32 :=
  ((subf)) (z) (((broadcastInDim S8192x8192 ![0, 1] bcast_S8192x1_S8192x8192_0_1)) (((broadcastInDim S8192x1 ![0] bcast_S8192_S8192x1_0)) (((maximumf)) (((broadcastInDim S8192 ![] bcast_S_S8192)) (constant (F := F) S_ .f32 0xFF800000#32)) (((fun x v => Host.reduce FloatOps.maximumf x v reducesTo_S8192x8192_S8192_d1 h_S_)) (z) (constant (F := F) S_ .f32 0xFF800000#32)))))

/-- The log-softmax along the rows. -/
def tLsm (z : FVec F S8192x8192 .f32) : FVec F S8192x8192 .f32 :=
  ((subf)) (tShift z) (((broadcastInDim S8192x8192 ![0, 1] bcast_S8192x1_S8192x8192_0_1)) (((Host.log)) (((broadcastInDim S8192x1 ![0] bcast_S8192_S8192x1_0)) (((fun x v => Host.reduceAdd x v reducesTo_S8192x8192_S8192_d1 h_S_)) (((Host.exp)) (tShift z)) (constant (F := F) S_ .f32 0x00000000#32)))))

/-- The start indices (i, i) of the diagonal, each coordinate wrapped where negative. -/
def tDiagIdx : IVec S8192x2 32 :=
  ((fun a b => concatenate S8192x2 1 [⟨S8192x1, a⟩, ⟨S8192x1, b⟩] concatenates_S8192x1_S8192x1_S8192x2_d1)) ((broadcastInDim S8192x1 ![0] bcast_S8192_S8192x1_0) ((select) ((cmpi .slt) (tIota) ((broadcastInDim S8192 ![] bcast_S_S8192) (constantI S_ 32 0#32))) ((addi) (tIota) ((broadcastInDim S8192 ![] bcast_S_S8192) (constantI S_ 32 8192#32))) (tIota))) ((broadcastInDim S8192x1 ![0] bcast_S8192_S8192x1_0) ((select) ((cmpi .slt) (tIota) ((broadcastInDim S8192 ![] bcast_S_S8192) (constantI S_ 32 0#32))) ((addi) (tIota) ((broadcastInDim S8192 ![] bcast_S_S8192) (constantI S_ 32 8192#32))) (tIota)))

/-- Minus the mean of the diagonal of the log-softmax. -/
def tCe (z : FVec F S8192x8192 .f32) : FVec F S_ .f32 :=
  (Host.negf) ((Host.divf) (((fun x v => Host.reduceAdd x v reducesTo_S8192_S_d0 h_S_)) (((fun x i => Host.gather gather_S8192x8192_S8192x2_S8192_n_01_n_n_01_1_11 x i)) (tLsm z) (tDiagIdx)) (constant (F := F) S_ .f32 0x00000000#32)) (constant (F := F) S_ .f32 0x46000000#32))

/-- Half the sum of the two cross entropies. -/
def tHalf (x y : FVec F S512x16x128 .f32) : FVec F S_ .f32 :=
  (Host.divf) ((addf) (tCe (tLogits x y)) (tCe (tLogitsT x y))) (constant (F := F) S_ .f32 0x40000000#32)

/-- The result: the half sum, zero where it differs from itself or is infinite. -/
def refVal (x y : FVec F S512x16x128 .f32) : FVec F S_ .f32 :=
  ((select)) ((ori) ((cmpf .une) (tHalf x y) (tHalf x y)) (((cmpf .oeq)) (((Host.absf)) (tHalf x y)) (constant (F := F) S_ .f32 0x7F800000#32))) (constant (F := F) S_ .f32 0x00000000#32) (tHalf x y)

/-! ## The run -/

attribute [local irreducible] Host.reduce Host.reduceAdd Host.gather in
set_option maxRecDepth 8192 in
set_option maxHeartbeats 16000000 in
/-- After the operations the result buffer holds the composed term of the two arguments' contents. -/
theorem after_result (V : Valuation τ sig (Elt F)) :
    after ops V (Proc.devRef .tc main_v62) = refVal (V (Proc.devRef .tc main_arg0)) (V (Proc.devRef .tc main_arg1)) := by
  simp only [ops, after_append]
  after_results_simp
  rfl

set_option maxRecDepth 8192 in
set_option maxHeartbeats 4000000 in
/-- No operation writes the first argument. -/
theorem after_arg0 (V : Valuation τ sig (Elt F)) :
    after ops V (Proc.devRef .tc main_arg0) = V (Proc.devRef .tc main_arg0) := by
  simp only [ops, after_append]
  after_results_simp

set_option maxRecDepth 8192 in
set_option maxHeartbeats 4000000 in
/-- No operation writes the second argument. -/
theorem after_arg1 (V : Valuation τ sig (Elt F)) :
    after ops V (Proc.devRef .tc main_arg1) = V (Proc.devRef .tc main_arg1) := by
  simp only [ops, after_append]
  after_results_simp

set_option maxRecDepth 8192 in
/-- On every device, for any float values, from any memory with zero counters: every weakly fair execution of @main
    terminates with the result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62)
          = refVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v62).trans (after_result (launchContents m c)),
      (h c main_arg0).trans (after_arg0 (launchContents m c)),
      (h c main_arg1).trans (after_arg1 (launchContents m c))⟩)
    (run_seq scopedRefs_eq scopedSems_eq defs main (fun _ => ops) main_eq (fun _ => ops_sub) m ρ)

end Cert.ReferenceIdeal.Hand

end
-- ==== Proof.Ref.Spec.lean ====
/-
  The symmetric block-masked contrastive loss in closed form over the extended reals: the rows of the two
  [512,16,128] arrays read as [8192,128] matrices, the masked and scaled logits, the row maximum from -∞, the
  log-softmax at the diagonal, the two cross entropies (rows and columns), and the final guard.
-/
import Idealize.ShloMosaic.PureOps.Ideal
import Idealize.ShloMosaic.Lib.ValueIdx

noncomputable section

namespace Cert.ReferenceIdeal.Hand

open Idealize.ShloMosaic Idealize.ShloMosaic.ValueIdx
open scoped BigOperators

/-- Row `i` of the row-major [8192,128] reading of a [512,16,128] array, at column `k`. -/
def row (x : (⟨3, ![512, 16, 128]⟩ : Shape).Idx → EReal) (i : Fin 8192) (k : Fin 128) : EReal :=
  x (ix3 (⟨i.val / 16, by omega⟩ : Fin 512) (⟨i.val % 16, by omega⟩ : Fin 16) k)

/-- The temperature: the f32 nearest 0.01, exactly. -/
def D : EReal := ((5368709 / 536870912 : ℝ) : EReal)

/-- The mask: same block of sixteen and off the diagonal. -/
def masked (i j : Fin 8192) : Prop := i.val / 16 = j.val / 16 ∧ i ≠ j

instance (i j : Fin 8192) : Decidable (masked i j) := by unfold masked; infer_instance

/-- The similarity of row `i` of `x` and row `j` of `y`. -/
def sim (x y : (⟨3, ![512, 16, 128]⟩ : Shape).Idx → EReal) (i j : Fin 8192) : EReal :=
  ∑ k : Fin 128, row x i k * row y j k

/-- The logits: the similarity, -10000 where masked, over the temperature. -/
def lg (x y : (⟨3, ![512, 16, 128]⟩ : Shape).Idx → EReal) (i j : Fin 8192) : EReal :=
  Ideal.div (if masked i j then ((-10000 : ℝ) : EReal) else sim x y i j) D

/-- A row's maximum as the host takes it: the fold of `max` from -∞, then the maximum with -∞. -/
def rmax (f : Fin 8192 → EReal) : EReal := max ⊥ (Finset.univ.fold max ⊥ f)

/-- The log-softmax of the row `f` at an entry whose logit is `d`. -/
def lsm (f : Fin 8192 → EReal) (d : EReal) : EReal :=
  (d - rmax f) - Ideal.log (0 + ∑ j : Fin 8192, Ideal.exp (f j - rmax f))

/-- The cross entropy along the rows, labels the diagonal. -/
def ceR (x y : (⟨3, ![512, 16, 128]⟩ : Shape).Idx → EReal) : EReal :=
  -(Ideal.div (0 + ∑ i : Fin 8192, lsm (fun j => lg x y i j) (lg x y i i)) ((8192 : ℝ) : EReal))

/-- The cross entropy along the columns, labels the diagonal. -/
def ceC (x y : (⟨3, ![512, 16, 128]⟩ : Shape).Idx → EReal) : EReal :=
  -(Ideal.div (0 + ∑ i : Fin 8192, lsm (fun j => lg x y j i) (lg x y i i)) ((8192 : ℝ) : EReal))

/-- The final guard on one value: `0` where the value differs from itself or its magnitude is +∞, else the value. -/
def guard (t : EReal) : EReal :=
  Scalar.select (IntOp.ori (Ideal.cmp .une t t) (Ideal.cmp .oeq (max t (-t)) ⊤)) 0 t

/-- The guard as the three host operations on a tensor compute it, at every index. -/
theorem guard_ops {s : Shape} (t : FVec Ideal s .f32) :
    select (ori (cmpf .une t t) (cmpf .oeq (Host.absf t) (constant s .f32 0x7F800000#32))) (constant s .f32 0x00000000#32) t
      = fun i => guard (t i) := by
  funext i
  show Scalar.select (IntOp.ori (Ideal.cmp .une (t i) (t i)) (Ideal.cmp .oeq (max (t i) (-(t i))) (Ideal.ofBits .f32 0x7F800000#32)))
    (Ideal.ofBits .f32 0x00000000#32) (t i) = guard (t i)
  have h0 : Ideal.ofBits .f32 0x00000000#32 = 0 := by simp [Ideal.ofBits, Ideal.ieee]
  have h1 : Ideal.ofBits .f32 0x7F800000#32 = ⊤ := by simp [Ideal.ofBits, Ideal.ieee]
  rw [h0, h1]; rfl

/-- The guard in words: an infinity goes to zero, anything else is kept. -/
theorem guard_eq (t : EReal) : guard t = if t = ⊤ ∨ t = ⊥ then 0 else t := by
  unfold guard Scalar.select Ideal.cmp IntOp.ori
  induction t using EReal.rec with
  | bot => simp
  | top => simp
  | coe r =>
    have h : max (r : EReal) (-(r : EReal)) ≠ ⊤ := by
      rcases max_choice (r : EReal) (-(r : EReal)) with h | h <;> rw [h]
      · exact EReal.coe_ne_top _
      · rw [← EReal.coe_neg]; exact EReal.coe_ne_top _
    simp [h]

/-- The whole loss. -/
def loss (x y : (⟨3, ![512, 16, 128]⟩ : Shape).Idx → EReal) : EReal :=
  guard (Ideal.div (ceR x y + ceC x y) ((2 : ℝ) : EReal))

end Cert.ReferenceIdeal.Hand

end
-- ==== Proof.Ref.Consts.lean ====
/-
  The f32 literals of the reference program and of the kernel, as extended reals.
-/
import Idealize.ShloMosaic.PureOps.Ideal

noncomputable section

namespace Cert.ReferenceIdeal.Hand

open Idealize.ShloMosaic

/-- The f32 word of the mask value is -10000. -/
theorem ofBits_neg10000 : Ideal.ofBits .f32 0xC61C4000#32 = ((-10000 : ℝ) : EReal) := by
  simp [Ideal.ofBits, Ideal.ieee, -EReal.coe_mul]; norm_num

/-- The f32 word nearest 0.01 is exactly 5368709 / 536870912. -/
theorem ofBits_temperature : Ideal.ofBits .f32 0x3C23D70A#32 = ((5368709 / 536870912 : ℝ) : EReal) := by
  simp [Ideal.ofBits, Ideal.ieee, -EReal.coe_mul]; norm_num

/-- The f32 word of 8192. -/
theorem ofBits_8192 : Ideal.ofBits .f32 0x46000000#32 = ((8192 : ℝ) : EReal) := by
  simp [Ideal.ofBits, Ideal.ieee, -EReal.coe_mul]; norm_num

/-- The f32 word of 2. -/
theorem ofBits_two : Ideal.ofBits .f32 0x40000000#32 = ((2 : ℝ) : EReal) := by
  simp [Ideal.ofBits, Ideal.ieee, -EReal.coe_mul]; norm_num

/-- The f32 word of 0. -/
theorem ofBits_zero : Ideal.ofBits .f32 0x00000000#32 = 0 := by
  simp [Ideal.ofBits, Ideal.ieee]

/-- The f32 word of +∞. -/
theorem ofBits_top : Ideal.ofBits .f32 0x7F800000#32 = ⊤ := by
  simp [Ideal.ofBits, Ideal.ieee]

/-- The f32 word of -∞. -/
theorem ofBits_bot : Ideal.ofBits .f32 0xFF800000#32 = ⊥ := by
  simp [Ideal.ofBits, Ideal.ieee]

/-- The f32 word of 100. -/
theorem ofBits_100 : Ideal.ofBits .f32 0x42C80000#32 = ((100 : ℝ) : EReal) := by
  simp [Ideal.ofBits, Ideal.ieee, -EReal.coe_mul]; norm_num

/-- The f32 word of -1000000. -/
theorem ofBits_neg1e6 : Ideal.ofBits .f32 0xC9742400#32 = ((-1000000 : ℝ) : EReal) := by
  simp [Ideal.ofBits, Ideal.ieee, -EReal.coe_mul]; norm_num

end Cert.ReferenceIdeal.Hand

end
-- ==== Proof.Ref.Reshape.lean ====
/-
  The row-major reshape of a [512,16,128] array to [8192,128], read at an index: row `i`, column `k` is the
  element at (i / 16, i % 16, k).
-/
import Idealize.ShloMosaic.Lib.Pipeline.Value
import proofs.«162174_j13649406066960_2_alg».proof.Proof.Ref.Spec

noncomputable section

namespace Cert.ReferenceIdeal.Hand

open Idealize.ShloMosaic Idealize.ShloMosaic.ValueIdx

/-- The reshape at (i, k) is the spec's row `i` at column `k`, for any proof of the shape fact. -/
theorem shapeCast_row (x : (⟨3, ![512, 16, 128]⟩ : Shape).Idx → EReal)
    (h : (⟨3, ![512, 16, 128]⟩ : Shape).ShapeCasts (⟨2, ![8192, 128]⟩ : Shape)) (i : Fin 8192) (k : Fin 128) :
    shapeCast (⟨2, ![8192, 128]⟩ : Shape) x h (ix2 i k) = row x i k := by
  unfold row
  refine shapeCast_apply x h (ix2 i k) _ ?_
  rw [Shape.rowMajor_val_three, Shape.rowMajor_val_two]
  show (i.val / 16 * 16 + i.val % 16) * 128 + k.val = i.val * 128 + k.val
  have := Nat.div_add_mod i.val 16
  omega

end Cert.ReferenceIdeal.Hand

end
-- ==== Proof.Ref.Value.lean ====
/-
  The reference's composed term read in closed form at the ideal values: element by element the operations are the
  spec's (Ref/Spec.lean), so the result is the guarded half sum of the two cross entropies.
-/
import proofs.«162174_j13649406066960_2_alg».proof.Proof.Ref.Run
import proofs.«162174_j13649406066960_2_alg».proof.Proof.Ref.Spec
import proofs.«162174_j13649406066960_2_alg».proof.Proof.Ref.Consts
import proofs.«162174_j13649406066960_2_alg».proof.Proof.Ref.Reshape
import Idealize.ShloMosaic.PureOps.Ideal.Laws
import Idealize.ShloMosaic.Lib.IdealHost
import Idealize.ShloMosaic.Lib.Pipeline.Value
import Idealize.ShloMosaic.Lib.Affine

noncomputable section

namespace Cert.ReferenceIdeal.Hand

open Cert.ReferenceIdeal Cert.ReferenceIdeal.Gen Idealize.ShloMosaic Idealize.ShloMosaic.ValueIdx
open scoped BigOperators

/-! ## Broadcasts at an index -/

section Bcast
variable {α : Type}

/-- A column [8192,1] broadcast along the rows reads the column at the row. -/
theorem bcast_c1 (h : S8192x1.BroadcastsInDim S8192x8192 ![0, 1]) (w : S8192x1.Idx → α) (i j : Fin 8192) :
    broadcastInDim S8192x8192 ![0, 1] h w (ix2 i j) = w (ix2 i (0 : Fin 1)) :=
  broadcastInDim_apply _ h w (ix2 i j) (ix2 i (0 : Fin 1)) (fun a => match a with | ⟨0, _⟩ => rfl | ⟨1, _⟩ => rfl)

/-- A vector as a column reads the vector at the row. -/
theorem bcast_c0 (h : S8192.BroadcastsInDim S8192x1 ![0]) (v : S8192.Idx → α) (i : Fin 8192) :
    broadcastInDim S8192x1 ![0] h v (ix2 i (0 : Fin 1)) = v (ix1 i) :=
  broadcastInDim_apply _ h v (ix2 i (0 : Fin 1)) (ix1 i) (fun a => match a with | ⟨0, _⟩ => rfl)

/-- A row [1,8192] broadcast down the columns reads the row at the column. -/
theorem bcast_r1 (h : S1x8192.BroadcastsInDim S8192x8192 ![0, 1]) (w : S1x8192.Idx → α) (i j : Fin 8192) :
    broadcastInDim S8192x8192 ![0, 1] h w (ix2 i j) = w (ix2 (0 : Fin 1) j) :=
  broadcastInDim_apply _ h w (ix2 i j) (ix2 (0 : Fin 1) j) (fun a => match a with | ⟨0, _⟩ => rfl | ⟨1, _⟩ => rfl)

/-- A vector as a row reads the vector at the column. -/
theorem bcast_r0 (h : S8192.BroadcastsInDim S1x8192 ![1]) (v : S8192.Idx → α) (j : Fin 8192) :
    broadcastInDim S1x8192 ![1] h v (ix2 (0 : Fin 1) j) = v (ix1 j) :=
  broadcastInDim_apply _ h v (ix2 (0 : Fin 1) j) (ix1 j) (fun a => match a with | ⟨0, _⟩ => rfl)

end Bcast

/-! ## The integer part: indices below 8192 -/

theorem toNat_ofNat_lt {n : Nat} (h : n < 8192) : (BitVec.ofNat 32 n).toNat = n := by
  rw [BitVec.toNat_ofNat]; omega

/-- The index vector at `i`. -/
theorem tIota_apply (i : Fin 8192) : tIota (ix1 i) = BitVec.ofNat 32 i.val := rfl

/-- Signed division by sixteen of an index below 8192 is the quotient. -/
theorem divsi_16 {n : Nat} (h : n < 8192) : IntOp.divsi .host (BitVec.ofNat 32 n) 16#32 = BitVec.ofNat 32 (n / 16) := by
  have hN := toNat_ofNat_lt h
  have hm : (BitVec.ofNat 32 n).msb = false := by rw [BitVec.msb_eq_false_iff_two_mul_lt, hN]; omega
  have hc : ¬IntOp.SDivCorner (BitVec.ofNat 32 n) 16#32 := IntOp.not_corner_of_pos (by decide)
  rw [IntOp.divsi, if_neg hc, BitVec.sdiv_eq, hm, show (16#32 : BitVec 32).msb = false from by decide]
  apply BitVec.eq_of_toNat_eq
  show (BitVec.ofNat 32 n / 16#32).toNat = _
  rw [BitVec.toNat_udiv, hN, toNat_ofNat_lt (show n / 16 < 8192 by omega)]
  rfl

/-- The floor division by sixteen at `i`: the sign correction never fires on a nonnegative index. -/
theorem tBlk_apply (i : Fin 8192) : tBlk (ix1 i) = BitVec.ofNat 32 (i.val / 16) := by
  have hi := i.isLt
  show Scalar.select (IntOp.andi (IntOp.cmpi .ne (if BitVec.ofNat 32 i.val = 0 then 0 else if (BitVec.ofNat 32 i.val).msb then -1 else 1)
        (if (16#32 : BitVec 32) = 0 then 0 else if (16#32 : BitVec 32).msb then -1 else 1))
      (IntOp.cmpi .ne (IntOp.remsi .host (BitVec.ofNat 32 i.val) 16#32) 0#32))
    (IntOp.subi (IntOp.divsi .host (BitVec.ofNat 32 i.val) 16#32) 1#32) (IntOp.divsi .host (BitVec.ofNat 32 i.val) 16#32) = _
  have hm : (BitVec.ofNat 32 i.val).msb = false := by
    rw [BitVec.msb_eq_false_iff_two_mul_lt, toNat_ofNat_lt hi]; omega
  rw [divsi_16 hi]
  by_cases h0 : BitVec.ofNat 32 i.val = 0
  · have hr : IntOp.remsi .host (BitVec.ofNat 32 i.val) 16#32 = 0#32 := by rw [h0]; decide
    rw [hr, if_pos h0]
    rfl
  · rw [if_neg h0, hm]
    have hs : (if (16#32 : BitVec 32) = 0 then (0 : BitVec 32) else if (16#32 : BitVec 32).msb then -1 else 1) = 1#32 := by decide
    have hc : IntOp.cmpi .ne (1#32 : BitVec 32) 1#32 = 0#1 := by decide
    have ha : ∀ c : BitVec 1, IntOp.andi 0#1 c = 0#1 := by decide
    rw [hs]
    simp only [Bool.false_eq_true, if_false]
    rw [show ((1 : BitVec 32)) = 1#32 from rfl, hc, ha]
    exact select_zero _ _

/-- The mask at (i, j): the blocks agree and the indices differ. -/
theorem tMask_apply (i j : Fin 8192) : tMask (ix2 i j) = if masked i j then 1#1 else 0#1 := by
  unfold tMask
  show IntOp.andi (IntOp.cmpi .eq (broadcastInDim S8192x8192 ![0, 1] bcast_S8192x1_S8192x8192_0_1 (broadcastInDim S8192x1 ![0] bcast_S8192_S8192x1_0 tBlk) (ix2 i j))
        (broadcastInDim S8192x8192 ![0, 1] bcast_S1x8192_S8192x8192_0_1 (broadcastInDim S1x8192 ![1] bcast_S8192_S1x8192_1 tBlk) (ix2 i j)))
      (~~~ IntOp.cmpi .eq (broadcastInDim S8192x8192 ![0, 1] bcast_S8192x1_S8192x8192_0_1 (broadcastInDim S8192x1 ![0] bcast_S8192_S8192x1_0 tIota) (ix2 i j))
        (broadcastInDim S8192x8192 ![0, 1] bcast_S1x8192_S8192x8192_0_1 (broadcastInDim S1x8192 ![1] bcast_S8192_S1x8192_1 tIota) (ix2 i j))) = _
  rw [bcast_c1, bcast_c0, bcast_r1, bcast_r0, bcast_c1, bcast_c0, bcast_r1, bcast_r0, tBlk_apply, tBlk_apply, tIota_apply, tIota_apply]
  have hi := i.isLt
  have hj := j.isLt
  have e1 : (BitVec.ofNat 32 (i.val / 16) == BitVec.ofNat 32 (j.val / 16)) = decide (i.val / 16 = j.val / 16) := by
    rw [Bool.eq_iff_iff]; simp only [beq_iff_eq, decide_eq_true_eq]
    constructor
    · intro h; have := congrArg BitVec.toNat h
      rwa [toNat_ofNat_lt (by omega), toNat_ofNat_lt (by omega)] at this
    · intro h; rw [h]
  have e2 : (BitVec.ofNat 32 i.val == BitVec.ofNat 32 j.val) = decide (i = j) := by
    rw [Bool.eq_iff_iff]; simp only [beq_iff_eq, decide_eq_true_eq]
    constructor
    · intro h; have := congrArg BitVec.toNat h
      rw [toNat_ofNat_lt hi, toNat_ofNat_lt hj] at this
      exact Fin.ext this
    · intro h; rw [h]
  unfold IntOp.cmpi IntOp.andi masked
  simp only [e1, e2]
  by_cases hb : i.val / 16 = j.val / 16 <;> by_cases he : i = j <;> simp [hb, he]

/-! ## The logits -/

/-- The product at (i, j): the similarity of row `i` of the first argument and row `j` of the second. -/
theorem dot_apply (x y : FVec Ideal S512x16x128 .f32) (i j : Fin 8192) :
    Host.dotGeneral dot_S8192x128_S8192x128_S8192x8192_1_1_0_0_n_n none
        (shapeCast S8192x128 x shapeCasts_S512x16x128_S8192x128) (shapeCast S8192x128 y shapeCasts_S512x16x128_S8192x128) (ix2 i j)
      = sim x y i j := by
  show FloatOps.dotGeneral _ none _ _ _ (ix2 i j) = _
  rw [Ideal.dotGeneral_apply,
    ← Equiv.sum_comp (contrEquiv1 dot_S8192x128_S8192x128_S8192x8192_1_1_0_0_n_n 128 rfl rfl).symm]
  unfold sim
  refine Finset.sum_congr rfl fun c _ => ?_
  have c2 := contrEquiv1_symm_val dot_S8192x128_S8192x128_S8192x8192_1_1_0_0_n_n 128 rfl rfl c
  have l2 : dot_S8192x128_S8192x128_S8192x8192_1_1_0_0_n_n.lhsIdx (ix2 i j) ((contrEquiv1 _ 128 rfl rfl).symm c) = ix2 i c := by
    funext ax; apply Fin.ext
    match ax with
    | ⟨0, _⟩ => simp [DotDims.lhsIdx, dot_S8192x128_S8192x128_S8192x8192_1_1_0_0_n_n]; rfl
    | ⟨1, _⟩ => simp [DotDims.lhsIdx, dot_S8192x128_S8192x128_S8192x8192_1_1_0_0_n_n]; exact c2
  have r2 : dot_S8192x128_S8192x128_S8192x8192_1_1_0_0_n_n.rhsIdx (ix2 i j) ((contrEquiv1 _ 128 rfl rfl).symm c) = ix2 j c := by
    funext ax; apply Fin.ext
    match ax with
    | ⟨0, _⟩ => simp [DotDims.rhsIdx, dot_S8192x128_S8192x128_S8192x8192_1_1_0_0_n_n]; rfl
    | ⟨1, _⟩ => simp [DotDims.rhsIdx, dot_S8192x128_S8192x128_S8192x8192_1_1_0_0_n_n]; exact c2
  rw [l2, r2, shapeCast_row, shapeCast_row]

/-- The logits at (i, j). -/
theorem tLogits_apply (x y : FVec Ideal S512x16x128 .f32) (i j : Fin 8192) :
    tLogits x y (ix2 i j) = lg x y i j := by
  unfold tLogits lg
  show Ideal.div (Scalar.select (tMask (ix2 i j))
        (broadcastInDim S8192x8192 ![] bcast_S_S8192x8192 (constant (F := Ideal) S_ .f32 0xC61C4000#32) (ix2 i j))
        (Host.dotGeneral dot_S8192x128_S8192x128_S8192x8192_1_1_0_0_n_n none
          (shapeCast S8192x128 x shapeCasts_S512x16x128_S8192x128) (shapeCast S8192x128 y shapeCasts_S512x16x128_S8192x128) (ix2 i j)))
      (broadcastInDim S8192x8192 ![] bcast_S_S8192x8192 (constant (F := Ideal) S_ .f32 0x3C23D70A#32) (ix2 i j)) = _
  rw [broadcastInDim_scalar_apply, broadcastInDim_scalar_apply, constant_apply, constant_apply, ofBits_neg10000,
    ofBits_temperature, dot_apply, tMask_apply]
  unfold D
  by_cases hm : masked i j
  · rw [if_pos hm, if_pos hm, select_one]
  · rw [if_neg hm, if_neg hm, select_zero]

/-- The transposed logits at (i, j). -/
theorem tLogitsT_apply (x y : FVec Ideal S512x16x128 .f32) (i j : Fin 8192) :
    tLogitsT x y (ix2 i j) = lg x y j i := by
  unfold tLogitsT
  show transpose S8192x8192 [1, 0] (tLogits x y) transposes_S8192x8192_S8192x8192_1_0 (ix2 i j) = _
  rw [transpose_apply [1, 0] (tLogits x y) transposes_S8192x8192_S8192x8192_1_0 (ix2 i j) (ix2 j i)
    (fun b => match b with | ⟨0, _⟩ => rfl | ⟨1, _⟩ => rfl)]
  exact tLogits_apply x y j i

/-! ## The log-softmax -/

/-- Inserting the column `k` into the row index `i`. -/
theorem lift_row (hR : S8192x8192.Reduces [1] S8192) (i k : Fin 8192) : hR.lift (ix1 i) k = ix2 i k := by
  funext a; apply Fin.ext
  match a with
  | ⟨0, _⟩ => rfl
  | ⟨1, _⟩ => rfl

/-- A row's maximum as the operations take it: the reduction from -∞, then the maximum with -∞. -/
theorem rowmax_apply (z : FVec Ideal S8192x8192 .f32) (i : Fin 8192) :
    maximumf (broadcastInDim S8192 ![] bcast_S_S8192 (constant (F := Ideal) S_ .f32 0xFF800000#32))
        (Host.reduce FloatOps.maximumf z (constant (F := Ideal) S_ .f32 0xFF800000#32) reducesTo_S8192x8192_S8192_d1 h_S_) (ix1 i)
      = rmax (fun j => z (ix2 i j)) := by
  have hR : S8192x8192.Reduces [1] S8192 := by decide
  rw [maximumf_apply, broadcastInDim_scalar_apply, constant_apply, ofBits_bot,
    Host.reduce_eq_fold_single FloatOps.maximumf z _ reducesTo_S8192x8192_S8192_d1 hR h_S_ (ix1 i), constant_apply, ofBits_bot]
  unfold rmax
  show max ⊥ ((Finset.univ : Finset (Fin 8192)).fold max ⊥ (fun k : Fin 8192 => z (hR.lift (ix1 i) k))) = _
  simp only [lift_row]

/-- The shifted matrix at (i, j). -/
theorem tShift_apply (z : FVec Ideal S8192x8192 .f32) (i j : Fin 8192) :
    tShift z (ix2 i j) = z (ix2 i j) - rmax (fun j' => z (ix2 i j')) := by
  unfold tShift
  simp only [subf_apply]
  rw [bcast_c1, bcast_c0, rowmax_apply]

/-- The log-softmax at (i, j). -/
theorem tLsm_apply (z : FVec Ideal S8192x8192 .f32) (i j : Fin 8192) :
    tLsm z (ix2 i j) = lsm (fun j' => z (ix2 i j')) (z (ix2 i j)) := by
  have hR : S8192x8192.Reduces [1] S8192 := by decide
  unfold tLsm lsm
  simp only [subf_apply]
  rw [bcast_c1]
  show tShift z (ix2 i j) - Ideal.log (broadcastInDim S8192x1 ![0] bcast_S8192_S8192x1_0
      (Host.reduceAdd (Host.exp (tShift z)) (constant (F := Ideal) S_ .f32 0x00000000#32) reducesTo_S8192x8192_S8192_d1 h_S_) (ix2 i (0 : Fin 1))) = _
  rw [bcast_c0, hostReduceAdd_apply, Ideal.hostReduceAdd_single reducesTo_S8192x8192_S8192_d1 hR, constant_apply, ofBits_zero,
    tShift_apply]
  show _ - Ideal.log (0 + ∑ k : Fin 8192, Ideal.exp (tShift z (hR.lift (ix1 i) k))) = _
  simp only [lift_row, tShift_apply]

/-! ## The diagonal -/

/-- An index below 8192 is not negative as a signed word: the wrap by 8192 never fires. -/
theorem wrap_apply (i : Fin 8192) :
    select (cmpi .slt tIota (broadcastInDim S8192 ![] bcast_S_S8192 (constantI S_ 32 0#32)))
      (addi tIota (broadcastInDim S8192 ![] bcast_S_S8192 (constantI S_ 32 8192#32))) tIota (ix1 i) = BitVec.ofNat 32 i.val := by
  show Scalar.select (IntOp.cmpi .slt (BitVec.ofNat 32 i.val) (broadcastInDim S8192 ![] bcast_S_S8192 (constantI S_ 32 0#32) (ix1 i))) _
    (BitVec.ofNat 32 i.val) = _
  rw [broadcastInDim_scalar_apply]
  show Scalar.select (IntOp.cmpi .slt (BitVec.ofNat 32 i.val) 0#32) _ _ = _
  have hi := i.isLt
  have h : IntOp.cmpi .slt (BitVec.ofNat 32 i.val) 0#32 = 0#1 := by
    refine eq_zero_of_ne_one fun h1 => ?_
    rw [IntOp.cmpi_slt, BitVec.toInt_eq_toNat_of_lt (by rw [toNat_ofNat_lt hi]; omega), toNat_ofNat_lt hi] at h1
    have : (0#32 : BitVec 32).toInt = 0 := by decide
    omega
  rw [h, select_zero]

/-- Two columns side by side: column 0 is the first, column 1 the second. -/
theorem concat_cols {α : Type} (a b : S8192x1.Idx → α) (i : Fin 8192) :
    concatenate S8192x2 1 [⟨S8192x1, a⟩, ⟨S8192x1, b⟩] concatenates_S8192x1_S8192x1_S8192x2_d1 (ix2 i (0 : Fin 2)) = a (ix2 i (0 : Fin 1))
    ∧ concatenate S8192x2 1 [⟨S8192x1, a⟩, ⟨S8192x1, b⟩] concatenates_S8192x1_S8192x1_S8192x2_d1 (ix2 i (1 : Fin 2)) = b (ix2 i (0 : Fin 1)) := by
  constructor
  · exact concatenate_pair_apply_left 1 a b concatenates_S8192x1_S8192x1_S8192x2_d1 (ix2 i (0 : Fin 2)) rfl (ix2 i (0 : Fin 1))
      (fun c => match c with | ⟨0, _⟩ => rfl | ⟨1, _⟩ => rfl)
  · exact concatenate_pair_apply_right 1 a b concatenates_S8192x1_S8192x1_S8192x2_d1 (ix2 i (1 : Fin 2)) rfl rfl (ix2 i (0 : Fin 1))
      (fun c => match c with | ⟨0, _⟩ => fun _ => rfl | ⟨1, _⟩ => fun hc => absurd rfl hc) rfl

/-- The start indices at row `i`: (i, i). -/
theorem tDiagIdx_apply (i : Fin 8192) :
    tDiagIdx (ix2 i (0 : Fin 2)) = BitVec.ofNat 32 i.val ∧ tDiagIdx (ix2 i (1 : Fin 2)) = BitVec.ofNat 32 i.val := by
  unfold tDiagIdx
  constructor
  · show concatenate S8192x2 1 [⟨S8192x1, _⟩, ⟨S8192x1, _⟩] concatenates_S8192x1_S8192x1_S8192x2_d1 (ix2 i (0 : Fin 2)) = _
    rw [(concat_cols _ _ i).1, bcast_c0, wrap_apply]
  · show concatenate S8192x2 1 [⟨S8192x1, _⟩, ⟨S8192x1, _⟩] concatenates_S8192x1_S8192x1_S8192x2_d1 (ix2 i (1 : Fin 2)) = _
    rw [(concat_cols _ _ i).2, bcast_c0, wrap_apply]

/-- The gather of single elements of a matrix at start indices (r, c) per row, read at `i`: the matrix at the two
    start components of row `i`, each read signed and clamped into the matrix. -/
theorem gather_diag {α : Type} (x : S8192x8192.Idx → α) (idx : IVec S8192x2 32) (i : Fin 8192) :
    Host.gather gather_S8192x8192_S8192x2_S8192_n_01_n_n_01_1_11 x idx (ix1 i)
      = x (ix2 (⟨min (idx (ix2 i (0 : Fin 2))).toInt.toNat 8191, by omega⟩ : Fin 8192)
              (⟨min (idx (ix2 i (1 : Fin 2))).toInt.toNat 8191, by omega⟩ : Fin 8192)) := by
  unfold Host.gather
  congr 1
  funext a
  refine Fin.ext ?_
  match a with
  | ⟨0, h0⟩ =>
    show gather_S8192x8192_S8192x2_S8192_n_01_n_n_01_1_11.start (ix1 i) idx ⟨0, h0⟩
      + gather_S8192x8192_S8192x2_S8192_n_01_n_n_01_1_11.batchCoord (ix1 i) ⟨0, h0⟩
      + gather_S8192x8192_S8192x2_S8192_n_01_n_n_01_1_11.offCoord (ix1 i) ⟨0, h0⟩ = _
    rw [GatherDims.batchCoord_eq_zero _ _ _ List.not_mem_nil,
      GatherDims.offCoord_eq_zero _ _ _ (fun h => ((GatherDims.mem_sKept _ _).mp h).1 (List.Mem.head _))]
    simp only [Nat.add_zero]
    unfold GatherDims.start
    rw [dif_pos (show (⟨0, h0⟩ : Fin S8192x8192.rank) ∈ gather_S8192x8192_S8192x2_S8192_n_01_n_n_01_1_11.startIndexMap from List.Mem.head _)]
    have hsi : gather_S8192x8192_S8192x2_S8192_n_01_n_n_01_1_11.siIdx (ix1 i)
        ⟨List.idxOf (⟨0, h0⟩ : Fin S8192x8192.rank) gather_S8192x8192_S8192x2_S8192_n_01_n_n_01_1_11.startIndexMap,
          List.idxOf_lt_length_iff.2 (List.Mem.head _)⟩ = ix2 i (0 : Fin 2) := by
      funext b; refine Fin.ext ?_
      match b with
      | ⟨0, _⟩ => rfl
      | ⟨1, _⟩ => rfl
    rw [hsi]
    rfl
  | ⟨1, h1⟩ =>
    show gather_S8192x8192_S8192x2_S8192_n_01_n_n_01_1_11.start (ix1 i) idx ⟨1, h1⟩
      + gather_S8192x8192_S8192x2_S8192_n_01_n_n_01_1_11.batchCoord (ix1 i) ⟨1, h1⟩
      + gather_S8192x8192_S8192x2_S8192_n_01_n_n_01_1_11.offCoord (ix1 i) ⟨1, h1⟩ = _
    rw [GatherDims.batchCoord_eq_zero _ _ _ List.not_mem_nil,
      GatherDims.offCoord_eq_zero _ _ _ (fun h => ((GatherDims.mem_sKept _ _).mp h).1 (List.Mem.tail _ (List.Mem.head _)))]
    simp only [Nat.add_zero]
    unfold GatherDims.start
    rw [dif_pos (show (⟨1, h1⟩ : Fin S8192x8192.rank) ∈ gather_S8192x8192_S8192x2_S8192_n_01_n_n_01_1_11.startIndexMap from List.Mem.tail _ (List.Mem.head _))]
    have hsi : gather_S8192x8192_S8192x2_S8192_n_01_n_n_01_1_11.siIdx (ix1 i)
        ⟨List.idxOf (⟨1, h1⟩ : Fin S8192x8192.rank) gather_S8192x8192_S8192x2_S8192_n_01_n_n_01_1_11.startIndexMap,
          List.idxOf_lt_length_iff.2 (List.Mem.tail _ (List.Mem.head _))⟩ = ix2 i (1 : Fin 2) := by
      funext b; refine Fin.ext ?_
      match b with
      | ⟨0, _⟩ => rfl
      | ⟨1, _⟩ => rfl
    rw [hsi]
    rfl

/-- The gather at the diagonal's start indices reads the diagonal. -/
theorem gather_tDiagIdx {α : Type} (x : S8192x8192.Idx → α) (i : Fin 8192) :
    Host.gather gather_S8192x8192_S8192x2_S8192_n_01_n_n_01_1_11 x tDiagIdx (ix1 i) = x (ix2 i i) := by
  have hi := i.isLt
  have hc : (BitVec.ofNat 32 i.val).toInt.toNat = i.val := by
    rw [BitVec.toInt_eq_toNat_of_lt (by rw [toNat_ofNat_lt hi]; omega), toNat_ofNat_lt hi]; rfl
  rw [gather_diag]
  congr 1
  funext a; refine Fin.ext ?_
  match a with
  | ⟨0, _⟩ => show min (tDiagIdx (ix2 i (0 : Fin 2))).toInt.toNat 8191 = i.val; rw [(tDiagIdx_apply i).1, hc]; omega
  | ⟨1, _⟩ => show min (tDiagIdx (ix2 i (1 : Fin 2))).toInt.toNat 8191 = i.val; rw [(tDiagIdx_apply i).2, hc]; omega

/-! ## The cross entropies and the result -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ (fun i => ?_)
  exact congrArg f (eq_ix1 i)

/-- Minus the mean over the diagonal of the log-softmax. -/
theorem tCe_apply (z : FVec Ideal S8192x8192 .f32) :
    tCe z ix0 = -(Ideal.div (0 + ∑ i : Fin 8192, lsm (fun j => z (ix2 i j)) (z (ix2 i i))) ((8192 : ℝ) : EReal)) := by
  unfold tCe
  show -(Ideal.div (Host.reduceAdd (Host.gather gather_S8192x8192_S8192x2_S8192_n_01_n_n_01_1_11 (tLsm z) tDiagIdx)
      (constant (F := Ideal) S_ .f32 0x00000000#32) reducesTo_S8192_S_d0 h_S_ ix0) (constant (F := Ideal) S_ .f32 0x46000000#32 ix0)) = _
  rw [hostReduceAdd_apply, Ideal.hostReduceAdd_total reducesTo_S8192_S_d0 (fun b => b.elim0), sum_idx1, constant_apply, constant_apply,
    ofBits_zero, ofBits_8192]
  simp only [gather_tDiagIdx, tLsm_apply]

/-- The half sum. -/
theorem tHalf_apply (x y : FVec Ideal S512x16x128 .f32) :
    tHalf x y ix0 = Ideal.div (ceR x y + ceC x y) ((2 : ℝ) : EReal) := by
  unfold tHalf
  show Ideal.div (tCe (tLogits x y) ix0 + tCe (tLogitsT x y) ix0) (constant (F := Ideal) S_ .f32 0x40000000#32 ix0) = _
  rw [tCe_apply, tCe_apply, constant_apply, ofBits_two]
  unfold ceR ceC
  simp only [tLogits_apply, tLogitsT_apply]

/-- THE REFERENCE'S VALUE: the guarded half sum of the two cross entropies of the spec's logits. -/
theorem refVal_eq (x y : FVec Ideal S512x16x128 .f32) : refVal x y = fun _ => loss x y := by
  unfold refVal
  refine (guard_ops (tHalf x y)).trans (funext fun i => ?_)
  rw [eq_ix0 i, tHalf_apply]
  rfl

/-! ## The run, in closed form -/

open Idealize.ShloMosaic.TcCoe Idealize.SL.Sem Idealize.ShloMosaic.StableHlo in
/-- At the ideal values: every weakly fair execution of the reference terminates with the result buffer at the loss
    of the two arguments' launch contents, the arguments unchanged. -/
theorem run_loss (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v62)
          = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (refVal_eq _ _), (h c).2⟩) (run m ρ)

end Cert.ReferenceIdeal.Hand

end
-- ==== Proof.KI.Arrays.lean ====
/-
  The output array each call leaves: the last column tile of each row tile writes its 1024 row values back, and the
  eight written blocks cover the 8192 rows.
-/
import proofs.«162174_j13649406066960_2_alg».proof.Proof.KI.Frame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Region 0: the output array the call leaves -/

theorem win0_2_index : ∀ t : Fin cfg0.N, win0_2.index t 0 = t.val / 16 ∧ win0_2.index t 1 = 0 :=
  (by decide +kernel : ∀ t : Fin grid0.N, win0_2.index t 0 = t.val / 16 ∧ win0_2.index t 1 = 0)
theorem win0_2_xsize : ∀ t : Fin cfg0.N, win0_2.xsize (grid0.coords t) 0 = 1024 ∧ win0_2.xsize (grid0.coords t) 1 = 1 :=
  (by decide +kernel : ∀ t : Fin grid0.N, win0_2.xsize (grid0.coords t) 0 = 1024 ∧ win0_2.xsize (grid0.coords t) 1 = 1)

section
variable (V : (c : Dev nD) → (b : Ref sig .tc) → Buf (Elt F) ((c : Thread nD τ).loc b))

/-- The row statistics after position `n`, for any natural `n` (past the grid: contents nothing reads). -/
def statsN0 (c : Dev nD) (n : ℕ) : Vec F S1024x1 .f32 × Vec F S1024x1 .f32 × Vec F S1024x1 .f32 :=
  if h : n < cfg0.N then statsAt0 V c n h else junkS0

theorem statsN0_eq (c : Dev nD) (t : Fin cfg0.N) : statsN0 V c t.val = statsAt0 V c t.val t.isLt := by
  unfold statsN0; rw [dif_pos t.isLt]

/-- The whole output array: row R holds the row value of R's row tile's statistics after its last column tile. -/
def G0 (c : Dev nD) : S8192x1.Idx → Elt F .f32 := fun y =>
  outOf0 (statsN0 V c (16 * ((y 0).val / 1024) + 15))
    (ValueIdx.ix2 (⟨(y 0).val % 1024, Nat.mod_lt _ (by norm_num)⟩ : Fin 1024) (⟨0, by norm_num⟩ : Fin 1))

theorem G0_apply (c : Dev nD) (y : S8192x1.Idx) (n : ℕ) (hn : (y 0).val = n) :
    G0 V c y = outOf0 (statsN0 V c (16 * (n / 1024) + 15))
      (ValueIdx.ix2 (⟨n % 1024, Nat.mod_lt _ (by norm_num)⟩ : Fin 1024) (⟨0, by norm_num⟩ : Fin 1)) := by
  subst hn; rfl

set_option maxHeartbeats 400000 in
/-- What a last column tile writes back is its block of that array. -/
theorem flushed0_eq (c : Dev nD) (t : Fin cfg0.N) (hf : (cfg0.win 2).flush t = true) :
    (dat0 V c).flushed 2 t = ((cfg0.win 2).blk t).view.read (Elt F) (G0 V c) := by
  have h15 : t.val % 16 = 15 := (flush0_2 t).mp hf
  have hN : t.val < 128 := lt_of_lt_of_eq t.isLt (show cfg0.N = 128 from N_0)
  show (cfg0.win 2).cut (grid0.coords t) ((dat0 V c).after 2 t) = _
  rw [after0_2]
  funext y
  rw [View.read_apply]
  have hy0 : (y 0).val < 1024 := (y 0).isLt
  have hy1 : (y 1).val < 1 := (y 1).isLt
  have he0 : ((((cfg0.win 2).blk t).view.emb y) 0).val = 1024 * (t.val / 16) + (y 0).val := by
    show win0_2.index t 0 * 1024 + 1 * (y 0).val = _
    rw [(win0_2_index t).1]; omega
  show outOf0 (statsAt0 V c t.val t.isLt) y = G0 V c (((cfg0.win 2).blk t).view.emb y)
  rw [G0_apply V c _ _ he0, show 16 * ((1024 * (t.val / 16) + (y 0).val) / 1024) + 15 = t.val from by omega, statsN0_eq]
  refine congrArg _ ?_
  funext a
  apply Fin.ext
  match a with
  | ⟨0, _⟩ => show (y 0).val = (1024 * (t.val / 16) + (y 0).val) % 1024; omega
  | ⟨1, _⟩ => show (y 1).val = 0; omega

set_option maxHeartbeats 400000 in
/-- The last column tiles' blocks cover the array, so it ends holding `G0`. -/
theorem final0 (c : Dev nD) : (dat0 V c).arrAt 2 cfg0.N = G0 V c :=
  (dat0 V c).arrAt_eq_of_cover 2 (G0 V c) (flushed0_eq V c) fun i => by
    have hi0 : (i 0).val < 8192 := (i 0).isLt
    have hi1 : (i 1).val < 1 := (i 1).isLt
    have hlt : 16 * ((i 0).val / 1024) + 15 < cfg0.N := by rw [show cfg0.N = 128 from N_0]; omega
    refine ⟨⟨16 * ((i 0).val / 1024) + 15, hlt⟩, (flush0_2 _).mpr (by show (16 * ((i 0).val / 1024) + 15) % 16 = 15; omega), ?_⟩
    show i ∈ ((View.whole main_v2).slice (win0_2.rect ⟨16 * ((i 0).val / 1024) + 15, hlt⟩)).set
    rw [View.set_slice_whole, Rect.mem_set_unit]
    intro a
    match a with
    | ⟨0, _⟩ =>
      show win0_2.index ⟨_, hlt⟩ 0 * win0_2.size 0 ≤ (i 0 : Nat) ∧ (i 0 : Nat) < win0_2.index ⟨_, hlt⟩ 0 * win0_2.size 0 + win0_2.xsize (grid0.coords ⟨_, hlt⟩) 0
      rw [(win0_2_index ⟨_, hlt⟩).1, (win0_2_xsize ⟨_, hlt⟩).1, show win0_2.size 0 = 1024 from rfl]
      show (16 * ((i 0).val / 1024) + 15) / 16 * 1024 ≤ (i 0).val ∧ (i 0).val < (16 * ((i 0).val / 1024) + 15) / 16 * 1024 + 1024
      omega
    | ⟨1, _⟩ =>
      show win0_2.index ⟨_, hlt⟩ 1 * win0_2.size 1 ≤ (i 1 : Nat) ∧ (i 1 : Nat) < win0_2.index ⟨_, hlt⟩ 1 * win0_2.size 1 + win0_2.xsize (grid0.coords ⟨_, hlt⟩) 1
      rw [(win0_2_index ⟨_, hlt⟩).2, (win0_2_xsize ⟨_, hlt⟩).2]
      omega
end

/-! ## Region 1: the output array the call leaves -/

theorem win1_2_index : ∀ t : Fin cfg1.N, win1_2.index t 0 = t.val / 16 ∧ win1_2.index t 1 = 0 :=
  (by decide +kernel : ∀ t : Fin grid1.N, win1_2.index t 0 = t.val / 16 ∧ win1_2.index t 1 = 0)
theorem win1_2_xsize : ∀ t : Fin cfg1.N, win1_2.xsize (grid1.coords t) 0 = 1024 ∧ win1_2.xsize (grid1.coords t) 1 = 1 :=
  (by decide +kernel : ∀ t : Fin grid1.N, win1_2.xsize (grid1.coords t) 0 = 1024 ∧ win1_2.xsize (grid1.coords t) 1 = 1)

section
variable (V : (c : Dev nD) → (b : Ref sig .tc) → Buf (Elt F) ((c : Thread nD τ).loc b))

/-- The row statistics after position `n`, for any natural `n` (past the grid: contents nothing reads). -/
def statsN1 (c : Dev nD) (n : ℕ) : Vec F S1024x1 .f32 × Vec F S1024x1 .f32 × Vec F S1024x1 .f32 :=
  if h : n < cfg1.N then statsAt1 V c n h else junkS1

theorem statsN1_eq (c : Dev nD) (t : Fin cfg1.N) : statsN1 V c t.val = statsAt1 V c t.val t.isLt := by
  unfold statsN1; rw [dif_pos t.isLt]

/-- The whole output array: row R holds the row value of R's row tile's statistics after its last column tile. -/
def G1 (c : Dev nD) : S8192x1.Idx → Elt F .f32 := fun y =>
  outOf1 (statsN1 V c (16 * ((y 0).val / 1024) + 15))
    (ValueIdx.ix2 (⟨(y 0).val % 1024, Nat.mod_lt _ (by norm_num)⟩ : Fin 1024) (⟨0, by norm_num⟩ : Fin 1))

theorem G1_apply (c : Dev nD) (y : S8192x1.Idx) (n : ℕ) (hn : (y 0).val = n) :
    G1 V c y = outOf1 (statsN1 V c (16 * (n / 1024) + 15))
      (ValueIdx.ix2 (⟨n % 1024, Nat.mod_lt _ (by norm_num)⟩ : Fin 1024) (⟨0, by norm_num⟩ : Fin 1)) := by
  subst hn; rfl

set_option maxHeartbeats 400000 in
/-- What a last column tile writes back is its block of that array. -/
theorem flushed1_eq (c : Dev nD) (t : Fin cfg1.N) (hf : (cfg1.win 2).flush t = true) :
    (dat1 V c).flushed 2 t = ((cfg1.win 2).blk t).view.read (Elt F) (G1 V c) := by
  have h15 : t.val % 16 = 15 := (flush1_2 t).mp hf
  have hN : t.val < 128 := lt_of_lt_of_eq t.isLt (show cfg1.N = 128 from N_1)
  show (cfg1.win 2).cut (grid1.coords t) ((dat1 V c).after 2 t) = _
  rw [after1_2]
  funext y
  rw [View.read_apply]
  have hy0 : (y 0).val < 1024 := (y 0).isLt
  have hy1 : (y 1).val < 1 := (y 1).isLt
  have he0 : ((((cfg1.win 2).blk t).view.emb y) 0).val = 1024 * (t.val / 16) + (y 0).val := by
    show win1_2.index t 0 * 1024 + 1 * (y 0).val = _
    rw [(win1_2_index t).1]; omega
  show outOf1 (statsAt1 V c t.val t.isLt) y = G1 V c (((cfg1.win 2).blk t).view.emb y)
  rw [G1_apply V c _ _ he0, show 16 * ((1024 * (t.val / 16) + (y 0).val) / 1024) + 15 = t.val from by omega, statsN1_eq]
  refine congrArg _ ?_
  funext a
  apply Fin.ext
  match a with
  | ⟨0, _⟩ => show (y 0).val = (1024 * (t.val / 16) + (y 0).val) % 1024; omega
  | ⟨1, _⟩ => show (y 1).val = 0; omega

set_option maxHeartbeats 400000 in
/-- The last column tiles' blocks cover the array, so it ends holding `G1`. -/
theorem final1 (c : Dev nD) : (dat1 V c).arrAt 2 cfg1.N = G1 V c :=
  (dat1 V c).arrAt_eq_of_cover 2 (G1 V c) (flushed1_eq V c) fun i => by
    have hi0 : (i 0).val < 8192 := (i 0).isLt
    have hi1 : (i 1).val < 1 := (i 1).isLt
    have hlt : 16 * ((i 0).val / 1024) + 15 < cfg1.N := by rw [show cfg1.N = 128 from N_1]; omega
    refine ⟨⟨16 * ((i 0).val / 1024) + 15, hlt⟩, (flush1_2 _).mpr (by show (16 * ((i 0).val / 1024) + 15) % 16 = 15; omega), ?_⟩
    show i ∈ ((View.whole main_v4).slice (win1_2.rect ⟨16 * ((i 0).val / 1024) + 15, hlt⟩)).set
    rw [View.set_slice_whole, Rect.mem_set_unit]
    intro a
    match a with
    | ⟨0, _⟩ =>
      show win1_2.index ⟨_, hlt⟩ 0 * win1_2.size 0 ≤ (i 0 : Nat) ∧ (i 0 : Nat) < win1_2.index ⟨_, hlt⟩ 0 * win1_2.size 0 + win1_2.xsize (grid1.coords ⟨_, hlt⟩) 0
      rw [(win1_2_index ⟨_, hlt⟩).1, (win1_2_xsize ⟨_, hlt⟩).1, show win1_2.size 0 = 1024 from rfl]
      show (16 * ((i 0).val / 1024) + 15) / 16 * 1024 ≤ (i 0).val ∧ (i 0).val < (16 * ((i 0).val / 1024) + 15) / 16 * 1024 + 1024
      omega
    | ⟨1, _⟩ =>
      show win1_2.index ⟨_, hlt⟩ 1 * win1_2.size 1 ≤ (i 1 : Nat) ∧ (i 1 : Nat) < win1_2.index ⟨_, hlt⟩ 1 * win1_2.size 1 + win1_2.xsize (grid1.coords ⟨_, hlt⟩) 1
      rw [(win1_2_index ⟨_, hlt⟩).2, (win1_2_xsize ⟨_, hlt⟩).2]
      omega
end

end Cert.KernelIdeal.Hand

end
-- ==== Proof.KI.Blocks.lean ====
/-
  The calls' input blocks as rows of the arrays they window, and those arrays as the row-major [8192, 128] reading
  of the program's two arguments.
-/
import proofs.«162174_j13649406066960_2_alg».proof.Proof.KI.Frame
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Region 0: the input blocks as rows of the reshaped arrays -/

theorem win0_0_index : ∀ t : Fin cfg0.N, win0_0.index t 0 = t.val / 16 ∧ win0_0.index t 1 = 0 :=
  (by decide +kernel : ∀ t : Fin grid0.N, win0_0.index t 0 = t.val / 16 ∧ win0_0.index t 1 = 0)
theorem win0_1_index : ∀ t : Fin cfg0.N, win0_1.index t 0 = t.val % 16 ∧ win0_1.index t 1 = 0 :=
  (by decide +kernel : ∀ t : Fin grid0.N, win0_1.index t 0 = t.val % 16 ∧ win0_1.index t 1 = 0)

section
variable (V : (c : Dev nD) → (b : Ref sig .tc) → Buf (Elt F) ((c : Thread nD τ).loc b))

/-- The row tile's block at point `t` is rows 1024 (t / 16) … of the array it windows. -/
theorem iblk0_0_apply (c : Dev nD) (t : Fin cfg0.N) (x : S1024x128.Idx) (k : S8192x128.Idx)
    (hk0 : (k 0).val = 1024 * (t.val / 16) + (x 0).val) (hk1 : (k 1).val = (x 1).val) :
    (iblk0 V c 0 t : Vec F S1024x128 .f32) x = (V c main_v0 : S8192x128.Idx → Elt F .f32) k := by
  have hi := win0_0_index t
  unfold iblk0
  rw [View.read_apply]
  show V c main_v0 _ = V c main_v0 _
  refine congrArg _ ?_
  funext a
  apply Fin.ext
  match a with
  | ⟨0, _⟩ => show win0_0.index t 0 * 1024 + 1 * (x 0).val = (k 0).val; rw [hi.1, hk0]; omega
  | ⟨1, _⟩ => show win0_0.index t 1 * 128 + 1 * (x 1).val = (k 1).val; rw [hi.2, hk1]; omega

/-- The column tile's block at point `t` is rows 512 (t % 16) … of the array it windows. -/
theorem iblk0_1_apply (c : Dev nD) (t : Fin cfg0.N) (x : S512x128.Idx) (k : S8192x128.Idx)
    (hk0 : (k 0).val = 512 * (t.val % 16) + (x 0).val) (hk1 : (k 1).val = (x 1).val) :
    (iblk0 V c 1 t : Vec F S512x128 .f32) x = (V c main_v1 : S8192x128.Idx → Elt F .f32) k := by
  have hi := win0_1_index t
  unfold iblk0
  rw [View.read_apply]
  show V c main_v1 _ = V c main_v1 _
  refine congrArg _ ?_
  funext a
  apply Fin.ext
  match a with
  | ⟨0, _⟩ => show win0_1.index t 0 * 512 + 1 * (x 0).val = (k 0).val; rw [hi.1, hk0]; omega
  | ⟨1, _⟩ => show win0_1.index t 1 * 128 + 1 * (x 1).val = (k 1).val; rw [hi.2, hk1]; omega
end

/-! ## Region 1: the input blocks as rows of the reshaped arrays -/

theorem win1_0_index : ∀ t : Fin cfg1.N, win1_0.index t 0 = t.val / 16 ∧ win1_0.index t 1 = 0 :=
  (by decide +kernel : ∀ t : Fin grid1.N, win1_0.index t 0 = t.val / 16 ∧ win1_0.index t 1 = 0)
theorem win1_1_index : ∀ t : Fin cfg1.N, win1_1.index t 0 = t.val % 16 ∧ win1_1.index t 1 = 0 :=
  (by decide +kernel : ∀ t : Fin grid1.N, win1_1.index t 0 = t.val % 16 ∧ win1_1.index t 1 = 0)

section
variable (V : (c : Dev nD) → (b : Ref sig .tc) → Buf (Elt F) ((c : Thread nD τ).loc b))

/-- The row tile's block at point `t` is rows 1024 (t / 16) … of the array it windows. -/
theorem iblk1_0_apply (c : Dev nD) (t : Fin cfg1.N) (x : S1024x128.Idx) (k : S8192x128.Idx)
    (hk0 : (k 0).val = 1024 * (t.val / 16) + (x 0).val) (hk1 : (k 1).val = (x 1).val) :
    (iblk1 V c 0 t : Vec F S1024x128 .f32) x = (V c main_v1 : S8192x128.Idx → Elt F .f32) k := by
  have hi := win1_0_index t
  unfold iblk1
  rw [View.read_apply]
  show V c main_v1 _ = V c main_v1 _
  refine congrArg _ ?_
  funext a
  apply Fin.ext
  match a with
  | ⟨0, _⟩ => show win1_0.index t 0 * 1024 + 1 * (x 0).val = (k 0).val; rw [hi.1, hk0]; omega
  | ⟨1, _⟩ => show win1_0.index t 1 * 128 + 1 * (x 1).val = (k 1).val; rw [hi.2, hk1]; omega

/-- The column tile's block at point `t` is rows 512 (t % 16) … of the array it windows. -/
theorem iblk1_1_apply (c : Dev nD) (t : Fin cfg1.N) (x : S512x128.Idx) (k : S8192x128.Idx)
    (hk0 : (k 0).val = 512 * (t.val % 16) + (x 0).val) (hk1 : (k 1).val = (x 1).val) :
    (iblk1 V c 1 t : Vec F S512x128 .f32) x = (V c main_v0 : S8192x128.Idx → Elt F .f32) k := by
  have hi := win1_1_index t
  unfold iblk1
  rw [View.read_apply]
  show V c main_v0 _ = V c main_v0 _
  refine congrArg _ ?_
  funext a
  apply Fin.ext
  match a with
  | ⟨0, _⟩ => show win1_1.index t 0 * 512 + 1 * (x 0).val = (k 0).val; rw [hi.1, hk0]; omega
  | ⟨1, _⟩ => show win1_1.index t 1 * 128 + 1 * (x 1).val = (k 1).val; rw [hi.2, hk1]; omega
end

variable (m : (ℓ : Loc nD τ sig) → Buf (Elt F) ℓ)

/-- The first call's row array is the row-major [8192, 128] reading of the first argument. -/
theorem V1_v0 (c : Dev nD) : (V1 m c main_v0 : S8192x128.Idx → Elt F .f32)
    = shapeCast S8192x128 (m ((c : Thread nD τ).loc main_arg0)) Gen.shapeCasts_S512x16x128_S8192x128 := by
  show StableHlo.after hostOps0 (W0 m c) (Proc.devRef .tc main_v0) = _
  after_results
  rfl
/-- Its column array is that reading of the second argument. -/
theorem V1_v1 (c : Dev nD) : (V1 m c main_v1 : S8192x128.Idx → Elt F .f32)
    = shapeCast S8192x128 (m ((c : Thread nD τ).loc main_arg1)) Gen.shapeCasts_S512x16x128_S8192x128 := by
  show StableHlo.after hostOps0 (W0 m c) (Proc.devRef .tc main_v1) = _
  after_results
  rfl

/-- The second call finds the two reshaped arrays as the first call found them: an input window's array is kept. -/
theorem V3_v0 (c : Dev nD) : V3 m c main_v0 = V1 m c main_v0 :=
  (StableHlo.after_of_writes_sub hostOps1 _ hostOps1_writes (r := main_v0) (by decide)).trans <|
    (W2_arr m c 0).trans (((dat0 (V1 m) c).arrAt_in 0 rfl _).trans (A_eq0 (V1 m) c 0))
theorem V3_v1 (c : Dev nD) : V3 m c main_v1 = V1 m c main_v1 :=
  (StableHlo.after_of_writes_sub hostOps1 _ hostOps1_writes (r := main_v1) (by decide)).trans <|
    (W2_arr m c 1).trans (((dat0 (V1 m) c).arrAt_in 1 rfl _).trans (A_eq0 (V1 m) c 1))

end Cert.KernelIdeal.Hand

end
-- ==== Proof.KI.Tail.lean ====
/-
  The program's result buffer from the two calls' output arrays: the host operations after the second call take each
  array's sum over its 8192 rows, divide by 8192, add the two, halve, and guard the value.
-/
import proofs.«162174_j13649406066960_2_alg».proof.Proof.KI.Frame
import proofs.«162174_j13649406066960_2_alg».proof.Proof.Ref.Spec
import proofs.«162174_j13649406066960_2_alg».proof.Proof.Ref.Consts
import Idealize.ShloMosaic.Lib.StableHlo.Run
import Idealize.ShloMosaic.Lib.IdealHost
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Cert.ReferenceIdeal.Hand (guard guard_ops ofBits_8192 ofBits_two ofBits_zero)

variable (m : (ℓ : Loc nD τ sig) → Buf (Elt Ideal) ℓ)

/-- The average of the two arrays' means, before the guard. -/
def avgOf (r0 r1 : S8192.Idx → EReal) : EReal :=
  Ideal.div (Ideal.div (0 + ∑ i : S8192.Idx, r0 i) ((8192 : ℝ) : EReal) + Ideal.div (0 + ∑ i : S8192.Idx, r1 i) ((8192 : ℝ) : EReal)) ((2 : ℝ) : EReal)

/-- The host operations between the two arrays and the guard. -/
def tailT (r0 r1 : FVec Ideal S8192 .f32) : FVec Ideal S_ .f32 :=
  Host.divf (F := Ideal) (addf (Host.divf (F := Ideal) (Host.reduceAdd (F := Ideal) r0 (constant (F := Ideal) S_ .f32 0x00000000#32) Gen.reducesTo_S8192_S_d0 Gen.h_S_) (constant (F := Ideal) S_ .f32 0x46000000#32)) (Host.divf (F := Ideal) (Host.reduceAdd (F := Ideal) r1 (constant (F := Ideal) S_ .f32 0x00000000#32) Gen.reducesTo_S8192_S_d0 Gen.h_S_) (constant (F := Ideal) S_ .f32 0x46000000#32))) (constant (F := Ideal) S_ .f32 0x40000000#32)

set_option maxHeartbeats 400000 in
theorem tailT_apply (r0 r1 : FVec Ideal S8192 .f32) (i : S_.Idx) : tailT r0 r1 i = avgOf r0 r1 := by
  unfold tailT avgOf
  simp only [Host.divf, addf, constant, ValueIdx.hostReduceAdd_apply, Ideal.hostDivf_def, Ideal.addf_def, Ideal.ofBits_def, ofBits_8192, ofBits_two, ofBits_zero,
    Ideal.hostReduceAdd_total Gen.reducesTo_S8192_S_d0 (fun b => b.elim0)]

set_option maxHeartbeats 400000 in
theorem W8_v15 (c : Dev nD) :
    W8 (F := Ideal) m c (Proc.devRef .tc main_v15) = fun _ => guard (avgOf (W4 (F := Ideal) m c (Proc.devRef .tc main_v3))
      (shapeCast S8192 (W4 (F := Ideal) m c (Proc.devRef .tc main_v4)) Gen.shapeCasts_S8192x1_S8192)) := by
  show StableHlo.after hostOps2_3 (W7 m c) (Proc.devRef .tc main_v15) = _
  after_results
  have key : ∀ T : FVec Ideal S_ .f32, T = tailT (W4 (F := Ideal) m c (Proc.devRef .tc main_v3)) (shapeCast S8192 (W4 (F := Ideal) m c (Proc.devRef .tc main_v4)) Gen.shapeCasts_S8192x1_S8192) →
      select (ori (cmpf .une T T) (cmpf .oeq (Host.absf T) (constant S_ .f32 0x7F800000#32))) (constant S_ .f32 0x00000000#32) T
        = fun _ => guard (avgOf (W4 (F := Ideal) m c (Proc.devRef .tc main_v3)) (shapeCast S8192 (W4 (F := Ideal) m c (Proc.devRef .tc main_v4)) Gen.shapeCasts_S8192x1_S8192)) := by
    intro T hT
    rw [guard_ops, hT]
    funext i
    rw [tailT_apply]
  exact key _ rfl

end Cert.KernelIdeal.Hand

end
-- ==== Proof.Math.Online.lean ====
import Mathlib
import Idealize.ShloMosaic.PureOps.Ideal

/-!
# The online softmax recurrence equals the one-pass sum of exponentials

A row of scores is read tile by tile. After each tile the recurrence keeps a running
maximum `m` and a running sum `l` of exponentials taken relative to `m`; when the maximum
grows from `m` to `m'` the old sum is rescaled by `exp (m - m')`. Because
`exp (m - m') * exp (x - m) = exp (x - m')`, after `J + 1` tiles the pair is exactly
`(M, ∑ exp (x - M))` with `M` the maximum of all scores read so far. Everything is stated
over the extended reals, starting from `(-∞, 0)`, for finite (real) scores.
-/

open Idealize.ShloMosaic

namespace Cert.Math

/-- The coercion from the reals to the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `-∞` is the identity of `max`. -/
theorem bot_max (a : EReal) : max ⊥ a = a := max_eq_right bot_le

/-- The coercion from the reals to the extended reals commutes with `max`. -/
theorem coe_max (a b : ℝ) : ((max a b : ℝ) : EReal) = max (a : EReal) (b : EReal) :=
  EReal.coe_strictMono.monotone.map_max

/-- The fold of `max` from `-∞` over a finite family. -/
noncomputable def fmax {n : ℕ} (x : Fin n → EReal) : EReal := (Finset.univ : Finset (Fin n)).fold max ⊥ x

/-- The fold of `max` from `-∞` is the finite supremum. -/
theorem fmax_eq_sup {n : ℕ} (x : Fin n → EReal) : fmax x = Finset.univ.sup x := rfl

/-- Over a nonempty finite family of reals the fold of `max` is the largest member. -/
theorem fmax_coe {n : ℕ} (hn : 0 < n) (y : Fin n → ℝ) :
    ∃ M : ℝ, (∀ k, y k ≤ M) ∧ (∃ k, y k = M) ∧ fmax (fun k => (y k : EReal)) = (M : EReal) := by
  haveI : Nonempty (Fin n) := ⟨⟨0, hn⟩⟩
  obtain ⟨k0, -, hk0⟩ := Finset.exists_max_image Finset.univ y Finset.univ_nonempty
  refine ⟨y k0, fun k => hk0 k (Finset.mem_univ k), ⟨k0, rfl⟩, ?_⟩
  rw [fmax_eq_sup]
  apply le_antisymm
  · exact Finset.sup_le fun k _ => EReal.coe_le_coe_iff.2 (hk0 k (Finset.mem_univ k))
  · exact Finset.le_sup (f := fun k => (y k : EReal)) (Finset.mem_univ k0)

/-- One tile's update of a row's running maximum and running sum of exponentials. -/
noncomputable def upd {n : ℕ} (x : Fin n → EReal) (s : EReal × EReal) : EReal × EReal :=
  (max s.1 (fmax x),
    Ideal.exp (s.1 - max s.1 (fmax x)) * s.2 + ∑ k, Ideal.exp (x k - max s.1 (fmax x)))

/-- The running pair after tiles `0..J`, starting from `(-∞, 0)`. -/
noncomputable def run {n : ℕ} (x : ℕ → Fin n → EReal) : ℕ → EReal × EReal
  | 0 => upd (x 0) (⊥, 0)
  | J + 1 => upd (x (J + 1)) (run x J)

/-- Exponentials of real differences, summed, read at the extended reals. -/
theorem sum_exp_coe {n : ℕ} (y : Fin n → ℝ) (M : ℝ) :
    ∑ k, Ideal.exp ((y k : EReal) - (M : EReal)) = ((∑ k, Real.exp (y k - M) : ℝ) : EReal) := by
  rw [coe_sum]
  refine Finset.sum_congr rfl fun k _ => ?_
  rw [← EReal.coe_sub, Ideal.exp_coe]

set_option maxHeartbeats 400000 in
/-- The first tile: from `(-∞, 0)` the update gives the tile's maximum and its sum. -/
theorem upd_bot {n : ℕ} (y : Fin n → ℝ) (M : ℝ)
    (hM : fmax (fun k => (y k : EReal)) = (M : EReal)) :
    upd (fun k => (y k : EReal)) (⊥, 0) =
      ((M : EReal), ((∑ k, Real.exp (y k - M) : ℝ) : EReal)) := by
  unfold upd
  simp only [hM, bot_max, EReal.bot_sub, Ideal.exp_bot, mul_zero, zero_add, sum_exp_coe]

set_option maxHeartbeats 400000 in
/-- A later tile: from a finite pair `(m, l)` the update rescales `l` to the new maximum. -/
theorem upd_coe {n : ℕ} (y : Fin n → ℝ) (My m l : ℝ)
    (hM : fmax (fun k => (y k : EReal)) = (My : EReal)) :
    upd (fun k => (y k : EReal)) ((m : EReal), (l : EReal)) =
      (((max m My : ℝ) : EReal),
        ((Real.exp (m - max m My) * l + ∑ k, Real.exp (y k - max m My) : ℝ) : EReal)) := by
  unfold upd
  simp only [hM, ← coe_max, sum_exp_coe]
  rw [← EReal.coe_sub, Ideal.exp_coe, ← EReal.coe_mul, ← EReal.coe_add]

set_option maxHeartbeats 400000 in
/-- After tiles `0..J` the running pair is the maximum `M` of every score read so far and
    the sum of `exp (x - M)` over all of them. -/
theorem run_eq {n : ℕ} (hn : 0 < n) (x : ℕ → Fin n → ℝ) (J : ℕ) :
    ∃ M : ℝ, (∀ j ≤ J, ∀ k, x j k ≤ M) ∧ (∃ j ≤ J, ∃ k, x j k = M) ∧
      run (fun j k => (x j k : EReal)) J =
        ((M : EReal),
          ((∑ j ∈ Finset.range (J + 1), ∑ k, Real.exp (x j k - M) : ℝ) : EReal)) := by
  induction J with
  | zero =>
    obtain ⟨M, hub, ⟨k0, hk0⟩, hM⟩ := fmax_coe hn (x 0)
    refine ⟨M, ?_, ⟨0, le_rfl, k0, hk0⟩, ?_⟩
    · intro j hj k
      obtain rfl : j = 0 := Nat.le_zero.1 hj
      exact hub k
    · have h := upd_bot (x 0) M hM
      simpa [run] using h
  | succ J ih =>
    obtain ⟨M, hub, ⟨j0, hj0, k0, hk0⟩, hrun⟩ := ih
    obtain ⟨My, huby, ⟨k1, hk1⟩, hMy⟩ := fmax_coe hn (x (J + 1))
    refine ⟨max M My, ?_, ?_, ?_⟩
    · intro j hj k
      rcases Nat.le_succ_iff.1 hj with h | h
      · exact (hub j h k).trans (le_max_left _ _)
      · subst h
        exact (huby k).trans (le_max_right _ _)
    · rcases le_total M My with h | h
      · exact ⟨J + 1, le_rfl, k1, by rw [hk1, max_eq_right h]⟩
      · exact ⟨j0, Nat.le_succ_of_le hj0, k0, by rw [hk0, max_eq_left h]⟩
    · have hstep : run (fun j k => (x j k : EReal)) (J + 1) =
          upd (fun k => (x (J + 1) k : EReal)) (run (fun j k => (x j k : EReal)) J) := rfl
      rw [hstep, hrun, upd_coe (x (J + 1)) My M _ hMy]
      have hreal : Real.exp (M - max M My) * (∑ j ∈ Finset.range (J + 1), ∑ k, Real.exp (x j k - M))
            + ∑ k, Real.exp (x (J + 1) k - max M My)
          = ∑ j ∈ Finset.range (J + 1 + 1), ∑ k, Real.exp (x j k - max M My) := by
        rw [Finset.sum_range_succ _ (J + 1), Finset.mul_sum]
        congr 1
        refine Finset.sum_congr rfl fun j _ => ?_
        rw [Finset.mul_sum]
        refine Finset.sum_congr rfl fun k _ => ?_
        rw [← Real.exp_add]
        congr 1
        ring
      rw [hreal]

end Cert.Math
-- ==== Proof.KI.KSpec.lean ====
/-
  What the kernel's program computes, in closed form over the extended reals, beside the reference's closed form:
  per direction the scaled logits (each row entry multiplied by the named reciprocal of the temperature before the
  dot product), the masked logits (the named quotient of the mask value where masked), each row's running maximum and
  running sum of exponentials taken tile by tile (sixteen column tiles of 512), the diagonal logit gathered tile by
  tile, the row value max + log(sum) - diag, the two means, their average and the guard.
-/
import proofs.«162174_j13649406066960_2_alg».proof.Proof.Ref.Spec
import proofs.«162174_j13649406066960_2_alg».proof.Proof.Math.Online

noncomputable section

namespace Cert.KernelIdeal.Hand.KSpec

open Idealize.ShloMosaic Idealize.ShloMosaic.ValueIdx Cert.ReferenceIdeal.Hand
open scoped BigOperators

abbrev Arr := (⟨3, ![512, 16, 128]⟩ : Shape).Idx → EReal

/-- The named reciprocal of the temperature. -/
def κc : EReal := ((536870912 / 5368709 : ℝ) : EReal)
/-- The named quotient of the mask value by the temperature. -/
def κm : EReal := ((-5368709120000 / 5368709 : ℝ) : EReal)

/-- Column 512 J + k of the 8192. -/
def colOf (J : ℕ) (k : Fin 512) : ℕ := 512 * J + k.val

/-- The scaled logit of row `i` of `a` against row `j` of `b`. -/
def raw (a b : Arr) (i j : Fin 8192) : EReal := ∑ d : Fin 128, (row a i d * κc) * row b j d
/-- The masked scaled logit. -/
def msk (a b : Arr) (i j : Fin 8192) : EReal := if masked i j then κm else raw a b i j

/-- Row `i`'s masked logits in column tile `J` (an out-of-range column reads column 0: never consulted for J < 16). -/
def tile (a b : Arr) (i : Fin 8192) (J : ℕ) (k : Fin 512) : EReal :=
  msk a b i (⟨(colOf J k) % 8192, Nat.mod_lt _ (by norm_num)⟩ : Fin 8192)

/-- What column tile `J` adds to row `i`'s diagonal logit: the scaled logit at the diagonal column if the tile holds it. -/
def dtile (a b : Arr) (i : Fin 8192) (J : ℕ) : EReal :=
  ∑ k : Fin 512, (if i.val = colOf J k then raw a b i (⟨(colOf J k) % 8192, Nat.mod_lt _ (by norm_num)⟩ : Fin 8192) else 0)

/-- The diagonal logit gathered over tiles 0..J, from 0. -/
def drun (a b : Arr) (i : Fin 8192) : ℕ → EReal
  | 0 => 0 + dtile a b i 0
  | J + 1 => drun a b i J + dtile a b i (J + 1)

/-- Row `i`'s value: max + log(sum of exponentials) - diagonal logit, the first two taken tile by tile. -/
def rowval (a b : Arr) (i : Fin 8192) : EReal :=
  ((Cert.Math.run (tile a b i) 15).1 + Ideal.log (Cert.Math.run (tile a b i) 15).2) - drun a b i 15

/-- The mean of the row values. -/
def kmean (a b : Arr) : EReal := Ideal.div (0 + ∑ i : Fin 8192, rowval a b i) ((8192 : ℝ) : EReal)

/-- The kernel program's result: the average of the two directions' means, guarded. -/
def kloss (x y : Arr) : EReal := guard (Ideal.div (kmean x y + kmean y x) ((2 : ℝ) : EReal))

end Cert.KernelIdeal.Hand.KSpec

end
-- ==== Proof.Layout.lean ====
import Idealize.ShloMosaic.Lib.ValueIdx
import Idealize.ShloMosaic.Lib.Pipeline.Value
import Idealize.ShloMosaic.Lib.ValueLayout
import proofs.«162174_j13649406066960_2_alg».proof.Proof.Ref.Spec

/-!
# Index bookkeeping: a sum over a rank-1 index set, and two shape casts read at an index

A shape cast keeps row-major positions. So an `[a, 1]` array cast to `[a]` reads, at `i`, the
operand at `(i, 0)` (position `i * 1 + 0 = i`), and a `[512, 16, 128]` array cast to
`[8192, 128]` reads, at `(i, k)`, the operand at `(i / 16, i % 16, k)` (position
`((i / 16) * 16 + i % 16) * 128 + k = i * 128 + k`).
-/

noncomputable section

namespace Cert.Layout

open Idealize.ShloMosaic Idealize.ShloMosaic.ValueIdx
open scoped BigOperators

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ j, f j = ∑ i : Fin n, f (ix1 i) := by
  rw [← Equiv.sum_comp (idxEquiv1 (n := n)).symm f]
  rfl

/-- An `[a, 1]` array cast to `[a]` reads, at `i`, the operand at `(i, 0)`. -/
theorem shapeCast_a1_a_apply {α : Type} {a : ℕ} (g : (⟨2, ![a, 1]⟩ : Shape).Idx → α)
    (h : (⟨2, ![a, 1]⟩ : Shape).ShapeCasts ⟨1, ![a]⟩) (i : Fin a) :
    shapeCast ⟨1, ![a]⟩ g h (ix1 i) = g (ix2 i (0 : Fin 1)) :=
  shapeCast_apply g h _ _ (by
    rw [Shape.rowMajor_val_two, Shape.rowMajor_val_one]
    show i.val * 1 + (0 : Fin 1).val = i.val
    rw [Nat.mul_one]
    rfl)

/-- A `[512, 16, 128]` array cast to `[8192, 128]` reads, at `(i, k)`, the operand at
    `(i / 16, i % 16, k)`. -/
theorem reshape_row_gen {α : Type} (x : (⟨3, ![512, 16, 128]⟩ : Shape).Idx → α)
    (h : (⟨3, ![512, 16, 128]⟩ : Shape).ShapeCasts ⟨2, ![8192, 128]⟩) (i : Fin 8192) (k : Fin 128) :
    shapeCast (⟨2, ![8192, 128]⟩ : Shape) x h (ix2 i k) =
      x (ix3 (⟨i.val / 16, by omega⟩ : Fin 512) (⟨i.val % 16, by omega⟩ : Fin 16) k) :=
  shapeCast_apply x h _ _ (by
    rw [Shape.rowMajor_val_three, Shape.rowMajor_val_two]
    show (i.val / 16 * 16 + i.val % 16) * 128 + k.val = i.val * 128 + k.val
    omega)

/-- The same at the extended reals: the cast's row `i` is row `i` of the row-major reading. -/
theorem reshape_row (x : (⟨3, ![512, 16, 128]⟩ : Shape).Idx → EReal)
    (h : (⟨3, ![512, 16, 128]⟩ : Shape).ShapeCasts ⟨2, ![8192, 128]⟩) (i : Fin 8192) (k : Fin 128) :
    shapeCast (⟨2, ![8192, 128]⟩ : Shape) x h (ix2 i k) = Cert.ReferenceIdeal.Hand.row x i k :=
  reshape_row_gen x h i k

end Cert.Layout

end
-- ==== Proof.KI.Value.lean ====
/-
  The kernel program's result in closed form: each call's output array holds the rows' values of the closed form
  (the running pair of each row after its sixteen column tiles, the gathered diagonal logit), so the host operations
  after the second call compute the closed form's average of the two means, guarded.
-/
import proofs.«162174_j13649406066960_2_alg».proof.Proof.KI.Arrays
import proofs.«162174_j13649406066960_2_alg».proof.Proof.KI.Blocks
import proofs.«162174_j13649406066960_2_alg».proof.Proof.KI.Tail
import proofs.«162174_j13649406066960_2_alg».proof.Proof.KI.KSpec
import proofs.«162174_j13649406066960_2_alg».proof.Proof.Ref.Reshape
import proofs.«162174_j13649406066960_2_alg».proof.Proof.Layout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Cert.ReferenceIdeal.Hand (row guard)

set_option maxHeartbeats 400000 in
/-- Row `i` of the array call 0 leaves is the row value of the closed form. -/
theorem G0_row (x y : KSpec.Arr) (V : (c : Dev nD) → (b : Ref sig .tc) → Buf (Elt Ideal) ((c : Thread nD τ).loc b)) (c : Dev nD)
    (hst : (∀ (t : Fin cfg0.N) (r : Fin 1024) (hi : 1024 * (t.val / 16) + r.val < 8192),
      (statsAt0 V c t.val t.isLt).1 (ValueIdx.ix2 r (0 : Fin 1)) = (Cert.Math.run (KSpec.tile x y ⟨1024 * (t.val / 16) + r.val, hi⟩) (t.val % 16)).1
      ∧ (statsAt0 V c t.val t.isLt).2.1 (ValueIdx.ix2 r (0 : Fin 1)) = (Cert.Math.run (KSpec.tile x y ⟨1024 * (t.val / 16) + r.val, hi⟩) (t.val % 16)).2
      ∧ (statsAt0 V c t.val t.isLt).2.2 (ValueIdx.ix2 r (0 : Fin 1)) = KSpec.drun x y ⟨1024 * (t.val / 16) + r.val, hi⟩ (t.val % 16))) (i : Fin 8192) :
    G0 V c (ValueIdx.ix2 i (0 : Fin 1)) = KSpec.rowval x y i := by
  have hlt : 16 * (i.val / 1024) + 15 < cfg0.N := by rw [show cfg0.N = 128 from N_0]; omega
  rw [G0_apply V c (ValueIdx.ix2 i (0 : Fin 1)) i.val rfl, statsN0_eq V c ⟨16 * (i.val / 1024) + 15, hlt⟩]
  unfold outOf0
  rw [show ∀ (a b d : Vec Ideal S1024x1 .f32) (j : S1024x1.Idx), k0_pay10 (F := Ideal) a b d j = (a j + Ideal.log (b j)) - d j from fun _ _ _ _ => rfl]
  obtain ⟨h1, h2, h3⟩ := hst ⟨16 * (i.val / 1024) + 15, hlt⟩ ⟨i.val % 1024, Nat.mod_lt _ (by norm_num)⟩ (by show 1024 * ((16 * (i.val / 1024) + 15) / 16) + i.val % 1024 < 8192; omega)
  have hi : (⟨1024 * ((16 * (i.val / 1024) + 15) / 16) + i.val % 1024, by omega⟩ : Fin 8192) = i := Fin.ext (by show 1024 * ((16 * (i.val / 1024) + 15) / 16) + i.val % 1024 = i.val; omega)
  have hJ : (16 * (i.val / 1024) + 15) % 16 = 15 := by omega
  rw [show (⟨0, by norm_num⟩ : Fin 1) = (0 : Fin 1) from rfl]
  rw [h1, h2, h3]
  simp only [hi, hJ]
  rfl

set_option maxHeartbeats 400000 in
/-- Row `i` of the array call 1 leaves is the row value of the closed form. -/
theorem G1_row (x y : KSpec.Arr) (V : (c : Dev nD) → (b : Ref sig .tc) → Buf (Elt Ideal) ((c : Thread nD τ).loc b)) (c : Dev nD)
    (hst : (∀ (t : Fin cfg1.N) (r : Fin 1024) (hi : 1024 * (t.val / 16) + r.val < 8192),
      (statsAt1 V c t.val t.isLt).1 (ValueIdx.ix2 r (0 : Fin 1)) = (Cert.Math.run (KSpec.tile y x ⟨1024 * (t.val / 16) + r.val, hi⟩) (t.val % 16)).1
      ∧ (statsAt1 V c t.val t.isLt).2.1 (ValueIdx.ix2 r (0 : Fin 1)) = (Cert.Math.run (KSpec.tile y x ⟨1024 * (t.val / 16) + r.val, hi⟩) (t.val % 16)).2
      ∧ (statsAt1 V c t.val t.isLt).2.2 (ValueIdx.ix2 r (0 : Fin 1)) = KSpec.drun y x ⟨1024 * (t.val / 16) + r.val, hi⟩ (t.val % 16))) (i : Fin 8192) :
    G1 V c (ValueIdx.ix2 i (0 : Fin 1)) = KSpec.rowval y x i := by
  have hlt : 16 * (i.val / 1024) + 15 < cfg1.N := by rw [show cfg1.N = 128 from N_1]; omega
  rw [G1_apply V c (ValueIdx.ix2 i (0 : Fin 1)) i.val rfl, statsN1_eq V c ⟨16 * (i.val / 1024) + 15, hlt⟩]
  unfold outOf1
  rw [show ∀ (a b d : Vec Ideal S1024x1 .f32) (j : S1024x1.Idx), k1_pay10 (F := Ideal) a b d j = (a j + Ideal.log (b j)) - d j from fun _ _ _ _ => rfl]
  obtain ⟨h1, h2, h3⟩ := hst ⟨16 * (i.val / 1024) + 15, hlt⟩ ⟨i.val % 1024, Nat.mod_lt _ (by norm_num)⟩ (by show 1024 * ((16 * (i.val / 1024) + 15) / 16) + i.val % 1024 < 8192; omega)
  have hi : (⟨1024 * ((16 * (i.val / 1024) + 15) / 16) + i.val % 1024, by omega⟩ : Fin 8192) = i := Fin.ext (by show 1024 * ((16 * (i.val / 1024) + 15) / 16) + i.val % 1024 = i.val; omega)
  have hJ : (16 * (i.val / 1024) + 15) % 16 = 15 := by omega
  rw [show (⟨0, by norm_num⟩ : Fin 1) = (0 : Fin 1) from rfl]
  rw [h1, h2, h3]
  simp only [hi, hJ]
  rfl

variable (m : (ℓ : Loc nD τ sig) → Buf (Elt Ideal) ℓ)

/-- The two arguments as arrays of extended reals. -/
abbrev argX (c : Dev nD) : KSpec.Arr := m ((c : Thread nD τ).loc main_arg0)
abbrev argY (c : Dev nD) : KSpec.Arr := m ((c : Thread nD τ).loc main_arg1)

theorem V1_v0_row (c : Dev nD) (i : Fin 8192) (d : Fin 128) :
    (V1 m c main_v0 : S8192x128.Idx → EReal) (ValueIdx.ix2 i d) = row (argX m c) i d := by
  rw [V1_v0]; exact Cert.ReferenceIdeal.Hand.shapeCast_row _ _ i d
theorem V1_v1_row (c : Dev nD) (i : Fin 8192) (d : Fin 128) :
    (V1 m c main_v1 : S8192x128.Idx → EReal) (ValueIdx.ix2 i d) = row (argY m c) i d := by
  rw [V1_v1]; exact Cert.ReferenceIdeal.Hand.shapeCast_row _ _ i d
theorem V3_v0_row (c : Dev nD) (i : Fin 8192) (d : Fin 128) :
    (V3 m c main_v0 : S8192x128.Idx → EReal) (ValueIdx.ix2 i d) = row (argX m c) i d := by
  rw [V3_v0]; exact V1_v0_row m c i d
theorem V3_v1_row (c : Dev nD) (i : Fin 8192) (d : Fin 128) :
    (V3 m c main_v1 : S8192x128.Idx → EReal) (ValueIdx.ix2 i d) = row (argY m c) i d := by
  rw [V3_v1]; exact V1_v1_row m c i d

set_option maxHeartbeats 400000 in
/-- The first call's row values, flattened by the reshape that follows it, as the second call leaves them. -/
theorem r0_eq (c : Dev nD) : (W4 (F := Ideal) m c (Proc.devRef .tc main_v3) : S8192.Idx → EReal)
    = shapeCast S8192 (G0 (V1 m) c) Gen.shapeCasts_S8192x1_S8192 := by
  refine (W4_of_ne m c main_v3 (by decide)).trans ?_
  show StableHlo.after hostOps1 (W2 m c) (Proc.devRef .tc main_v3) = _
  after_results
  have hW : W2 m c (Proc.devRef .tc main_v2) = G0 (V1 m) c := (W2_arr m c 2).trans (final0 (V1 m) c)
  rw [hW]; rfl

/-- The second call's output array. -/
theorem r1_eq (c : Dev nD) : W4 (F := Ideal) m c (Proc.devRef .tc main_v4) = G1 (V3 m) c :=
  (W4_arr m c 2).trans (final1 (V3 m) c)

set_option maxHeartbeats 400000 in
/-- The program's result buffer is the closed form, given each call's row statistics in closed form. -/
theorem v15_closed (c : Dev nD)
    (hst0 : (∀ (t : Fin cfg0.N) (r : Fin 1024) (hi : 1024 * (t.val / 16) + r.val < 8192),
      (statsAt0 (V1 m) c t.val t.isLt).1 (ValueIdx.ix2 r (0 : Fin 1)) = (Cert.Math.run (KSpec.tile (argX m c) (argY m c) ⟨1024 * (t.val / 16) + r.val, hi⟩) (t.val % 16)).1
      ∧ (statsAt0 (V1 m) c t.val t.isLt).2.1 (ValueIdx.ix2 r (0 : Fin 1)) = (Cert.Math.run (KSpec.tile (argX m c) (argY m c) ⟨1024 * (t.val / 16) + r.val, hi⟩) (t.val % 16)).2
      ∧ (statsAt0 (V1 m) c t.val t.isLt).2.2 (ValueIdx.ix2 r (0 : Fin 1)) = KSpec.drun (argX m c) (argY m c) ⟨1024 * (t.val / 16) + r.val, hi⟩ (t.val % 16)))
    (hst1 : (∀ (t : Fin cfg1.N) (r : Fin 1024) (hi : 1024 * (t.val / 16) + r.val < 8192),
      (statsAt1 (V3 m) c t.val t.isLt).1 (ValueIdx.ix2 r (0 : Fin 1)) = (Cert.Math.run (KSpec.tile (argY m c) (argX m c) ⟨1024 * (t.val / 16) + r.val, hi⟩) (t.val % 16)).1
      ∧ (statsAt1 (V3 m) c t.val t.isLt).2.1 (ValueIdx.ix2 r (0 : Fin 1)) = (Cert.Math.run (KSpec.tile (argY m c) (argX m c) ⟨1024 * (t.val / 16) + r.val, hi⟩) (t.val % 16)).2
      ∧ (statsAt1 (V3 m) c t.val t.isLt).2.2 (ValueIdx.ix2 r (0 : Fin 1)) = KSpec.drun (argY m c) (argX m c) ⟨1024 * (t.val / 16) + r.val, hi⟩ (t.val % 16))) :
    W8 (F := Ideal) m c (Proc.devRef .tc main_v15) = fun _ => KSpec.kloss (argX m c) (argY m c) := by
  rw [W8_v15, r0_eq, r1_eq]
  funext _
  unfold KSpec.kloss KSpec.kmean avgOf
  rw [Cert.Layout.sum_idx1, Cert.Layout.sum_idx1]
  simp only [Cert.Layout.shapeCast_a1_a_apply, G0_row (argX m c) (argY m c) (V1 m) c hst0, G1_row (argX m c) (argY m c) (V3 m) c hst1]

end Cert.KernelIdeal.Hand

end
-- ==== Proof.KI.Pay.Lay.lean ====
/-
  Layout operations of the statistics kernel read at an index, in the forms its payloads meet: a column of
  1024 row values viewed as a 1024 x 1 array, that array repeated along 512 columns, and a reduction of a
  1024 x 512 array along its rows (a sum, or a maximum from -inf) read at a row.
-/
import proofs.«162174_j13649406066960_2_alg».proof.Proof.KI.Conds
import Idealize.ShloMosaic.Lib.ValueIdx
import Idealize.ShloMosaic.Lib.ValueLayout
import Idealize.ShloMosaic.PureOps.Ideal.Laws

set_option maxRecDepth 16384

noncomputable section

namespace Cert.KernelIdeal.Hand.Pay

open Idealize.ShloMosaic Idealize.ShloMosaic.ValueIdx
open Cert.KernelIdeal Cert.KernelIdeal.Gen Cert.KernelIdeal.Hand

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Hand.Pay

end
-- ==== Proof.KI.Pay.Row.lean ====
/-
  A reduction of a 1024 x 512 array along its rows, read at a row: the sum over the row's 512 columns, and the
  maximum, from -inf, over them.
-/
import proofs.«162174_j13649406066960_2_alg».proof.Proof.KI.Pay.Lay

set_option maxRecDepth 16384

noncomputable section

namespace Cert.KernelIdeal.Hand.Pay

open Idealize.ShloMosaic Idealize.ShloMosaic.ValueIdx
open Cert.KernelIdeal Cert.KernelIdeal.Gen Cert.KernelIdeal.Hand

/-- The pattern of f32's -inf denotes the least extended real. -/
theorem ofBits_neg_inf_f32 : Ideal.ofBits .f32 0xFF800000#32 = ⊥ := by simp [Ideal.ofBits, Ideal.ieee]

/-- The index a row reduction inserts column `k` at, in row `r`, is (r, k). -/
theorem lift_row (h : S1024x512.Reduces [1] S1024) (r : Fin 1024) (k : Fin 512) : h.lift (ix1 r) k = ix2 r k :=
  funext fun a => Fin.ext (by
    match a with
    | ⟨0, _⟩ => rfl
    | ⟨1, _⟩ => rfl)

/-- A row maximum at row `r`: the fold of `max` from -inf over the row's 512 columns. -/
theorem rowMax_apply (src : FVec Ideal S1024x512 .f32) (h : S1024x512.Reduces [1] S1024) (hφ : FKind.Formats .f32)
    (hacc : (0xFF800000#32 : BitVec 32) = 0xFF800000#32) (r : Fin 1024) :
    multiReduction (F := Ideal) .maximumf [1] S1024 src 0xFF800000#32 h hφ hacc (ix1 r)
      = (Finset.univ : Finset (Fin 512)).fold max ⊥ fun k => src (ix2 r k) := by
  refine (Ideal.multiReduction_maximumf_single src 0xFF800000#32 h hφ hacc (ix1 r)).trans ?_
  show (Finset.univ : Finset (Fin 512)).fold max (Ideal.ofBits .f32 0xFF800000#32) (fun k => src (h.lift (ix1 r) k)) = _
  rw [ofBits_neg_inf_f32]
  exact congrArg (fun f => (Finset.univ : Finset (Fin 512)).fold max ⊥ f) (funext fun k => congrArg src (lift_row h r k))

/-- A row sum at row `r`: the sum over the row's 512 columns. -/
theorem rowSum_apply (src : FVec Ideal S1024x512 .f32) (h : S1024x512.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ k : Fin 512, src (ix2 r k) := by
  refine (Ideal.multiReduction_add_single src 0x00000000#32 h hφ hacc (ix1 r)).trans ?_
  show ∑ k : Fin 512, src (h.lift (ix1 r) k) = _
  exact Finset.sum_congr rfl fun k _ => congrArg src (lift_row h r k)

end Cert.KernelIdeal.Hand.Pay

end
-- ==== Proof.KI.Pay.Reset.lean ====
/-
  The statistics kernel's reset values and its output, at a row: the running maximum is reset to -inf, the running
  sum and the running diagonal logit to 0, and the last column tile writes max + log(sum) - diag.
-/
import proofs.«162174_j13649406066960_2_alg».proof.Proof.KI.Pay.Row

set_option maxRecDepth 16384

noncomputable section

namespace Cert.KernelIdeal.Hand.Pay

open Idealize.ShloMosaic Idealize.ShloMosaic.ValueIdx
open Cert.KernelIdeal Cert.KernelIdeal.Gen Cert.KernelIdeal.Hand

/-- The reset value of the running maximum is -inf at every row. -/
theorem pay1_apply (j : S1024x1.Idx) : k0_pay1 (F := Ideal) j = ⊥ := by
  unfold k0_pay1
  rw [shapeCast_self]
  exact ofBits_neg_inf_f32

/-- The reset value of the running sum is 0 at every row. -/
theorem pay2_apply (j : S1024x1.Idx) : k0_pay2 (F := Ideal) j = 0 := by
  unfold k0_pay2
  rw [shapeCast_self]
  exact Ideal.ofBits_zero_f32

/-- The reset value of the running diagonal logit is 0 at every row. -/
theorem pay3_apply (j : S1024x1.Idx) : k0_pay3 (F := Ideal) j = 0 := by
  unfold k0_pay3
  rw [shapeCast_self]
  exact Ideal.ofBits_zero_f32

/-- What the last column tile writes at a row: max + log(sum) - diag. -/
theorem pay10_apply (m l dd : Vec Ideal S1024x1 .f32) (j : S1024x1.Idx) :
    k0_pay10 (F := Ideal) m l dd j = (m j + Ideal.log (l j)) - dd j := rfl

end Cert.KernelIdeal.Hand.Pay

end
-- ==== Proof.KI.Pay.Raw.lean ====
/-
  The raw logits of a tile: the kernel scales its 1024 x 128 block of row vectors by the inverse temperature, and
  multiplies it by the transpose of its 512 x 128 block of column vectors. At (r, k) the product is the sum over the
  128 features of (x0[r, d] * inverse temperature) * x1[k, d].
-/
import proofs.«162174_j13649406066960_2_alg».proof.Proof.KI.Pay.Lay

set_option maxRecDepth 16384

noncomputable section

namespace Cert.KernelIdeal.Hand.Pay

open Idealize.ShloMosaic Idealize.ShloMosaic.ValueIdx
open Cert.KernelIdeal Cert.KernelIdeal.Gen Cert.KernelIdeal.Hand

/-- The inverse temperature, as the certificate's table names it. -/
abbrev κc : EReal := ((536870912 / 5368709 : ℝ) : EReal)
/-- The masked logit over the temperature, as the certificate's table names it. -/
abbrev κm : EReal := ((-5368709120000 / 5368709 : ℝ) : EReal)

theorem named_inv_temperature :
    Named.named (F := Ideal) Cert.KernelIdeal.κ "inv_temperature" (φ := .f32) 0x42C80000#32 = κc :=
  IdealRules.named_const.ideal_named_scalar _ _ _ _ rfl

theorem named_mask_over_temperature :
    Named.named (F := Ideal) Cert.KernelIdeal.κ "mask_over_temperature" (φ := .f32) 0xC9742400#32 = κm :=
  IdealRules.named_const.ideal_named_scalar _ _ _ _ rfl

local notation "D" => dot_S1024x128_S128x512_S1024x512_1_0_0_1_n_n

theorem lhs_0 (i : S1024x512.Idx) (q : (D).contr.Idx) : ((D).lhsIdx i q 0).val = (i 0).val := by
  unfold DotDims.lhsIdx
  rw [dif_neg (show ¬(0 : Fin S1024x128.rank) ∈ (D).lhsBatch by decide), dif_pos (show (0 : Fin S1024x128.rank) ∈ (D).lhsNonContracting by decide)]
  rfl
theorem lhs_1 (i : S1024x512.Idx) (q : (D).contr.Idx) : ((D).lhsIdx i q 1).val = (q ⟨0, by decide⟩).val :=
  (D).lhsIdx_val_of_single rfl i q
theorem rhs_0 (i : S1024x512.Idx) (q : (D).contr.Idx) : ((D).rhsIdx i q 0).val = (q ⟨0, by decide⟩).val :=
  (D).rhsIdx_val_of_single rfl i q
theorem rhs_1 (i : S1024x512.Idx) (q : (D).contr.Idx) : ((D).rhsIdx i q 1).val = (i 1).val := by
  unfold DotDims.rhsIdx
  rw [dif_neg (show ¬(1 : Fin S128x512.rank) ∈ (D).rhsBatch by decide), dif_pos (show (1 : Fin S128x512.rank) ∈ (D).rhsNonContracting by decide)]
  rfl

set_option maxHeartbeats 400000 in
/-- The raw logit at (r, k). -/
theorem raw0 (x0 : Vec Ideal S1024x128 .f32) (x1 : Vec Ideal S512x128 .f32) (r : Fin 1024) (k : Fin 512) :
    k0_pay4 (F := Ideal) x0 x1 (ix2 r k) = ∑ d : Fin 128, (x0 (ix2 r d) * κc) * x1 (ix2 k d) := by
  unfold k0_pay4
  refine (Ideal.matmul_constant_zero_apply _ _ _ _ _).trans ?_
  rw [← Equiv.sum_comp (contrEquiv1 (D) 128 rfl rfl).symm]
  refine Finset.sum_congr rfl fun d _ => ?_
  have hk := contrEquiv1_symm_val (D) 128 rfl rfl d
  have el : (D).lhsIdx (ix2 r k) ((contrEquiv1 (D) 128 rfl rfl).symm d) = ix2 r d := funext fun a => Fin.ext (by
    match a with
    | ⟨0, _⟩ => exact lhs_0 _ _
    | ⟨1, _⟩ => exact (lhs_1 _ _).trans hk)
  have er : (D).rhsIdx (ix2 r k) ((contrEquiv1 (D) 128 rfl rfl).symm d) = ix2 d k := funext fun a => Fin.ext (by
    match a with
    | ⟨0, _⟩ => exact (rhs_0 _ _).trans hk
    | ⟨1, _⟩ => exact rhs_1 _ _)
  rw [el, er, shapeCast_self, shapeCast_self, mulf_apply, broadcast_apply, named_inv_temperature]
  exact congrArg (_ * ·) (transpose_ix2_apply x1 _ d k)

end Cert.KernelIdeal.Hand.Pay

end
-- ==== Proof.KI.Pay.Plain.lean ====
/-
  The plain update of the running row statistics (a tile that does not meet the block diagonal), at a row r:
  the new maximum is the old one or the row's largest raw logit; the new sum rescales the old one to the new
  maximum and adds the exponentials of the row's raw logits below it; the diagonal logit is unchanged.
-/
import proofs.«162174_j13649406066960_2_alg».proof.Proof.KI.Pay.Row
import proofs.«162174_j13649406066960_2_alg».proof.Proof.KI.Pay.Raw

set_option maxRecDepth 16384

noncomputable section

namespace Cert.KernelIdeal.Hand.Pay

open Idealize.ShloMosaic Idealize.ShloMosaic.ValueIdx
open Cert.KernelIdeal Cert.KernelIdeal.Gen Cert.KernelIdeal.Hand

/-- The new running maximum of a plain tile, before it is stored. -/
theorem pay6_apply (x0 : Vec Ideal S1024x128 .f32) (x1 : Vec Ideal S512x128 .f32) (m : Vec Ideal S1024x1 .f32)
    (r : Fin 1024) (u : Fin 1) :
    k0_pay6 (F := Ideal) x0 x1 m (ix2 r u)
      = max (m (ix2 r u)) ((Finset.univ : Finset (Fin 512)).fold max ⊥ fun k => k0_pay4 (F := Ideal) x0 x1 (ix2 r k)) := by
  unfold k0_pay6
  rw [maximumf_apply]
  refine congrArg (max _ ·) ?_
  refine (shapeCast_a_a1_apply _ _ r u).trans ?_
  exact rowMax_apply _ _ _ _ r

/-- The new running maximum of a plain tile. -/
theorem pay8_apply (x0 : Vec Ideal S1024x128 .f32) (x1 : Vec Ideal S512x128 .f32) (m : Vec Ideal S1024x1 .f32)
    (r : Fin 1024) (u : Fin 1) :
    k0_pay8 (F := Ideal) x0 x1 m (ix2 r u)
      = max (m (ix2 r u)) ((Finset.univ : Finset (Fin 512)).fold max ⊥ fun k => k0_pay4 (F := Ideal) x0 x1 (ix2 r k)) := by
  unfold k0_pay8
  rw [shapeCast_self]
  exact pay6_apply x0 x1 m r u

set_option maxHeartbeats 400000 in
/-- The new running sum of a plain tile. -/
theorem pay7_apply (x0 : Vec Ideal S1024x128 .f32) (x1 : Vec Ideal S512x128 .f32) (m l : Vec Ideal S1024x1 .f32)
    (r : Fin 1024) :
    k0_pay7 (F := Ideal) x0 x1 m l (ix2 r (0 : Fin 1))
      = Ideal.exp (m (ix2 r (0 : Fin 1))
            - max (m (ix2 r (0 : Fin 1))) ((Finset.univ : Finset (Fin 512)).fold max ⊥ fun k => k0_pay4 (F := Ideal) x0 x1 (ix2 r k)))
          * l (ix2 r (0 : Fin 1))
        + ∑ k : Fin 512, Ideal.exp (k0_pay4 (F := Ideal) x0 x1 (ix2 r k)
            - max (m (ix2 r (0 : Fin 1))) ((Finset.univ : Finset (Fin 512)).fold max ⊥ fun k => k0_pay4 (F := Ideal) x0 x1 (ix2 r k))) := by
  unfold k0_pay7
  rw [shapeCast_self, addf_apply, mulf_apply]
  refine congrArg₂ (· + ·) ?_ ?_
  · show Ideal.exp (m (ix2 r (0 : Fin 1)) - k0_pay6 (F := Ideal) x0 x1 m (ix2 r (0 : Fin 1))) * l (ix2 r (0 : Fin 1)) = _
    rw [pay6_apply]
  · refine (shapeCast_a_a1_apply _ _ r 0).trans ?_
    refine (rowSum_apply _ _ _ _ r).trans ?_
    refine Finset.sum_congr rfl fun k _ => ?_
    show Ideal.exp (k0_pay4 (F := Ideal) x0 x1 (ix2 r k)
      - broadcastTo S1024x512 (k0_pay6 (F := Ideal) x0 x1 m) broadcasts_S1024x1_S1024x512 (ix2 r k)) = _
    rw [broadcastTo_a1_ab_apply, pay6_apply]

/-- The running diagonal logit of a plain tile: unchanged. -/
theorem pay9_apply (dd : Vec Ideal S1024x1 .f32) (j : S1024x1.Idx) : k0_pay9 (F := Ideal) dd j = dd j + 0 := by
  unfold k0_pay9
  rw [shapeCast_self, addf_apply, broadcast_apply]
  exact congrArg (_ + ·) Ideal.ofBits_zero_f32

end Cert.KernelIdeal.Hand.Pay

end
-- ==== Proof.KI.Pay.Word.lean ====
/-
  The statistics kernel's integer arithmetic on one lane. A lane's global row and column numbers are words below
  8192: the tile's first row (1024 i) or column (512 j) plus the lane's coordinate. The kernel takes each number's
  block, its floor quotient by 16 (computed as the truncated quotient, less one when the signs of dividend
  and divisor differ and the remainder is not zero), and masks a lane whose row and column are in one block and
  differ. On words below 8192 the floor quotient is the natural-number quotient, so the mask bit says
  "R / 16 = C / 16 and R is not C", and the diagonal bit "R = C".
-/
import proofs.«162174_j13649406066960_2_alg».proof.Proof.KI.Pay.Lay
import Idealize.ShloMosaic.Lib.Affine

set_option maxRecDepth 16384

noncomputable section

namespace Cert.KernelIdeal.Hand.Pay

open Idealize.ShloMosaic Idealize.ShloMosaic.ValueIdx
open Cert.KernelIdeal Cert.KernelIdeal.Gen Cert.KernelIdeal.Hand

open Idealize.ShloMosaic.IntOp

/-- The sign of the literal divisor 16, as the kernel computes it. -/
abbrev sgn16 : BitVec 32 :=
  Scalar.subi (Scalar.extui (Scalar.cmpi .sgt 16#32 0#32)) (Scalar.extui (Scalar.cmpi .slt 16#32 0#32))

theorem sgn16_eq : sgn16 = 1#32 := by decide

/-- The sign of a word, as the kernel computes it: (x > 0) - (x < 0). -/
def sgnW (x : BitVec 32) : BitVec 32 :=
  IntOp.subi ((IntOp.cmpi .sgt x 0#32).setWidth 32) ((IntOp.cmpi .slt x 0#32).setWidth 32)

/-- The floor quotient of a word by 16, as the kernel computes it. -/
def fdiv16 (x : BitVec 32) : BitVec 32 :=
  Scalar.select (IntOp.andi (IntOp.cmpi .ne (sgnW x) sgn16) (IntOp.cmpi .ne (IntOp.remsi .vector x 16#32) 0#32))
    (IntOp.subi (IntOp.divsi .vector x 16#32) 1#32) (IntOp.divsi .vector x 16#32)

/-- The mask bit of a lane with row word `a` and column word `b`: one block, and not the diagonal. -/
def maskW (a b : BitVec 32) : BitVec 1 :=
  IntOp.andi (IntOp.cmpi .eq (fdiv16 a) (fdiv16 b)) (IntOp.xori (IntOp.cmpi .eq a b) 1#1)

theorem toInt_of_lt {x : BitVec 32} (hx : x.toNat < 8192) : x.toInt = (x.toNat : Int) :=
  BitVec.toInt_eq_toNat_of_lt (by omega)

theorem toNat_remsi16 {x : BitVec 32} (hx : x.toNat < 8192) : (IntOp.remsi .vector x 16#32).toNat = x.toNat % 16 :=
  IntOp.toNat_remsi .vector (by omega) 16 (by decide) (by decide)

theorem toNat_divsi16 {x : BitVec 32} (hx : x.toNat < 8192) : (IntOp.divsi .vector x 16#32).toNat = x.toNat / 16 := by
  have hm : x.msb = false := by rw [BitVec.msb_eq_false_iff_two_mul_lt]; omega
  have hk : (16#32 : BitVec 32).msb = false := by decide
  rw [IntOp.divsi, if_neg (IntOp.not_corner_of_pos (by decide)), BitVec.sdiv_eq, hm, hk]
  show (x / 16#32).toNat = _
  rw [BitVec.toNat_udiv]
  rfl

theorem sgnW_pos {x : BitVec 32} (hx : x.toNat < 8192) (h0 : x.toNat ≠ 0) : sgnW x = 1#32 := by
  have h1 : IntOp.cmpi .sgt x 0#32 = 1#1 := by
    rw [IntOp.cmpi_sgt, toInt_of_lt hx, show (0#32 : BitVec 32).toInt = 0 from by decide]; omega
  have h2 : IntOp.cmpi .slt x 0#32 = 0#1 := by
    refine eq_zero_of_ne_one fun h => ?_
    rw [IntOp.cmpi_slt, toInt_of_lt hx, show (0#32 : BitVec 32).toInt = 0 from by decide] at h; omega
  unfold sgnW
  rw [h1, h2]
  decide

/-- On a word below 8192 the floor quotient by 16 is the truncated one. -/
theorem fdiv16_eq {x : BitVec 32} (hx : x.toNat < 8192) : fdiv16 x = IntOp.divsi .vector x 16#32 := by
  unfold fdiv16 Scalar.select
  refine if_neg fun h => ?_
  obtain ⟨h1, h2⟩ := IntOp.andi_eq_one.mp (show IntOp.andi _ _ = 1#1 from h)
  rw [IntOp.cmpi_ne] at h1 h2
  by_cases h0 : x.toNat = 0
  · refine h2 (BitVec.eq_of_toNat_eq ?_)
    rw [toNat_remsi16 hx, h0]; rfl
  · exact h1 ((sgnW_pos hx h0).trans sgn16_eq.symm)

theorem toNat_fdiv16 {x : BitVec 32} (hx : x.toNat < 8192) : (fdiv16 x).toNat = x.toNat / 16 := by
  rw [fdiv16_eq hx, toNat_divsi16 hx]

/-- The diagonal bit: the row and column numbers are equal. -/
theorem eqW_iff (a b : BitVec 32) : IntOp.cmpi .eq a b = 1#1 ↔ a.toNat = b.toNat := by
  rw [IntOp.cmpi_eq, BitVec.toNat_inj]

theorem xori_one_eq_one (c : BitVec 1) : IntOp.xori c 1#1 = 1#1 ↔ ¬c = 1#1 := by revert c; decide

/-- The mask bit: one block of 16, and not the diagonal. -/
theorem maskW_iff {a b : BitVec 32} (ha : a.toNat < 8192) (hb : b.toNat < 8192) :
    maskW a b = 1#1 ↔ (a.toNat / 16 = b.toNat / 16 ∧ a.toNat ≠ b.toNat) := by
  unfold maskW
  rw [IntOp.andi_eq_one, xori_one_eq_one, eqW_iff, eqW_iff, toNat_fdiv16 ha, toNat_fdiv16 hb]

/-- The row number of a lane: the tile's first row, 1024 t, plus the lane's row coordinate. -/
theorem toNat_rowWord (t : Nat) (ht : t < 8) (r : Fin 1024) :
    (IntOp.addi (BitVec.ofNat 32 r.val) (Scalar.muli (BitVec.ofNat 32 t) 1024#32)).toNat = 1024 * t + r.val := by
  have := r.isLt
  show (BitVec.ofNat 32 r.val + BitVec.ofNat 32 t * 1024#32).toNat = _
  rw [BitVec.toNat_add, BitVec.toNat_mul, BitVec.toNat_ofNat, BitVec.toNat_ofNat, BitVec.toNat_ofNat]
  omega

/-- The column number of a lane: the tile's first column, 512 t, plus the lane's column coordinate. -/
theorem toNat_colWord (t : Nat) (ht : t < 16) (k : Fin 512) :
    (IntOp.addi (BitVec.ofNat 32 k.val) (Scalar.muli (BitVec.ofNat 32 t) 512#32)).toNat = 512 * t + k.val := by
  have := k.isLt
  show (BitVec.ofNat 32 k.val + BitVec.ofNat 32 t * 512#32).toNat = _
  rw [BitVec.toNat_add, BitVec.toNat_mul, BitVec.toNat_ofNat, BitVec.toNat_ofNat, BitVec.toNat_ofNat]
  omega

end Cert.KernelIdeal.Hand.Pay

end
-- ==== Proof.KI.Pay.Mask.lean ====
/-
  The mask of a tile that meets the block diagonal, lane by lane. With R = 1024 i + r the lane's global row and
  C = 512 j + k its global column (both below 8192), the kernel replaces the raw logit by the masked value where
  R and C are in one block of 16 and differ, and reads the diagonal where R = C.
-/
import proofs.«162174_j13649406066960_2_alg».proof.Proof.KI.Pay.Word
import proofs.«162174_j13649406066960_2_alg».proof.Proof.KI.Pay.Raw

set_option maxRecDepth 16384

noncomputable section

namespace Cert.KernelIdeal.Hand.Pay

open Idealize.ShloMosaic Idealize.ShloMosaic.ValueIdx
open Cert.KernelIdeal Cert.KernelIdeal.Gen Cert.KernelIdeal.Hand

open Idealize.ShloMosaic.IntOp

/-- A lane's row word: its row coordinate plus the tile's first row. -/
theorem pay11_apply (row : BitVec 32) (r : Fin 1024) (k : Fin 512) :
    k0_pay11 row (ix2 r k) = IntOp.addi (BitVec.ofNat 32 r.val) row := by
  unfold k0_pay11
  show IntOp.addi (iota .tc S1024x512 32 [0] iota_S1024x512_d0_w32 (ix2 r k)) row = _
  rw [iota_single_apply]

/-- A lane's column word: its column coordinate plus the tile's first column. -/
theorem pay12_apply (col : BitVec 32) (r : Fin 1024) (k : Fin 512) :
    k0_pay12 col (ix2 r k) = IntOp.addi (BitVec.ofNat 32 k.val) col := by
  unfold k0_pay12
  show IntOp.addi (iota .tc S1024x512 32 [1] iota_S1024x512_d1_w32 (ix2 r k)) col = _
  rw [iota_single_apply]

/-- The row's block number is the floor quotient of the row word. -/
theorem pay13_apply (row : BitVec 32) (j : S1024x512.Idx) : k0_pay13 row j = fdiv16 (k0_pay11 row j) := rfl

set_option maxHeartbeats 400000 in
/-- The masked logits at a lane: the masked value where the mask bit is set, the raw logit elsewhere. -/
theorem pay18_apply (v10 : FVec Ideal S1024x512 .f32) (row col : BitVec 32) (j : S1024x512.Idx) :
    k0_pay18 (F := Ideal) v10 (k0_pay11 row) (k0_pay12 col) (k0_pay13 row) (k0_pay14 col) (k0_pay15 col) (k0_pay16 col) j
      = Scalar.select (maskW (k0_pay11 row j) (k0_pay12 col j)) κm (v10 j) := by
  show Scalar.select (maskW (k0_pay11 row j) (k0_pay12 col j))
    (Named.named (F := Ideal) Cert.KernelIdeal.κ "mask_over_temperature" (φ := .f32) 0xC9742400#32) (v10 j) = _
  rw [named_mask_over_temperature]

/-- The global row number of a lane of the tile at grid point i. -/
theorem toNat_pay11 (i : grid0.Coords) (r : Fin 1024) (k : Fin 512) :
    (k0_pay11 (row0_0 i) (ix2 r k)).toNat = 1024 * (i 0).val + r.val := by
  rw [pay11_apply]
  exact toNat_rowWord _ (i 0).isLt r

/-- The global column number of a lane of the tile at grid point i. -/
theorem toNat_pay12 (i : grid0.Coords) (r : Fin 1024) (k : Fin 512) :
    (k0_pay12 (col0_0 i) (ix2 r k)).toNat = 512 * (i 1).val + k.val := by
  rw [pay12_apply]
  exact toNat_colWord _ (i 1).isLt k

/-- The mask bit of a lane: its row and column are in one block of 16 and differ. -/
theorem mask0_iff (i : grid0.Coords) (r : Fin 1024) (k : Fin 512) :
    maskW (k0_pay11 (row0_0 i) (ix2 r k)) (k0_pay12 (col0_0 i) (ix2 r k)) = 1#1
      ↔ ((1024 * (i 0).val + r.val) / 16 = (512 * (i 1).val + k.val) / 16
          ∧ 1024 * (i 0).val + r.val ≠ 512 * (i 1).val + k.val) := by
  have h0 : (i 0).val < 8 := (i 0).isLt
  have h1 : (i 1).val < 16 := (i 1).isLt
  have hr := r.isLt
  have hk := k.isLt
  rw [maskW_iff (by rw [toNat_pay11]; omega) (by rw [toNat_pay12]; omega), toNat_pay11, toNat_pay12]

/-- The diagonal bit of a lane: its row and column are equal. -/
theorem diag0_iff (i : grid0.Coords) (r : Fin 1024) (k : Fin 512) :
    k0_pay17 (k0_pay11 (row0_0 i)) (k0_pay12 (col0_0 i)) (ix2 r k) = 1#1
      ↔ 1024 * (i 0).val + r.val = 512 * (i 1).val + k.val := by
  show IntOp.cmpi .eq (k0_pay11 (row0_0 i) (ix2 r k)) (k0_pay12 (col0_0 i) (ix2 r k)) = 1#1 ↔ _
  rw [eqW_iff, toNat_pay11, toNat_pay12]

/-- The masked logit at (r, k) of the tile at grid point i. -/
theorem masked0 (i : grid0.Coords) (x0 : Vec Ideal S1024x128 .f32) (x1 : Vec Ideal S512x128 .f32) (r : Fin 1024) (k : Fin 512) :
    k0_pay18 (F := Ideal) (k0_pay4 x0 x1) (k0_pay11 (row0_0 i)) (k0_pay12 (col0_0 i)) (k0_pay13 (row0_0 i))
        (k0_pay14 (col0_0 i)) (k0_pay15 (col0_0 i)) (k0_pay16 (col0_0 i)) (ix2 r k)
      = if (1024 * (i 0).val + r.val) / 16 = (512 * (i 1).val + k.val) / 16
            ∧ 1024 * (i 0).val + r.val ≠ 512 * (i 1).val + k.val
        then κm else k0_pay4 (F := Ideal) x0 x1 (ix2 r k) := by
  rw [pay18_apply]
  by_cases h : (1024 * (i 0).val + r.val) / 16 = (512 * (i 1).val + k.val) / 16
      ∧ 1024 * (i 0).val + r.val ≠ 512 * (i 1).val + k.val
  · rw [if_pos h, (mask0_iff i r k).mpr h, select_one]
  · rw [if_neg h, eq_zero_of_ne_one (mt (mask0_iff i r k).mp h), select_zero]

end Cert.KernelIdeal.Hand.Pay

end
-- ==== Proof.KI.Pay.Masked.lean ====
/-
  The masked update of the running row statistics (a tile that meets the block diagonal), at a row r: as the
  plain update, over the masked logits in place of the raw ones; and the running diagonal logit gains the row's
  raw logit on the diagonal, if the tile holds it.
-/
import proofs.«162174_j13649406066960_2_alg».proof.Proof.KI.Pay.Row
import proofs.«162174_j13649406066960_2_alg».proof.Proof.KI.Pay.Mask

set_option maxRecDepth 16384

noncomputable section

namespace Cert.KernelIdeal.Hand.Pay

open Idealize.ShloMosaic Idealize.ShloMosaic.ValueIdx
open Cert.KernelIdeal Cert.KernelIdeal.Gen Cert.KernelIdeal.Hand

section
variable (v10 : FVec Ideal S1024x512 .f32) (v28 v31 v55 v57 : IVec S1024x512 32) (v71 : IVec S1024x512 1) (v73 : IVec S1024x512 32)

/-- The new running maximum of a masked tile, before it is stored. -/
theorem pay19_apply (m : Vec Ideal S1024x1 .f32) (r : Fin 1024) (u : Fin 1) :
    k0_pay19 (F := Ideal) v10 v28 v31 v55 v57 v71 v73 m (ix2 r u)
      = max (m (ix2 r u)) ((Finset.univ : Finset (Fin 512)).fold max ⊥ fun k =>
          k0_pay18 (F := Ideal) v10 v28 v31 v55 v57 v71 v73 (ix2 r k)) := by
  unfold k0_pay19
  rw [maximumf_apply]
  refine congrArg (max _ ·) ?_
  refine (shapeCast_a_a1_apply _ _ r u).trans ?_
  exact rowMax_apply _ _ _ _ r

/-- The new running maximum of a masked tile. -/
theorem pay21_apply (m : Vec Ideal S1024x1 .f32) (r : Fin 1024) (u : Fin 1) :
    k0_pay21 (F := Ideal) v10 v28 v31 v55 v57 v71 v73 m (ix2 r u)
      = max (m (ix2 r u)) ((Finset.univ : Finset (Fin 512)).fold max ⊥ fun k =>
          k0_pay18 (F := Ideal) v10 v28 v31 v55 v57 v71 v73 (ix2 r k)) := by
  unfold k0_pay21
  rw [shapeCast_self]
  exact pay19_apply v10 v28 v31 v55 v57 v71 v73 m r u

set_option maxHeartbeats 400000 in
/-- The new running sum of a masked tile. -/
theorem pay20_apply (m l : Vec Ideal S1024x1 .f32) (r : Fin 1024) :
    k0_pay20 (F := Ideal) v10 v28 v31 v55 v57 v71 v73 m l (ix2 r (0 : Fin 1))
      = Ideal.exp (m (ix2 r (0 : Fin 1))
            - max (m (ix2 r (0 : Fin 1))) ((Finset.univ : Finset (Fin 512)).fold max ⊥ fun k =>
                k0_pay18 (F := Ideal) v10 v28 v31 v55 v57 v71 v73 (ix2 r k)))
          * l (ix2 r (0 : Fin 1))
        + ∑ k : Fin 512, Ideal.exp (k0_pay18 (F := Ideal) v10 v28 v31 v55 v57 v71 v73 (ix2 r k)
            - max (m (ix2 r (0 : Fin 1))) ((Finset.univ : Finset (Fin 512)).fold max ⊥ fun k =>
                k0_pay18 (F := Ideal) v10 v28 v31 v55 v57 v71 v73 (ix2 r k))) := by
  unfold k0_pay20
  rw [shapeCast_self, addf_apply, mulf_apply]
  refine congrArg₂ (· + ·) ?_ ?_
  · show Ideal.exp (m (ix2 r (0 : Fin 1)) - k0_pay19 (F := Ideal) v10 v28 v31 v55 v57 v71 v73 m (ix2 r (0 : Fin 1)))
      * l (ix2 r (0 : Fin 1)) = _
    rw [pay19_apply]
  · refine (shapeCast_a_a1_apply _ _ r 0).trans ?_
    refine (rowSum_apply _ _ _ _ r).trans ?_
    refine Finset.sum_congr rfl fun k _ => ?_
    show Ideal.exp (k0_pay18 (F := Ideal) v10 v28 v31 v55 v57 v71 v73 (ix2 r k)
      - broadcastTo S1024x512 (k0_pay19 (F := Ideal) v10 v28 v31 v55 v57 v71 v73 m) broadcasts_S1024x1_S1024x512 (ix2 r k)) = _
    rw [broadcastTo_a1_ab_apply, pay19_apply]

/-- The running diagonal logit of a masked tile gains the row's raw logits where the diagonal bit is set. -/
theorem pay22_apply (dd : Vec Ideal S1024x1 .f32) (r : Fin 1024) (u : Fin 1) :
    k0_pay22 (F := Ideal) v10 v28 v31 dd (ix2 r u)
      = dd (ix2 r u) + ∑ k : Fin 512, Scalar.select (k0_pay17 v28 v31 (ix2 r k)) (v10 (ix2 r k)) (0 : EReal) := by
  unfold k0_pay22
  rw [addf_apply]
  refine congrArg (_ + ·) ?_
  refine (shapeCast_a_a1_apply _ _ r u).trans ?_
  refine (rowSum_apply _ _ _ _ r).trans ?_
  refine Finset.sum_congr rfl fun k _ => ?_
  show Scalar.select (k0_pay17 v28 v31 (ix2 r k)) (v10 (ix2 r k)) (Ideal.ofBits .f32 0x00000000#32) = _
  rw [Ideal.ofBits_zero_f32]

end

/-- The new running diagonal logit at row r of the tile at grid point i: the old one plus the row's raw logit at the
    column C = R, if the tile holds that column. -/
theorem diag0 (i : grid0.Coords) (x0 : Vec Ideal S1024x128 .f32) (x1 : Vec Ideal S512x128 .f32) (dd : Vec Ideal S1024x1 .f32)
    (r : Fin 1024) :
    k0_pay5 (F := Ideal) (k0_pay22 (F := Ideal) (k0_pay4 x0 x1) (k0_pay11 (row0_0 i)) (k0_pay12 (col0_0 i)) dd) (ix2 r (0 : Fin 1))
      = dd (ix2 r (0 : Fin 1)) + ∑ k : Fin 512,
          (if 1024 * (i 0).val + r.val = 512 * (i 1).val + k.val then k0_pay4 (F := Ideal) x0 x1 (ix2 r k) else 0) := by
  unfold k0_pay5
  rw [shapeCast_self, pay22_apply]
  refine congrArg (_ + ·) (Finset.sum_congr rfl fun k _ => ?_)
  by_cases h : 1024 * (i 0).val + r.val = 512 * (i 1).val + k.val
  · rw [if_pos h, (diag0_iff i r k).mpr h, select_one]
  · rw [if_neg h, eq_zero_of_ne_one (mt (diag0_iff i r k).mp h), select_zero]

end Cert.KernelIdeal.Hand.Pay

end
-- ==== Proof.KI.Tile0.lean ====
/-
  One grid point's update of the running row statistics, read at a row and in closed form. At point t = 16 I + J
  (row tile I, column tile J) lane-row r is global row i = 1024 I + r, and lane-column k global column 512 J + k.
  The tile's raw logits are the scaled dot products of row i of the first array with the rows 512 J + k of the
  second; a tile that meets the block diagonal masks them as the closed form does, any other tile holds no masked
  entry and no diagonal one. So the new statistics at row r are one step of the online recurrence on the closed
  form's tile J of row i, from what the point finds (the reset values at J = 0).
-/
import proofs.«162174_j13649406066960_2_alg».proof.Proof.KI.Region
import proofs.«162174_j13649406066960_2_alg».proof.Proof.KI.Blocks
import proofs.«162174_j13649406066960_2_alg».proof.Proof.KI.KSpec
import proofs.«162174_j13649406066960_2_alg».proof.Proof.KI.Pay.Reset
import proofs.«162174_j13649406066960_2_alg».proof.Proof.KI.Pay.Plain
import proofs.«162174_j13649406066960_2_alg».proof.Proof.KI.Pay.Masked

set_option maxRecDepth 16384

noncomputable section

namespace Cert.KernelIdeal.Hand

open Idealize.ShloMosaic Idealize.ShloMosaic.ValueIdx Idealize.ShloMosaic.TcCoe
open Idealize.SL Idealize.SL.Sem
open Idealize.ShloMosaic.Pipeline (Dat Cfg Window BodyObligation cellOf)
open Cert.KernelIdeal Cert.KernelIdeal.Gen Cert.ReferenceIdeal.Hand

/-- The grid point's row tile and column tile. -/
theorem coords0_val : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

theorem lt_N0 {n : ℕ} (hn : n < cfg0.N) : n < 128 := lt_of_lt_of_eq hn Gen.N_0

/-- The global row of lane-row r of the tile at point n. -/
def rowOf0 (n : ℕ) (hn : n < cfg0.N) (r : Fin 1024) : Fin 8192 :=
  ⟨1024 * (n / 16) + r.val, by have := lt_N0 hn; have := r.isLt; omega⟩
/-- The global column of lane-column k of the tile at point n. -/
def colOf0 (n : ℕ) (k : Fin 512) : Fin 8192 :=
  ⟨512 * (n % 16) + k.val, by have := k.isLt; omega⟩

/-- The closed form's column index of tile n % 16 is the global column. -/
theorem colOf_mod0 (n : ℕ) (k : Fin 512) :
    (⟨KSpec.colOf (n % 16) k % 8192, Nat.mod_lt _ (by norm_num)⟩ : Fin 8192) = colOf0 n k :=
  Fin.ext (Nat.mod_eq_of_lt (by unfold KSpec.colOf; have := k.isLt; omega))

/-- A tile off the block diagonal holds no masked entry. -/
theorem not_masked_of_plain0 (n : ℕ) (hn : n < cfg0.N) (hp : ¬(n % 16) / 2 = n / 16) (r : Fin 1024) (k : Fin 512) :
    ¬masked (rowOf0 n hn r) (colOf0 n k) := by
  intro h
  have h1 : (1024 * (n / 16) + r.val) / 16 = (512 * (n % 16) + k.val) / 16 := h.1
  have := r.isLt
  have := k.isLt
  omega

section
variable (x y : KSpec.Arr)
  (V : (c : Dev nD) → (b : Ref sig .tc) → Buf (Elt Ideal) ((c : Thread nD τ).loc b))
  (hV0 : ∀ c (i : Fin 8192) (d : Fin 128), (V c main_v0 : S8192x128.Idx → EReal) (ix2 i d) = row x i d)
  (hV1 : ∀ c (i : Fin 8192) (d : Fin 128), (V c main_v1 : S8192x128.Idx → EReal) (ix2 i d) = row y i d)
  (c : Dev nD)
include hV0 hV1

set_option maxHeartbeats 400000 in
/-- The tile's raw logit at (r, k) is the closed form's scaled logit of the global row and column. -/
theorem raw_blk0 (n : ℕ) (hn : n < cfg0.N) (r : Fin 1024) (k : Fin 512) :
    k0_pay4 (F := Ideal) (iblk0 V c 0 ⟨n, hn⟩) (iblk0 V c 1 ⟨n, hn⟩) (ix2 r k)
      = KSpec.raw x y (rowOf0 n hn r) (colOf0 n k) := by
  refine (Pay.raw0 _ _ r k).trans ?_
  unfold KSpec.raw
  refine Finset.sum_congr rfl fun d _ => ?_
  have e0 : (iblk0 V c 0 ⟨n, hn⟩ : Vec Ideal S1024x128 .f32) (ix2 r d) = row x (rowOf0 n hn r) d :=
    (iblk0_0_apply V c ⟨n, hn⟩ (ix2 r d) (ix2 (rowOf0 n hn r) d) rfl rfl).trans (hV0 c _ d)
  have e1 : (iblk0 V c 1 ⟨n, hn⟩ : Vec Ideal S512x128 .f32) (ix2 k d) = row y (colOf0 n k) d :=
    (iblk0_1_apply V c ⟨n, hn⟩ (ix2 k d) (ix2 (colOf0 n k) d) rfl rfl).trans (hV1 c _ d)
  exact congrArg₂ (· * ·) (congrArg (· * Pay.κc) e0) e1

set_option maxHeartbeats 400000 in
/-- On a tile that meets the block diagonal, the masked logit at (r, k) is the closed form's tile entry. -/
theorem tile_masked0 (n : ℕ) (hn : n < cfg0.N) (r : Fin 1024) (k : Fin 512) :
    k0_pay18 (F := Ideal) (k0_pay4 (iblk0 V c 0 ⟨n, hn⟩) (iblk0 V c 1 ⟨n, hn⟩))
        (k0_pay11 (row0_0 (grid0.coords ⟨n, hn⟩))) (k0_pay12 (col0_0 (grid0.coords ⟨n, hn⟩)))
        (k0_pay13 (row0_0 (grid0.coords ⟨n, hn⟩))) (k0_pay14 (col0_0 (grid0.coords ⟨n, hn⟩)))
        (k0_pay15 (col0_0 (grid0.coords ⟨n, hn⟩))) (k0_pay16 (col0_0 (grid0.coords ⟨n, hn⟩))) (ix2 r k)
      = KSpec.tile x y (rowOf0 n hn r) (n % 16) k := by
  have h0 : ((grid0.coords ⟨n, hn⟩) 0).val = n / 16 := (coords0_val ⟨n, hn⟩).1
  have h1 : ((grid0.coords ⟨n, hn⟩) 1).val = n % 16 := (coords0_val ⟨n, hn⟩).2
  refine (Pay.masked0 _ _ _ r k).trans ?_
  rw [raw_blk0 x y V hV0 hV1 c n hn r k, h0, h1]
  unfold KSpec.tile KSpec.msk
  rw [colOf_mod0]
  exact if_congr (and_congr Iff.rfl (not_congr (Fin.ext_iff (a := rowOf0 n hn r) (b := colOf0 n k)).symm)) rfl rfl

/-- On any other tile the raw logit at (r, k) is the closed form's tile entry: nothing is masked. -/
theorem tile_plain0 (n : ℕ) (hn : n < cfg0.N) (hp : ¬(n % 16) / 2 = n / 16) (r : Fin 1024) (k : Fin 512) :
    k0_pay4 (F := Ideal) (iblk0 V c 0 ⟨n, hn⟩) (iblk0 V c 1 ⟨n, hn⟩) (ix2 r k)
      = KSpec.tile x y (rowOf0 n hn r) (n % 16) k := by
  rw [raw_blk0 x y V hV0 hV1 c n hn r k]
  unfold KSpec.tile KSpec.msk
  rw [colOf_mod0, if_neg (not_masked_of_plain0 n hn hp r k)]

set_option maxHeartbeats 400000 in
/-- On a tile that meets the block diagonal, the diagonal logits it gathers are the closed form's. -/
theorem dtile_masked0 (n : ℕ) (hn : n < cfg0.N) (r : Fin 1024) :
    (∑ k : Fin 512, (if 1024 * ((grid0.coords ⟨n, hn⟩) 0).val + r.val = 512 * ((grid0.coords ⟨n, hn⟩) 1).val + k.val
        then k0_pay4 (F := Ideal) (iblk0 V c 0 ⟨n, hn⟩) (iblk0 V c 1 ⟨n, hn⟩) (ix2 r k) else 0))
      = KSpec.dtile x y (rowOf0 n hn r) (n % 16) := by
  have h0 : ((grid0.coords ⟨n, hn⟩) 0).val = n / 16 := (coords0_val ⟨n, hn⟩).1
  have h1 : ((grid0.coords ⟨n, hn⟩) 1).val = n % 16 := (coords0_val ⟨n, hn⟩).2
  rw [h0, h1]
  unfold KSpec.dtile
  refine Finset.sum_congr rfl fun k _ => ?_
  rw [colOf_mod0, raw_blk0 x y V hV0 hV1 c n hn r k]
  exact if_congr Iff.rfl rfl rfl

omit hV0 hV1 in
/-- A tile off the block diagonal holds no diagonal entry. -/
theorem dtile_plain0 (n : ℕ) (hn : n < cfg0.N) (hp : ¬(n % 16) / 2 = n / 16) (r : Fin 1024) :
    KSpec.dtile x y (rowOf0 n hn r) (n % 16) = 0 := by
  unfold KSpec.dtile
  refine Finset.sum_eq_zero fun k _ => if_neg ?_
  show ¬(1024 * (n / 16) + r.val = 512 * (n % 16) + k.val)
  have := r.isLt
  have := k.isLt
  omega

set_option maxHeartbeats 800000 in
/-- One point's update at row r: a step of the online recurrence on the closed form's tile, from what the point finds. -/
theorem step0_at (n : ℕ) (hn : n < cfg0.N) (r : Fin 1024)
    (s : Vec Ideal S1024x1 .f32 × Vec Ideal S1024x1 .f32 × Vec Ideal S1024x1 .f32) :
    (stepS0 V c ⟨n, hn⟩ s).1 (ix2 r (0 : Fin 1))
        = (Cert.Math.upd (KSpec.tile x y (rowOf0 n hn r) (n % 16))
            (inM0 (grid0.coords ⟨n, hn⟩) s.1 (ix2 r (0 : Fin 1)), inL0 (grid0.coords ⟨n, hn⟩) s.2.1 (ix2 r (0 : Fin 1)))).1
    ∧ (stepS0 V c ⟨n, hn⟩ s).2.1 (ix2 r (0 : Fin 1))
        = (Cert.Math.upd (KSpec.tile x y (rowOf0 n hn r) (n % 16))
            (inM0 (grid0.coords ⟨n, hn⟩) s.1 (ix2 r (0 : Fin 1)), inL0 (grid0.coords ⟨n, hn⟩) s.2.1 (ix2 r (0 : Fin 1)))).2
    ∧ (stepS0 V c ⟨n, hn⟩ s).2.2 (ix2 r (0 : Fin 1))
        = inD0 (grid0.coords ⟨n, hn⟩) s.2.2 (ix2 r (0 : Fin 1)) + KSpec.dtile x y (rowOf0 n hn r) (n % 16) := by
  by_cases h2 : cond0_2 (grid0.coords ⟨n, hn⟩)
  · have hT : (fun k : Fin 512 => k0_pay18 (F := Ideal) (k0_pay4 (iblk0 V c 0 ⟨n, hn⟩) (iblk0 V c 1 ⟨n, hn⟩))
          (k0_pay11 (row0_0 (grid0.coords ⟨n, hn⟩))) (k0_pay12 (col0_0 (grid0.coords ⟨n, hn⟩)))
          (k0_pay13 (row0_0 (grid0.coords ⟨n, hn⟩))) (k0_pay14 (col0_0 (grid0.coords ⟨n, hn⟩)))
          (k0_pay15 (col0_0 (grid0.coords ⟨n, hn⟩))) (k0_pay16 (col0_0 (grid0.coords ⟨n, hn⟩))) (ix2 r k))
        = KSpec.tile x y (rowOf0 n hn r) (n % 16) := funext fun k => tile_masked0 x y V hV0 hV1 c n hn r k
    refine ⟨?_, ?_, ?_⟩
    · show newM0 (grid0.coords ⟨n, hn⟩) (iblk0 V c 0 ⟨n, hn⟩) (iblk0 V c 1 ⟨n, hn⟩) s.1 (ix2 r (0 : Fin 1)) = _
      unfold newM0
      rw [if_pos h2, Pay.pay21_apply, hT]
      rfl
    · show newL0 (grid0.coords ⟨n, hn⟩) (iblk0 V c 0 ⟨n, hn⟩) (iblk0 V c 1 ⟨n, hn⟩) s.1 s.2.1 (ix2 r (0 : Fin 1)) = _
      unfold newL0
      rw [if_pos h2, Pay.pay20_apply, hT]
      show _ + _ = _ + _
      exact congrArg (_ + ·) (Finset.sum_congr rfl fun k _ =>
        congrArg (fun z => Ideal.exp (z - _)) (tile_masked0 x y V hV0 hV1 c n hn r k))
    · show newD0 (grid0.coords ⟨n, hn⟩) (iblk0 V c 0 ⟨n, hn⟩) (iblk0 V c 1 ⟨n, hn⟩) s.2.2 (ix2 r (0 : Fin 1)) = _
      unfold newD0
      rw [if_pos h2, Pay.diag0, dtile_masked0 x y V hV0 hV1 c n hn r]
  · have hp : ¬(n % 16) / 2 = n / 16 := mt (hcond0_2 ⟨n, hn⟩).mpr h2
    have hT : (fun k : Fin 512 => k0_pay4 (F := Ideal) (iblk0 V c 0 ⟨n, hn⟩) (iblk0 V c 1 ⟨n, hn⟩) (ix2 r k))
        = KSpec.tile x y (rowOf0 n hn r) (n % 16) := funext fun k => tile_plain0 x y V hV0 hV1 c n hn hp r k
    refine ⟨?_, ?_, ?_⟩
    · show newM0 (grid0.coords ⟨n, hn⟩) (iblk0 V c 0 ⟨n, hn⟩) (iblk0 V c 1 ⟨n, hn⟩) s.1 (ix2 r (0 : Fin 1)) = _
      unfold newM0
      rw [if_neg h2, Pay.pay8_apply, hT]
      rfl
    · show newL0 (grid0.coords ⟨n, hn⟩) (iblk0 V c 0 ⟨n, hn⟩) (iblk0 V c 1 ⟨n, hn⟩) s.1 s.2.1 (ix2 r (0 : Fin 1)) = _
      unfold newL0
      rw [if_neg h2, Pay.pay7_apply, hT]
      show _ + _ = _ + _
      exact congrArg (_ + ·) (Finset.sum_congr rfl fun k _ =>
        congrArg (fun z => Ideal.exp (z - _)) (tile_plain0 x y V hV0 hV1 c n hn hp r k))
    · show newD0 (grid0.coords ⟨n, hn⟩) (iblk0 V c 0 ⟨n, hn⟩) (iblk0 V c 1 ⟨n, hn⟩) s.2.2 (ix2 r (0 : Fin 1)) = _
      unfold newD0
      rw [if_neg h2, Pay.pay9_apply, dtile_plain0 x y n hn hp r]

end

end Cert.KernelIdeal.Hand

end
-- ==== Proof.KI.Stats0.lean ====
/-
  The running row statistics after each grid point of the first call, in closed form. After point t = 16 I + J
  the statistics of lane-row r are those of global row i = 1024 I + r after column tiles 0 .. J: the online
  recurrence's running maximum and running sum of exponentials over the closed form's tiles, and the diagonal
  logit gathered over them. By induction on t: a first column tile (J = 0) resets, any other continues from what
  the point before (same row tile, column tile J - 1) left.
-/
import proofs.«162174_j13649406066960_2_alg».proof.Proof.KI.Tile0

set_option maxRecDepth 16384

noncomputable section

namespace Cert.KernelIdeal.Hand

open Idealize.ShloMosaic Idealize.ShloMosaic.ValueIdx Idealize.ShloMosaic.TcCoe
open Idealize.SL Idealize.SL.Sem
open Idealize.ShloMosaic.Pipeline (Dat Cfg Window BodyObligation cellOf)
open Cert.KernelIdeal Cert.KernelIdeal.Gen Cert.ReferenceIdeal.Hand

/-- At a first column tile the running maximum is found reset to -inf, -/
theorem inM0_reset {i : grid0.Coords} (h : cond0_1 i) (m : Vec Ideal S1024x1 .f32) (j : S1024x1.Idx) :
    inM0 (F := Ideal) i m j = ⊥ := by
  unfold inM0; rw [if_pos h]; exact Pay.pay1_apply j
/-- the running sum to 0, -/
theorem inL0_reset {i : grid0.Coords} (h : cond0_1 i) (l : Vec Ideal S1024x1 .f32) (j : S1024x1.Idx) :
    inL0 (F := Ideal) i l j = 0 := by
  unfold inL0; rw [if_pos h]; exact Pay.pay2_apply j
/-- and the running diagonal logit to 0. -/
theorem inD0_reset {i : grid0.Coords} (h : cond0_1 i) (dd : Vec Ideal S1024x1 .f32) (j : S1024x1.Idx) :
    inD0 (F := Ideal) i dd j = 0 := by
  unfold inD0; rw [if_pos h]; exact Pay.pay3_apply j
/-- At any other tile they are found as the point before left them. -/
theorem inM0_keep {i : grid0.Coords} (h : ¬cond0_1 i) (m : Vec Ideal S1024x1 .f32) : inM0 (F := Ideal) i m = m := by
  unfold inM0; rw [if_neg h]
theorem inL0_keep {i : grid0.Coords} (h : ¬cond0_1 i) (l : Vec Ideal S1024x1 .f32) : inL0 (F := Ideal) i l = l := by
  unfold inL0; rw [if_neg h]
theorem inD0_keep {i : grid0.Coords} (h : ¬cond0_1 i) (dd : Vec Ideal S1024x1 .f32) : inD0 (F := Ideal) i dd = dd := by
  unfold inD0; rw [if_neg h]

section
variable (x y : KSpec.Arr)
  (V : (c : Dev nD) → (b : Ref sig .tc) → Buf (Elt Ideal) ((c : Thread nD τ).loc b))
  (hV0 : ∀ c (i : Fin 8192) (d : Fin 128), (V c main_v0 : S8192x128.Idx → EReal) (ix2 i d) = row x i d)
  (hV1 : ∀ c (i : Fin 8192) (d : Fin 128), (V c main_v1 : S8192x128.Idx → EReal) (ix2 i d) = row y i d)
  (c : Dev nD)
include hV0 hV1

set_option maxHeartbeats 400000 in
/-- A first column tile: whatever the point finds, it leaves the recurrence's first step. -/
theorem closed_of_reset0 (n : ℕ) (hn : n < cfg0.N) (r : Fin 1024)
    (s : Vec Ideal S1024x1 .f32 × Vec Ideal S1024x1 .f32 × Vec Ideal S1024x1 .f32) (hz : n % 16 = 0) :
    (stepS0 V c ⟨n, hn⟩ s).1 (ix2 r (0 : Fin 1)) = (Cert.Math.run (KSpec.tile x y (rowOf0 n hn r)) (n % 16)).1
    ∧ (stepS0 V c ⟨n, hn⟩ s).2.1 (ix2 r (0 : Fin 1)) = (Cert.Math.run (KSpec.tile x y (rowOf0 n hn r)) (n % 16)).2
    ∧ (stepS0 V c ⟨n, hn⟩ s).2.2 (ix2 r (0 : Fin 1)) = KSpec.drun x y (rowOf0 n hn r) (n % 16) := by
  obtain ⟨e1, e2, e3⟩ := step0_at x y V hV0 hV1 c n hn r s
  have h1 : cond0_1 (grid0.coords ⟨n, hn⟩) := (hcond0_1 ⟨n, hn⟩).mpr hz
  rw [inM0_reset h1, inL0_reset h1, hz] at e1 e2
  rw [inD0_reset h1, hz] at e3
  rw [hz]
  exact ⟨e1, e2, e3⟩

set_option maxHeartbeats 400000 in
/-- The running row statistics after point n, at lane-row r. -/
theorem stats0_closed_nat : ∀ (n : ℕ) (hn : n < cfg0.N) (r : Fin 1024),
    (statsAt0 V c n hn).1 (ix2 r (0 : Fin 1)) = (Cert.Math.run (KSpec.tile x y (rowOf0 n hn r)) (n % 16)).1
    ∧ (statsAt0 V c n hn).2.1 (ix2 r (0 : Fin 1)) = (Cert.Math.run (KSpec.tile x y (rowOf0 n hn r)) (n % 16)).2
    ∧ (statsAt0 V c n hn).2.2 (ix2 r (0 : Fin 1)) = KSpec.drun x y (rowOf0 n hn r) (n % 16) := by
  intro n
  induction n with
  | zero =>
    intro hn r
    exact closed_of_reset0 x y V hV0 hV1 c 0 hn r junkS0 rfl
  | succ n ih =>
    intro hn r
    have hn' : n < cfg0.N := Nat.lt_of_succ_lt hn
    by_cases hz : (n + 1) % 16 = 0
    · exact closed_of_reset0 x y V hV0 hV1 c (n + 1) hn r (statsAt0 V c n hn') hz
    · obtain ⟨e1, e2, e3⟩ := step0_at x y V hV0 hV1 c (n + 1) hn r (statsAt0 V c n hn')
      obtain ⟨i1, i2, i3⟩ := ih hn' r
      have h1 : ¬cond0_1 (grid0.coords ⟨n + 1, hn⟩) := mt (hcond0_1 ⟨n + 1, hn⟩).mp hz
      have hi : rowOf0 (n + 1) hn r = rowOf0 n hn' r :=
        Fin.ext (by show 1024 * ((n + 1) / 16) + r.val = 1024 * (n / 16) + r.val; omega)
      have hJ : (n + 1) % 16 = n % 16 + 1 := by omega
      rw [inM0_keep h1, inL0_keep h1, i1, i2, hi, hJ] at e1 e2
      rw [inD0_keep h1, i3, hi, hJ] at e3
      rw [hi, hJ]
      exact ⟨e1, e2, e3⟩

/-- The running row statistics after grid point t, at lane-row r: global row 1024 (t / 16) + r after column tiles
    0 .. t % 16. -/
theorem stats0_closed (t : Fin cfg0.N) (r : Fin 1024) (hi : 1024 * (t.val / 16) + r.val < 8192) :
    (statsAt0 V c t.val t.isLt).1 (ix2 r (0 : Fin 1))
        = (Cert.Math.run (KSpec.tile x y ⟨1024 * (t.val / 16) + r.val, hi⟩) (t.val % 16)).1
    ∧ (statsAt0 V c t.val t.isLt).2.1 (ix2 r (0 : Fin 1))
        = (Cert.Math.run (KSpec.tile x y ⟨1024 * (t.val / 16) + r.val, hi⟩) (t.val % 16)).2
    ∧ (statsAt0 V c t.val t.isLt).2.2 (ix2 r (0 : Fin 1))
        = KSpec.drun x y ⟨1024 * (t.val / 16) + r.val, hi⟩ (t.val % 16) :=
  stats0_closed_nat x y V hV0 hV1 c t.val t.isLt r

end

end Cert.KernelIdeal.Hand

end
-- ==== Proof.KI.Pay1.Reset.lean ====
/-
  The statistics kernel's reset values and its output, at a row: the running maximum is reset to -inf, the running
  sum and the running diagonal logit to 0, and the last column tile writes max + log(sum) - diag.
-/
import proofs.«162174_j13649406066960_2_alg».proof.Proof.KI.Pay.Row

set_option maxRecDepth 16384

noncomputable section

namespace Cert.KernelIdeal.Hand.Pay1

open Idealize.ShloMosaic Idealize.ShloMosaic.ValueIdx
open Cert.KernelIdeal Cert.KernelIdeal.Gen Cert.KernelIdeal.Hand
open Cert.KernelIdeal.Hand.Pay

/-- The reset value of the running maximum is -inf at every row. -/
theorem pay1_apply (j : S1024x1.Idx) : k1_pay1 (F := Ideal) j = ⊥ := by
  unfold k1_pay1
  rw [shapeCast_self]
  exact ofBits_neg_inf_f32

/-- The reset value of the running sum is 0 at every row. -/
theorem pay2_apply (j : S1024x1.Idx) : k1_pay2 (F := Ideal) j = 0 := by
  unfold k1_pay2
  rw [shapeCast_self]
  exact Ideal.ofBits_zero_f32

/-- The reset value of the running diagonal logit is 0 at every row. -/
theorem pay3_apply (j : S1024x1.Idx) : k1_pay3 (F := Ideal) j = 0 := by
  unfold k1_pay3
  rw [shapeCast_self]
  exact Ideal.ofBits_zero_f32

/-- What the last column tile writes at a row: max + log(sum) - diag. -/
theorem pay10_apply (m l dd : Vec Ideal S1024x1 .f32) (j : S1024x1.Idx) :
    k1_pay10 (F := Ideal) m l dd j = (m j + Ideal.log (l j)) - dd j := rfl

end Cert.KernelIdeal.Hand.Pay1

end
-- ==== Proof.KI.Pay1.Raw.lean ====
/-
  The raw logits of a tile: the kernel scales its 1024 x 128 block of row vectors by the inverse temperature, and
  multiplies it by the transpose of its 512 x 128 block of column vectors. At (r, k) the product is the sum over the
  128 features of (x0[r, d] * inverse temperature) * x1[k, d].
-/
import proofs.«162174_j13649406066960_2_alg».proof.Proof.KI.Pay.Raw

set_option maxRecDepth 16384

noncomputable section

namespace Cert.KernelIdeal.Hand.Pay1

open Idealize.ShloMosaic Idealize.ShloMosaic.ValueIdx
open Cert.KernelIdeal Cert.KernelIdeal.Gen Cert.KernelIdeal.Hand
open Cert.KernelIdeal.Hand.Pay

local notation "D" => dot_S1024x128_S128x512_S1024x512_1_0_0_1_n_n

set_option maxHeartbeats 400000 in
/-- The raw logit at (r, k). -/
theorem raw1 (x0 : Vec Ideal S1024x128 .f32) (x1 : Vec Ideal S512x128 .f32) (r : Fin 1024) (k : Fin 512) :
    k1_pay4 (F := Ideal) x0 x1 (ix2 r k) = ∑ d : Fin 128, (x0 (ix2 r d) * κc) * x1 (ix2 k d) := by
  unfold k1_pay4
  refine (Ideal.matmul_constant_zero_apply _ _ _ _ _).trans ?_
  rw [← Equiv.sum_comp (contrEquiv1 (D) 128 rfl rfl).symm]
  refine Finset.sum_congr rfl fun d _ => ?_
  have hk := contrEquiv1_symm_val (D) 128 rfl rfl d
  have el : (D).lhsIdx (ix2 r k) ((contrEquiv1 (D) 128 rfl rfl).symm d) = ix2 r d := funext fun a => Fin.ext (by
    match a with
    | ⟨0, _⟩ => exact lhs_0 _ _
    | ⟨1, _⟩ => exact (lhs_1 _ _).trans hk)
  have er : (D).rhsIdx (ix2 r k) ((contrEquiv1 (D) 128 rfl rfl).symm d) = ix2 d k := funext fun a => Fin.ext (by
    match a with
    | ⟨0, _⟩ => exact (rhs_0 _ _).trans hk
    | ⟨1, _⟩ => exact rhs_1 _ _)
  rw [el, er, shapeCast_self, shapeCast_self, mulf_apply, broadcast_apply, named_inv_temperature]
  exact congrArg (_ * ·) (transpose_ix2_apply x1 _ d k)

end Cert.KernelIdeal.Hand.Pay1

end
-- ==== Proof.KI.Pay1.Plain.lean ====
/-
  The plain update of the running row statistics (a tile that does not meet the block diagonal), at a row r:
  the new maximum is the old one or the row's largest raw logit; the new sum rescales the old one to the new
  maximum and adds the exponentials of the row's raw logits below it; the diagonal logit is unchanged.
-/
import proofs.«162174_j13649406066960_2_alg».proof.Proof.KI.Pay.Row
import proofs.«162174_j13649406066960_2_alg».proof.Proof.KI.Pay1.Raw

set_option maxRecDepth 16384

noncomputable section

namespace Cert.KernelIdeal.Hand.Pay1

open Idealize.ShloMosaic Idealize.ShloMosaic.ValueIdx
open Cert.KernelIdeal Cert.KernelIdeal.Gen Cert.KernelIdeal.Hand
open Cert.KernelIdeal.Hand.Pay

/-- The new running maximum of a plain tile, before it is stored. -/
theorem pay6_apply (x0 : Vec Ideal S1024x128 .f32) (x1 : Vec Ideal S512x128 .f32) (m : Vec Ideal S1024x1 .f32)
    (r : Fin 1024) (u : Fin 1) :
    k1_pay6 (F := Ideal) x0 x1 m (ix2 r u)
      = max (m (ix2 r u)) ((Finset.univ : Finset (Fin 512)).fold max ⊥ fun k => k1_pay4 (F := Ideal) x0 x1 (ix2 r k)) := by
  unfold k1_pay6
  rw [maximumf_apply]
  refine congrArg (max _ ·) ?_
  refine (shapeCast_a_a1_apply _ _ r u).trans ?_
  exact rowMax_apply _ _ _ _ r

/-- The new running maximum of a plain tile. -/
theorem pay8_apply (x0 : Vec Ideal S1024x128 .f32) (x1 : Vec Ideal S512x128 .f32) (m : Vec Ideal S1024x1 .f32)
    (r : Fin 1024) (u : Fin 1) :
    k1_pay8 (F := Ideal) x0 x1 m (ix2 r u)
      = max (m (ix2 r u)) ((Finset.univ : Finset (Fin 512)).fold max ⊥ fun k => k1_pay4 (F := Ideal) x0 x1 (ix2 r k)) := by
  unfold k1_pay8
  rw [shapeCast_self]
  exact pay6_apply x0 x1 m r u

set_option maxHeartbeats 400000 in
/-- The new running sum of a plain tile. -/
theorem pay7_apply (x0 : Vec Ideal S1024x128 .f32) (x1 : Vec Ideal S512x128 .f32) (m l : Vec Ideal S1024x1 .f32)
    (r : Fin 1024) :
    k1_pay7 (F := Ideal) x0 x1 m l (ix2 r (0 : Fin 1))
      = Ideal.exp (m (ix2 r (0 : Fin 1))
            - max (m (ix2 r (0 : Fin 1))) ((Finset.univ : Finset (Fin 512)).fold max ⊥ fun k => k1_pay4 (F := Ideal) x0 x1 (ix2 r k)))
          * l (ix2 r (0 : Fin 1))
        + ∑ k : Fin 512, Ideal.exp (k1_pay4 (F := Ideal) x0 x1 (ix2 r k)
            - max (m (ix2 r (0 : Fin 1))) ((Finset.univ : Finset (Fin 512)).fold max ⊥ fun k => k1_pay4 (F := Ideal) x0 x1 (ix2 r k))) := by
  unfold k1_pay7
  rw [shapeCast_self, addf_apply, mulf_apply]
  refine congrArg₂ (· + ·) ?_ ?_
  · show Ideal.exp (m (ix2 r (0 : Fin 1)) - k1_pay6 (F := Ideal) x0 x1 m (ix2 r (0 : Fin 1))) * l (ix2 r (0 : Fin 1)) = _
    rw [pay6_apply]
  · refine (shapeCast_a_a1_apply _ _ r 0).trans ?_
    refine (rowSum_apply _ _ _ _ r).trans ?_
    refine Finset.sum_congr rfl fun k _ => ?_
    show Ideal.exp (k1_pay4 (F := Ideal) x0 x1 (ix2 r k)
      - broadcastTo S1024x512 (k1_pay6 (F := Ideal) x0 x1 m) broadcasts_S1024x1_S1024x512 (ix2 r k)) = _
    rw [broadcastTo_a1_ab_apply, pay6_apply]

/-- The running diagonal logit of a plain tile: unchanged. -/
theorem pay9_apply (dd : Vec Ideal S1024x1 .f32) (j : S1024x1.Idx) : k1_pay9 (F := Ideal) dd j = dd j + 0 := by
  unfold k1_pay9
  rw [shapeCast_self, addf_apply, broadcast_apply]
  exact congrArg (_ + ·) Ideal.ofBits_zero_f32

end Cert.KernelIdeal.Hand.Pay1

end
-- ==== Proof.KI.Pay1.Mask.lean ====
/-
  The mask of a tile that meets the block diagonal, lane by lane. With R = 1024 i + r the lane's global row and
  C = 512 j + k its global column (both below 8192), the kernel replaces the raw logit by the masked value where
  R and C are in one block of 16 and differ, and reads the diagonal where R = C.
-/
import proofs.«162174_j13649406066960_2_alg».proof.Proof.KI.Pay.Word
import proofs.«162174_j13649406066960_2_alg».proof.Proof.KI.Pay1.Raw

set_option maxRecDepth 16384

noncomputable section

namespace Cert.KernelIdeal.Hand.Pay1

open Idealize.ShloMosaic Idealize.ShloMosaic.ValueIdx
open Cert.KernelIdeal Cert.KernelIdeal.Gen Cert.KernelIdeal.Hand
open Cert.KernelIdeal.Hand.Pay

open Idealize.ShloMosaic.IntOp

/-- A lane's row word: its row coordinate plus the tile's first row. -/
theorem pay11_apply (row : BitVec 32) (r : Fin 1024) (k : Fin 512) :
    k1_pay11 row (ix2 r k) = IntOp.addi (BitVec.ofNat 32 r.val) row := by
  unfold k1_pay11
  show IntOp.addi (iota .tc S1024x512 32 [0] iota_S1024x512_d0_w32 (ix2 r k)) row = _
  rw [iota_single_apply]

/-- A lane's column word: its column coordinate plus the tile's first column. -/
theorem pay12_apply (col : BitVec 32) (r : Fin 1024) (k : Fin 512) :
    k1_pay12 col (ix2 r k) = IntOp.addi (BitVec.ofNat 32 k.val) col := by
  unfold k1_pay12
  show IntOp.addi (iota .tc S1024x512 32 [1] iota_S1024x512_d1_w32 (ix2 r k)) col = _
  rw [iota_single_apply]

/-- The row's block number is the floor quotient of the row word. -/
theorem pay13_apply (row : BitVec 32) (j : S1024x512.Idx) : k1_pay13 row j = fdiv16 (k1_pay11 row j) := rfl

set_option maxHeartbeats 400000 in
/-- The masked logits at a lane: the masked value where the mask bit is set, the raw logit elsewhere. -/
theorem pay18_apply (v10 : FVec Ideal S1024x512 .f32) (row col : BitVec 32) (j : S1024x512.Idx) :
    k1_pay18 (F := Ideal) v10 (k1_pay11 row) (k1_pay12 col) (k1_pay13 row) (k1_pay14 col) (k1_pay15 col) (k1_pay16 col) j
      = Scalar.select (maskW (k1_pay11 row j) (k1_pay12 col j)) κm (v10 j) := by
  show Scalar.select (maskW (k1_pay11 row j) (k1_pay12 col j))
    (Named.named (F := Ideal) Cert.KernelIdeal.κ "mask_over_temperature" (φ := .f32) 0xC9742400#32) (v10 j) = _
  rw [named_mask_over_temperature]

/-- The global row number of a lane of the tile at grid point i. -/
theorem toNat_pay11 (i : grid1.Coords) (r : Fin 1024) (k : Fin 512) :
    (k1_pay11 (row1_0 i) (ix2 r k)).toNat = 1024 * (i 0).val + r.val := by
  rw [pay11_apply]
  exact toNat_rowWord _ (i 0).isLt r

/-- The global column number of a lane of the tile at grid point i. -/
theorem toNat_pay12 (i : grid1.Coords) (r : Fin 1024) (k : Fin 512) :
    (k1_pay12 (col1_0 i) (ix2 r k)).toNat = 512 * (i 1).val + k.val := by
  rw [pay12_apply]
  exact toNat_colWord _ (i 1).isLt k

/-- The mask bit of a lane: its row and column are in one block of 16 and differ. -/
theorem mask1_iff (i : grid1.Coords) (r : Fin 1024) (k : Fin 512) :
    maskW (k1_pay11 (row1_0 i) (ix2 r k)) (k1_pay12 (col1_0 i) (ix2 r k)) = 1#1
      ↔ ((1024 * (i 0).val + r.val) / 16 = (512 * (i 1).val + k.val) / 16
          ∧ 1024 * (i 0).val + r.val ≠ 512 * (i 1).val + k.val) := by
  have h0 : (i 0).val < 8 := (i 0).isLt
  have h1 : (i 1).val < 16 := (i 1).isLt
  have hr := r.isLt
  have hk := k.isLt
  rw [maskW_iff (by rw [toNat_pay11]; omega) (by rw [toNat_pay12]; omega), toNat_pay11, toNat_pay12]

/-- The diagonal bit of a lane: its row and column are equal. -/
theorem diag1_iff (i : grid1.Coords) (r : Fin 1024) (k : Fin 512) :
    k1_pay17 (k1_pay11 (row1_0 i)) (k1_pay12 (col1_0 i)) (ix2 r k) = 1#1
      ↔ 1024 * (i 0).val + r.val = 512 * (i 1).val + k.val := by
  show IntOp.cmpi .eq (k1_pay11 (row1_0 i) (ix2 r k)) (k1_pay12 (col1_0 i) (ix2 r k)) = 1#1 ↔ _
  rw [eqW_iff, toNat_pay11, toNat_pay12]

/-- The masked logit at (r, k) of the tile at grid point i. -/
theorem masked1 (i : grid1.Coords) (x0 : Vec Ideal S1024x128 .f32) (x1 : Vec Ideal S512x128 .f32) (r : Fin 1024) (k : Fin 512) :
    k1_pay18 (F := Ideal) (k1_pay4 x0 x1) (k1_pay11 (row1_0 i)) (k1_pay12 (col1_0 i)) (k1_pay13 (row1_0 i))
        (k1_pay14 (col1_0 i)) (k1_pay15 (col1_0 i)) (k1_pay16 (col1_0 i)) (ix2 r k)
      = if (1024 * (i 0).val + r.val) / 16 = (512 * (i 1).val + k.val) / 16
            ∧ 1024 * (i 0).val + r.val ≠ 512 * (i 1).val + k.val
        then κm else k1_pay4 (F := Ideal) x0 x1 (ix2 r k) := by
  rw [pay18_apply]
  by_cases h : (1024 * (i 0).val + r.val) / 16 = (512 * (i 1).val + k.val) / 16
      ∧ 1024 * (i 0).val + r.val ≠ 512 * (i 1).val + k.val
  · rw [if_pos h, (mask1_iff i r k).mpr h, select_one]
  · rw [if_neg h, eq_zero_of_ne_one (mt (mask1_iff i r k).mp h), select_zero]

end Cert.KernelIdeal.Hand.Pay1

end
-- ==== Proof.KI.Pay1.Masked.lean ====
/-
  The masked update of the running row statistics (a tile that meets the block diagonal), at a row r: as the
  plain update, over the masked logits in place of the raw ones; and the running diagonal logit gains the row's
  raw logit on the diagonal, if the tile holds it.
-/
import proofs.«162174_j13649406066960_2_alg».proof.Proof.KI.Pay.Row
import proofs.«162174_j13649406066960_2_alg».proof.Proof.KI.Pay1.Mask

set_option maxRecDepth 16384

noncomputable section

namespace Cert.KernelIdeal.Hand.Pay1

open Idealize.ShloMosaic Idealize.ShloMosaic.ValueIdx
open Cert.KernelIdeal Cert.KernelIdeal.Gen Cert.KernelIdeal.Hand
open Cert.KernelIdeal.Hand.Pay

section
variable (v10 : FVec Ideal S1024x512 .f32) (v28 v31 v55 v57 : IVec S1024x512 32) (v71 : IVec S1024x512 1) (v73 : IVec S1024x512 32)

/-- The new running maximum of a masked tile, before it is stored. -/
theorem pay19_apply (m : Vec Ideal S1024x1 .f32) (r : Fin 1024) (u : Fin 1) :
    k1_pay19 (F := Ideal) v10 v28 v31 v55 v57 v71 v73 m (ix2 r u)
      = max (m (ix2 r u)) ((Finset.univ : Finset (Fin 512)).fold max ⊥ fun k =>
          k1_pay18 (F := Ideal) v10 v28 v31 v55 v57 v71 v73 (ix2 r k)) := by
  unfold k1_pay19
  rw [maximumf_apply]
  refine congrArg (max _ ·) ?_
  refine (shapeCast_a_a1_apply _ _ r u).trans ?_
  exact rowMax_apply _ _ _ _ r

/-- The new running maximum of a masked tile. -/
theorem pay21_apply (m : Vec Ideal S1024x1 .f32) (r : Fin 1024) (u : Fin 1) :
    k1_pay21 (F := Ideal) v10 v28 v31 v55 v57 v71 v73 m (ix2 r u)
      = max (m (ix2 r u)) ((Finset.univ : Finset (Fin 512)).fold max ⊥ fun k =>
          k1_pay18 (F := Ideal) v10 v28 v31 v55 v57 v71 v73 (ix2 r k)) := by
  unfold k1_pay21
  rw [shapeCast_self]
  exact pay19_apply v10 v28 v31 v55 v57 v71 v73 m r u

set_option maxHeartbeats 400000 in
/-- The new running sum of a masked tile. -/
theorem pay20_apply (m l : Vec Ideal S1024x1 .f32) (r : Fin 1024) :
    k1_pay20 (F := Ideal) v10 v28 v31 v55 v57 v71 v73 m l (ix2 r (0 : Fin 1))
      = Ideal.exp (m (ix2 r (0 : Fin 1))
            - max (m (ix2 r (0 : Fin 1))) ((Finset.univ : Finset (Fin 512)).fold max ⊥ fun k =>
                k1_pay18 (F := Ideal) v10 v28 v31 v55 v57 v71 v73 (ix2 r k)))
          * l (ix2 r (0 : Fin 1))
        + ∑ k : Fin 512, Ideal.exp (k1_pay18 (F := Ideal) v10 v28 v31 v55 v57 v71 v73 (ix2 r k)
            - max (m (ix2 r (0 : Fin 1))) ((Finset.univ : Finset (Fin 512)).fold max ⊥ fun k =>
                k1_pay18 (F := Ideal) v10 v28 v31 v55 v57 v71 v73 (ix2 r k))) := by
  unfold k1_pay20
  rw [shapeCast_self, addf_apply, mulf_apply]
  refine congrArg₂ (· + ·) ?_ ?_
  · show Ideal.exp (m (ix2 r (0 : Fin 1)) - k1_pay19 (F := Ideal) v10 v28 v31 v55 v57 v71 v73 m (ix2 r (0 : Fin 1)))
      * l (ix2 r (0 : Fin 1)) = _
    rw [pay19_apply]
  · refine (shapeCast_a_a1_apply _ _ r 0).trans ?_
    refine (rowSum_apply _ _ _ _ r).trans ?_
    refine Finset.sum_congr rfl fun k _ => ?_
    show Ideal.exp (k1_pay18 (F := Ideal) v10 v28 v31 v55 v57 v71 v73 (ix2 r k)
      - broadcastTo S1024x512 (k1_pay19 (F := Ideal) v10 v28 v31 v55 v57 v71 v73 m) broadcasts_S1024x1_S1024x512 (ix2 r k)) = _
    rw [broadcastTo_a1_ab_apply, pay19_apply]

/-- The running diagonal logit of a masked tile gains the row's raw logits where the diagonal bit is set. -/
theorem pay22_apply (dd : Vec Ideal S1024x1 .f32) (r : Fin 1024) (u : Fin 1) :
    k1_pay22 (F := Ideal) v10 v28 v31 dd (ix2 r u)
      = dd (ix2 r u) + ∑ k : Fin 512, Scalar.select (k1_pay17 v28 v31 (ix2 r k)) (v10 (ix2 r k)) (0 : EReal) := by
  unfold k1_pay22
  rw [addf_apply]
  refine congrArg (_ + ·) ?_
  refine (shapeCast_a_a1_apply _ _ r u).trans ?_
  refine (rowSum_apply _ _ _ _ r).trans ?_
  refine Finset.sum_congr rfl fun k _ => ?_
  show Scalar.select (k1_pay17 v28 v31 (ix2 r k)) (v10 (ix2 r k)) (Ideal.ofBits .f32 0x00000000#32) = _
  rw [Ideal.ofBits_zero_f32]

end

/-- The new running diagonal logit at row r of the tile at grid point i: the old one plus the row's raw logit at the
    column C = R, if the tile holds that column. -/
theorem diag1 (i : grid1.Coords) (x0 : Vec Ideal S1024x128 .f32) (x1 : Vec Ideal S512x128 .f32) (dd : Vec Ideal S1024x1 .f32)
    (r : Fin 1024) :
    k1_pay5 (F := Ideal) (k1_pay22 (F := Ideal) (k1_pay4 x0 x1) (k1_pay11 (row1_0 i)) (k1_pay12 (col1_0 i)) dd) (ix2 r (0 : Fin 1))
      = dd (ix2 r (0 : Fin 1)) + ∑ k : Fin 512,
          (if 1024 * (i 0).val + r.val = 512 * (i 1).val + k.val then k1_pay4 (F := Ideal) x0 x1 (ix2 r k) else 0) := by
  unfold k1_pay5
  rw [shapeCast_self, pay22_apply]
  refine congrArg (_ + ·) (Finset.sum_congr rfl fun k _ => ?_)
  by_cases h : 1024 * (i 0).val + r.val = 512 * (i 1).val + k.val
  · rw [if_pos h, (diag1_iff i r k).mpr h, select_one]
  · rw [if_neg h, eq_zero_of_ne_one (mt (diag1_iff i r k).mp h), select_zero]

end Cert.KernelIdeal.Hand.Pay1

end
-- ==== Proof.KI.Tile1.lean ====
/-
  One grid point's update of the running row statistics, read at a row and in closed form. At point t = 16 I + J
  (row tile I, column tile J) lane-row r is global row i = 1024 I + r, and lane-column k global column 512 J + k.
  In the second call the row tiles are read off the second array and the column tiles off the first: the tile's
  raw logits are the scaled dot products of row i of the second array with the rows 512 J + k of the first; a tile that meets the block diagonal masks them as the closed form does, any other tile holds no masked
  entry and no diagonal one. So the new statistics at row r are one step of the online recurrence on the closed
  form's tile J of row i, from what the point finds (the reset values at J = 0).
-/
import proofs.«162174_j13649406066960_2_alg».proof.Proof.KI.Region
import proofs.«162174_j13649406066960_2_alg».proof.Proof.KI.Blocks
import proofs.«162174_j13649406066960_2_alg».proof.Proof.KI.KSpec
import proofs.«162174_j13649406066960_2_alg».proof.Proof.KI.Pay1.Reset
import proofs.«162174_j13649406066960_2_alg».proof.Proof.KI.Pay1.Plain
import proofs.«162174_j13649406066960_2_alg».proof.Proof.KI.Pay1.Masked

set_option maxRecDepth 16384

noncomputable section

namespace Cert.KernelIdeal.Hand

open Idealize.ShloMosaic Idealize.ShloMosaic.ValueIdx Idealize.ShloMosaic.TcCoe
open Idealize.SL Idealize.SL.Sem
open Idealize.ShloMosaic.Pipeline (Dat Cfg Window BodyObligation cellOf)
open Cert.KernelIdeal Cert.KernelIdeal.Gen Cert.ReferenceIdeal.Hand

/-- The grid point's row tile and column tile. -/
theorem coords1_val : ∀ t : Fin cfg1.N, ((grid1.coords t) 0).val = t.val / 16 ∧ ((grid1.coords t) 1).val = t.val % 16 :=
  (by decide +kernel : ∀ t : Fin grid1.N, ((grid1.coords t) 0).val = t.val / 16 ∧ ((grid1.coords t) 1).val = t.val % 16)

theorem lt_N1 {n : ℕ} (hn : n < cfg1.N) : n < 128 := lt_of_lt_of_eq hn Gen.N_1

/-- The global row of lane-row r of the tile at point n. -/
def rowOf1 (n : ℕ) (hn : n < cfg1.N) (r : Fin 1024) : Fin 8192 :=
  ⟨1024 * (n / 16) + r.val, by have := lt_N1 hn; have := r.isLt; omega⟩
/-- The global column of lane-column k of the tile at point n. -/
def colOf1 (n : ℕ) (k : Fin 512) : Fin 8192 :=
  ⟨512 * (n % 16) + k.val, by have := k.isLt; omega⟩

/-- The closed form's column index of tile n % 16 is the global column. -/
theorem colOf_mod1 (n : ℕ) (k : Fin 512) :
    (⟨KSpec.colOf (n % 16) k % 8192, Nat.mod_lt _ (by norm_num)⟩ : Fin 8192) = colOf1 n k :=
  Fin.ext (Nat.mod_eq_of_lt (by unfold KSpec.colOf; have := k.isLt; omega))

/-- A tile off the block diagonal holds no masked entry. -/
theorem not_masked_of_plain1 (n : ℕ) (hn : n < cfg1.N) (hp : ¬(n % 16) / 2 = n / 16) (r : Fin 1024) (k : Fin 512) :
    ¬masked (rowOf1 n hn r) (colOf1 n k) := by
  intro h
  have h1 : (1024 * (n / 16) + r.val) / 16 = (512 * (n % 16) + k.val) / 16 := h.1
  have := r.isLt
  have := k.isLt
  omega

section
variable (x y : KSpec.Arr)
  (V : (c : Dev nD) → (b : Ref sig .tc) → Buf (Elt Ideal) ((c : Thread nD τ).loc b))
  (hV0 : ∀ c (i : Fin 8192) (d : Fin 128), (V c main_v0 : S8192x128.Idx → EReal) (ix2 i d) = row x i d)
  (hV1 : ∀ c (i : Fin 8192) (d : Fin 128), (V c main_v1 : S8192x128.Idx → EReal) (ix2 i d) = row y i d)
  (c : Dev nD)
include hV0 hV1

set_option maxHeartbeats 400000 in
/-- The tile's raw logit at (r, k) is the closed form's scaled logit of the global row and column. -/
theorem raw_blk1 (n : ℕ) (hn : n < cfg1.N) (r : Fin 1024) (k : Fin 512) :
    k1_pay4 (F := Ideal) (iblk1 V c 0 ⟨n, hn⟩) (iblk1 V c 1 ⟨n, hn⟩) (ix2 r k)
      = KSpec.raw y x (rowOf1 n hn r) (colOf1 n k) := by
  refine (Pay1.raw1 _ _ r k).trans ?_
  unfold KSpec.raw
  refine Finset.sum_congr rfl fun d _ => ?_
  have e0 : (iblk1 V c 0 ⟨n, hn⟩ : Vec Ideal S1024x128 .f32) (ix2 r d) = row y (rowOf1 n hn r) d :=
    (iblk1_0_apply V c ⟨n, hn⟩ (ix2 r d) (ix2 (rowOf1 n hn r) d) rfl rfl).trans (hV1 c _ d)
  have e1 : (iblk1 V c 1 ⟨n, hn⟩ : Vec Ideal S512x128 .f32) (ix2 k d) = row x (colOf1 n k) d :=
    (iblk1_1_apply V c ⟨n, hn⟩ (ix2 k d) (ix2 (colOf1 n k) d) rfl rfl).trans (hV0 c _ d)
  exact congrArg₂ (· * ·) (congrArg (· * Pay.κc) e0) e1

set_option maxHeartbeats 400000 in
/-- On a tile that meets the block diagonal, the masked logit at (r, k) is the closed form's tile entry. -/
theorem tile_masked1 (n : ℕ) (hn : n < cfg1.N) (r : Fin 1024) (k : Fin 512) :
    k1_pay18 (F := Ideal) (k1_pay4 (iblk1 V c 0 ⟨n, hn⟩) (iblk1 V c 1 ⟨n, hn⟩))
        (k1_pay11 (row1_0 (grid1.coords ⟨n, hn⟩))) (k1_pay12 (col1_0 (grid1.coords ⟨n, hn⟩)))
        (k1_pay13 (row1_0 (grid1.coords ⟨n, hn⟩))) (k1_pay14 (col1_0 (grid1.coords ⟨n, hn⟩)))
        (k1_pay15 (col1_0 (grid1.coords ⟨n, hn⟩))) (k1_pay16 (col1_0 (grid1.coords ⟨n, hn⟩))) (ix2 r k)
      = KSpec.tile y x (rowOf1 n hn r) (n % 16) k := by
  have h0 : ((grid1.coords ⟨n, hn⟩) 0).val = n / 16 := (coords1_val ⟨n, hn⟩).1
  have h1 : ((grid1.coords ⟨n, hn⟩) 1).val = n % 16 := (coords1_val ⟨n, hn⟩).2
  refine (Pay1.masked1 _ _ _ r k).trans ?_
  rw [raw_blk1 x y V hV0 hV1 c n hn r k, h0, h1]
  unfold KSpec.tile KSpec.msk
  rw [colOf_mod1]
  exact if_congr (and_congr Iff.rfl (not_congr (Fin.ext_iff (a := rowOf1 n hn r) (b := colOf1 n k)).symm)) rfl rfl

/-- On any other tile the raw logit at (r, k) is the closed form's tile entry: nothing is masked. -/
theorem tile_plain1 (n : ℕ) (hn : n < cfg1.N) (hp : ¬(n % 16) / 2 = n / 16) (r : Fin 1024) (k : Fin 512) :
    k1_pay4 (F := Ideal) (iblk1 V c 0 ⟨n, hn⟩) (iblk1 V c 1 ⟨n, hn⟩) (ix2 r k)
      = KSpec.tile y x (rowOf1 n hn r) (n % 16) k := by
  rw [raw_blk1 x y V hV0 hV1 c n hn r k]
  unfold KSpec.tile KSpec.msk
  rw [colOf_mod1, if_neg (not_masked_of_plain1 n hn hp r k)]

set_option maxHeartbeats 400000 in
/-- On a tile that meets the block diagonal, the diagonal logits it gathers are the closed form's. -/
theorem dtile_masked1 (n : ℕ) (hn : n < cfg1.N) (r : Fin 1024) :
    (∑ k : Fin 512, (if 1024 * ((grid1.coords ⟨n, hn⟩) 0).val + r.val = 512 * ((grid1.coords ⟨n, hn⟩) 1).val + k.val
        then k1_pay4 (F := Ideal) (iblk1 V c 0 ⟨n, hn⟩) (iblk1 V c 1 ⟨n, hn⟩) (ix2 r k) else 0))
      = KSpec.dtile y x (rowOf1 n hn r) (n % 16) := by
  have h0 : ((grid1.coords ⟨n, hn⟩) 0).val = n / 16 := (coords1_val ⟨n, hn⟩).1
  have h1 : ((grid1.coords ⟨n, hn⟩) 1).val = n % 16 := (coords1_val ⟨n, hn⟩).2
  rw [h0, h1]
  unfold KSpec.dtile
  refine Finset.sum_congr rfl fun k _ => ?_
  rw [colOf_mod1, raw_blk1 x y V hV0 hV1 c n hn r k]
  exact if_congr Iff.rfl rfl rfl

omit hV0 hV1 in
/-- A tile off the block diagonal holds no diagonal entry. -/
theorem dtile_plain1 (n : ℕ) (hn : n < cfg1.N) (hp : ¬(n % 16) / 2 = n / 16) (r : Fin 1024) :
    KSpec.dtile y x (rowOf1 n hn r) (n % 16) = 0 := by
  unfold KSpec.dtile
  refine Finset.sum_eq_zero fun k _ => if_neg ?_
  show ¬(1024 * (n / 16) + r.val = 512 * (n % 16) + k.val)
  have := r.isLt
  have := k.isLt
  omega

set_option maxHeartbeats 800000 in
/-- One point's update at row r: a step of the online recurrence on the closed form's tile, from what the point finds. -/
theorem step1_at (n : ℕ) (hn : n < cfg1.N) (r : Fin 1024)
    (s : Vec Ideal S1024x1 .f32 × Vec Ideal S1024x1 .f32 × Vec Ideal S1024x1 .f32) :
    (stepS1 V c ⟨n, hn⟩ s).1 (ix2 r (0 : Fin 1))
        = (Cert.Math.upd (KSpec.tile y x (rowOf1 n hn r) (n % 16))
            (inM1 (grid1.coords ⟨n, hn⟩) s.1 (ix2 r (0 : Fin 1)), inL1 (grid1.coords ⟨n, hn⟩) s.2.1 (ix2 r (0 : Fin 1)))).1
    ∧ (stepS1 V c ⟨n, hn⟩ s).2.1 (ix2 r (0 : Fin 1))
        = (Cert.Math.upd (KSpec.tile y x (rowOf1 n hn r) (n % 16))
            (inM1 (grid1.coords ⟨n, hn⟩) s.1 (ix2 r (0 : Fin 1)), inL1 (grid1.coords ⟨n, hn⟩) s.2.1 (ix2 r (0 : Fin 1)))).2
    ∧ (stepS1 V c ⟨n, hn⟩ s).2.2 (ix2 r (0 : Fin 1))
        = inD1 (grid1.coords ⟨n, hn⟩) s.2.2 (ix2 r (0 : Fin 1)) + KSpec.dtile y x (rowOf1 n hn r) (n % 16) := by
  by_cases h2 : cond1_2 (grid1.coords ⟨n, hn⟩)
  · have hT : (fun k : Fin 512 => k1_pay18 (F := Ideal) (k1_pay4 (iblk1 V c 0 ⟨n, hn⟩) (iblk1 V c 1 ⟨n, hn⟩))
          (k1_pay11 (row1_0 (grid1.coords ⟨n, hn⟩))) (k1_pay12 (col1_0 (grid1.coords ⟨n, hn⟩)))
          (k1_pay13 (row1_0 (grid1.coords ⟨n, hn⟩))) (k1_pay14 (col1_0 (grid1.coords ⟨n, hn⟩)))
          (k1_pay15 (col1_0 (grid1.coords ⟨n, hn⟩))) (k1_pay16 (col1_0 (grid1.coords ⟨n, hn⟩))) (ix2 r k))
        = KSpec.tile y x (rowOf1 n hn r) (n % 16) := funext fun k => tile_masked1 x y V hV0 hV1 c n hn r k
    refine ⟨?_, ?_, ?_⟩
    · show newM1 (grid1.coords ⟨n, hn⟩) (iblk1 V c 0 ⟨n, hn⟩) (iblk1 V c 1 ⟨n, hn⟩) s.1 (ix2 r (0 : Fin 1)) = _
      unfold newM1
      rw [if_pos h2, Pay1.pay21_apply, hT]
      rfl
    · show newL1 (grid1.coords ⟨n, hn⟩) (iblk1 V c 0 ⟨n, hn⟩) (iblk1 V c 1 ⟨n, hn⟩) s.1 s.2.1 (ix2 r (0 : Fin 1)) = _
      unfold newL1
      rw [if_pos h2, Pay1.pay20_apply, hT]
      show _ + _ = _ + _
      exact congrArg (_ + ·) (Finset.sum_congr rfl fun k _ =>
        congrArg (fun z => Ideal.exp (z - _)) (tile_masked1 x y V hV0 hV1 c n hn r k))
    · show newD1 (grid1.coords ⟨n, hn⟩) (iblk1 V c 0 ⟨n, hn⟩) (iblk1 V c 1 ⟨n, hn⟩) s.2.2 (ix2 r (0 : Fin 1)) = _
      unfold newD1
      rw [if_pos h2, Pay1.diag1, dtile_masked1 x y V hV0 hV1 c n hn r]
  · have hp : ¬(n % 16) / 2 = n / 16 := mt (hcond1_2 ⟨n, hn⟩).mpr h2
    have hT : (fun k : Fin 512 => k1_pay4 (F := Ideal) (iblk1 V c 0 ⟨n, hn⟩) (iblk1 V c 1 ⟨n, hn⟩) (ix2 r k))
        = KSpec.tile y x (rowOf1 n hn r) (n % 16) := funext fun k => tile_plain1 x y V hV0 hV1 c n hn hp r k
    refine ⟨?_, ?_, ?_⟩
    · show newM1 (grid1.coords ⟨n, hn⟩) (iblk1 V c 0 ⟨n, hn⟩) (iblk1 V c 1 ⟨n, hn⟩) s.1 (ix2 r (0 : Fin 1)) = _
      unfold newM1
      rw [if_neg h2, Pay1.pay8_apply, hT]
      rfl
    · show newL1 (grid1.coords ⟨n, hn⟩) (iblk1 V c 0 ⟨n, hn⟩) (iblk1 V c 1 ⟨n, hn⟩) s.1 s.2.1 (ix2 r (0 : Fin 1)) = _
      unfold newL1
      rw [if_neg h2, Pay1.pay7_apply, hT]
      show _ + _ = _ + _
      exact congrArg (_ + ·) (Finset.sum_congr rfl fun k _ =>
        congrArg (fun z => Ideal.exp (z - _)) (tile_plain1 x y V hV0 hV1 c n hn hp r k))
    · show newD1 (grid1.coords ⟨n, hn⟩) (iblk1 V c 0 ⟨n, hn⟩) (iblk1 V c 1 ⟨n, hn⟩) s.2.2 (ix2 r (0 : Fin 1)) = _
      unfold newD1
      rw [if_neg h2, Pay1.pay9_apply, dtile_plain1 x y n hn hp r]

end

end Cert.KernelIdeal.Hand

end
-- ==== Proof.KI.Stats1.lean ====
/-
  The running row statistics after each grid point of the second call, in closed form. After point t = 16 I + J
  the statistics of lane-row r are those of global row i = 1024 I + r after column tiles 0 .. J: the online
  recurrence's running maximum and running sum of exponentials over the closed form's tiles, and the diagonal
  logit gathered over them. By induction on t: a first column tile (J = 0) resets, any other continues from what
  the point before (same row tile, column tile J - 1) left.
-/
import proofs.«162174_j13649406066960_2_alg».proof.Proof.KI.Tile1

set_option maxRecDepth 16384

noncomputable section

namespace Cert.KernelIdeal.Hand

open Idealize.ShloMosaic Idealize.ShloMosaic.ValueIdx Idealize.ShloMosaic.TcCoe
open Idealize.SL Idealize.SL.Sem
open Idealize.ShloMosaic.Pipeline (Dat Cfg Window BodyObligation cellOf)
open Cert.KernelIdeal Cert.KernelIdeal.Gen Cert.ReferenceIdeal.Hand

/-- At a first column tile the running maximum is found reset to -inf, -/
theorem inM1_reset {i : grid1.Coords} (h : cond1_1 i) (m : Vec Ideal S1024x1 .f32) (j : S1024x1.Idx) :
    inM1 (F := Ideal) i m j = ⊥ := by
  unfold inM1; rw [if_pos h]; exact Pay1.pay1_apply j
/-- the running sum to 0, -/
theorem inL1_reset {i : grid1.Coords} (h : cond1_1 i) (l : Vec Ideal S1024x1 .f32) (j : S1024x1.Idx) :
    inL1 (F := Ideal) i l j = 0 := by
  unfold inL1; rw [if_pos h]; exact Pay1.pay2_apply j
/-- and the running diagonal logit to 0. -/
theorem inD1_reset {i : grid1.Coords} (h : cond1_1 i) (dd : Vec Ideal S1024x1 .f32) (j : S1024x1.Idx) :
    inD1 (F := Ideal) i dd j = 0 := by
  unfold inD1; rw [if_pos h]; exact Pay1.pay3_apply j
/-- At any other tile they are found as the point before left them. -/
theorem inM1_keep {i : grid1.Coords} (h : ¬cond1_1 i) (m : Vec Ideal S1024x1 .f32) : inM1 (F := Ideal) i m = m := by
  unfold inM1; rw [if_neg h]
theorem inL1_keep {i : grid1.Coords} (h : ¬cond1_1 i) (l : Vec Ideal S1024x1 .f32) : inL1 (F := Ideal) i l = l := by
  unfold inL1; rw [if_neg h]
theorem inD1_keep {i : grid1.Coords} (h : ¬cond1_1 i) (dd : Vec Ideal S1024x1 .f32) : inD1 (F := Ideal) i dd = dd := by
  unfold inD1; rw [if_neg h]

section
variable (x y : KSpec.Arr)
  (V : (c : Dev nD) → (b : Ref sig .tc) → Buf (Elt Ideal) ((c : Thread nD τ).loc b))
  (hV0 : ∀ c (i : Fin 8192) (d : Fin 128), (V c main_v0 : S8192x128.Idx → EReal) (ix2 i d) = row x i d)
  (hV1 : ∀ c (i : Fin 8192) (d : Fin 128), (V c main_v1 : S8192x128.Idx → EReal) (ix2 i d) = row y i d)
  (c : Dev nD)
include hV0 hV1

set_option maxHeartbeats 400000 in
/-- A first column tile: whatever the point finds, it leaves the recurrence's first step. -/
theorem closed_of_reset1 (n : ℕ) (hn : n < cfg1.N) (r : Fin 1024)
    (s : Vec Ideal S1024x1 .f32 × Vec Ideal S1024x1 .f32 × Vec Ideal S1024x1 .f32) (hz : n % 16 = 0) :
    (stepS1 V c ⟨n, hn⟩ s).1 (ix2 r (0 : Fin 1)) = (Cert.Math.run (KSpec.tile y x (rowOf1 n hn r)) (n % 16)).1
    ∧ (stepS1 V c ⟨n, hn⟩ s).2.1 (ix2 r (0 : Fin 1)) = (Cert.Math.run (KSpec.tile y x (rowOf1 n hn r)) (n % 16)).2
    ∧ (stepS1 V c ⟨n, hn⟩ s).2.2 (ix2 r (0 : Fin 1)) = KSpec.drun y x (rowOf1 n hn r) (n % 16) := by
  obtain ⟨e1, e2, e3⟩ := step1_at x y V hV0 hV1 c n hn r s
  have h1 : cond1_1 (grid1.coords ⟨n, hn⟩) := (hcond1_1 ⟨n, hn⟩).mpr hz
  rw [inM1_reset h1, inL1_reset h1, hz] at e1 e2
  rw [inD1_reset h1, hz] at e3
  rw [hz]
  exact ⟨e1, e2, e3⟩

set_option maxHeartbeats 400000 in
/-- The running row statistics after point n, at lane-row r. -/
theorem stats1_closed_nat : ∀ (n : ℕ) (hn : n < cfg1.N) (r : Fin 1024),
    (statsAt1 V c n hn).1 (ix2 r (0 : Fin 1)) = (Cert.Math.run (KSpec.tile y x (rowOf1 n hn r)) (n % 16)).1
    ∧ (statsAt1 V c n hn).2.1 (ix2 r (0 : Fin 1)) = (Cert.Math.run (KSpec.tile y x (rowOf1 n hn r)) (n % 16)).2
    ∧ (statsAt1 V c n hn).2.2 (ix2 r (0 : Fin 1)) = KSpec.drun y x (rowOf1 n hn r) (n % 16) := by
  intro n
  induction n with
  | zero =>
    intro hn r
    exact closed_of_reset1 x y V hV0 hV1 c 0 hn r junkS1 rfl
  | succ n ih =>
    intro hn r
    have hn' : n < cfg1.N := Nat.lt_of_succ_lt hn
    by_cases hz : (n + 1) % 16 = 0
    · exact closed_of_reset1 x y V hV0 hV1 c (n + 1) hn r (statsAt1 V c n hn') hz
    · obtain ⟨e1, e2, e3⟩ := step1_at x y V hV0 hV1 c (n + 1) hn r (statsAt1 V c n hn')
      obtain ⟨i1, i2, i3⟩ := ih hn' r
      have h1 : ¬cond1_1 (grid1.coords ⟨n + 1, hn⟩) := mt (hcond1_1 ⟨n + 1, hn⟩).mp hz
      have hi : rowOf1 (n + 1) hn r = rowOf1 n hn' r :=
        Fin.ext (by show 1024 * ((n + 1) / 16) + r.val = 1024 * (n / 16) + r.val; omega)
      have hJ : (n + 1) % 16 = n % 16 + 1 := by omega
      rw [inM1_keep h1, inL1_keep h1, i1, i2, hi, hJ] at e1 e2
      rw [inD1_keep h1, i3, hi, hJ] at e3
      rw [hi, hJ]
      exact ⟨e1, e2, e3⟩

/-- The running row statistics after grid point t, at lane-row r: global row 1024 (t / 16) + r after column tiles
    0 .. t % 16. -/
theorem stats1_closed (t : Fin cfg1.N) (r : Fin 1024) (hi : 1024 * (t.val / 16) + r.val < 8192) :
    (statsAt1 V c t.val t.isLt).1 (ix2 r (0 : Fin 1))
        = (Cert.Math.run (KSpec.tile y x ⟨1024 * (t.val / 16) + r.val, hi⟩) (t.val % 16)).1
    ∧ (statsAt1 V c t.val t.isLt).2.1 (ix2 r (0 : Fin 1))
        = (Cert.Math.run (KSpec.tile y x ⟨1024 * (t.val / 16) + r.val, hi⟩) (t.val % 16)).2
    ∧ (statsAt1 V c t.val t.isLt).2.2 (ix2 r (0 : Fin 1))
        = KSpec.drun y x ⟨1024 * (t.val / 16) + r.val, hi⟩ (t.val % 16) :=
  stats1_closed_nat x y V hV0 hV1 c t.val t.isLt r

end

end Cert.KernelIdeal.Hand

end
-- ==== Proof.KI.ValueRun.lean ====
/-
  The kernel program's run with its result named: every weakly fair execution ends with the result buffer at the
  closed form of the two arguments, and the arguments as launched.
-/
import proofs.«162174_j13649406066960_2_alg».proof.Proof.KI.Value
import proofs.«162174_j13649406066960_2_alg».proof.Proof.KI.Stats0
import proofs.«162174_j13649406066960_2_alg».proof.Proof.KI.Stats1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt Ideal) ℓ) (ρ : Dev nD → PrngReg)

theorem value_run : θ_run defs (onTc (τ := τ) (main (F := Ideal))) ⟨m, fun _ => 0, ρ⟩ (fun r => ∀ c : Dev nD,
      r.2.mem ((c.tc : Thread nD τ).loc main_v15) = (fun _ => KSpec.kloss (argX m c) (argY m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v15 (by decide))).trans (v15_closed m c
        (fun t r hi => stats0_closed (argX m c) (argY m c) (V1 m) (fun c' i d => by obtain rfl : c' = c := Subsingleton.elim _ _; exact V1_v0_row m c' i d) (fun c' i d => by obtain rfl : c' = c := Subsingleton.elim _ _; exact V1_v1_row m c' i d) c t r hi)
        (fun t r hi => stats1_closed (argX m c) (argY m c) (V3 m) (fun c' i d => by obtain rfl : c' = c := Subsingleton.elim _ _; exact V3_v0_row m c' i d) (fun c' i d => by obtain rfl : c' = c := Subsingleton.elim _ _; exact V3_v1_row m c' i d) c t r hi)),
     (h c _ (mem_uc main_arg0 (by decide))).trans (W8_main_arg0 m c),
     (h c _ (mem_uc main_arg1 (by decide))).trans (W8_main_arg1 m c)⟩) (run_all m ρ)

end Cert.KernelIdeal.Hand

end
-- ==== Proof.Math.Extra.lean ====
import Mathlib
import Idealize.ShloMosaic.PureOps.Ideal
import proofs.«162174_j13649406066960_2_alg».proof.Proof.Math.Online

/-!
# The one-pass form, re-indexing a tiled row, and signs under sums and quotients

* `row_identity`: with `M` a real and `L` a positive real (a sum of exponentials over a
  nonempty family is positive), `(M + log L) - d = -((d - M) - log L)` over the extended
  reals, because every term is finite.
* `sum_reindex`, `max_reindex`: a row of `T * n` scores read as `T` tiles of `n` has the same
  sum of any function of the scores, and the same maximum, as the flat row.
* `sum_neg_coe`, `div_neg_coe`: a sign moves out of a finite sum of reals and out of a
  quotient by a nonzero real.
-/

open Idealize.ShloMosaic

namespace Cert.Math

/-! ### The one-pass form -/

/-- A sum of exponentials over a nonempty family is positive. -/
theorem sum_exp_pos {N : ℕ} (hN : 0 < N) (y : Fin N → ℝ) (M : ℝ) :
    0 < ∑ j, Real.exp (y j - M) := by
  haveI : Nonempty (Fin N) := ⟨⟨0, hN⟩⟩
  exact Finset.sum_pos (fun j _ => Real.exp_pos _) Finset.univ_nonempty

/-- The logarithm of a positive real, read at the extended reals, is the real logarithm. -/
theorem log_coe_pos {L : ℝ} (hL : 0 < L) : Ideal.log (L : EReal) = (Real.log L : EReal) := by
  rw [Ideal.log_coe, if_neg (not_le.2 hL)]

/-- The row identity for any real maximum, positive real sum and real score. -/
theorem row_identity' (M L d : ℝ) (hL : 0 < L) :
    ((M : EReal) + Ideal.log (L : EReal)) - (d : EReal) =
      -(((d : EReal) - (M : EReal)) - Ideal.log (L : EReal)) := by
  rw [log_coe_pos hL, ← EReal.coe_add, ← EReal.coe_sub, ← EReal.coe_sub, ← EReal.coe_sub,
    ← EReal.coe_neg]
  congr 1
  ring

/-- The row identity with `L` the sum of exponentials of a nonempty row relative to `M`. -/
theorem row_identity {N : ℕ} (hN : 0 < N) (y : Fin N → ℝ) (M d : ℝ) :
    ((M : EReal) + Ideal.log ((∑ j, Real.exp (y j - M) : ℝ) : EReal)) - (d : EReal) =
      -(((d : EReal) - (M : EReal)) - Ideal.log ((∑ j, Real.exp (y j - M) : ℝ) : EReal)) :=
  row_identity' M _ d (sum_exp_pos hN y M)

/-! ### Signs -/

/-- A sign moves out of a finite sum of reals read at the extended reals. -/
theorem sum_neg_coe {ι : Type*} (s : Finset ι) (a : ι → ℝ) :
    ∑ i ∈ s, (-(a i : EReal)) = -(∑ i ∈ s, (a i : EReal)) := by
  rw [← coe_sum, ← EReal.coe_neg, ← Finset.sum_neg_distrib, coe_sum]
  refine Finset.sum_congr rfl fun i _ => ?_
  rw [EReal.coe_neg]

/-- A sign moves out of a quotient of reals by a nonzero real. -/
theorem div_neg_coe (s c : ℝ) (hc : c ≠ 0) :
    Ideal.div (-(s : EReal)) (c : EReal) = -(Ideal.div (s : EReal) (c : EReal)) := by
  rw [Ideal.div_coe hc, Ideal.div_coe hc, EReal.neg_mul]

/-! ### A maximum is determined by its two bounds -/

/-- An upper bound that is attained is unique. -/
theorem max_unique {ι : Type*} (f : ι → ℝ) {M M' : ℝ}
    (h1 : ∀ i, f i ≤ M) (h2 : ∃ i, f i = M) (h1' : ∀ i, f i ≤ M') (h2' : ∃ i, f i = M') :
    M = M' := by
  obtain ⟨i, hi⟩ := h2
  obtain ⟨i', hi'⟩ := h2'
  exact le_antisymm (hi ▸ h1' i) (hi' ▸ h1 i')

/-! ### Re-indexing a tiled row -/

/-- The flat position of entry `k` of tile `j`. -/
theorem finProdFinEquiv_val {T n : ℕ} (j : Fin T) (k : Fin n) :
    ((finProdFinEquiv (j, k) : Fin (T * n)) : ℕ) = (j : ℕ) * n + (k : ℕ) := by
  simp [finProdFinEquiv, Nat.mul_comm, Nat.add_comm]

/-- Summing any function of the scores tile by tile is summing it along the flat row. -/
theorem sum_reindex {T n : ℕ} {β : Type*} [AddCommMonoid β] (x : ℕ → Fin n → ℝ)
    (y : Fin (T * n) → ℝ)
    (hy : ∀ (j : ℕ) (k : Fin n) (h : j * n + (k : ℕ) < T * n), y ⟨j * n + k, h⟩ = x j k)
    (g : ℝ → β) :
    ∑ j ∈ Finset.range T, ∑ k, g (x j k) = ∑ i : Fin (T * n), g (y i) := by
  rw [Finset.sum_range (fun j => ∑ k, g (x j k)),
    ← finProdFinEquiv.sum_comp (fun i => g (y i)), Fintype.sum_prod_type]
  refine Finset.sum_congr rfl fun j _ => Finset.sum_congr rfl fun k _ => ?_
  have hlt : (j : ℕ) * n + (k : ℕ) < T * n := by
    rw [← finProdFinEquiv_val j k]; exact (finProdFinEquiv (j, k)).isLt
  have hpos : (finProdFinEquiv (j, k) : Fin (T * n)) = ⟨(j : ℕ) * n + (k : ℕ), hlt⟩ :=
    Fin.ext (finProdFinEquiv_val j k)
  rw [hpos, hy]

/-- A real is the maximum of the tiled scores exactly when it is the maximum of the flat row. -/
theorem max_reindex {T n : ℕ} (x : ℕ → Fin n → ℝ) (y : Fin (T * n) → ℝ)
    (hy : ∀ (j : ℕ) (k : Fin n) (h : j * n + (k : ℕ) < T * n), y ⟨j * n + k, h⟩ = x j k)
    (M : ℝ) :
    ((∀ j < T, ∀ k, x j k ≤ M) ∧ (∃ j < T, ∃ k, x j k = M)) ↔
      ((∀ i, y i ≤ M) ∧ (∃ i, y i = M)) := by
  have hyx : ∀ (j : Fin T) (k : Fin n), y (finProdFinEquiv (j, k)) = x j k := by
    intro j k
    have hlt : (j : ℕ) * n + (k : ℕ) < T * n := by
      rw [← finProdFinEquiv_val j k]; exact (finProdFinEquiv (j, k)).isLt
    have hpos : (finProdFinEquiv (j, k) : Fin (T * n)) = ⟨(j : ℕ) * n + (k : ℕ), hlt⟩ :=
      Fin.ext (finProdFinEquiv_val j k)
    rw [hpos, hy]
  constructor
  · rintro ⟨hub, j, hj, k, hk⟩
    refine ⟨fun i => ?_, finProdFinEquiv (⟨j, hj⟩, k), by rw [hyx]; exact hk⟩
    obtain ⟨⟨j', k'⟩, rfl⟩ := finProdFinEquiv.surjective i
    rw [hyx]
    exact hub j' j'.isLt k'
  · rintro ⟨hub, i, hi⟩
    refine ⟨fun j hj k => ?_, ?_⟩
    · have := hub (finProdFinEquiv (⟨j, hj⟩, k))
      rwa [hyx] at this
    · obtain ⟨⟨j', k'⟩, rfl⟩ := finProdFinEquiv.surjective i
      exact ⟨j', j'.isLt, k', by rw [← hyx]; exact hi⟩

/-- The two descriptions of the maximum of a tiled row agree: one by tiles `j ≤ J`, one along
    the flat row of `(J + 1) * n` scores. -/
theorem max_tiles_eq_flat {J n : ℕ} (x : ℕ → Fin n → ℝ) (y : Fin ((J + 1) * n) → ℝ)
    (hy : ∀ (j : ℕ) (k : Fin n) (h : j * n + (k : ℕ) < (J + 1) * n), y ⟨j * n + k, h⟩ = x j k)
    {M M' : ℝ} (hM : ∀ j ≤ J, ∀ k, x j k ≤ M) (hM2 : ∃ j ≤ J, ∃ k, x j k = M)
    (hM' : ∀ i, y i ≤ M') (hM2' : ∃ i, y i = M') : M = M' := by
  obtain ⟨j, hj, k, hk⟩ := hM2
  have h := (max_reindex x y hy M).1
    ⟨fun j hj k => hM j (Nat.lt_succ_iff.1 hj) k, j, Nat.lt_succ_iff.2 hj, k, hk⟩
  exact max_unique y h.1 h.2 hM' hM2'

/-! ### The row of `8192 = 16 * 512` scores -/

/-- `sum_reindex` for sixteen tiles of 512 and the flat row of 8192. -/
theorem sum_reindex_16_512 {β : Type*} [AddCommMonoid β] (x : ℕ → Fin 512 → ℝ)
    (y : Fin 8192 → ℝ)
    (hy : ∀ (j : ℕ) (k : Fin 512) (h : j * 512 + (k : ℕ) < 8192), y ⟨j * 512 + k, h⟩ = x j k)
    (g : ℝ → β) :
    ∑ j ∈ Finset.range 16, ∑ k, g (x j k) = ∑ i : Fin 8192, g (y i) :=
  sum_reindex (T := 16) (n := 512) x y hy g

/-- `max_tiles_eq_flat` for sixteen tiles of 512 (tiles `j ≤ 15`) and the flat row of 8192. -/
theorem max_tiles_eq_flat_16_512 (x : ℕ → Fin 512 → ℝ) (y : Fin 8192 → ℝ)
    (hy : ∀ (j : ℕ) (k : Fin 512) (h : j * 512 + (k : ℕ) < 8192), y ⟨j * 512 + k, h⟩ = x j k)
    {M M' : ℝ} (hM : ∀ j ≤ 15, ∀ k, x j k ≤ M) (hM2 : ∃ j ≤ 15, ∃ k, x j k = M)
    (hM' : ∀ i, y i ≤ M') (hM2' : ∃ i, y i = M') : M = M' :=
  max_tiles_eq_flat (J := 15) (n := 512) x y hy hM hM2 hM' hM2'

end Cert.Math
-- ==== Proof.Bridge.Finite.lean ====
import proofs.«162174_j13649406066960_2_alg».proof.Proof.KI.KSpec
import proofs.«162174_j13649406066960_2_alg».proof.Proof.Math.Extra

/-!
# Finite inputs: the two closed forms have the same real logits

For arrays whose entries are all real, the similarity of two rows is a real number `s`. The
reference divides `s` (or the mask value -10000) by the temperature `D = 5368709 / 536870912`;
the other closed form multiplies each entry by `1 / D = 536870912 / 5368709` before the dot
product, and uses `-10000 / D = -5368709120000 / 5368709` where masked. Both are the same real
number `lgR`. The logits are symmetric under exchanging the two arrays together with the two
indices, because the product inside the similarity commutes and the mask is symmetric.
-/

noncomputable section

namespace Cert.Bridge

open Idealize.ShloMosaic Idealize.ShloMosaic.ValueIdx Cert.ReferenceIdeal.Hand
open Cert.KernelIdeal.Hand.KSpec Cert.Math
open scoped BigOperators

/-- A real-valued array. -/
abbrev RArr := (⟨3, ![512, 16, 128]⟩ : Shape).Idx → ℝ

/-- A real-valued array read at the extended reals. -/
def up (a : RArr) : Arr := fun i => (a i : EReal)

/-- An array all of whose entries are real is a real-valued array read at the extended reals. -/
theorem exists_up (x : Arr) (hx : ∀ i, ∃ r : ℝ, x i = (r : EReal)) : ∃ a : RArr, x = up a :=
  ⟨fun i => (hx i).choose, funext fun i => (hx i).choose_spec⟩

/-- Row `i`, column `k`, of the [8192,128] reading of a real array. -/
def rowR (a : RArr) (i : Fin 8192) (k : Fin 128) : ℝ :=
  a (ix3 (⟨i.val / 16, by omega⟩ : Fin 512) (⟨i.val % 16, by omega⟩ : Fin 16) k)

theorem row_up (a : RArr) (i : Fin 8192) (k : Fin 128) : row (up a) i k = (rowR a i k : EReal) := rfl

/-- The real similarity of row `i` of `a` and row `j` of `b`. -/
def simR (a b : RArr) (i j : Fin 8192) : ℝ := ∑ k : Fin 128, rowR a i k * rowR b j k

theorem sim_up (a b : RArr) (i j : Fin 8192) : sim (up a) (up b) i j = (simR a b i j : EReal) := by
  unfold sim simR
  rw [coe_sum]
  refine Finset.sum_congr rfl fun k _ => ?_
  rw [row_up, row_up, EReal.coe_mul]

theorem simR_comm (a b : RArr) (i j : Fin 8192) : simR b a i j = simR a b j i := by
  unfold simR
  exact Finset.sum_congr rfl fun k _ => mul_comm _ _

theorem masked_comm (i j : Fin 8192) : masked i j ↔ masked j i := by
  unfold masked
  exact ⟨fun h => ⟨h.1.symm, fun e => h.2 e.symm⟩, fun h => ⟨h.1.symm, fun e => h.2 e.symm⟩⟩

theorem not_masked_self (i : Fin 8192) : ¬ masked i i := fun h => h.2 rfl

/-- The real logit: `-10000 / D` where masked, else the similarity over `D`. -/
def lgR (a b : RArr) (i j : Fin 8192) : ℝ :=
  if masked i j then (-5368709120000 / 5368709 : ℝ) else (536870912 / 5368709 : ℝ) * simR a b i j

theorem lgR_comm (a b : RArr) (i j : Fin 8192) : lgR b a i j = lgR a b j i := by
  unfold lgR
  rw [simR_comm]
  by_cases h : masked i j
  · rw [if_pos h, if_pos ((masked_comm i j).1 h)]
  · rw [if_neg h, if_neg (fun h' => h ((masked_comm j i).1 h'))]

theorem lgR_diag (a b : RArr) (i : Fin 8192) :
    lgR a b i i = (536870912 / 5368709 : ℝ) * simR a b i i := by
  unfold lgR
  rw [if_neg (not_masked_self i)]

set_option maxHeartbeats 400000 in
/-- Scaling each entry of a row by `1 / D` before the dot product scales the similarity. -/
theorem raw_up (a b : RArr) (i j : Fin 8192) :
    raw (up a) (up b) i j = (((536870912 / 5368709 : ℝ) * simR a b i j : ℝ) : EReal) := by
  unfold raw κc simR
  rw [Finset.mul_sum, coe_sum]
  refine Finset.sum_congr rfl fun k _ => ?_
  rw [row_up, row_up, ← EReal.coe_mul, ← EReal.coe_mul]
  congr 1
  ring

theorem msk_up (a b : RArr) (i j : Fin 8192) : msk (up a) (up b) i j = (lgR a b i j : EReal) := by
  unfold msk lgR κm
  by_cases h : masked i j
  · rw [if_pos h, if_pos h]
  · rw [if_neg h, if_neg h]
    exact raw_up a b i j

set_option maxHeartbeats 400000 in
theorem lg_up (a b : RArr) (i j : Fin 8192) : lg (up a) (up b) i j = (lgR a b i j : EReal) := by
  unfold lg lgR D
  rw [Ideal.div_coe (by norm_num)]
  by_cases h : masked i j
  · rw [if_pos h, if_pos h, ← EReal.coe_mul]
    congr 1
    norm_num
  · rw [if_neg h, if_neg h, sim_up, ← EReal.coe_mul]
    congr 1
    ring

/-- The logits are symmetric under exchanging the arrays together with the indices. -/
theorem lg_comm (a b : RArr) (i j : Fin 8192) : lg (up b) (up a) i j = lg (up a) (up b) j i := by
  rw [lg_up, lg_up, lgR_comm]

end Cert.Bridge

end
-- ==== Proof.Math.Gather.lean ====
import Mathlib

/-!
# Gathering one entry of a row tile by tile

A row of scores is read in column tiles of 512. Column `v` lies in exactly one tile, tile
`v / 512`, at position `v % 512`. So a sum over one tile that keeps only the entry at column
`v` is that entry when the tile is `v / 512` and zero otherwise, and adding these up from zero,
tile by tile, gives the entry as soon as tile `v / 512` has been passed.
-/

namespace Cert.Math

/-- Among the 512 columns of tile `J` at most one is column `v`, and one is exactly when
    `v / 512 = J`. -/
theorem sum_ite_tile {β : Type*} [AddCommMonoid β] (R : β) (v J : ℕ) :
    ∑ k : Fin 512, (if v = 512 * J + k.val then R else 0) = if v / 512 = J then R else 0 := by
  by_cases h : v / 512 = J
  · rw [if_pos h]
    have hk : ∀ k : Fin 512, (v = 512 * J + k.val) ↔
        ((⟨v % 512, Nat.mod_lt _ (by norm_num)⟩ : Fin 512) = k) := by
      intro k
      constructor
      · intro hv
        apply Fin.ext
        show v % 512 = k.val
        omega
      · intro hv
        have hv' : v % 512 = k.val := congrArg Fin.val hv
        omega
    simp only [hk, Finset.sum_ite_eq, Finset.mem_univ, if_true]
  · rw [if_neg h]
    refine Finset.sum_eq_zero fun k _ => if_neg ?_
    have := k.isLt
    omega

/-- Adding up from zero, tile by tile, a value present in tile `v / 512` only gives that value
    once that tile has been passed, and zero before. -/
theorem gather_tiles {β : Type*} [AddCommMonoid β] (R : β) (v : ℕ) (dr dt : ℕ → β)
    (hdt : ∀ J, dt J = if v / 512 = J then R else 0)
    (h0 : dr 0 = 0 + dt 0) (hs : ∀ J, dr (J + 1) = dr J + dt (J + 1)) (J : ℕ) :
    dr J = if v / 512 ≤ J then R else 0 := by
  induction J with
  | zero =>
    rw [h0, hdt, zero_add]
    by_cases h : v / 512 = 0
    · rw [if_pos h, if_pos (by omega)]
    · rw [if_neg h, if_neg (by omega)]
  | succ J ih =>
    rw [hs, ih, hdt]
    by_cases h1 : v / 512 ≤ J
    · rw [if_pos h1, if_neg (by omega), if_pos (by omega), add_zero]
    · rw [if_neg h1]
      by_cases h2 : v / 512 = J + 1
      · rw [if_pos h2, if_pos (by omega), zero_add]
      · rw [if_neg h2, if_neg (by omega), add_zero]

end Cert.Math
-- ==== Proof.Bridge.Diag.lean ====
import proofs.«162174_j13649406066960_2_alg».proof.Proof.KI.KSpec
import proofs.«162174_j13649406066960_2_alg».proof.Proof.Math.Gather

/-!
# The diagonal logit gathered tile by tile

Row `i`'s diagonal column is column `i`, which lies in tile `i / 512` only. Each tile's
contribution is therefore the scaled logit at `(i, i)` for that tile and zero for the others,
and after all sixteen tiles the gathered value is the scaled logit at `(i, i)`.
-/

noncomputable section

namespace Cert.Bridge

open Idealize.ShloMosaic Cert.ReferenceIdeal.Hand Cert.KernelIdeal.Hand.KSpec Cert.Math
open scoped BigOperators

set_option maxHeartbeats 400000 in
/-- One tile's contribution to the diagonal logit. -/
theorem dtile_eq (a b : Arr) (i : Fin 8192) (J : ℕ) :
    dtile a b i J = if i.val / 512 = J then raw a b i i else 0 := by
  unfold dtile
  rw [← sum_ite_tile (raw a b i i) i.val J]
  refine Finset.sum_congr rfl fun k _ => ?_
  by_cases h : i.val = 512 * J + k.val
  · have h' : i.val = colOf J k := h
    rw [if_pos h', if_pos h]
    congr 1
    apply Fin.ext
    show (colOf J k) % 8192 = i.val
    rw [← h']
    exact Nat.mod_eq_of_lt i.isLt
  · have h' : ¬ i.val = colOf J k := h
    rw [if_neg h', if_neg h]

/-- After tiles `0..J` the gathered value is the diagonal logit once tile `i / 512` is passed. -/
theorem drun_eq (a b : Arr) (i : Fin 8192) (J : ℕ) :
    drun a b i J = if i.val / 512 ≤ J then raw a b i i else 0 :=
  gather_tiles (raw a b i i) i.val (drun a b i) (dtile a b i) (dtile_eq a b i)
    rfl (fun _ => rfl) J

/-- After all sixteen tiles the gathered value is the diagonal logit. -/
theorem drun_15 (a b : Arr) (i : Fin 8192) : drun a b i 15 = raw a b i i := by
  rw [drun_eq, if_pos (by have := i.isLt; omega)]

end Cert.Bridge

end
-- ==== Proof.Bridge.Row.lean ====
import proofs.«162174_j13649406066960_2_alg».proof.Proof.Bridge.Finite
import proofs.«162174_j13649406066960_2_alg».proof.Proof.Bridge.Diag

/-!
# One row: the tile-by-tile value is minus the log-softmax at the diagonal

For a row `f` of 8192 real logits with maximum `M` and `L = ∑ exp (f j - M)`, the running pair
after the sixteen tiles of 512 is `(M, L)` (the online recurrence, the maximum identified by its
two bounds, and the sum re-indexed along the flat row), while the one-pass form has the same `M`
as its row maximum and the same `L` inside its logarithm. With the gathered diagonal logit
`d = f i`, the row value `(M + log L) - d` is `-((d - M) - log L)`.
-/

noncomputable section

namespace Cert.Bridge

open Idealize.ShloMosaic Idealize.ShloMosaic.ValueIdx Cert.ReferenceIdeal.Hand
open Cert.KernelIdeal.Hand.KSpec Cert.Math
open scoped BigOperators

/-- A real row of 8192 read in column tiles of 512 (a column past the end reads modulo 8192,
    which the sixteen tiles never reach). -/
def tileR (f : Fin 8192 → ℝ) (J : ℕ) (k : Fin 512) : ℝ :=
  f ⟨colOf J k % 8192, Nat.mod_lt _ (by norm_num)⟩

theorem tileR_flat (f : Fin 8192 → ℝ) (j : ℕ) (k : Fin 512) (h : j * 512 + (k : ℕ) < 8192) :
    f ⟨j * 512 + k, h⟩ = tileR f j k := by
  unfold tileR
  congr 1
  apply Fin.ext
  show j * 512 + k.val = (512 * j + k.val) % 8192
  omega

set_option maxHeartbeats 400000 in
/-- The running pair after sixteen tiles, the one-pass row maximum and the one-pass sum of
    exponentials are the same `M` and the same positive `L`. -/
theorem row_core (f : Fin 8192 → ℝ) :
    ∃ M L : ℝ, 0 < L ∧ rmax (fun j => (f j : EReal)) = (M : EReal) ∧
      (0 + ∑ j : Fin 8192, Ideal.exp ((f j : EReal) - (M : EReal))) = (L : EReal) ∧
      run (fun J k => (tileR f J k : EReal)) 15 = ((M : EReal), (L : EReal)) := by
  obtain ⟨M, hub, hatt, hrun⟩ := run_eq (n := 512) (by norm_num) (tileR f) 15
  obtain ⟨M', hub', hatt', hfmax⟩ := fmax_coe (n := 8192) (by norm_num) f
  have hMM : M = M' :=
    max_tiles_eq_flat_16_512 (tileR f) f (tileR_flat f) hub hatt hub' hatt'
  subst hMM
  refine ⟨M, ∑ j : Fin 8192, Real.exp (f j - M), sum_exp_pos (by norm_num) f M, ?_, ?_, ?_⟩
  · unfold rmax
    rw [bot_max]
    exact hfmax
  · rw [zero_add, sum_exp_coe f M]
  · rw [hrun]
    have hsum := sum_reindex_16_512 (tileR f) f (tileR_flat f) (fun t => Real.exp (t - M))
    exact congrArg (fun S : ℝ => ((M : EReal), (S : EReal))) hsum

set_option maxHeartbeats 400000 in
/-- Row `i`: the log-softmax at the diagonal is a real `r`, and the tile-by-tile row value is `-r`. -/
theorem row_bridge (a b : RArr) (i : Fin 8192) :
    ∃ r : ℝ, lsm (fun j => lg (up a) (up b) i j) (lg (up a) (up b) i i) = (r : EReal) ∧
      rowval (up a) (up b) i = -(r : EReal) := by
  obtain ⟨M, L, hL, hrmax, hsumE, hrun⟩ := row_core (fun j => lgR a b i j)
  have hf : (fun j => lg (up a) (up b) i j) = fun j => ((lgR a b i j : ℝ) : EReal) :=
    funext fun j => lg_up a b i j
  have htile : tile (up a) (up b) i =
      fun J k => ((tileR (fun j => lgR a b i j) J k : ℝ) : EReal) := by
    funext J k
    exact msk_up a b i _
  have hdiag : raw (up a) (up b) i i = ((lgR a b i i : ℝ) : EReal) := by
    rw [raw_up, lgR_diag]
  refine ⟨(lgR a b i i - M) - Real.log L, ?_, ?_⟩
  · refine (congrArg₂ lsm hf (lg_up a b i i)).trans ?_
    show ((lgR a b i i : ℝ) : EReal) - rmax (fun j => ((lgR a b i j : ℝ) : EReal)) -
        Ideal.log (0 + ∑ j : Fin 8192,
          Ideal.exp (((lgR a b i j : ℝ) : EReal) - rmax (fun j => ((lgR a b i j : ℝ) : EReal)))) = _
    rw [hrmax, hsumE, log_coe_pos hL, ← EReal.coe_sub, ← EReal.coe_sub]
  · unfold rowval
    rw [htile, hrun, drun_15, hdiag]
    show ((M : EReal) + Ideal.log (L : EReal)) - ((lgR a b i i : ℝ) : EReal) = _
    rw [row_identity' M L _ hL, log_coe_pos hL, ← EReal.coe_sub, ← EReal.coe_sub]

end Cert.Bridge

end
-- ==== Proof.Bridge.lean ====
import proofs.«162174_j13649406066960_2_alg».proof.Proof.Bridge.Row

/-!
# The two closed forms agree on finite inputs

Row by row the tile-by-tile value is minus the log-softmax at the diagonal, so the mean of the
row values is the cross entropy along the rows (the sign moves out of the sum and out of the
quotient by 8192). The cross entropy along the columns is the cross entropy along the rows with
the two arrays exchanged, because the logits are symmetric. Both guards then see the same value.
-/

noncomputable section

namespace Cert.Bridge

open Idealize.ShloMosaic Idealize.ShloMosaic.ValueIdx Cert.ReferenceIdeal.Hand
open Cert.KernelIdeal.Hand Cert.KernelIdeal.Hand.KSpec Cert.Math
open scoped BigOperators

set_option maxHeartbeats 400000 in
/-- The mean of the tile-by-tile row values is the cross entropy along the rows. -/
theorem kmean_eq (a b : RArr) : kmean (up a) (up b) = ceR (up a) (up b) := by
  choose r hr1 hr2 using row_bridge a b
  unfold kmean ceR
  rw [show (∑ i : Fin 8192, rowval (up a) (up b) i) = ∑ i : Fin 8192, -((r i : ℝ) : EReal) from
      Finset.sum_congr rfl fun i _ => hr2 i,
    show (∑ i : Fin 8192, lsm (fun j => lg (up a) (up b) i j) (lg (up a) (up b) i i)) =
        ∑ i : Fin 8192, ((r i : ℝ) : EReal) from Finset.sum_congr rfl fun i _ => hr1 i]
  rw [sum_neg_coe, ← coe_sum, zero_add, zero_add, div_neg_coe _ _ (by norm_num)]

set_option maxHeartbeats 400000 in
/-- The cross entropy along the columns is the one along the rows with the arrays exchanged. -/
theorem ceC_eq (a b : RArr) : ceC (up a) (up b) = ceR (up b) (up a) := by
  have h : ∀ i : Fin 8192, lsm (fun j => lg (up a) (up b) j i) (lg (up a) (up b) i i) =
      lsm (fun j => lg (up b) (up a) i j) (lg (up b) (up a) i i) := fun i =>
    congrArg₂ lsm (funext fun j => (lg_comm a b i j).symm) (lg_comm a b i i).symm
  unfold ceC ceR
  rw [show (∑ i : Fin 8192, lsm (fun j => lg (up a) (up b) j i) (lg (up a) (up b) i i)) =
      ∑ i : Fin 8192, lsm (fun j => lg (up b) (up a) i j) (lg (up b) (up a) i i) from
    Finset.sum_congr rfl fun i _ => h i]

/-- On inputs all of whose entries are real, the tile-by-tile closed form is the reference's. -/
theorem kloss_eq (x y : KSpec.Arr) (hx : ∀ i, ∃ r : ℝ, x i = (r : EReal))
    (hy : ∀ i, ∃ r : ℝ, y i = (r : EReal)) :
    KSpec.kloss x y = Cert.ReferenceIdeal.Hand.loss x y := by
  obtain ⟨a, rfl⟩ := exists_up x hx
  obtain ⟨b, rfl⟩ := exists_up y hy
  unfold kloss loss
  rw [kmean_eq a b, kmean_eq b a, ceC_eq a b]

end Cert.Bridge

end
-- ==== Proof.Finite.lean ====
/-
  The precondition read back: each input array holds real numbers only. The printed predicate is the conjunction of
  two reductions by "and" of the entrywise comparison |x| < +inf; a reduction by "and" that is 1 had a 1 at every
  entry, and an extended real whose magnitude is below +inf is a real.
-/
import proofs.«162174_j13649406066960_2_alg».proof.Defs
import proofs.«162174_j13649406066960_2_alg».proof.Proof.Gen.Pre_finite_inputs
import Idealize.ShloMosaic.Lib.ReduceAll
import Idealize.ShloMosaic.Lib.ValueIdx

noncomputable section

namespace Cert.Finite

open Idealize.ShloMosaic Idealize.SL.Sem

instance : Subsingleton Cert.Pre_finite_inputs.S_.Idx := ⟨fun a b => funext fun d => d.elim0⟩

/-- An extended real whose magnitude compares below +inf is a real. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

set_option maxHeartbeats 400000 in
/-- Under the printed precondition both arrays are entrywise real. -/
theorem of_fn [Cert.Pre_finite_inputs.Facts] (x y : FVec Ideal Cert.Pre_finite_inputs.S512x16x128 .f32)
    (h : Cert.Pre_finite_inputs.fn (F := Ideal) x y = fun _ => 1#1) :
    (∀ i, ∃ r : ℝ, x i = (r : EReal)) ∧ (∀ i, ∃ r : ℝ, y i = (r : EReal)) := by
  have e := congrFun h ValueIdx.ix0
  dsimp only [Cert.Pre_finite_inputs.fn] at e
  obtain ⟨e0, e1⟩ := IntOp.andi_eq_one.mp e
  refine ⟨fun i => ?_, fun i => ?_⟩
  · have hi := Host.reduce_andi_all _ _ _ _ _ e0 i
    exact real_of_abs_lt (x i) hi
  · have hi := Host.reduce_andi_all _ _ _ _ _ e1 i
    exact real_of_abs_lt (y i) hi

end Cert.Finite

end
-- ==== Proof.lean ====
/-
  The certificate of the block-masked symmetric contrastive loss kernel against its jnp reference.
  The kernel never forms the 8192 x 8192 logits: for each of 8 row tiles it sweeps 16 column tiles, keeping per row a
  running maximum m, a running sum l of exponentials and the diagonal logit d, and writes m + log l - d at the last
  column tile; the host takes the mean of these row values for both directions, averages them and guards the result.
  The reference forms the logits, masks each 16 x 16 diagonal block off its diagonal, divides by the temperature and
  takes minus the mean of the log-softmax at the diagonal, for the logits and for their transpose.
  Over the extended reals, for finite inputs, the running pair is the row's maximum and the sum of exponentials about
  it, so the two programs compute one number. The kernel's two folded constants are named the exact quotients by the
  reference's own temperature word (1 / D and -10000 / D), which is what makes the logits agree.
-/
import proofs.«162174_j13649406066960_2_alg».proof.Defs
import proofs.«162174_j13649406066960_2_alg».proof.Proof.Gen.Kernel
import proofs.«162174_j13649406066960_2_alg».proof.Proof.Gen.KernelIdeal
import proofs.«162174_j13649406066960_2_alg».proof.Proof.Gen.ReferenceIdeal
import proofs.«162174_j13649406066960_2_alg».proof.Proof.Gen.Pre_finite_inputs
import proofs.«162174_j13649406066960_2_alg».proof.Proof.K.Frame
import proofs.«162174_j13649406066960_2_alg».proof.Proof.KI.Frame
import proofs.«162174_j13649406066960_2_alg».proof.Proof.Ref.Value
import proofs.«162174_j13649406066960_2_alg».proof.Proof.KI.ValueRun
import proofs.«162174_j13649406066960_2_alg».proof.Proof.Bridge
import proofs.«162174_j13649406066960_2_alg».proof.Proof.Finite
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The ledger's four entries (two constants, in each of the two calls): the certificate's table gives each name its
    exact quotient, and the printed constant is that value at the ideal instance. -/
theorem preserves : Cert.preserves_Kernel_KernelIdeal :=
  ⟨IdealRules.named_const.statement Cert.KernelIdeal.κ "inv_temperature" .f32 0x42C80000#32 ((536870912 / 5368709 : ℝ) : EReal) rfl,
   IdealRules.named_const.statement Cert.KernelIdeal.κ "mask_over_temperature" .f32 0xC9742400#32 ((-5368709120000 / 5368709 : ℝ) : EReal) rfl,
   IdealRules.named_const.statement Cert.KernelIdeal.κ "inv_temperature" .f32 0x42C80000#32 ((536870912 / 5368709 : ℝ) : EReal) rfl,
   IdealRules.named_const.statement Cert.KernelIdeal.κ "mask_over_temperature" .f32 0xC9742400#32 ((-5368709120000 / 5368709 : ℝ) : EReal) rfl⟩

/-- The reference program runs to the end, faults nowhere and leaves its arguments as launched: its run with the
    result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments, under the precondition, both idealized programs end with the same
    number: the kernel program's closed form is the reference's (the online row statistics are the row maximum and the
    sum of exponentials about it; the named constants are the exact quotients by the temperature). -/
theorem algebraic : Cert.algebraic_KernelIdeal_ReferenceIdeal := by
  intro m ρ m' ρ' hpre hagree
  refine ⟨fun c => fun _ => Cert.KernelIdeal.Hand.KSpec.kloss (Cert.KernelIdeal.Hand.argX m c) (Cert.KernelIdeal.Hand.argY m c),
    Cert.KernelIdeal.Hand.value_run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2, Cert.ReferenceIdeal.Hand.refVal_eq]
  obtain ⟨hx, hy⟩ := Cert.Finite.of_fn _ _ (hpre c)
  funext _
  exact (Cert.Bridge.kloss_eq _ _ hx hy).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
